-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S6400000x1 : Shape := ⟨2, ![6400000, 1]⟩
abbrev S6400000 : Shape := ⟨1, ![6400000]⟩
abbrev S_ : Shape := ⟨0, ![]⟩

class Facts : Prop where
  bcast_S_S6400000x1 : S_.BroadcastsInDim S6400000x1 (![] : Fin 0 → Fin S6400000x1.rank)
  reducesTo_S6400000x1_S_d0_1 : S6400000x1.ReducesTo [0, 1] S_
  h_S_ : 0 < S_.numel
  bcast_S_S6400000 : S_.BroadcastsInDim S6400000 (![] : Fin 0 → Fin S6400000.rank)
  reducesTo_S6400000_S_d0 : S6400000.ReducesTo [0] S_

variable [Facts]

def fn {F : FTy → Type} [FloatOps F] (main_arg0 : FVec F S6400000x1 .f32) (main_arg1 : IVec S6400000 32) : IVec S_ 1 :=
  let main_v0 : FVec F S6400000x1 .f32 := Host.absf main_arg0
  let main_cst : FVec F S_ .f32 := constant S_ .f32 0x7F800000#32
  let main_v1 : FVec F S6400000x1 .f32 := broadcastInDim S6400000x1 ![] bcast_S_S6400000x1 main_cst
  let main_v2 : IVec S6400000x1 1 := cmpf .olt main_v0 main_v1
  let main_c : IVec S_ 1 := constantI S_ 1 1#1
  let main_v3 : IVec S_ 1 := (fun x v => Host.reduce IntOp.andi x v reducesTo_S6400000x1_S_d0_1 h_S_) main_v2 main_c
  let main_c_0 : IVec S_ 32 := constantI S_ 32 0#32
  let main_v4 : IVec S6400000 32 := broadcastInDim S6400000 ![] bcast_S_S6400000 main_c_0
  let main_v5 : IVec S6400000 1 := cmpi .sge main_arg1 main_v4
  let main_c_1 : IVec S_ 32 := constantI S_ 32 4095#32
  let main_v6 : IVec S6400000 32 := broadcastInDim S6400000 ![] bcast_S_S6400000 main_c_1
  let main_v7 : IVec S6400000 1 := cmpi .sle main_arg1 main_v6
  let main_v8 : IVec S6400000 1 := andi main_v5 main_v7
  let main_c_2 : IVec S_ 1 := constantI S_ 1 1#1
  let main_v9 : IVec S_ 1 := (fun x v => Host.reduce IntOp.andi x v reducesTo_S6400000_S_d0 h_S_) main_v8 main_c_2
  let main_v10 : IVec S_ 1 := andi main_v3 main_v9
  main_v10
-- ==== Kernel.lean ====
abbrev S6400000x1 : Shape := ⟨2, ![6400000, 1]⟩
abbrev S6400000 : Shape := ⟨1, ![6400000]⟩
abbrev S32x65536 : Shape := ⟨2, ![32, 65536]⟩
abbrev S10000 : Shape := ⟨1, ![10000]⟩
abbrev S65536 : Shape := ⟨1, ![65536]⟩
abbrev S_ : Shape := ⟨0, ![]⟩
abbrev S16 : Shape := ⟨1, ![16]⟩
abbrev S1x65536 : Shape := ⟨2, ![1, 65536]⟩
abbrev S4096 : Shape := ⟨1, ![4096]⟩
abbrev S32x8192 : Shape := ⟨2, ![32, 8192]⟩
abbrev S512 : Shape := ⟨1, ![512]⟩
abbrev S32x512x16 : Shape := ⟨3, ![32, 512, 16]⟩

abbrev nBuf : Table → Nat
  | .hbm => 5
  | .local .tc .vmem => 4
  | .local .scVector .vmem => 5
  | _ => 0

abbrev bufTy : (tb : Table) → Fin (nBuf tb) → BufTy
  | .hbm, ⟨0, _⟩ => ⟨S6400000x1, .f32⟩
  | .hbm, ⟨1, _⟩ => ⟨S6400000, .i32⟩
  | .hbm, ⟨2, _⟩ => ⟨S6400000, .f32⟩
  | .hbm, ⟨3, _⟩ => ⟨S32x65536, .f32⟩
  | .hbm, ⟨4, _⟩ => ⟨S4096, .f32⟩
  | .local .tc .vmem, ⟨0, _⟩ => ⟨S32x8192, .f32⟩
  | .local .tc .vmem, ⟨1, _⟩ => ⟨S32x8192, .f32⟩
  | .local .tc .vmem, ⟨2, _⟩ => ⟨S512, .f32⟩
  | .local .tc .vmem, ⟨3, _⟩ => ⟨S512, .f32⟩
  | .local .scVector .vmem, ⟨0, _⟩ => ⟨S10000, .f32⟩
  | .local .scVector .vmem, ⟨1, _⟩ => ⟨S10000, .f32⟩
  | .local .scVector .vmem, ⟨2, _⟩ => ⟨S10000, .i32⟩
  | .local .scVector .vmem, ⟨3, _⟩ => ⟨S10000, .i32⟩
  | .local .scVector .vmem, ⟨4, _⟩ => ⟨S65536, .f32⟩
  | _, _ => ⟨S6400000x1, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => true
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 3
abbrev cc1_sem0_1 : DmaSem sig := 4
abbrev cc1_sem1_0 : DmaSem sig := 5
abbrev cc1_sem1_1 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c256_i32 : BitVec 32 := 256#32
  let v4 : BitVec 32 := Scalar.addi c0_i32_0 c256_i32
  let c1_i32 : BitVec 32 := 1#32
  ⟨c0_i32_0, v4, c1_i32⟩
def k0_off1 (k0_t1 : Fin k0_t1_loop.trips) (c0_i32_8 : BitVec 32) : Fin 1 → Nat :=
  let c0_i32_0 : BitVec 32 := 0#32
  let c1_i32 : BitVec 32 := 1#32
  let arg12 : BitVec 32 := Scf.iv c0_i32_0 c1_i32 k0_t1
  let c16_i32_7 : BitVec 32 := 16#32
  let v17 : BitVec 32 := Scalar.muli arg12 c16_i32_7
  let v18 : BitVec 32 := Scalar.addi v17 c0_i32_8
  let c16_i32_9 : BitVec 32 := 16#32
  let v19 : BitVec 32 := Scalar.muli v18 c16_i32_9
  let v20 : Index := Scalar.indexCast v19
  ![v20.toNat]
def k0_off2 (i : grid0.Coords) (c0_i32_2 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c200000_i32 : BitVec 32 := 200000#32
  let v2 : BitVec 32 := Scalar.muli v1 c200000_i32
  let v6 : BitVec 32 := Scalar.addi v2 c0_i32_2
  ![v6.toNat]
@[reducible] def k0_t2_loop : Scf.Loop 32 :=
  let c0_i32_4 : BitVec 32 := 0#32
  let c10_i32 : BitVec 32 := 10#32
  let v16 : BitVec 32 := Scalar.addi c0_i32_4 c10_i32
  let c1_i32_5 : BitVec 32 := 1#32
  ⟨c0_i32_4, v16, c1_i32_5⟩
def k0_off3 (i : grid0.Coords) (k0_t2 : Fin k0_t2_loop.trips) (c0_i32_7 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c200000_i32 : BitVec 32 := 200000#32
  let v2 : BitVec 32 := Scalar.muli v1 c200000_i32
  let c0_i32_4 : BitVec 32 := 0#32
  let c1_i32_5 : BitVec 32 := 1#32
  let arg12 : BitVec 32 := Scf.iv c0_i32_4 c1_i32_5 k0_t2
  let c2_i32 : BitVec 32 := 2#32
  let v17 : BitVec 32 := Scalar.muli arg12 c2_i32
  let v18 : BitVec 32 := Scalar.addi v17 c0_i32_7
  let c10000_i32_8 : BitVec 32 := 10000#32
  let v19 : BitVec 32 := Scalar.muli v18 c10000_i32_8
  let v20 : BitVec 32 := Scalar.addi v2 v19
  ![v20.toNat]
@[reducible] def k0_t3_loop : Scf.Loop 32 :=
  let c0_i32_10 : BitVec 32 := 0#32
  let c25_i32 : BitVec 32 := 25#32
  let v25 : BitVec 32 := Scalar.addi c0_i32_10 c25_i32
  let c1_i32_11 : BitVec 32 := 1#32
  ⟨c0_i32_10, v25, c1_i32_11⟩
def k0_off4 (k0_t3 : Fin k0_t3_loop.trips) : Fin 1 → Nat :=
  let c0_i32_10 : BitVec 32 := 0#32
  let c1_i32_11 : BitVec 32 := 1#32
  let arg13 : BitVec 32 := Scf.iv c0_i32_10 c1_i32_11 k0_t3
  let c25_i32_25 : BitVec 32 := 25#32
  let v42 : BitVec 32 := Scalar.muli arg13 c25_i32_25
  let c0_i32_26 : BitVec 32 := 0#32
  let v43 : BitVec 32 := Scalar.addi v42 c0_i32_26
  let c16_i32_27 : BitVec 32 := 16#32
  let v44 : BitVec 32 := Scalar.muli v43 c16_i32_27
  let v45 : Index := Scalar.indexCast v44
  ![v45.toNat]

def k0_chk1 (v51 : IVec S16 32) : Prop :=
  (∀ a x, ((![v51] : Fin 1 → IVec S16 32) a x).toNat < S65536.size a)
instance k0_chk1.dec : ∀ (v51 : IVec S16 32), Decidable (k0_chk1 v51) := fun v51 => decidable_of_iff' _ (Iff.of_eq (k0_chk1.eq_1 v51))
theorem k0_idx1_inb : ∀ (v51 : IVec S16 32) (k0_hw1 : k0_chk1 v51), ∀ a x, ((![v51] : Fin 1 → IVec S16 32) a x).toNat < S65536.size a := fun v51 k0_hw1 => k0_hw1
def k0_off5 (k0_t3 : Fin k0_t3_loop.trips) : Fin 1 → Nat :=
  let c0_i32_10 : BitVec 32 := 0#32
  let c1_i32_11 : BitVec 32 := 1#32
  let arg13 : BitVec 32 := Scf.iv c0_i32_10 c1_i32_11 k0_t3
  let c25_i32_29 : BitVec 32 := 25#32
  let v52 : BitVec 32 := Scalar.muli arg13 c25_i32_29
  let c1_i32_30 : BitVec 32 := 1#32
  let v53 : BitVec 32 := Scalar.addi v52 c1_i32_30
  let c16_i32_31 : BitVec 32 := 16#32
  let v54 : BitVec 32 := Scalar.muli v53 c16_i32_31
  let v55 : Index := Scalar.indexCast v54
  ![v55.toNat]

def k0_chk2 (v61 : IVec S16 32) : Prop :=
  (∀ a x, ((![v61] : Fin 1 → IVec S16 32) a x).toNat < S65536.size a)
instance k0_chk2.dec : ∀ (v61 : IVec S16 32), Decidable (k0_chk2 v61) := fun v61 => decidable_of_iff' _ (Iff.of_eq (k0_chk2.eq_1 v61))
theorem k0_idx2_inb : ∀ (v61 : IVec S16 32) (k0_hw2 : k0_chk2 v61), ∀ a x, ((![v61] : Fin 1 → IVec S16 32) a x).toNat < S65536.size a := fun v61 k0_hw2 => k0_hw2
def k0_off6 (k0_t3 : Fin k0_t3_loop.trips) : Fin 1 → Nat :=
  let c0_i32_10 : BitVec 32 := 0#32
  let c1_i32_11 : BitVec 32 := 1#32
  let arg13 : BitVec 32 := Scf.iv c0_i32_10 c1_i32_11 k0_t3
  let c25_i32_33 : BitVec 32 := 25#32
  let v62 : BitVec 32 := Scalar.muli arg13 c25_i32_33
  let c2_i32_34 : BitVec 32 := 2#32
  let v63 : BitVec 32 := Scalar.addi v62 c2_i32_34
  let c16_i32_35 : BitVec 32 := 16#32
  let v64 : BitVec 32 := Scalar.muli v63 c16_i32_35
  let v65 : Index := Scalar.indexCast v64
  ![v65.toNat]

def k0_chk3 (v71 : IVec S16 32) : Prop :=
  (∀ a x, ((![v71] : Fin 1 → IVec S16 32) a x).toNat < S65536.size a)
instance k0_chk3.dec : ∀ (v71 : IVec S16 32), Decidable (k0_chk3 v71) := fun v71 => decidable_of_iff' _ (Iff.of_eq (k0_chk3.eq_1 v71))
theorem k0_idx3_inb : ∀ (v71 : IVec S16 32) (k0_hw3 : k0_chk3 v71), ∀ a x, ((![v71] : Fin 1 → IVec S16 32) a x).toNat < S65536.size a := fun v71 k0_hw3 => k0_hw3
def k0_off7 (k0_t3 : Fin k0_t3_loop.trips) : Fin 1 → Nat :=
  let c0_i32_10 : BitVec 32 := 0#32
  let c1_i32_11 : BitVec 32 := 1#32
  let arg13 : BitVec 32 := Scf.iv c0_i32_10 c1_i32_11 k0_t3
  let c25_i32_37 : BitVec 32 := 25#32
  let v72 : BitVec 32 := Scalar.muli arg13 c25_i32_37
  let c3_i32 : BitVec 32 := 3#32
  let v73 : BitVec 32 := Scalar.addi v72 c3_i32
  let c16_i32_38 : BitVec 32 := 16#32
  let v74 : BitVec 32 := Scalar.muli v73 c16_i32_38
  let v75 : Index := Scalar.indexCast v74
  ![v75.toNat]

def k0_chk4 (v81 : IVec S16 32) : Prop :=
  (∀ a x, ((![v81] : Fin 1 → IVec S16 32) a x).toNat < S65536.size a)
instance k0_chk4.dec : ∀ (v81 : IVec S16 32), Decidable (k0_chk4 v81) := fun v81 => decidable_of_iff' _ (Iff.of_eq (k0_chk4.eq_1 v81))
theorem k0_idx4_inb : ∀ (v81 : IVec S16 32) (k0_hw4 : k0_chk4 v81), ∀ a x, ((![v81] : Fin 1 → IVec S16 32) a x).toNat < S65536.size a := fun v81 k0_hw4 => k0_hw4
def k0_off8 (k0_t3 : Fin k0_t3_loop.trips) : Fin 1 → Nat :=
  let c0_i32_10 : BitVec 32 := 0#32
  let c1_i32_11 : BitVec 32 := 1#32
  let arg13 : BitVec 32 := Scf.iv c0_i32_10 c1_i32_11 k0_t3
  let c25_i32_40 : BitVec 32 := 25#32
  let v82 : BitVec 32 := Scalar.muli arg13 c25_i32_40
  let c4_i32 : BitVec 32 := 4#32
  let v83 : BitVec 32 := Scalar.addi v82 c4_i32
  let c16_i32_41 : BitVec 32 := 16#32
  let v84 : BitVec 32 := Scalar.muli v83 c16_i32_41
  let v85 : Index := Scalar.indexCast v84
  ![v85.toNat]

def k0_chk5 (v91 : IVec S16 32) : Prop :=
  (∀ a x, ((![v91] : Fin 1 → IVec S16 32) a x).toNat < S65536.size a)
instance k0_chk5.dec : ∀ (v91 : IVec S16 32), Decidable (k0_chk5 v91) := fun v91 => decidable_of_iff' _ (Iff.of_eq (k0_chk5.eq_1 v91))
theorem k0_idx5_inb : ∀ (v91 : IVec S16 32) (k0_hw5 : k0_chk5 v91), ∀ a x, ((![v91] : Fin 1 → IVec S16 32) a x).toNat < S65536.size a := fun v91 k0_hw5 => k0_hw5
def k0_off9 (k0_t3 : Fin k0_t3_loop.trips) : Fin 1 → Nat :=
  let c0_i32_10 : BitVec 32 := 0#32
  let c1_i32_11 : BitVec 32 := 1#32
  let arg13 : BitVec 32 := Scf.iv c0_i32_10 c1_i32_11 k0_t3
  let c25_i32_43 : BitVec 32 := 25#32
  let v92 : BitVec 32 := Scalar.muli arg13 c25_i32_43
  let c5_i32 : BitVec 32 := 5#32
  let v93 : BitVec 32 := Scalar.addi v92 c5_i32
  let c16_i32_44 : BitVec 32 := 16#32
  let v94 : BitVec 32 := Scalar.muli v93 c16_i32_44
  let v95 : Index := Scalar.indexCast v94
  ![v95.toNat]

def k0_chk6 (v101 : IVec S16 32) : Prop :=
  (∀ a x, ((![v101] : Fin 1 → IVec S16 32) a x).toNat < S65536.size a)
instance k0_chk6.dec : ∀ (v101 : IVec S16 32), Decidable (k0_chk6 v101) := fun v101 => decidable_of_iff' _ (Iff.of_eq (k0_chk6.eq_1 v101))
theorem k0_idx6_inb : ∀ (v101 : IVec S16 32) (k0_hw6 : k0_chk6 v101), ∀ a x, ((![v101] : Fin 1 → IVec S16 32) a x).toNat < S65536.size a := fun v101 k0_hw6 => k0_hw6
def k0_off10 (k0_t3 : Fin k0_t3_loop.trips) : Fin 1 → Nat :=
  let c0_i32_10 : BitVec 32 := 0#32
  let c1_i32_11 : BitVec 32 := 1#32
  let arg13 : BitVec 32 := Scf.iv c0_i32_10 c1_i32_11 k0_t3
  let c25_i32_46 : BitVec 32 := 25#32
  let v102 : BitVec 32 := Scalar.muli arg13 c25_i32_46
  let c6_i32 : BitVec 32 := 6#32
  let v103 : BitVec 32 := Scalar.addi v102 c6_i32
  let c16_i32_47 : BitVec 32 := 16#32
  let v104 : BitVec 32 := Scalar.muli v103 c16_i32_47
  let v105 : Index := Scalar.indexCast v104
  ![v105.toNat]

def k0_chk7 (v111 : IVec S16 32) : Prop :=
  (∀ a x, ((![v111] : Fin 1 → IVec S16 32) a x).toNat < S65536.size a)
instance k0_chk7.dec : ∀ (v111 : IVec S16 32), Decidable (k0_chk7 v111) := fun v111 => decidable_of_iff' _ (Iff.of_eq (k0_chk7.eq_1 v111))
theorem k0_idx7_inb : ∀ (v111 : IVec S16 32) (k0_hw7 : k0_chk7 v111), ∀ a x, ((![v111] : Fin 1 → IVec S16 32) a x).toNat < S65536.size a := fun v111 k0_hw7 => k0_hw7
def k0_off11 (k0_t3 : Fin k0_t3_loop.trips) : Fin 1 → Nat :=
  let c0_i32_10 : BitVec 32 := 0#32
  let c1_i32_11 : BitVec 32 := 1#32
  let arg13 : BitVec 32 := Scf.iv c0_i32_10 c1_i32_11 k0_t3
  let c25_i32_49 : BitVec 32 := 25#32
  let v112 : BitVec 32 := Scalar.muli arg13 c25_i32_49
  let c7_i32 : BitVec 32 := 7#32
  let v113 : BitVec 32 := Scalar.addi v112 c7_i32
  let c16_i32_50 : BitVec 32 := 16#32
  let v114 : BitVec 32 := Scalar.muli v113 c16_i32_50
  let v115 : Index := Scalar.indexCast v114
  ![v115.toNat]

def k0_chk8 (v121 : IVec S16 32) : Prop :=
  (∀ a x, ((![v121] : Fin 1 → IVec S16 32) a x).toNat < S65536.size a)
instance k0_chk8.dec : ∀ (v121 : IVec S16 32), Decidable (k0_chk8 v121) := fun v121 => decidable_of_iff' _ (Iff.of_eq (k0_chk8.eq_1 v121))
theorem k0_idx8_inb : ∀ (v121 : IVec S16 32) (k0_hw8 : k0_chk8 v121), ∀ a x, ((![v121] : Fin 1 → IVec S16 32) a x).toNat < S65536.size a := fun v121 k0_hw8 => k0_hw8
def k0_off12 (k0_t3 : Fin k0_t3_loop.trips) : Fin 1 → Nat :=
  let c0_i32_10 : BitVec 32 := 0#32
  let c1_i32_11 : BitVec 32 := 1#32
  let arg13 : BitVec 32 := Scf.iv c0_i32_10 c1_i32_11 k0_t3
  let c25_i32_52 : BitVec 32 := 25#32
  let v122 : BitVec 32 := Scalar.muli arg13 c25_i32_52
  let c8_i32 : BitVec 32 := 8#32
  let v123 : BitVec 32 := Scalar.addi v122 c8_i32
  let c16_i32_53 : BitVec 32 := 16#32
  let v124 : BitVec 32 := Scalar.muli v123 c16_i32_53
  let v125 : Index := Scalar.indexCast v124
  ![v125.toNat]

def k0_chk9 (v131 : IVec S16 32) : Prop :=
  (∀ a x, ((![v131] : Fin 1 → IVec S16 32) a x).toNat < S65536.size a)
instance k0_chk9.dec : ∀ (v131 : IVec S16 32), Decidable (k0_chk9 v131) := fun v131 => decidable_of_iff' _ (Iff.of_eq (k0_chk9.eq_1 v131))
theorem k0_idx9_inb : ∀ (v131 : IVec S16 32) (k0_hw9 : k0_chk9 v131), ∀ a x, ((![v131] : Fin 1 → IVec S16 32) a x).toNat < S65536.size a := fun v131 k0_hw9 => k0_hw9
def k0_off13 (k0_t3 : Fin k0_t3_loop.trips) : Fin 1 → Nat :=
  let c0_i32_10 : BitVec 32 := 0#32
  let c1_i32_11 : BitVec 32 := 1#32
  let arg13 : BitVec 32 := Scf.iv c0_i32_10 c1_i32_11 k0_t3
  let c25_i32_55 : BitVec 32 := 25#32
  let v132 : BitVec 32 := Scalar.muli arg13 c25_i32_55
  let c9_i32 : BitVec 32 := 9#32
  let v133 : BitVec 32 := Scalar.addi v132 c9_i32
  let c16_i32_56 : BitVec 32 := 16#32
  let v134 : BitVec 32 := Scalar.muli v133 c16_i32_56
  let v135 : Index := Scalar.indexCast v134
  ![v135.toNat]

def k0_chk10 (v141 : IVec S16 32) : Prop :=
  (∀ a x, ((![v141] : Fin 1 → IVec S16 32) a x).toNat < S65536.size a)
instance k0_chk10.dec : ∀ (v141 : IVec S16 32), Decidable (k0_chk10 v141) := fun v141 => decidable_of_iff' _ (Iff.of_eq (k0_chk10.eq_1 v141))
theorem k0_idx10_inb : ∀ (v141 : IVec S16 32) (k0_hw10 : k0_chk10 v141), ∀ a x, ((![v141] : Fin 1 → IVec S16 32) a x).toNat < S65536.size a := fun v141 k0_hw10 => k0_hw10
def k0_off14 (k0_t3 : Fin k0_t3_loop.trips) : Fin 1 → Nat :=
  let c0_i32_10 : BitVec 32 := 0#32
  let c1_i32_11 : BitVec 32 := 1#32
  let arg13 : BitVec 32 := Scf.iv c0_i32_10 c1_i32_11 k0_t3
  let c25_i32_58 : BitVec 32 := 25#32
  let v142 : BitVec 32 := Scalar.muli arg13 c25_i32_58
  let c10_i32_59 : BitVec 32 := 10#32
  let v143 : BitVec 32 := Scalar.addi v142 c10_i32_59
  let c16_i32_60 : BitVec 32 := 16#32
  let v144 : BitVec 32 := Scalar.muli v143 c16_i32_60
  let v145 : Index := Scalar.indexCast v144
  ![v145.toNat]

def k0_chk11 (v151 : IVec S16 32) : Prop :=
  (∀ a x, ((![v151] : Fin 1 → IVec S16 32) a x).toNat < S65536.size a)
instance k0_chk11.dec : ∀ (v151 : IVec S16 32), Decidable (k0_chk11 v151) := fun v151 => decidable_of_iff' _ (Iff.of_eq (k0_chk11.eq_1 v151))
theorem k0_idx11_inb : ∀ (v151 : IVec S16 32) (k0_hw11 : k0_chk11 v151), ∀ a x, ((![v151] : Fin 1 → IVec S16 32) a x).toNat < S65536.size a := fun v151 k0_hw11 => k0_hw11
def k0_off15 (k0_t3 : Fin k0_t3_loop.trips) : Fin 1 → Nat :=
  let c0_i32_10 : BitVec 32 := 0#32
  let c1_i32_11 : BitVec 32 := 1#32
  let arg13 : BitVec 32 := Scf.iv c0_i32_10 c1_i32_11 k0_t3
  let c25_i32_62 : BitVec 32 := 25#32
  let v152 : BitVec 32 := Scalar.muli arg13 c25_i32_62
  let c11_i32 : BitVec 32 := 11#32
  let v153 : BitVec 32 := Scalar.addi v152 c11_i32
  let c16_i32_63 : BitVec 32 := 16#32
  let v154 : BitVec 32 := Scalar.muli v153 c16_i32_63
  let v155 : Index := Scalar.indexCast v154
  ![v155.toNat]

def k0_chk12 (v161 : IVec S16 32) : Prop :=
  (∀ a x, ((![v161] : Fin 1 → IVec S16 32) a x).toNat < S65536.size a)
instance k0_chk12.dec : ∀ (v161 : IVec S16 32), Decidable (k0_chk12 v161) := fun v161 => decidable_of_iff' _ (Iff.of_eq (k0_chk12.eq_1 v161))
theorem k0_idx12_inb : ∀ (v161 : IVec S16 32) (k0_hw12 : k0_chk12 v161), ∀ a x, ((![v161] : Fin 1 → IVec S16 32) a x).toNat < S65536.size a := fun v161 k0_hw12 => k0_hw12
def k0_off16 (k0_t3 : Fin k0_t3_loop.trips) : Fin 1 → Nat :=
  let c0_i32_10 : BitVec 32 := 0#32
  let c1_i32_11 : BitVec 32 := 1#32
  let arg13 : BitVec 32 := Scf.iv c0_i32_10 c1_i32_11 k0_t3
  let c25_i32_65 : BitVec 32 := 25#32
  let v162 : BitVec 32 := Scalar.muli arg13 c25_i32_65
  let c12_i32 : BitVec 32 := 12#32
  let v163 : BitVec 32 := Scalar.addi v162 c12_i32
  let c16_i32_66 : BitVec 32 := 16#32
  let v164 : BitVec 32 := Scalar.muli v163 c16_i32_66
  let v165 : Index := Scalar.indexCast v164
  ![v165.toNat]

def k0_chk13 (v171 : IVec S16 32) : Prop :=
  (∀ a x, ((![v171] : Fin 1 → IVec S16 32) a x).toNat < S65536.size a)
instance k0_chk13.dec : ∀ (v171 : IVec S16 32), Decidable (k0_chk13 v171) := fun v171 => decidable_of_iff' _ (Iff.of_eq (k0_chk13.eq_1 v171))
theorem k0_idx13_inb : ∀ (v171 : IVec S16 32) (k0_hw13 : k0_chk13 v171), ∀ a x, ((![v171] : Fin 1 → IVec S16 32) a x).toNat < S65536.size a := fun v171 k0_hw13 => k0_hw13
def k0_off17 (k0_t3 : Fin k0_t3_loop.trips) : Fin 1 → Nat :=
  let c0_i32_10 : BitVec 32 := 0#32
  let c1_i32_11 : BitVec 32 := 1#32
  let arg13 : BitVec 32 := Scf.iv c0_i32_10 c1_i32_11 k0_t3
  let c25_i32_68 : BitVec 32 := 25#32
  let v172 : BitVec 32 := Scalar.muli arg13 c25_i32_68
  let c13_i32 : BitVec 32 := 13#32
  let v173 : BitVec 32 := Scalar.addi v172 c13_i32
  let c16_i32_69 : BitVec 32 := 16#32
  let v174 : BitVec 32 := Scalar.muli v173 c16_i32_69
  let v175 : Index := Scalar.indexCast v174
  ![v175.toNat]

def k0_chk14 (v181 : IVec S16 32) : Prop :=
  (∀ a x, ((![v181] : Fin 1 → IVec S16 32) a x).toNat < S65536.size a)
instance k0_chk14.dec : ∀ (v181 : IVec S16 32), Decidable (k0_chk14 v181) := fun v181 => decidable_of_iff' _ (Iff.of_eq (k0_chk14.eq_1 v181))
theorem k0_idx14_inb : ∀ (v181 : IVec S16 32) (k0_hw14 : k0_chk14 v181), ∀ a x, ((![v181] : Fin 1 → IVec S16 32) a x).toNat < S65536.size a := fun v181 k0_hw14 => k0_hw14
def k0_off18 (k0_t3 : Fin k0_t3_loop.trips) : Fin 1 → Nat :=
  let c0_i32_10 : BitVec 32 := 0#32
  let c1_i32_11 : BitVec 32 := 1#32
  let arg13 : BitVec 32 := Scf.iv c0_i32_10 c1_i32_11 k0_t3
  let c25_i32_71 : BitVec 32 := 25#32
  let v182 : BitVec 32 := Scalar.muli arg13 c25_i32_71
  let c14_i32 : BitVec 32 := 14#32
  let v183 : BitVec 32 := Scalar.addi v182 c14_i32
  let c16_i32_72 : BitVec 32 := 16#32
  let v184 : BitVec 32 := Scalar.muli v183 c16_i32_72
  let v185 : Index := Scalar.indexCast v184
  ![v185.toNat]

def k0_chk15 (v191 : IVec S16 32) : Prop :=
  (∀ a x, ((![v191] : Fin 1 → IVec S16 32) a x).toNat < S65536.size a)
instance k0_chk15.dec : ∀ (v191 : IVec S16 32), Decidable (k0_chk15 v191) := fun v191 => decidable_of_iff' _ (Iff.of_eq (k0_chk15.eq_1 v191))
theorem k0_idx15_inb : ∀ (v191 : IVec S16 32) (k0_hw15 : k0_chk15 v191), ∀ a x, ((![v191] : Fin 1 → IVec S16 32) a x).toNat < S65536.size a := fun v191 k0_hw15 => k0_hw15
def k0_off19 (k0_t3 : Fin k0_t3_loop.trips) : Fin 1 → Nat :=
  let c0_i32_10 : BitVec 32 := 0#32
  let c1_i32_11 : BitVec 32 := 1#32
  let arg13 : BitVec 32 := Scf.iv c0_i32_10 c1_i32_11 k0_t3
  let c25_i32_74 : BitVec 32 := 25#32
  let v192 : BitVec 32 := Scalar.muli arg13 c25_i32_74
  let c15_i32 : BitVec 32 := 15#32
  let v193 : BitVec 32 := Scalar.addi v192 c15_i32
  let c16_i32_75 : BitVec 32 := 16#32
  let v194 : BitVec 32 := Scalar.muli v193 c16_i32_75
  let v195 : Index := Scalar.indexCast v194
  ![v195.toNat]

def k0_chk16 (v201 : IVec S16 32) : Prop :=
  (∀ a x, ((![v201] : Fin 1 → IVec S16 32) a x).toNat < S65536.size a)
instance k0_chk16.dec : ∀ (v201 : IVec S16 32), Decidable (k0_chk16 v201) := fun v201 => decidable_of_iff' _ (Iff.of_eq (k0_chk16.eq_1 v201))
theorem k0_idx16_inb : ∀ (v201 : IVec S16 32) (k0_hw16 : k0_chk16 v201), ∀ a x, ((![v201] : Fin 1 → IVec S16 32) a x).toNat < S65536.size a := fun v201 k0_hw16 => k0_hw16
def k0_off20 (k0_t3 : Fin k0_t3_loop.trips) : Fin 1 → Nat :=
  let c0_i32_10 : BitVec 32 := 0#32
  let c1_i32_11 : BitVec 32 := 1#32
  let arg13 : BitVec 32 := Scf.iv c0_i32_10 c1_i32_11 k0_t3
  let c25_i32_77 : BitVec 32 := 25#32
  let v202 : BitVec 32 := Scalar.muli arg13 c25_i32_77
  let c16_i32_78 : BitVec 32 := 16#32
  let v203 : BitVec 32 := Scalar.addi v202 c16_i32_78
  let c16_i32_79 : BitVec 32 := 16#32
  let v204 : BitVec 32 := Scalar.muli v203 c16_i32_79
  let v205 : Index := Scalar.indexCast v204
  ![v205.toNat]

def k0_chk17 (v211 : IVec S16 32) : Prop :=
  (∀ a x, ((![v211] : Fin 1 → IVec S16 32) a x).toNat < S65536.size a)
instance k0_chk17.dec : ∀ (v211 : IVec S16 32), Decidable (k0_chk17 v211) := fun v211 => decidable_of_iff' _ (Iff.of_eq (k0_chk17.eq_1 v211))
theorem k0_idx17_inb : ∀ (v211 : IVec S16 32) (k0_hw17 : k0_chk17 v211), ∀ a x, ((![v211] : Fin 1 → IVec S16 32) a x).toNat < S65536.size a := fun v211 k0_hw17 => k0_hw17
def k0_off21 (k0_t3 : Fin k0_t3_loop.trips) : Fin 1 → Nat :=
  let c0_i32_10 : BitVec 32 := 0#32
  let c1_i32_11 : BitVec 32 := 1#32
  let arg13 : BitVec 32 := Scf.iv c0_i32_10 c1_i32_11 k0_t3
  let c25_i32_81 : BitVec 32 := 25#32
  let v212 : BitVec 32 := Scalar.muli arg13 c25_i32_81
  let c17_i32 : BitVec 32 := 17#32
  let v213 : BitVec 32 := Scalar.addi v212 c17_i32
  let c16_i32_82 : BitVec 32 := 16#32
  let v214 : BitVec 32 := Scalar.muli v213 c16_i32_82
  let v215 : Index := Scalar.indexCast v214
  ![v215.toNat]

def k0_chk18 (v221 : IVec S16 32) : Prop :=
  (∀ a x, ((![v221] : Fin 1 → IVec S16 32) a x).toNat < S65536.size a)
instance k0_chk18.dec : ∀ (v221 : IVec S16 32), Decidable (k0_chk18 v221) := fun v221 => decidable_of_iff' _ (Iff.of_eq (k0_chk18.eq_1 v221))
theorem k0_idx18_inb : ∀ (v221 : IVec S16 32) (k0_hw18 : k0_chk18 v221), ∀ a x, ((![v221] : Fin 1 → IVec S16 32) a x).toNat < S65536.size a := fun v221 k0_hw18 => k0_hw18
def k0_off22 (k0_t3 : Fin k0_t3_loop.trips) : Fin 1 → Nat :=
  let c0_i32_10 : BitVec 32 := 0#32
  let c1_i32_11 : BitVec 32 := 1#32
  let arg13 : BitVec 32 := Scf.iv c0_i32_10 c1_i32_11 k0_t3
  let c25_i32_84 : BitVec 32 := 25#32
  let v222 : BitVec 32 := Scalar.muli arg13 c25_i32_84
  let c18_i32 : BitVec 32 := 18#32
  let v223 : BitVec 32 := Scalar.addi v222 c18_i32
  let c16_i32_85 : BitVec 32 := 16#32
  let v224 : BitVec 32 := Scalar.muli v223 c16_i32_85
  let v225 : Index := Scalar.indexCast v224
  ![v225.toNat]

def k0_chk19 (v231 : IVec S16 32) : Prop :=
  (∀ a x, ((![v231] : Fin 1 → IVec S16 32) a x).toNat < S65536.size a)
instance k0_chk19.dec : ∀ (v231 : IVec S16 32), Decidable (k0_chk19 v231) := fun v231 => decidable_of_iff' _ (Iff.of_eq (k0_chk19.eq_1 v231))
theorem k0_idx19_inb : ∀ (v231 : IVec S16 32) (k0_hw19 : k0_chk19 v231), ∀ a x, ((![v231] : Fin 1 → IVec S16 32) a x).toNat < S65536.size a := fun v231 k0_hw19 => k0_hw19
def k0_off23 (k0_t3 : Fin k0_t3_loop.trips) : Fin 1 → Nat :=
  let c0_i32_10 : BitVec 32 := 0#32
  let c1_i32_11 : BitVec 32 := 1#32
  let arg13 : BitVec 32 := Scf.iv c0_i32_10 c1_i32_11 k0_t3
  let c25_i32_87 : BitVec 32 := 25#32
  let v232 : BitVec 32 := Scalar.muli arg13 c25_i32_87
  let c19_i32 : BitVec 32 := 19#32
  let v233 : BitVec 32 := Scalar.addi v232 c19_i32
  let c16_i32_88 : BitVec 32 := 16#32
  let v234 : BitVec 32 := Scalar.muli v233 c16_i32_88
  let v235 : Index := Scalar.indexCast v234
  ![v235.toNat]

def k0_chk20 (v241 : IVec S16 32) : Prop :=
  (∀ a x, ((![v241] : Fin 1 → IVec S16 32) a x).toNat < S65536.size a)
instance k0_chk20.dec : ∀ (v241 : IVec S16 32), Decidable (k0_chk20 v241) := fun v241 => decidable_of_iff' _ (Iff.of_eq (k0_chk20.eq_1 v241))
theorem k0_idx20_inb : ∀ (v241 : IVec S16 32) (k0_hw20 : k0_chk20 v241), ∀ a x, ((![v241] : Fin 1 → IVec S16 32) a x).toNat < S65536.size a := fun v241 k0_hw20 => k0_hw20
def k0_off24 (k0_t3 : Fin k0_t3_loop.trips) : Fin 1 → Nat :=
  let c0_i32_10 : BitVec 32 := 0#32
  let c1_i32_11 : BitVec 32 := 1#32
  let arg13 : BitVec 32 := Scf.iv c0_i32_10 c1_i32_11 k0_t3
  let c25_i32_90 : BitVec 32 := 25#32
  let v242 : BitVec 32 := Scalar.muli arg13 c25_i32_90
  let c20_i32_91 : BitVec 32 := 20#32
  let v243 : BitVec 32 := Scalar.addi v242 c20_i32_91
  let c16_i32_92 : BitVec 32 := 16#32
  let v244 : BitVec 32 := Scalar.muli v243 c16_i32_92
  let v245 : Index := Scalar.indexCast v244
  ![v245.toNat]

def k0_chk21 (v251 : IVec S16 32) : Prop :=
  (∀ a x, ((![v251] : Fin 1 → IVec S16 32) a x).toNat < S65536.size a)
instance k0_chk21.dec : ∀ (v251 : IVec S16 32), Decidable (k0_chk21 v251) := fun v251 => decidable_of_iff' _ (Iff.of_eq (k0_chk21.eq_1 v251))
theorem k0_idx21_inb : ∀ (v251 : IVec S16 32) (k0_hw21 : k0_chk21 v251), ∀ a x, ((![v251] : Fin 1 → IVec S16 32) a x).toNat < S65536.size a := fun v251 k0_hw21 => k0_hw21
def k0_off25 (k0_t3 : Fin k0_t3_loop.trips) : Fin 1 → Nat :=
  let c0_i32_10 : BitVec 32 := 0#32
  let c1_i32_11 : BitVec 32 := 1#32
  let arg13 : BitVec 32 := Scf.iv c0_i32_10 c1_i32_11 k0_t3
  let c25_i32_94 : BitVec 32 := 25#32
  let v252 : BitVec 32 := Scalar.muli arg13 c25_i32_94
  let c21_i32 : BitVec 32 := 21#32
  let v253 : BitVec 32 := Scalar.addi v252 c21_i32
  let c16_i32_95 : BitVec 32 := 16#32
  let v254 : BitVec 32 := Scalar.muli v253 c16_i32_95
  let v255 : Index := Scalar.indexCast v254
  ![v255.toNat]

def k0_chk22 (v261 : IVec S16 32) : Prop :=
  (∀ a x, ((![v261] : Fin 1 → IVec S16 32) a x).toNat < S65536.size a)
instance k0_chk22.dec : ∀ (v261 : IVec S16 32), Decidable (k0_chk22 v261) := fun v261 => decidable_of_iff' _ (Iff.of_eq (k0_chk22.eq_1 v261))
theorem k0_idx22_inb : ∀ (v261 : IVec S16 32) (k0_hw22 : k0_chk22 v261), ∀ a x, ((![v261] : Fin 1 → IVec S16 32) a x).toNat < S65536.size a := fun v261 k0_hw22 => k0_hw22
def k0_off26 (k0_t3 : Fin k0_t3_loop.trips) : Fin 1 → Nat :=
  let c0_i32_10 : BitVec 32 := 0#32
  let c1_i32_11 : BitVec 32 := 1#32
  let arg13 : BitVec 32 := Scf.iv c0_i32_10 c1_i32_11 k0_t3
  let c25_i32_97 : BitVec 32 := 25#32
  let v262 : BitVec 32 := Scalar.muli arg13 c25_i32_97
  let c22_i32 : BitVec 32 := 22#32
  let v263 : BitVec 32 := Scalar.addi v262 c22_i32
  let c16_i32_98 : BitVec 32 := 16#32
  let v264 : BitVec 32 := Scalar.muli v263 c16_i32_98
  let v265 : Index := Scalar.indexCast v264
  ![v265.toNat]

def k0_chk23 (v271 : IVec S16 32) : Prop :=
  (∀ a x, ((![v271] : Fin 1 → IVec S16 32) a x).toNat < S65536.size a)
instance k0_chk23.dec : ∀ (v271 : IVec S16 32), Decidable (k0_chk23 v271) := fun v271 => decidable_of_iff' _ (Iff.of_eq (k0_chk23.eq_1 v271))
theorem k0_idx23_inb : ∀ (v271 : IVec S16 32) (k0_hw23 : k0_chk23 v271), ∀ a x, ((![v271] : Fin 1 → IVec S16 32) a x).toNat < S65536.size a := fun v271 k0_hw23 => k0_hw23
def k0_off27 (k0_t3 : Fin k0_t3_loop.trips) : Fin 1 → Nat :=
  let c0_i32_10 : BitVec 32 := 0#32
  let c1_i32_11 : BitVec 32 := 1#32
  let arg13 : BitVec 32 := Scf.iv c0_i32_10 c1_i32_11 k0_t3
  let c25_i32_100 : BitVec 32 := 25#32
  let v272 : BitVec 32 := Scalar.muli arg13 c25_i32_100
  let c23_i32 : BitVec 32 := 23#32
  let v273 : BitVec 32 := Scalar.addi v272 c23_i32
  let c16_i32_101 : BitVec 32 := 16#32
  let v274 : BitVec 32 := Scalar.muli v273 c16_i32_101
  let v275 : Index := Scalar.indexCast v274
  ![v275.toNat]

def k0_chk24 (v281 : IVec S16 32) : Prop :=
  (∀ a x, ((![v281] : Fin 1 → IVec S16 32) a x).toNat < S65536.size a)
instance k0_chk24.dec : ∀ (v281 : IVec S16 32), Decidable (k0_chk24 v281) := fun v281 => decidable_of_iff' _ (Iff.of_eq (k0_chk24.eq_1 v281))
theorem k0_idx24_inb : ∀ (v281 : IVec S16 32) (k0_hw24 : k0_chk24 v281), ∀ a x, ((![v281] : Fin 1 → IVec S16 32) a x).toNat < S65536.size a := fun v281 k0_hw24 => k0_hw24
def k0_off28 (k0_t3 : Fin k0_t3_loop.trips) : Fin 1 → Nat :=
  let c0_i32_10 : BitVec 32 := 0#32
  let c1_i32_11 : BitVec 32 := 1#32
  let arg13 : BitVec 32 := Scf.iv c0_i32_10 c1_i32_11 k0_t3
  let c25_i32_103 : BitVec 32 := 25#32
  let v282 : BitVec 32 := Scalar.muli arg13 c25_i32_103
  let c24_i32 : BitVec 32 := 24#32
  let v283 : BitVec 32 := Scalar.addi v282 c24_i32
  let c16_i32_104 : BitVec 32 := 16#32
  let v284 : BitVec 32 := Scalar.muli v283 c16_i32_104
  let v285 : Index := Scalar.indexCast v284
  ![v285.toNat]

def k0_chk25 (v291 : IVec S16 32) : Prop :=
  (∀ a x, ((![v291] : Fin 1 → IVec S16 32) a x).toNat < S65536.size a)
instance k0_chk25.dec : ∀ (v291 : IVec S16 32), Decidable (k0_chk25 v291) := fun v291 => decidable_of_iff' _ (Iff.of_eq (k0_chk25.eq_1 v291))
theorem k0_idx25_inb : ∀ (v291 : IVec S16 32) (k0_hw25 : k0_chk25 v291), ∀ a x, ((![v291] : Fin 1 → IVec S16 32) a x).toNat < S65536.size a := fun v291 k0_hw25 => k0_hw25
def k0_cond1 (k0_t2 : Fin k0_t2_loop.trips) : BitVec 1 :=
  let c0_i32_4 : BitVec 32 := 0#32
  let c1_i32_5 : BitVec 32 := 1#32
  let arg12 : BitVec 32 := Scf.iv c0_i32_4 c1_i32_5 k0_t2
  let c2_i32 : BitVec 32 := 2#32
  let v17 : BitVec 32 := Scalar.muli arg12 c2_i32
  let c0_i32_7 : BitVec 32 := 0#32
  let v18 : BitVec 32 := Scalar.addi v17 c0_i32_7
  let c2_i32_13 : BitVec 32 := 2#32
  let v26 : BitVec 32 := Scalar.addi v18 c2_i32_13
  let c20_i32 : BitVec 32 := 20#32
  let v27 : BitVec 1 := Scalar.cmpi .slt v26 c20_i32
  let v28 : BitVec 32 := Scalar.extui v27
  let c0_i32_14 : BitVec 32 := 0#32
  let v29 : BitVec 1 := Scalar.cmpi .ne v28 c0_i32_14
  v29

def k0_off29 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c200000_i32 : BitVec 32 := 200000#32
  let v2 : BitVec 32 := Scalar.muli v1 c200000_i32
  let c0_i32_4 : BitVec 32 := 0#32
  let c1_i32_5 : BitVec 32 := 1#32
  let arg12 : BitVec 32 := Scf.iv c0_i32_4 c1_i32_5 k0_t2
  let c2_i32 : BitVec 32 := 2#32
  let v17 : BitVec 32 := Scalar.muli arg12 c2_i32
  let c0_i32_7 : BitVec 32 := 0#32
  let v18 : BitVec 32 := Scalar.addi v17 c0_i32_7
  let c2_i32_25 : BitVec 32 := 2#32
  let v42 : BitVec 32 := Scalar.addi v18 c2_i32_25
  let c10000_i32_26 : BitVec 32 := 10000#32
  let v43 : BitVec 32 := Scalar.muli v42 c10000_i32_26
  let v44 : BitVec 32 := Scalar.addi v2 v43
  ![v44.toNat]
@[reducible] def k0_t4_loop : Scf.Loop 32 :=
  let c0_i32_18 : BitVec 32 := 0#32
  let c25_i32_19 : BitVec 32 := 25#32
  let v37 : BitVec 32 := Scalar.addi c0_i32_18 c25_i32_19
  let c1_i32_20 : BitVec 32 := 1#32
  ⟨c0_i32_18, v37, c1_i32_20⟩
def k0_off30 (k0_t4 : Fin k0_t4_loop.trips) : Fin 1 → Nat :=
  let c0_i32_18 : BitVec 32 := 0#32
  let c1_i32_20 : BitVec 32 := 1#32
  let arg13 : BitVec 32 := Scf.iv c0_i32_18 c1_i32_20 k0_t4
  let c25_i32_25 : BitVec 32 := 25#32
  let v42 : BitVec 32 := Scalar.muli arg13 c25_i32_25
  let c0_i32_26 : BitVec 32 := 0#32
  let v43 : BitVec 32 := Scalar.addi v42 c0_i32_26
  let c16_i32_27 : BitVec 32 := 16#32
  let v44 : BitVec 32 := Scalar.muli v43 c16_i32_27
  let v45 : Index := Scalar.indexCast v44
  ![v45.toNat]

def k0_chk26 (v51 : IVec S16 32) : Prop :=
  (∀ a x, ((![v51] : Fin 1 → IVec S16 32) a x).toNat < S65536.size a)
instance k0_chk26.dec : ∀ (v51 : IVec S16 32), Decidable (k0_chk26 v51) := fun v51 => decidable_of_iff' _ (Iff.of_eq (k0_chk26.eq_1 v51))
theorem k0_idx26_inb : ∀ (v51 : IVec S16 32) (k0_hw26 : k0_chk26 v51), ∀ a x, ((![v51] : Fin 1 → IVec S16 32) a x).toNat < S65536.size a := fun v51 k0_hw26 => k0_hw26
def k0_off31 (k0_t4 : Fin k0_t4_loop.trips) : Fin 1 → Nat :=
  let c0_i32_18 : BitVec 32 := 0#32
  let c1_i32_20 : BitVec 32 := 1#32
  let arg13 : BitVec 32 := Scf.iv c0_i32_18 c1_i32_20 k0_t4
  let c25_i32_29 : BitVec 32 := 25#32
  let v52 : BitVec 32 := Scalar.muli arg13 c25_i32_29
  let c1_i32_30 : BitVec 32 := 1#32
  let v53 : BitVec 32 := Scalar.addi v52 c1_i32_30
  let c16_i32_31 : BitVec 32 := 16#32
  let v54 : BitVec 32 := Scalar.muli v53 c16_i32_31
  let v55 : Index := Scalar.indexCast v54
  ![v55.toNat]

def k0_chk27 (v61 : IVec S16 32) : Prop :=
  (∀ a x, ((![v61] : Fin 1 → IVec S16 32) a x).toNat < S65536.size a)
instance k0_chk27.dec : ∀ (v61 : IVec S16 32), Decidable (k0_chk27 v61) := fun v61 => decidable_of_iff' _ (Iff.of_eq (k0_chk27.eq_1 v61))
theorem k0_idx27_inb : ∀ (v61 : IVec S16 32) (k0_hw27 : k0_chk27 v61), ∀ a x, ((![v61] : Fin 1 → IVec S16 32) a x).toNat < S65536.size a := fun v61 k0_hw27 => k0_hw27
def k0_off32 (k0_t4 : Fin k0_t4_loop.trips) : Fin 1 → Nat :=
  let c0_i32_18 : BitVec 32 := 0#32
  let c1_i32_20 : BitVec 32 := 1#32
  let arg13 : BitVec 32 := Scf.iv c0_i32_18 c1_i32_20 k0_t4
  let c25_i32_33 : BitVec 32 := 25#32
  let v62 : BitVec 32 := Scalar.muli arg13 c25_i32_33
  let c2_i32_34 : BitVec 32 := 2#32
  let v63 : BitVec 32 := Scalar.addi v62 c2_i32_34
  let c16_i32_35 : BitVec 32 := 16#32
  let v64 : BitVec 32 := Scalar.muli v63 c16_i32_35
  let v65 : Index := Scalar.indexCast v64
  ![v65.toNat]

def k0_chk28 (v71 : IVec S16 32) : Prop :=
  (∀ a x, ((![v71] : Fin 1 → IVec S16 32) a x).toNat < S65536.size a)
instance k0_chk28.dec : ∀ (v71 : IVec S16 32), Decidable (k0_chk28 v71) := fun v71 => decidable_of_iff' _ (Iff.of_eq (k0_chk28.eq_1 v71))
theorem k0_idx28_inb : ∀ (v71 : IVec S16 32) (k0_hw28 : k0_chk28 v71), ∀ a x, ((![v71] : Fin 1 → IVec S16 32) a x).toNat < S65536.size a := fun v71 k0_hw28 => k0_hw28
def k0_off33 (k0_t4 : Fin k0_t4_loop.trips) : Fin 1 → Nat :=
  let c0_i32_18 : BitVec 32 := 0#32
  let c1_i32_20 : BitVec 32 := 1#32
  let arg13 : BitVec 32 := Scf.iv c0_i32_18 c1_i32_20 k0_t4
  let c25_i32_37 : BitVec 32 := 25#32
  let v72 : BitVec 32 := Scalar.muli arg13 c25_i32_37
  let c3_i32 : BitVec 32 := 3#32
  let v73 : BitVec 32 := Scalar.addi v72 c3_i32
  let c16_i32_38 : BitVec 32 := 16#32
  let v74 : BitVec 32 := Scalar.muli v73 c16_i32_38
  let v75 : Index := Scalar.indexCast v74
  ![v75.toNat]

def k0_chk29 (v81 : IVec S16 32) : Prop :=
  (∀ a x, ((![v81] : Fin 1 → IVec S16 32) a x).toNat < S65536.size a)
instance k0_chk29.dec : ∀ (v81 : IVec S16 32), Decidable (k0_chk29 v81) := fun v81 => decidable_of_iff' _ (Iff.of_eq (k0_chk29.eq_1 v81))
theorem k0_idx29_inb : ∀ (v81 : IVec S16 32) (k0_hw29 : k0_chk29 v81), ∀ a x, ((![v81] : Fin 1 → IVec S16 32) a x).toNat < S65536.size a := fun v81 k0_hw29 => k0_hw29
def k0_off34 (k0_t4 : Fin k0_t4_loop.trips) : Fin 1 → Nat :=
  let c0_i32_18 : BitVec 32 := 0#32
  let c1_i32_20 : BitVec 32 := 1#32
  let arg13 : BitVec 32 := Scf.iv c0_i32_18 c1_i32_20 k0_t4
  let c25_i32_40 : BitVec 32 := 25#32
  let v82 : BitVec 32 := Scalar.muli arg13 c25_i32_40
  let c4_i32 : BitVec 32 := 4#32
  let v83 : BitVec 32 := Scalar.addi v82 c4_i32
  let c16_i32_41 : BitVec 32 := 16#32
  let v84 : BitVec 32 := Scalar.muli v83 c16_i32_41
  let v85 : Index := Scalar.indexCast v84
  ![v85.toNat]

def k0_chk30 (v91 : IVec S16 32) : Prop :=
  (∀ a x, ((![v91] : Fin 1 → IVec S16 32) a x).toNat < S65536.size a)
instance k0_chk30.dec : ∀ (v91 : IVec S16 32), Decidable (k0_chk30 v91) := fun v91 => decidable_of_iff' _ (Iff.of_eq (k0_chk30.eq_1 v91))
theorem k0_idx30_inb : ∀ (v91 : IVec S16 32) (k0_hw30 : k0_chk30 v91), ∀ a x, ((![v91] : Fin 1 → IVec S16 32) a x).toNat < S65536.size a := fun v91 k0_hw30 => k0_hw30
def k0_off35 (k0_t4 : Fin k0_t4_loop.trips) : Fin 1 → Nat :=
  let c0_i32_18 : BitVec 32 := 0#32
  let c1_i32_20 : BitVec 32 := 1#32
  let arg13 : BitVec 32 := Scf.iv c0_i32_18 c1_i32_20 k0_t4
  let c25_i32_43 : BitVec 32 := 25#32
  let v92 : BitVec 32 := Scalar.muli arg13 c25_i32_43
  let c5_i32 : BitVec 32 := 5#32
  let v93 : BitVec 32 := Scalar.addi v92 c5_i32
  let c16_i32_44 : BitVec 32 := 16#32
  let v94 : BitVec 32 := Scalar.muli v93 c16_i32_44
  let v95 : Index := Scalar.indexCast v94
  ![v95.toNat]

def k0_chk31 (v101 : IVec S16 32) : Prop :=
  (∀ a x, ((![v101] : Fin 1 → IVec S16 32) a x).toNat < S65536.size a)
instance k0_chk31.dec : ∀ (v101 : IVec S16 32), Decidable (k0_chk31 v101) := fun v101 => decidable_of_iff' _ (Iff.of_eq (k0_chk31.eq_1 v101))
theorem k0_idx31_inb : ∀ (v101 : IVec S16 32) (k0_hw31 : k0_chk31 v101), ∀ a x, ((![v101] : Fin 1 → IVec S16 32) a x).toNat < S65536.size a := fun v101 k0_hw31 => k0_hw31
def k0_off36 (k0_t4 : Fin k0_t4_loop.trips) : Fin 1 → Nat :=
  let c0_i32_18 : BitVec 32 := 0#32
  let c1_i32_20 : BitVec 32 := 1#32
  let arg13 : BitVec 32 := Scf.iv c0_i32_18 c1_i32_20 k0_t4
  let c25_i32_46 : BitVec 32 := 25#32
  let v102 : BitVec 32 := Scalar.muli arg13 c25_i32_46
  let c6_i32 : BitVec 32 := 6#32
  let v103 : BitVec 32 := Scalar.addi v102 c6_i32
  let c16_i32_47 : BitVec 32 := 16#32
  let v104 : BitVec 32 := Scalar.muli v103 c16_i32_47
  let v105 : Index := Scalar.indexCast v104
  ![v105.toNat]

def k0_chk32 (v111 : IVec S16 32) : Prop :=
  (∀ a x, ((![v111] : Fin 1 → IVec S16 32) a x).toNat < S65536.size a)
instance k0_chk32.dec : ∀ (v111 : IVec S16 32), Decidable (k0_chk32 v111) := fun v111 => decidable_of_iff' _ (Iff.of_eq (k0_chk32.eq_1 v111))
theorem k0_idx32_inb : ∀ (v111 : IVec S16 32) (k0_hw32 : k0_chk32 v111), ∀ a x, ((![v111] : Fin 1 → IVec S16 32) a x).toNat < S65536.size a := fun v111 k0_hw32 => k0_hw32
def k0_off37 (k0_t4 : Fin k0_t4_loop.trips) : Fin 1 → Nat :=
  let c0_i32_18 : BitVec 32 := 0#32
  let c1_i32_20 : BitVec 32 := 1#32
  let arg13 : BitVec 32 := Scf.iv c0_i32_18 c1_i32_20 k0_t4
  let c25_i32_49 : BitVec 32 := 25#32
  let v112 : BitVec 32 := Scalar.muli arg13 c25_i32_49
  let c7_i32 : BitVec 32 := 7#32
  let v113 : BitVec 32 := Scalar.addi v112 c7_i32
  let c16_i32_50 : BitVec 32 := 16#32
  let v114 : BitVec 32 := Scalar.muli v113 c16_i32_50
  let v115 : Index := Scalar.indexCast v114
  ![v115.toNat]

def k0_chk33 (v121 : IVec S16 32) : Prop :=
  (∀ a x, ((![v121] : Fin 1 → IVec S16 32) a x).toNat < S65536.size a)
instance k0_chk33.dec : ∀ (v121 : IVec S16 32), Decidable (k0_chk33 v121) := fun v121 => decidable_of_iff' _ (Iff.of_eq (k0_chk33.eq_1 v121))
theorem k0_idx33_inb : ∀ (v121 : IVec S16 32) (k0_hw33 : k0_chk33 v121), ∀ a x, ((![v121] : Fin 1 → IVec S16 32) a x).toNat < S65536.size a := fun v121 k0_hw33 => k0_hw33
def k0_off38 (k0_t4 : Fin k0_t4_loop.trips) : Fin 1 → Nat :=
  let c0_i32_18 : BitVec 32 := 0#32
  let c1_i32_20 : BitVec 32 := 1#32
  let arg13 : BitVec 32 := Scf.iv c0_i32_18 c1_i32_20 k0_t4
  let c25_i32_52 : BitVec 32 := 25#32
  let v122 : BitVec 32 := Scalar.muli arg13 c25_i32_52
  let c8_i32 : BitVec 32 := 8#32
  let v123 : BitVec 32 := Scalar.addi v122 c8_i32
  let c16_i32_53 : BitVec 32 := 16#32
  let v124 : BitVec 32 := Scalar.muli v123 c16_i32_53
  let v125 : Index := Scalar.indexCast v124
  ![v125.toNat]

def k0_chk34 (v131 : IVec S16 32) : Prop :=
  (∀ a x, ((![v131] : Fin 1 → IVec S16 32) a x).toNat < S65536.size a)
instance k0_chk34.dec : ∀ (v131 : IVec S16 32), Decidable (k0_chk34 v131) := fun v131 => decidable_of_iff' _ (Iff.of_eq (k0_chk34.eq_1 v131))
theorem k0_idx34_inb : ∀ (v131 : IVec S16 32) (k0_hw34 : k0_chk34 v131), ∀ a x, ((![v131] : Fin 1 → IVec S16 32) a x).toNat < S65536.size a := fun v131 k0_hw34 => k0_hw34
def k0_off39 (k0_t4 : Fin k0_t4_loop.trips) : Fin 1 → Nat :=
  let c0_i32_18 : BitVec 32 := 0#32
  let c1_i32_20 : BitVec 32 := 1#32
  let arg13 : BitVec 32 := Scf.iv c0_i32_18 c1_i32_20 k0_t4
  let c25_i32_55 : BitVec 32 := 25#32
  let v132 : BitVec 32 := Scalar.muli arg13 c25_i32_55
  let c9_i32 : BitVec 32 := 9#32
  let v133 : BitVec 32 := Scalar.addi v132 c9_i32
  let c16_i32_56 : BitVec 32 := 16#32
  let v134 : BitVec 32 := Scalar.muli v133 c16_i32_56
  let v135 : Index := Scalar.indexCast v134
  ![v135.toNat]

def k0_chk35 (v141 : IVec S16 32) : Prop :=
  (∀ a x, ((![v141] : Fin 1 → IVec S16 32) a x).toNat < S65536.size a)
instance k0_chk35.dec : ∀ (v141 : IVec S16 32), Decidable (k0_chk35 v141) := fun v141 => decidable_of_iff' _ (Iff.of_eq (k0_chk35.eq_1 v141))
theorem k0_idx35_inb : ∀ (v141 : IVec S16 32) (k0_hw35 : k0_chk35 v141), ∀ a x, ((![v141] : Fin 1 → IVec S16 32) a x).toNat < S65536.size a := fun v141 k0_hw35 => k0_hw35
def k0_off40 (k0_t4 : Fin k0_t4_loop.trips) : Fin 1 → Nat :=
  let c0_i32_18 : BitVec 32 := 0#32
  let c1_i32_20 : BitVec 32 := 1#32
  let arg13 : BitVec 32 := Scf.iv c0_i32_18 c1_i32_20 k0_t4
  let c25_i32_58 : BitVec 32 := 25#32
  let v142 : BitVec 32 := Scalar.muli arg13 c25_i32_58
  let c10_i32_59 : BitVec 32 := 10#32
  let v143 : BitVec 32 := Scalar.addi v142 c10_i32_59
  let c16_i32_60 : BitVec 32 := 16#32
  let v144 : BitVec 32 := Scalar.muli v143 c16_i32_60
  let v145 : Index := Scalar.indexCast v144
  ![v145.toNat]

def k0_chk36 (v151 : IVec S16 32) : Prop :=
  (∀ a x, ((![v151] : Fin 1 → IVec S16 32) a x).toNat < S65536.size a)
instance k0_chk36.dec : ∀ (v151 : IVec S16 32), Decidable (k0_chk36 v151) := fun v151 => decidable_of_iff' _ (Iff.of_eq (k0_chk36.eq_1 v151))
theorem k0_idx36_inb : ∀ (v151 : IVec S16 32) (k0_hw36 : k0_chk36 v151), ∀ a x, ((![v151] : Fin 1 → IVec S16 32) a x).toNat < S65536.size a := fun v151 k0_hw36 => k0_hw36
def k0_off41 (k0_t4 : Fin k0_t4_loop.trips) : Fin 1 → Nat :=
  let c0_i32_18 : BitVec 32 := 0#32
  let c1_i32_20 : BitVec 32 := 1#32
  let arg13 : BitVec 32 := Scf.iv c0_i32_18 c1_i32_20 k0_t4
  let c25_i32_62 : BitVec 32 := 25#32
  let v152 : BitVec 32 := Scalar.muli arg13 c25_i32_62
  let c11_i32 : BitVec 32 := 11#32
  let v153 : BitVec 32 := Scalar.addi v152 c11_i32
  let c16_i32_63 : BitVec 32 := 16#32
  let v154 : BitVec 32 := Scalar.muli v153 c16_i32_63
  let v155 : Index := Scalar.indexCast v154
  ![v155.toNat]

def k0_chk37 (v161 : IVec S16 32) : Prop :=
  (∀ a x, ((![v161] : Fin 1 → IVec S16 32) a x).toNat < S65536.size a)
instance k0_chk37.dec : ∀ (v161 : IVec S16 32), Decidable (k0_chk37 v161) := fun v161 => decidable_of_iff' _ (Iff.of_eq (k0_chk37.eq_1 v161))
theorem k0_idx37_inb : ∀ (v161 : IVec S16 32) (k0_hw37 : k0_chk37 v161), ∀ a x, ((![v161] : Fin 1 → IVec S16 32) a x).toNat < S65536.size a := fun v161 k0_hw37 => k0_hw37
def k0_off42 (k0_t4 : Fin k0_t4_loop.trips) : Fin 1 → Nat :=
  let c0_i32_18 : BitVec 32 := 0#32
  let c1_i32_20 : BitVec 32 := 1#32
  let arg13 : BitVec 32 := Scf.iv c0_i32_18 c1_i32_20 k0_t4
  let c25_i32_65 : BitVec 32 := 25#32
  let v162 : BitVec 32 := Scalar.muli arg13 c25_i32_65
  let c12_i32 : BitVec 32 := 12#32
  let v163 : BitVec 32 := Scalar.addi v162 c12_i32
  let c16_i32_66 : BitVec 32 := 16#32
  let v164 : BitVec 32 := Scalar.muli v163 c16_i32_66
  let v165 : Index := Scalar.indexCast v164
  ![v165.toNat]

def k0_chk38 (v171 : IVec S16 32) : Prop :=
  (∀ a x, ((![v171] : Fin 1 → IVec S16 32) a x).toNat < S65536.size a)
instance k0_chk38.dec : ∀ (v171 : IVec S16 32), Decidable (k0_chk38 v171) := fun v171 => decidable_of_iff' _ (Iff.of_eq (k0_chk38.eq_1 v171))
theorem k0_idx38_inb : ∀ (v171 : IVec S16 32) (k0_hw38 : k0_chk38 v171), ∀ a x, ((![v171] : Fin 1 → IVec S16 32) a x).toNat < S65536.size a := fun v171 k0_hw38 => k0_hw38
def k0_off43 (k0_t4 : Fin k0_t4_loop.trips) : Fin 1 → Nat :=
  let c0_i32_18 : BitVec 32 := 0#32
  let c1_i32_20 : BitVec 32 := 1#32
  let arg13 : BitVec 32 := Scf.iv c0_i32_18 c1_i32_20 k0_t4
  let c25_i32_68 : BitVec 32 := 25#32
  let v172 : BitVec 32 := Scalar.muli arg13 c25_i32_68
  let c13_i32 : BitVec 32 := 13#32
  let v173 : BitVec 32 := Scalar.addi v172 c13_i32
  let c16_i32_69 : BitVec 32 := 16#32
  let v174 : BitVec 32 := Scalar.muli v173 c16_i32_69
  let v175 : Index := Scalar.indexCast v174
  ![v175.toNat]

def k0_chk39 (v181 : IVec S16 32) : Prop :=
  (∀ a x, ((![v181] : Fin 1 → IVec S16 32) a x).toNat < S65536.size a)
instance k0_chk39.dec : ∀ (v181 : IVec S16 32), Decidable (k0_chk39 v181) := fun v181 => decidable_of_iff' _ (Iff.of_eq (k0_chk39.eq_1 v181))
theorem k0_idx39_inb : ∀ (v181 : IVec S16 32) (k0_hw39 : k0_chk39 v181), ∀ a x, ((![v181] : Fin 1 → IVec S16 32) a x).toNat < S65536.size a := fun v181 k0_hw39 => k0_hw39
def k0_off44 (k0_t4 : Fin k0_t4_loop.trips) : Fin 1 → Nat :=
  let c0_i32_18 : BitVec 32 := 0#32
  let c1_i32_20 : BitVec 32 := 1#32
  let arg13 : BitVec 32 := Scf.iv c0_i32_18 c1_i32_20 k0_t4
  let c25_i32_71 : BitVec 32 := 25#32
  let v182 : BitVec 32 := Scalar.muli arg13 c25_i32_71
  let c14_i32 : BitVec 32 := 14#32
  let v183 : BitVec 32 := Scalar.addi v182 c14_i32
  let c16_i32_72 : BitVec 32 := 16#32
  let v184 : BitVec 32 := Scalar.muli v183 c16_i32_72
  let v185 : Index := Scalar.indexCast v184
  ![v185.toNat]

def k0_chk40 (v191 : IVec S16 32) : Prop :=
  (∀ a x, ((![v191] : Fin 1 → IVec S16 32) a x).toNat < S65536.size a)
instance k0_chk40.dec : ∀ (v191 : IVec S16 32), Decidable (k0_chk40 v191) := fun v191 => decidable_of_iff' _ (Iff.of_eq (k0_chk40.eq_1 v191))
theorem k0_idx40_inb : ∀ (v191 : IVec S16 32) (k0_hw40 : k0_chk40 v191), ∀ a x, ((![v191] : Fin 1 → IVec S16 32) a x).toNat < S65536.size a := fun v191 k0_hw40 => k0_hw40
def k0_off45 (k0_t4 : Fin k0_t4_loop.trips) : Fin 1 → Nat :=
  let c0_i32_18 : BitVec 32 := 0#32
  let c1_i32_20 : BitVec 32 := 1#32
  let arg13 : BitVec 32 := Scf.iv c0_i32_18 c1_i32_20 k0_t4
  let c25_i32_74 : BitVec 32 := 25#32
  let v192 : BitVec 32 := Scalar.muli arg13 c25_i32_74
  let c15_i32 : BitVec 32 := 15#32
  let v193 : BitVec 32 := Scalar.addi v192 c15_i32
  let c16_i32_75 : BitVec 32 := 16#32
  let v194 : BitVec 32 := Scalar.muli v193 c16_i32_75
  let v195 : Index := Scalar.indexCast v194
  ![v195.toNat]

def k0_chk41 (v201 : IVec S16 32) : Prop :=
  (∀ a x, ((![v201] : Fin 1 → IVec S16 32) a x).toNat < S65536.size a)
instance k0_chk41.dec : ∀ (v201 : IVec S16 32), Decidable (k0_chk41 v201) := fun v201 => decidable_of_iff' _ (Iff.of_eq (k0_chk41.eq_1 v201))
theorem k0_idx41_inb : ∀ (v201 : IVec S16 32) (k0_hw41 : k0_chk41 v201), ∀ a x, ((![v201] : Fin 1 → IVec S16 32) a x).toNat < S65536.size a := fun v201 k0_hw41 => k0_hw41
def k0_off46 (k0_t4 : Fin k0_t4_loop.trips) : Fin 1 → Nat :=
  let c0_i32_18 : BitVec 32 := 0#32
  let c1_i32_20 : BitVec 32 := 1#32
  let arg13 : BitVec 32 := Scf.iv c0_i32_18 c1_i32_20 k0_t4
  let c25_i32_77 : BitVec 32 := 25#32
  let v202 : BitVec 32 := Scalar.muli arg13 c25_i32_77
  let c16_i32_78 : BitVec 32 := 16#32
  let v203 : BitVec 32 := Scalar.addi v202 c16_i32_78
  let c16_i32_79 : BitVec 32 := 16#32
  let v204 : BitVec 32 := Scalar.muli v203 c16_i32_79
  let v205 : Index := Scalar.indexCast v204
  ![v205.toNat]

def k0_chk42 (v211 : IVec S16 32) : Prop :=
  (∀ a x, ((![v211] : Fin 1 → IVec S16 32) a x).toNat < S65536.size a)
instance k0_chk42.dec : ∀ (v211 : IVec S16 32), Decidable (k0_chk42 v211) := fun v211 => decidable_of_iff' _ (Iff.of_eq (k0_chk42.eq_1 v211))
theorem k0_idx42_inb : ∀ (v211 : IVec S16 32) (k0_hw42 : k0_chk42 v211), ∀ a x, ((![v211] : Fin 1 → IVec S16 32) a x).toNat < S65536.size a := fun v211 k0_hw42 => k0_hw42
def k0_off47 (k0_t4 : Fin k0_t4_loop.trips) : Fin 1 → Nat :=
  let c0_i32_18 : BitVec 32 := 0#32
  let c1_i32_20 : BitVec 32 := 1#32
  let arg13 : BitVec 32 := Scf.iv c0_i32_18 c1_i32_20 k0_t4
  let c25_i32_81 : BitVec 32 := 25#32
  let v212 : BitVec 32 := Scalar.muli arg13 c25_i32_81
  let c17_i32 : BitVec 32 := 17#32
  let v213 : BitVec 32 := Scalar.addi v212 c17_i32
  let c16_i32_82 : BitVec 32 := 16#32
  let v214 : BitVec 32 := Scalar.muli v213 c16_i32_82
  let v215 : Index := Scalar.indexCast v214
  ![v215.toNat]

def k0_chk43 (v221 : IVec S16 32) : Prop :=
  (∀ a x, ((![v221] : Fin 1 → IVec S16 32) a x).toNat < S65536.size a)
instance k0_chk43.dec : ∀ (v221 : IVec S16 32), Decidable (k0_chk43 v221) := fun v221 => decidable_of_iff' _ (Iff.of_eq (k0_chk43.eq_1 v221))
theorem k0_idx43_inb : ∀ (v221 : IVec S16 32) (k0_hw43 : k0_chk43 v221), ∀ a x, ((![v221] : Fin 1 → IVec S16 32) a x).toNat < S65536.size a := fun v221 k0_hw43 => k0_hw43
def k0_off48 (k0_t4 : Fin k0_t4_loop.trips) : Fin 1 → Nat :=
  let c0_i32_18 : BitVec 32 := 0#32
  let c1_i32_20 : BitVec 32 := 1#32
  let arg13 : BitVec 32 := Scf.iv c0_i32_18 c1_i32_20 k0_t4
  let c25_i32_84 : BitVec 32 := 25#32
  let v222 : BitVec 32 := Scalar.muli arg13 c25_i32_84
  let c18_i32 : BitVec 32 := 18#32
  let v223 : BitVec 32 := Scalar.addi v222 c18_i32
  let c16_i32_85 : BitVec 32 := 16#32
  let v224 : BitVec 32 := Scalar.muli v223 c16_i32_85
  let v225 : Index := Scalar.indexCast v224
  ![v225.toNat]

def k0_chk44 (v231 : IVec S16 32) : Prop :=
  (∀ a x, ((![v231] : Fin 1 → IVec S16 32) a x).toNat < S65536.size a)
instance k0_chk44.dec : ∀ (v231 : IVec S16 32), Decidable (k0_chk44 v231) := fun v231 => decidable_of_iff' _ (Iff.of_eq (k0_chk44.eq_1 v231))
theorem k0_idx44_inb : ∀ (v231 : IVec S16 32) (k0_hw44 : k0_chk44 v231), ∀ a x, ((![v231] : Fin 1 → IVec S16 32) a x).toNat < S65536.size a := fun v231 k0_hw44 => k0_hw44
def k0_off49 (k0_t4 : Fin k0_t4_loop.trips) : Fin 1 → Nat :=
  let c0_i32_18 : BitVec 32 := 0#32
  let c1_i32_20 : BitVec 32 := 1#32
  let arg13 : BitVec 32 := Scf.iv c0_i32_18 c1_i32_20 k0_t4
  let c25_i32_87 : BitVec 32 := 25#32
  let v232 : BitVec 32 := Scalar.muli arg13 c25_i32_87
  let c19_i32 : BitVec 32 := 19#32
  let v233 : BitVec 32 := Scalar.addi v232 c19_i32
  let c16_i32_88 : BitVec 32 := 16#32
  let v234 : BitVec 32 := Scalar.muli v233 c16_i32_88
  let v235 : Index := Scalar.indexCast v234
  ![v235.toNat]

def k0_chk45 (v241 : IVec S16 32) : Prop :=
  (∀ a x, ((![v241] : Fin 1 → IVec S16 32) a x).toNat < S65536.size a)
instance k0_chk45.dec : ∀ (v241 : IVec S16 32), Decidable (k0_chk45 v241) := fun v241 => decidable_of_iff' _ (Iff.of_eq (k0_chk45.eq_1 v241))
theorem k0_idx45_inb : ∀ (v241 : IVec S16 32) (k0_hw45 : k0_chk45 v241), ∀ a x, ((![v241] : Fin 1 → IVec S16 32) a x).toNat < S65536.size a := fun v241 k0_hw45 => k0_hw45
def k0_off50 (k0_t4 : Fin k0_t4_loop.trips) : Fin 1 → Nat :=
  let c0_i32_18 : BitVec 32 := 0#32
  let c1_i32_20 : BitVec 32 := 1#32
  let arg13 : BitVec 32 := Scf.iv c0_i32_18 c1_i32_20 k0_t4
  let c25_i32_90 : BitVec 32 := 25#32
  let v242 : BitVec 32 := Scalar.muli arg13 c25_i32_90
  let c20_i32_91 : BitVec 32 := 20#32
  let v243 : BitVec 32 := Scalar.addi v242 c20_i32_91
  let c16_i32_92 : BitVec 32 := 16#32
  let v244 : BitVec 32 := Scalar.muli v243 c16_i32_92
  let v245 : Index := Scalar.indexCast v244
  ![v245.toNat]

def k0_chk46 (v251 : IVec S16 32) : Prop :=
  (∀ a x, ((![v251] : Fin 1 → IVec S16 32) a x).toNat < S65536.size a)
instance k0_chk46.dec : ∀ (v251 : IVec S16 32), Decidable (k0_chk46 v251) := fun v251 => decidable_of_iff' _ (Iff.of_eq (k0_chk46.eq_1 v251))
theorem k0_idx46_inb : ∀ (v251 : IVec S16 32) (k0_hw46 : k0_chk46 v251), ∀ a x, ((![v251] : Fin 1 → IVec S16 32) a x).toNat < S65536.size a := fun v251 k0_hw46 => k0_hw46
def k0_off51 (k0_t4 : Fin k0_t4_loop.trips) : Fin 1 → Nat :=
  let c0_i32_18 : BitVec 32 := 0#32
  let c1_i32_20 : BitVec 32 := 1#32
  let arg13 : BitVec 32 := Scf.iv c0_i32_18 c1_i32_20 k0_t4
  let c25_i32_94 : BitVec 32 := 25#32
  let v252 : BitVec 32 := Scalar.muli arg13 c25_i32_94
  let c21_i32 : BitVec 32 := 21#32
  let v253 : BitVec 32 := Scalar.addi v252 c21_i32
  let c16_i32_95 : BitVec 32 := 16#32
  let v254 : BitVec 32 := Scalar.muli v253 c16_i32_95
  let v255 : Index := Scalar.indexCast v254
  ![v255.toNat]

def k0_chk47 (v261 : IVec S16 32) : Prop :=
  (∀ a x, ((![v261] : Fin 1 → IVec S16 32) a x).toNat < S65536.size a)
instance k0_chk47.dec : ∀ (v261 : IVec S16 32), Decidable (k0_chk47 v261) := fun v261 => decidable_of_iff' _ (Iff.of_eq (k0_chk47.eq_1 v261))
theorem k0_idx47_inb : ∀ (v261 : IVec S16 32) (k0_hw47 : k0_chk47 v261), ∀ a x, ((![v261] : Fin 1 → IVec S16 32) a x).toNat < S65536.size a := fun v261 k0_hw47 => k0_hw47
def k0_off52 (k0_t4 : Fin k0_t4_loop.trips) : Fin 1 → Nat :=
  let c0_i32_18 : BitVec 32 := 0#32
  let c1_i32_20 : BitVec 32 := 1#32
  let arg13 : BitVec 32 := Scf.iv c0_i32_18 c1_i32_20 k0_t4
  let c25_i32_97 : BitVec 32 := 25#32
  let v262 : BitVec 32 := Scalar.muli arg13 c25_i32_97
  let c22_i32 : BitVec 32 := 22#32
  let v263 : BitVec 32 := Scalar.addi v262 c22_i32
  let c16_i32_98 : BitVec 32 := 16#32
  let v264 : BitVec 32 := Scalar.muli v263 c16_i32_98
  let v265 : Index := Scalar.indexCast v264
  ![v265.toNat]

def k0_chk48 (v271 : IVec S16 32) : Prop :=
  (∀ a x, ((![v271] : Fin 1 → IVec S16 32) a x).toNat < S65536.size a)
instance k0_chk48.dec : ∀ (v271 : IVec S16 32), Decidable (k0_chk48 v271) := fun v271 => decidable_of_iff' _ (Iff.of_eq (k0_chk48.eq_1 v271))
theorem k0_idx48_inb : ∀ (v271 : IVec S16 32) (k0_hw48 : k0_chk48 v271), ∀ a x, ((![v271] : Fin 1 → IVec S16 32) a x).toNat < S65536.size a := fun v271 k0_hw48 => k0_hw48
def k0_off53 (k0_t4 : Fin k0_t4_loop.trips) : Fin 1 → Nat :=
  let c0_i32_18 : BitVec 32 := 0#32
  let c1_i32_20 : BitVec 32 := 1#32
  let arg13 : BitVec 32 := Scf.iv c0_i32_18 c1_i32_20 k0_t4
  let c25_i32_100 : BitVec 32 := 25#32
  let v272 : BitVec 32 := Scalar.muli arg13 c25_i32_100
  let c23_i32 : BitVec 32 := 23#32
  let v273 : BitVec 32 := Scalar.addi v272 c23_i32
  let c16_i32_101 : BitVec 32 := 16#32
  let v274 : BitVec 32 := Scalar.muli v273 c16_i32_101
  let v275 : Index := Scalar.indexCast v274
  ![v275.toNat]

def k0_chk49 (v281 : IVec S16 32) : Prop :=
  (∀ a x, ((![v281] : Fin 1 → IVec S16 32) a x).toNat < S65536.size a)
instance k0_chk49.dec : ∀ (v281 : IVec S16 32), Decidable (k0_chk49 v281) := fun v281 => decidable_of_iff' _ (Iff.of_eq (k0_chk49.eq_1 v281))
theorem k0_idx49_inb : ∀ (v281 : IVec S16 32) (k0_hw49 : k0_chk49 v281), ∀ a x, ((![v281] : Fin 1 → IVec S16 32) a x).toNat < S65536.size a := fun v281 k0_hw49 => k0_hw49
def k0_off54 (k0_t4 : Fin k0_t4_loop.trips) : Fin 1 → Nat :=
  let c0_i32_18 : BitVec 32 := 0#32
  let c1_i32_20 : BitVec 32 := 1#32
  let arg13 : BitVec 32 := Scf.iv c0_i32_18 c1_i32_20 k0_t4
  let c25_i32_103 : BitVec 32 := 25#32
  let v282 : BitVec 32 := Scalar.muli arg13 c25_i32_103
  let c24_i32 : BitVec 32 := 24#32
  let v283 : BitVec 32 := Scalar.addi v282 c24_i32
  let c16_i32_104 : BitVec 32 := 16#32
  let v284 : BitVec 32 := Scalar.muli v283 c16_i32_104
  let v285 : Index := Scalar.indexCast v284
  ![v285.toNat]

def k0_chk50 (v291 : IVec S16 32) : Prop :=
  (∀ a x, ((![v291] : Fin 1 → IVec S16 32) a x).toNat < S65536.size a)
instance k0_chk50.dec : ∀ (v291 : IVec S16 32), Decidable (k0_chk50 v291) := fun v291 => decidable_of_iff' _ (Iff.of_eq (k0_chk50.eq_1 v291))
theorem k0_idx50_inb : ∀ (v291 : IVec S16 32) (k0_hw50 : k0_chk50 v291), ∀ a x, ((![v291] : Fin 1 → IVec S16 32) a x).toNat < S65536.size a := fun v291 k0_hw50 => k0_hw50
def k0_cond2 (k0_t2 : Fin k0_t2_loop.trips) : BitVec 1 :=
  let c0_i32_4 : BitVec 32 := 0#32
  let c1_i32_5 : BitVec 32 := 1#32
  let arg12 : BitVec 32 := Scf.iv c0_i32_4 c1_i32_5 k0_t2
  let c2_i32 : BitVec 32 := 2#32
  let v17 : BitVec 32 := Scalar.muli arg12 c2_i32
  let c1_i32_15 : BitVec 32 := 1#32
  let v30 : BitVec 32 := Scalar.addi v17 c1_i32_15
  let c2_i32_22 : BitVec 32 := 2#32
  let v38 : BitVec 32 := Scalar.addi v30 c2_i32_22
  let c20_i32_23 : BitVec 32 := 20#32
  let v39 : BitVec 1 := Scalar.cmpi .slt v38 c20_i32_23
  let v40 : BitVec 32 := Scalar.extui v39
  let c0_i32_24 : BitVec 32 := 0#32
  let v41 : BitVec 1 := Scalar.cmpi .ne v40 c0_i32_24
  v41

def k0_off55 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c200000_i32 : BitVec 32 := 200000#32
  let v2 : BitVec 32 := Scalar.muli v1 c200000_i32
  let c0_i32_4 : BitVec 32 := 0#32
  let c1_i32_5 : BitVec 32 := 1#32
  let arg12 : BitVec 32 := Scf.iv c0_i32_4 c1_i32_5 k0_t2
  let c2_i32 : BitVec 32 := 2#32
  let v17 : BitVec 32 := Scalar.muli arg12 c2_i32
  let c1_i32_15 : BitVec 32 := 1#32
  let v30 : BitVec 32 := Scalar.addi v17 c1_i32_15
  let c2_i32_25 : BitVec 32 := 2#32
  let v42 : BitVec 32 := Scalar.addi v30 c2_i32_25
  let c10000_i32_26 : BitVec 32 := 10000#32
  let v43 : BitVec 32 := Scalar.muli v42 c10000_i32_26
  let v44 : BitVec 32 := Scalar.addi v2 v43
  ![v44.toNat]
def k0_off56 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_7_r0 : BitVec 32 := 0#32
  ![v1.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S32x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S6400000x1_S6400000 : S6400000x1.ShapeCasts S6400000
  h_S16 : 0 < S16.numel
  iota_S16_d0_w32_scVector : S16.Iotas .scVector 32 [0]
  h_S65536 : 0 < S65536.numel
  squeezes_S1x65536_S65536 : S1x65536.Squeezes S65536
  inb_S32x8192_S32x8192_0_0 : ∀ a, (![0, 0] : Fin 2 → Nat) a + S32x8192.size a ≤ S32x8192.size a
  h_S32x8192 : 0 < S32x8192.numel
  shapeCasts_S32x8192_S32x8192 : S32x8192.ShapeCasts S32x8192
  shapeCasts_S32x8192_S32x512x16 : S32x8192.ShapeCasts S32x512x16
  reduces_S32x512x16_S512 : S32x512x16.Reduces [0, 2] S512
  inb_S512_S512_0 : ∀ a, (![0] : Fin 1 → Nat) a + S512.size a ≤ S512.size a
  h_S512 : 0 < S512.numel
  hcc0_scratch5 : 0 + S_.numel ≤ 7
  hcc0_scratch6 : 1 + S_.numel ≤ 7
  hcc0_scoped0 : 2 + S_.numel ≤ 7
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ k0_t1 : Fin k0_t1_loop.trips, ∀ (r : Fin 16), ∀ a, (k0_off1 k0_t1 (BitVec.ofNat 32 r.val)) a + S16.size a ≤ S65536.size a
  k0_off2_inb : ∀ i : grid0.Coords, ∀ (r : Fin 2), ∀ a, (k0_off2 i (BitVec.ofNat 32 (10000 * r.val))) a + S10000.size a ≤ S6400000.size a
  k0_t2_ok : k0_t2_loop.OK
  k0_off3_inb : ∀ (i : grid0.Coords) (k0_t2 : Fin k0_t2_loop.trips), ∀ (r : Fin 2), ∀ a, (k0_off3 i k0_t2 (BitVec.ofNat 32 r.val)) a + S10000.size a ≤ S6400000.size a
  k0_t3_ok : k0_t3_loop.OK
  k0_off4_inb : ∀ k0_t3 : Fin k0_t3_loop.trips, ∀ a, (k0_off4 k0_t3) a + S16.size a ≤ S10000.size a
  k0_off5_inb : ∀ k0_t3 : Fin k0_t3_loop.trips, ∀ a, (k0_off5 k0_t3) a + S16.size a ≤ S10000.size a
  k0_off6_inb : ∀ k0_t3 : Fin k0_t3_loop.trips, ∀ a, (k0_off6 k0_t3) a + S16.size a ≤ S10000.size a
  k0_off7_inb : ∀ k0_t3 : Fin k0_t3_loop.trips, ∀ a, (k0_off7 k0_t3) a + S16.size a ≤ S10000.size a
  k0_off8_inb : ∀ k0_t3 : Fin k0_t3_loop.trips, ∀ a, (k0_off8 k0_t3) a + S16.size a ≤ S10000.size a
  k0_off9_inb : ∀ k0_t3 : Fin k0_t3_loop.trips, ∀ a, (k0_off9 k0_t3) a + S16.size a ≤ S10000.size a
  k0_off10_inb : ∀ k0_t3 : Fin k0_t3_loop.trips, ∀ a, (k0_off10 k0_t3) a + S16.size a ≤ S10000.size a
  k0_off11_inb : ∀ k0_t3 : Fin k0_t3_loop.trips, ∀ a, (k0_off11 k0_t3) a + S16.size a ≤ S10000.size a
  k0_off12_inb : ∀ k0_t3 : Fin k0_t3_loop.trips, ∀ a, (k0_off12 k0_t3) a + S16.size a ≤ S10000.size a
  k0_off13_inb : ∀ k0_t3 : Fin k0_t3_loop.trips, ∀ a, (k0_off13 k0_t3) a + S16.size a ≤ S10000.size a
  k0_off14_inb : ∀ k0_t3 : Fin k0_t3_loop.trips, ∀ a, (k0_off14 k0_t3) a + S16.size a ≤ S10000.size a
  k0_off15_inb : ∀ k0_t3 : Fin k0_t3_loop.trips, ∀ a, (k0_off15 k0_t3) a + S16.size a ≤ S10000.size a
  k0_off16_inb : ∀ k0_t3 : Fin k0_t3_loop.trips, ∀ a, (k0_off16 k0_t3) a + S16.size a ≤ S10000.size a
  k0_off17_inb : ∀ k0_t3 : Fin k0_t3_loop.trips, ∀ a, (k0_off17 k0_t3) a + S16.size a ≤ S10000.size a
  k0_off18_inb : ∀ k0_t3 : Fin k0_t3_loop.trips, ∀ a, (k0_off18 k0_t3) a + S16.size a ≤ S10000.size a
  k0_off19_inb : ∀ k0_t3 : Fin k0_t3_loop.trips, ∀ a, (k0_off19 k0_t3) a + S16.size a ≤ S10000.size a
  k0_off20_inb : ∀ k0_t3 : Fin k0_t3_loop.trips, ∀ a, (k0_off20 k0_t3) a + S16.size a ≤ S10000.size a
  k0_off21_inb : ∀ k0_t3 : Fin k0_t3_loop.trips, ∀ a, (k0_off21 k0_t3) a + S16.size a ≤ S10000.size a
  k0_off22_inb : ∀ k0_t3 : Fin k0_t3_loop.trips, ∀ a, (k0_off22 k0_t3) a + S16.size a ≤ S10000.size a
  k0_off23_inb : ∀ k0_t3 : Fin k0_t3_loop.trips, ∀ a, (k0_off23 k0_t3) a + S16.size a ≤ S10000.size a
  k0_off24_inb : ∀ k0_t3 : Fin k0_t3_loop.trips, ∀ a, (k0_off24 k0_t3) a + S16.size a ≤ S10000.size a
  k0_off25_inb : ∀ k0_t3 : Fin k0_t3_loop.trips, ∀ a, (k0_off25 k0_t3) a + S16.size a ≤ S10000.size a
  k0_off26_inb : ∀ k0_t3 : Fin k0_t3_loop.trips, ∀ a, (k0_off26 k0_t3) a + S16.size a ≤ S10000.size a
  k0_off27_inb : ∀ k0_t3 : Fin k0_t3_loop.trips, ∀ a, (k0_off27 k0_t3) a + S16.size a ≤ S10000.size a
  k0_off28_inb : ∀ k0_t3 : Fin k0_t3_loop.trips, ∀ a, (k0_off28 k0_t3) a + S16.size a ≤ S10000.size a
  k0_off29_inb : ∀ (i : grid0.Coords) (k0_t2 : Fin k0_t2_loop.trips), ∀ (k0_h1 : k0_cond1 k0_t2 = 1#1), ∀ a, (k0_off29 i k0_t2) a + S10000.size a ≤ S6400000.size a
  k0_t4_ok : k0_t4_loop.OK
  k0_off30_inb : ∀ k0_t4 : Fin k0_t4_loop.trips, ∀ a, (k0_off30 k0_t4) a + S16.size a ≤ S10000.size a
  k0_off31_inb : ∀ k0_t4 : Fin k0_t4_loop.trips, ∀ a, (k0_off31 k0_t4) a + S16.size a ≤ S10000.size a
  k0_off32_inb : ∀ k0_t4 : Fin k0_t4_loop.trips, ∀ a, (k0_off32 k0_t4) a + S16.size a ≤ S10000.size a
  k0_off33_inb : ∀ k0_t4 : Fin k0_t4_loop.trips, ∀ a, (k0_off33 k0_t4) a + S16.size a ≤ S10000.size a
  k0_off34_inb : ∀ k0_t4 : Fin k0_t4_loop.trips, ∀ a, (k0_off34 k0_t4) a + S16.size a ≤ S10000.size a
  k0_off35_inb : ∀ k0_t4 : Fin k0_t4_loop.trips, ∀ a, (k0_off35 k0_t4) a + S16.size a ≤ S10000.size a
  k0_off36_inb : ∀ k0_t4 : Fin k0_t4_loop.trips, ∀ a, (k0_off36 k0_t4) a + S16.size a ≤ S10000.size a
  k0_off37_inb : ∀ k0_t4 : Fin k0_t4_loop.trips, ∀ a, (k0_off37 k0_t4) a + S16.size a ≤ S10000.size a
  k0_off38_inb : ∀ k0_t4 : Fin k0_t4_loop.trips, ∀ a, (k0_off38 k0_t4) a + S16.size a ≤ S10000.size a
  k0_off39_inb : ∀ k0_t4 : Fin k0_t4_loop.trips, ∀ a, (k0_off39 k0_t4) a + S16.size a ≤ S10000.size a
  k0_off40_inb : ∀ k0_t4 : Fin k0_t4_loop.trips, ∀ a, (k0_off40 k0_t4) a + S16.size a ≤ S10000.size a
  k0_off41_inb : ∀ k0_t4 : Fin k0_t4_loop.trips, ∀ a, (k0_off41 k0_t4) a + S16.size a ≤ S10000.size a
  k0_off42_inb : ∀ k0_t4 : Fin k0_t4_loop.trips, ∀ a, (k0_off42 k0_t4) a + S16.size a ≤ S10000.size a
  k0_off43_inb : ∀ k0_t4 : Fin k0_t4_loop.trips, ∀ a, (k0_off43 k0_t4) a + S16.size a ≤ S10000.size a
  k0_off44_inb : ∀ k0_t4 : Fin k0_t4_loop.trips, ∀ a, (k0_off44 k0_t4) a + S16.size a ≤ S10000.size a
  k0_off45_inb : ∀ k0_t4 : Fin k0_t4_loop.trips, ∀ a, (k0_off45 k0_t4) a + S16.size a ≤ S10000.size a
  k0_off46_inb : ∀ k0_t4 : Fin k0_t4_loop.trips, ∀ a, (k0_off46 k0_t4) a + S16.size a ≤ S10000.size a
  k0_off47_inb : ∀ k0_t4 : Fin k0_t4_loop.trips, ∀ a, (k0_off47 k0_t4) a + S16.size a ≤ S10000.size a
  k0_off48_inb : ∀ k0_t4 : Fin k0_t4_loop.trips, ∀ a, (k0_off48 k0_t4) a + S16.size a ≤ S10000.size a
  k0_off49_inb : ∀ k0_t4 : Fin k0_t4_loop.trips, ∀ a, (k0_off49 k0_t4) a + S16.size a ≤ S10000.size a
  k0_off50_inb : ∀ k0_t4 : Fin k0_t4_loop.trips, ∀ a, (k0_off50 k0_t4) a + S16.size a ≤ S10000.size a
  k0_off51_inb : ∀ k0_t4 : Fin k0_t4_loop.trips, ∀ a, (k0_off51 k0_t4) a + S16.size a ≤ S10000.size a
  k0_off52_inb : ∀ k0_t4 : Fin k0_t4_loop.trips, ∀ a, (k0_off52 k0_t4) a + S16.size a ≤ S10000.size a
  k0_off53_inb : ∀ k0_t4 : Fin k0_t4_loop.trips, ∀ a, (k0_off53 k0_t4) a + S16.size a ≤ S10000.size a
  k0_off54_inb : ∀ k0_t4 : Fin k0_t4_loop.trips, ∀ a, (k0_off54 k0_t4) a + S16.size a ≤ S10000.size a
  k0_off55_inb : ∀ (i : grid0.Coords) (k0_t2 : Fin k0_t2_loop.trips), ∀ (k0_h2 : k0_cond2 k0_t2 = 1#1), ∀ a, (k0_off55 i k0_t2) a + S10000.size a ≤ S6400000.size a
  k0_off56_inb : ∀ i : grid0.Coords, ∀ a, (k0_off56 i) a + S1x65536.size a ≤ S32x65536.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x8192.size a ≤ S32x65536.size a
  hwx1_0 : ∀ i : grid1.Coords, EltTy.bits .f32 = 32 ∨ (Rect.block (s := S32x65536) S32x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512.size a ≤ S4096.size a
  hwx1_1 : ∀ i : grid1.Coords, EltTy.bits .f32 = 32 ∨ (Rect.block (s := S4096) S512.size (cc1_transform_1 i) (hinb1_1 i)).WholeWords (EltTy.packing .f32)

variable [Facts₀]

abbrev cc0_scratch5 : DmaSems sig S_ := SemArray.consecutive 0 S_ hcc0_scratch5
abbrev cc0_scratch6 : DmaSems sig S_ := SemArray.consecutive 1 S_ hcc0_scratch6
abbrev cc0_scoped0 : DmaSems sig S_ := SemArray.consecutive 2 S_ hcc0_scoped0

abbrev win1_0 : Pipeline.Window sig grid1 :=
  Pipeline.Window.ofSpec (Memref.whole main_v1) S32x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S6400000x1 : Shape := ⟨2, ![6400000, 1]⟩
abbrev S6400000 : Shape := ⟨1, ![6400000]⟩
abbrev S_ : Shape := ⟨0, ![]⟩
abbrev S4096x1 : Shape := ⟨2, ![4096, 1]⟩
abbrev S4096 : Shape := ⟨1, ![4096]⟩

abbrev nBuf : Space → Nat
  | .hbm => 10
  | .vmem => 0
  | .smem => 0
  | _ => 0

abbrev bufTy : (tb : Table) → Fin (tcTables nBuf tb) → BufTy
  | .hbm, ⟨0, _⟩ => ⟨S6400000x1, .f32⟩
  | .hbm, ⟨1, _⟩ => ⟨S6400000, .i32⟩
  | .hbm, ⟨2, _⟩ => ⟨S_, .f32⟩
  | .hbm, ⟨3, _⟩ => ⟨S4096x1, .f32⟩
  | .hbm, ⟨4, _⟩ => ⟨S6400000x1, .i32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096, .f32⟩
  | _, _ => ⟨S6400000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S_S4096x1 : S_.BroadcastsInDim S4096x1 (![] : Fin 0 → Fin S4096x1.rank)
  bcast_S6400000_S6400000x1_0 : S6400000.BroadcastsInDim S6400000x1 (![0] : Fin 1 → Fin S6400000x1.rank)
  shapeCasts_S4096x1_S4096 : S4096x1.ShapeCasts S4096
  scatter_S4096x1_S6400000x1_S6400000x1_1_0_0_1_wf : ScatterDims.WF S4096x1 S6400000x1 S6400000x1 [1] [0] [0] 1

variable [Facts₀]

def scatter_S4096x1_S6400000x1_S6400000x1_1_0_0_1 : ScatterDims S4096x1 S6400000x1 S6400000x1 where
  updateWindowDims := [1]
  insertedWindowDims := [0]
  scatterDimsToOperandDims := [0]
  indexVectorDim := 1
  wf := scatter_S4096x1_S6400000x1_S6400000x1_1_0_0_1_wf

class Facts : Prop extends Facts₀ where

variable [Facts]
-- ==== Proof.SegSpec.lean ====
/-
  The specification shared by every part of this certificate, as pure functions of the two argument arrays.

  The program sums the rows of `x` by segment: row `r` (of 6 400 000) belongs to segment `b r` (of 4096).
  The kernel splits the rows among 32 tiles of 200 000 consecutive rows; a tile reads its rows sixteen at a
  time (12 500 vectors), and adds lane `l` of a vector into position `b r * 16 + l` of its own accumulator of
  4096 * 16 entries, which starts at zero. The accumulators are the rows of a 32 x 65536 array, which a second
  kernel folds: entry `s` of the result is the sum over the 32 tiles and the 16 lanes of position `s * 16 + l`.
-/
import Idealize.ShloMosaic.PureOps
import Idealize.ShloMosaic.Lib.ValueIdx

noncomputable section

namespace Cert.Proof.Seg

open Idealize.ShloMosaic Idealize.ShloMosaic.ValueIdx

/-- The rows, flat. -/
abbrev SN : Shape := ⟨1, ![6400000]⟩
/-- One tile's accumulator: segment-major, lane-minor. -/
abbrev SA : Shape := ⟨1, ![65536]⟩
/-- One vector of sixteen lanes. -/
abbrev SL : Shape := ⟨1, ![16]⟩
/-- The accumulators of the 32 tiles. -/
abbrev SP : Shape := ⟨2, ![32, 65536]⟩

variable {F : FTy → Type} [FloatOps F]

/-- The flat row that lane `l` of vector `n` of tile `w` holds. -/
def rowIx (w : Fin 32) (n : Fin 12500) (l : SL.Idx) : SN.Idx :=
  ix1 ⟨w.val * 200000 + n.val * 16 + (l 0).val, by
    have h : (l 0).val < 16 := (l 0).isLt
    have hw := w.isLt; have hn := n.isLt; omega⟩

/-- Vector `n` of tile `w`: sixteen consecutive rows of `x`, -/
def xVec (xf : Vec F SN .f32) (w : Fin 32) (n : Fin 12500) : Vec F SL .f32 := fun l => xf (rowIx w n l)
/-- and their segment numbers. -/
def bVec (bt : IVec SN 32) (w : Fin 32) (n : Fin 12500) : IVec SL 32 := fun l => bt (rowIx w n l)

/-- The lane number of each lane, as a word. -/
def laneVec : IVec SL 32 := fun l => BitVec.ofNat 32 (l 0).val

/-- Where each lane of a vector adds: sixteen times its segment number plus its lane. -/
def posVec (ids : IVec SL 32) : IVec SL 32 := addi (muli ids (broadcast SL (16#32))) laneVec

/-- The positions all lie in the accumulator. -/
def PosOk (ids : IVec SL 32) : Prop :=
  ∀ (a : Fin SA.rank) (x : SL.Idx), ((![posVec ids] : Fin SA.rank → IVec SL 32) a x).toNat < SA.size a

/-- One vector added into the accumulator, lane by lane (the accumulator unchanged if a position lay outside it,
    which the precondition excludes). -/
def scat (g : Vec F SA .f32) (ids : IVec SL 32) (v : Vec F SL .f32) : Vec F SA .f32 :=
  open Classical in
  if h : PosOk ids then storeIdx g ![posVec ids] v (fun _ => 1#1) true h else g

theorem scat_of_ok (g : Vec F SA .f32) (ids : IVec SL 32) (v : Vec F SL .f32) (h : PosOk ids) :
    scat g ids v = storeIdx g ![posVec ids] v (fun _ => 1#1) true h := by
  unfold scat; rw [dif_pos h]

/-- Tile `w`'s accumulator after its first `n` vectors. -/
def accAt (xf : Vec F SN .f32) (bt : IVec SN 32) (w : Fin 32) : Nat → Vec F SA .f32
  | 0 => fun _ => Scalar.ofBits .f32 0x00000000#32
  | n + 1 => if h : n < 12500 then scat (accAt xf bt w n) (bVec bt w ⟨n, h⟩) (xVec xf w ⟨n, h⟩) else accAt xf bt w n

theorem accAt_zero (xf : Vec F SN .f32) (bt : IVec SN 32) (w : Fin 32) :
    accAt xf bt w 0 = fun _ => Scalar.ofBits .f32 0x00000000#32 := rfl

theorem accAt_succ (xf : Vec F SN .f32) (bt : IVec SN 32) (w : Fin 32) (n : Nat) (h : n < 12500) :
    accAt xf bt w (n + 1) = scat (accAt xf bt w n) (bVec bt w ⟨n, h⟩) (xVec xf w ⟨n, h⟩) := by
  show (if h : n < 12500 then _ else _) = _; rw [dif_pos h]

/-- The 32 finished accumulators, one per row. -/
def partOf (xf : Vec F SN .f32) (bt : IVec SN 32) : Vec F SP .f32 :=
  fun p => accAt xf bt (p 0) 12500 (ix1 (p 1))

end Cert.Proof.Seg

end
-- ==== Proof.SegOut.lean ====
/-
  The second kernel's result as a pure function of the 32 accumulators, and the whole program's result as a
  function of the flat rows and their segment numbers: entry `s` of the result is computed from block `s / 512`
  of the accumulators (columns `(s / 512) * 8192` onward, 8192 of them: 512 segments of 16 lanes) by the fold the
  second kernel's body applies to a block.
-/
import proofs.«203046_g35227321762133_cont_8to1_b_835_12_alg».proof.Proof.SegSpec
import proofs.«203046_g35227321762133_cont_8to1_b_835_12_alg».proof.Proof.Gen.KernelIdeal.Skeleton

noncomputable section

namespace Cert.Proof.KI

open Idealize.ShloMosaic Idealize.ShloMosaic.ValueIdx
open Cert.KernelIdeal Cert.KernelIdeal.Gen Cert.Proof.Seg

variable {F : FTy → Type} [FloatOps F] [Cert.KernelIdeal.Facts]

/-- Block `g` of the accumulators: all 32 rows, columns `g * 8192 + j`. -/
def blkOf (part : Vec F S32x65536 .f32) (g : Fin 8) : Vec F S32x8192 .f32 :=
  fun j => part (ix2 (j 0) ⟨g.val * 8192 + (j 1).val, by
    have h : (j 1).val < 8192 := (j 1).isLt
    have hg := g.isLt; omega⟩)

/-- The folded result: 4096 sums, block by block. -/
def outOf (part : Vec F S32x65536 .f32) : Vec F S4096 .f32 :=
  fun s => k1_pay1 (blkOf part ⟨(s 0).val / 512, by
      have h : (s 0).val < 4096 := (s 0).isLt
      omega⟩) (ix1 ⟨(s 0).val % 512, Nat.mod_lt _ (by decide)⟩)

/-- The program's result from the flat rows and their segment numbers. -/
def resultOf (xf : Vec F S6400000 .f32) (bt : IVec S6400000 32) : Vec F S4096 .f32 :=
  outOf (partOf xf bt)

end Cert.Proof.KI

end
-- ==== Proof.Common.lean ====
/-
  What every part of the kernel program's run shares: the program as the launch theorem sees it, the ghost state
  (the handshakes' rounds beside the second kernel's staging cells and the copies' counters), the five arrays, how
  the flat rows and the accumulators' array split among the 32 tiles (tile `w` reads the 20 chunks of 10 000
  rows from `200000 * w` on, and writes row `w` of the accumulators), and what the one call's handshakes carry.
-/
import proofs.«203046_g35227321762133_cont_8to1_b_835_12_alg».proof.Defs
import proofs.«203046_g35227321762133_cont_8to1_b_835_12_alg».proof.Proof.SegOut
import proofs.«203046_g35227321762133_cont_8to1_b_835_12_alg».proof.Proof.Gen.KernelIdeal
import proofs.«203046_g35227321762133_cont_8to1_b_835_12_alg».proof.Proof.Gen.KernelIdeal.Skeleton
import proofs.«203046_g35227321762133_cont_8to1_b_835_12_alg».proof.Proof.Gen.KernelIdeal.Launch
import proofs.«203046_g35227321762133_cont_8to1_b_835_12_alg».proof.Proof.Gen.KernelIdeal.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Batch
import Idealize.ShloMosaic.Lib.Tactic

noncomputable section

namespace Cert.Proof.KI

open Cert.KernelIdeal Cert.KernelIdeal.Gen Cert.Proof.Seg

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the second kernel's staging cells, the copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The staging cells' rounds: the left of the right factor (the counters are found by instance in its right). -/
def EP : Emb UP (MT nD τ sig (HIx 1) (Elt F) ℕ UU ℕ) :=
  (Emb.inl : Emb UP (UP × Counters)).trans embR

instance EP_landsIn : (EP : Emb UP 𝕄).LandsIn (upEmb : UEmb _ 𝕄) := by
  unfold EP embR; infer_instance

/-! ## The launch memory and the arrays -/

variable (m : (ℓ : Loc nD τ sig) → Buf (Elt F) ℓ) (ρ : Dev nD → PrngReg)

/-- `x` as given (one column), the segment numbers, the flat rows, the 32 accumulators, the result. -/
abbrev a0Loc (d : Dev nD) : Loc nD τ sig := (SparseCore.T d).loc main_arg0
abbrev a1Loc (d : Dev nD) : Loc nD τ sig := (SparseCore.T d).loc main_arg1
abbrev xLoc (d : Dev nD) : Loc nD τ sig := (SparseCore.T d).loc main_v0
abbrev pLoc (d : Dev nD) : Loc nD τ sig := (SparseCore.T d).loc main_v1
abbrev oLoc (d : Dev nD) : Loc nD τ sig := (SparseCore.T d).loc main_v2

variable [FloatOps F] [hK : Cert.KernelIdeal.Facts]

/-- The flat rows: `x`'s one column read row-major. -/
def xf (d : Dev nD) : Buf (Elt F) (xLoc d) :=
  shapeCast S6400000 (m (a0Loc d)) Facts₀.shapeCasts_S6400000x1_S6400000
/-- The segment numbers. -/
abbrev bt (d : Dev nD) : Buf (Elt F) (a1Loc d) := m (a1Loc d)
/-- The finished accumulators, and the result. -/
def partBuf (d : Dev nD) : Buf (Elt F) (pLoc d) := partOf (F := F) (xf m d) (bt m d)
def outBuf (d : Dev nD) : Buf (Elt F) (oLoc d) := outOf (F := F) (partBuf m d)

/-- Every segment number names a segment. -/
def PreOK : Prop := ∀ (d : Dev nD) (r : S6400000.Idx), (bt m d r).toNat ≤ 4095

/-! ## The tiles' shares -/

/-- The arrays as a vector subcore names them. -/
abbrev xV : Memref sig .scVector .hbm S6400000 .f32 := Memref.whole main_v0_scv
abbrev bV : Memref sig .scVector .hbm S6400000 .i32 := Memref.whole main_arg1_scv
abbrev pV : Memref sig .scVector .hbm S32x65536 .f32 := Memref.whole main_v1_scv

theorem chunk_inb (w : Fin 32) (j : Fin 20) : ∀ a, (![200000 * w.val + 10000 * j.val] : Fin 1 → Nat) a + S10000.size a ≤ S6400000.size a := by
  intro a; have hw := w.isLt; have hj := j.isLt
  match a with | ⟨0, _⟩ => show 200000 * w.val + 10000 * j.val + 10000 ≤ 6400000; omega
/-- Chunk `j` of tile `w`: 10 000 consecutive rows. -/
abbrev chunkRect (w : Fin 32) (j : Fin 20) : Rect S6400000 :=
  Rect.unit (s := S6400000) ![200000 * w.val + 10000 * j.val] S10000.size (chunk_inb w j)
abbrev chunkSet (w : Fin 32) (j : Fin 20) : Finset S6400000.Idx := ((xV : Memref sig .scVector .hbm S6400000 .f32).view.slice (chunkRect w j)).set

theorem prow_inb (w : Fin 32) : ∀ a, (![w.val, 0] : Fin 2 → Nat) a + S1x65536.size a ≤ S32x65536.size a := by
  intro a; have hw := w.isLt
  match a with
  | ⟨0, _⟩ => show w.val + 1 ≤ 32; omega
  | ⟨1, _⟩ => show 0 + 65536 ≤ 65536; omega
/-- Row `w` of the accumulators' array. -/
abbrev prowRect (w : Fin 32) : Rect S32x65536 := Rect.unit (s := S32x65536) ![w.val, 0] S1x65536.size (prow_inb w)
abbrev prowSet (w : Fin 32) : Finset S32x65536.Idx := ((pV : Memref sig .scVector .hbm S32x65536 .f32).view.slice (prowRect w)).set

abbrev xChunk (d : Dev nD) (w : Fin 32) (j : Fin 20) : sProp 𝕄 := xLoc d ↦[chunkSet w j]{fullShare} xf m d
abbrev bChunk (d : Dev nD) (w : Fin 32) (j : Fin 20) : sProp 𝕄 := a1Loc d ↦[chunkSet w j]{fullShare} bt m d
abbrev pRow (d : Dev nD) (w : Fin 32) (f : Buf (Elt F) (pLoc d)) : sProp 𝕄 := pLoc d ↦[prowSet w]{fullShare} f

/-- What tile `w` is handed: its chunks of the rows and of the segment numbers, and its row of the accumulators' array
    at whatever it holds; -/
def goRes (d : Dev nD) (w : Fin 32) : sProp 𝕄 :=
  iprop((bigSep Finset.univ fun j : Fin 20 => xChunk m d w j) ∗ (bigSep Finset.univ fun j : Fin 20 => bChunk m d w j) ∗ ∃ f, pRow d w f)
/-- and what it hands back: the same, its row at the finished accumulator. -/
def tdRes (d : Dev nD) (w : Fin 32) : sProp 𝕄 :=
  iprop((bigSep Finset.univ fun j : Fin 20 => xChunk m d w j) ∗ (bigSep Finset.univ fun j : Fin 20 => bChunk m d w j) ∗ pRow d w (partBuf m d))

/-- The tile's number from its SparseCore and its place on it. -/
def tileNo (c : Fin 2) (i : Fin 16) : Fin 32 := ⟨16 * c.val + i.val, by have := c.isLt; have := i.isLt; omega⟩

/-- The one call hands each SparseCore its sixteen tiles' shares and takes them back. -/
def P : (K (F := F)).Pay (nD := nD) (Val := Elt F) (Name := ℕ) (U := UU) where
  st := fun q d c => match q with | 0 => bigSep Finset.univ fun i : Fin 16 => goRes m d (tileNo (Fin.cast nCore_zero c) i)
  dn := fun q d c => match q with | 0 => bigSep Finset.univ fun i : Fin 16 => tdRes m d (tileNo (Fin.cast nCore_zero c) i)
  go := fun q d c i => match q with | 0 => goRes m d (tileNo (Fin.cast nCore_zero c) (Fin.cast nSub_zero i))
  td := fun q d c i => match q with | 0 => tdRes m d (tileNo (Fin.cast nCore_zero c) (Fin.cast nSub_zero i))
  x := fun _ _ => iprop(emp)

instance P_storable : (P (F := F) m).IsStorable where
  st q d c := match q with | 0 => by unfold P goRes; infer_instance
  dn q d c := match q with | 0 => by unfold P tdRes; infer_instance
  go q d c i := match q with | 0 => by unfold P goRes; infer_instance
  td q d c i := match q with | 0 => by unfold P tdRes; infer_instance

end Cert.Proof.KI

end
-- ==== Proof.TileDefs.lean ====
/-
  One tile's task: its thread, its five scratch buffers and its number, and the contents its two chunk buffers
  hold while chunk `j` is being added (rows `200000 * w + 10000 * j` onward of the flat rows and of the segment
  numbers).
-/
import proofs.«203046_g35227321762133_cont_8to1_b_835_12_alg».proof.Proof.Common

noncomputable section

namespace Cert.Proof.KI

open Cert.KernelIdeal Cert.KernelIdeal.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [hK : Cert.KernelIdeal.Facts]

/-- The tile at grid coordinates `L`: its SparseCore, its place on it, its thread, its number. -/
abbrev cV (L : grid0.Coords) : Fin τ.nSC := (L 0).castLE Facts₀.hcore0
abbrev jV (L : grid0.Coords) : Fin τ.nSub := (L 1).castLE Facts₀.hsub0
abbrev thr (d : Dev nD) (L : grid0.Coords) : Thread nD τ := V d (cV L) (jV L)
theorem bound_zero : grid0.bound 0 = 2 := rfl
theorem bound_one : grid0.bound 1 = 16 := rfl
def wOf (L : grid0.Coords) : Fin 32 := tileNo (Fin.cast bound_zero (L 0)) (Fin.cast bound_one (L 1))
theorem wOf_val (L : grid0.Coords) : (wOf L).val = 16 * (L 0).val + (L 1).val := rfl

/-- The two row buffers, the two segment-number buffers, the accumulator. -/
abbrev s0 : Memref sig .scVector .vmem S10000 .f32 := Memref.whole cc0_scratch0
abbrev s1 : Memref sig .scVector .vmem S10000 .f32 := Memref.whole cc0_scratch1
abbrev s2 : Memref sig .scVector .vmem S10000 .i32 := Memref.whole cc0_scratch2
abbrev s3 : Memref sig .scVector .vmem S10000 .i32 := Memref.whole cc0_scratch3
abbrev s4 : Memref sig .scVector .vmem S65536 .f32 := Memref.whole cc0_scratch4

/-- The lane numbers, as the kernel makes them. -/
abbrev lanes : IVec S16 32 := iota .scVector S16 32 [0] Facts₀.iota_S16_d0_w32_scVector

/-- Vector `n` (of 625) of a chunk buffer's contents. -/
def vecOf {e : EltTy} (c : Vec F S10000 e) (n : Fin 625) : Vec F S16 e :=
  fun l => c (ix1 ⟨16 * n.val + (l 0).val, by
    have h : (l 0).val < 16 := (l 0).isLt
    have hn := n.isLt; omega⟩)

end Cert.Proof.KI

end
-- ==== Proof.TileZero.lean ====
/-
  The loop that zeroes a tile's accumulator: 256 trips, each storing sixteen zero vectors of sixteen lanes, so that
  trip k leaves positions below 256 (k + 1) at zero and the rest as they were.
-/
import proofs.«203046_g35227321762133_cont_8to1_b_835_12_alg».proof.Proof.TileDefs

noncomputable section

namespace Cert.Proof.KI

open Cert.KernelIdeal Cert.KernelIdeal.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [hK : Cert.KernelIdeal.Facts]
variable (m : (ℓ : Loc nD τ sig) → Buf (Elt F) ℓ) (d : Dev nD) (L : grid0.Coords)

/-- The accumulator with its first 256*k positions zeroed. -/
def zfill (g0 : Buf (Elt F) ((thr d L).loc cc0_scratch4)) (k : Nat) : Buf (Elt F) ((thr d L).loc cc0_scratch4) :=
  fun i => if (i 0).val < 256 * k then Scalar.ofBits .f32 0x00000000#32 else g0 i

/-- Before trip k the accumulator has its first 256 k positions zeroed. -/
def zinv (g0 : Buf (Elt F) ((thr d L).loc cc0_scratch4)) (k : Nat) (_ : PUnit) : sProp 𝕄 :=
  iprop((s4).view.loc (thr d L) ↦{fullShare} zfill d L g0 k)

/-- Writes of one value through rectangles that together cover exactly the positions from lo up to hi (excluded). -/
theorem writes_block (f : Buf (Elt F) ((thr d L).loc cc0_scratch4)) (Ls : List (View.Piece (Elt F) S65536 .f32)) (lo hi : Nat) (z : Elt F .f32)
    (hz : ∀ p ∈ Ls, ∀ x, p.2 x = z)
    (hmem : ∀ y : S65536.Idx, (∃ p ∈ Ls, y ∈ p.1.set) ↔ (lo ≤ (y 0).val ∧ (y 0).val < hi)) :
    (s4).view.writes (Elt F) f Ls = fun i => if lo ≤ (i 0).val ∧ (i 0).val < hi then z else f i := by
  funext i
  by_cases hi' : lo ≤ (i 0).val ∧ (i 0).val < hi
  · rw [if_pos hi']
    exact View.read_writes_apply_of_pieces (s4).view f (fun _ => z) Ls hz i ((hmem i).mpr hi')
  · rw [if_neg hi']
    exact View.read_writes_apply_of_forall_not_mem (s4).view f i Ls (fun p hp hy => hi' ((hmem i).mp ⟨p, hp, hy⟩))

/-- The zeroing loop makes 256 trips. -/
theorem t1_trips : k0_t1_loop.trips = 256 := by decide +kernel

theorem t1_trips' : Scf.trips k0_t1_loop.lb k0_t1_loop.ub k0_t1_loop.st = 256 := t1_trips

/-- Sixteen consecutive positions from o on. -/
theorem mem_unit16 {off : Fin 1 → Nat} {o : Nat} (h : off = ![o]) {inb : ∀ a, off a + S16.size a ≤ S65536.size a} {y : S65536.Idx} :
    y ∈ (Rect.unit (s := S65536) off S16.size inb).set ↔ (o ≤ (y 0).val ∧ (y 0).val < o + 16) := by
  subst h
  rw [Rect.mem_set_unit]
  constructor
  · intro h; exact h 0
  · intro h a
    have ha : a = 0 := Subsingleton.elim _ _
    subst ha; exact h

theorem zfill_zero (g0 : Buf (Elt F) ((thr d L).loc cc0_scratch4)) : zfill d L g0 0 = g0 := by
  funext i; unfold zfill; rw [if_neg (by omega)]

theorem zfill_succ (g0 : Buf (Elt F) ((thr d L).loc cc0_scratch4)) (k : Nat) :
    (fun i => if 256 * k ≤ (i 0).val ∧ (i 0).val < 256 * k + 256 then Scalar.ofBits .f32 0x00000000#32 else zfill d L g0 k i) = zfill d L g0 (k + 1) := by
  funext i; unfold zfill
  by_cases h1 : (i 0).val < 256 * k
  · rw [if_neg (by omega), if_pos h1, if_pos (by omega)]
  · by_cases h2 : (i 0).val < 256 * k + 256
    · rw [if_pos (by omega), if_pos (by omega)]
    · rw [if_neg (by omega), if_neg h1, if_neg (by omega)]

theorem zfill_full (g0 : Buf (Elt F) ((thr d L).loc cc0_scratch4)) :
    zfill d L g0 256 = (accAt (F := F) (xf m d) (bt m d) (wOf L) 0 : Buf (Elt F) ((thr d L).loc cc0_scratch4)) := by
  funext i; unfold zfill
  have hi : (i 0).val < 65536 := (i 0).isLt
  rw [if_pos (by omega)]; rfl

/-- The zeroing loop: trip k zeroes positions 256 k to 256 k + 255, in sixteen stores of sixteen lanes. -/
theorem zero_loop_run (g0 : Buf (Elt F) ((thr d L).loc cc0_scratch4)) {α : Type}
    (k : Unit → Prog (TpuEff nD τ sig (Elt F) Λ₀ (thr d L).2) α) (Φ : α → sProp 𝕄) :
    iprop(((s4).view.loc (thr d L) ↦{fullShare} g0)
        ∗ (((s4).view.loc (thr d L) ↦{fullShare} (accAt (F := F) (xf m d) (bt m d) (wOf L) 0 : Buf (Elt F) ((thr d L).loc cc0_scratch4)))
            -∗ wp frame (wpE (defs₀ (F := F)) 𝒱₀ (thr d L) none) Set.univ (k ⟨⟩) Φ))
      ⊢ wp frame (wpE (defs₀ (F := F)) 𝒱₀ (thr d L) none) Set.univ
          (Scf.Loop.for k0_t1_loop k0_t1_ok ⟨⟩ (k0_t1_body L xV (Memref.isWhole_whole _) bV (Memref.isWhole_whole _) pV (Memref.isWhole_whole _)
            s0 (Memref.isWhole_whole _) s1 (Memref.isWhole_whole _) s2 (Memref.isWhole_whole _) s3 (Memref.isWhole_whole _) s4 (Memref.isWhole_whole _)
            cc0_scratch5 cc0_scratch6 cc0_scoped0) >>= k) Φ := by
  iintro ⟨Hs, Hk⟩
  sl_for (zinv d L g0) $$ [Hs]
  case region =>
    intro k _
    unfold zinv
    iintro Hs
    sl_exec
    sl_step
    have e0 : k0_off1 k 0#32 = ![256 * k.val + 0] := k0_off1_eq k ⟨0, by decide⟩
    have e1 : k0_off1 k 1#32 = ![256 * k.val + 16] := k0_off1_eq k ⟨1, by decide⟩
    have e2 : k0_off1 k 2#32 = ![256 * k.val + 32] := k0_off1_eq k ⟨2, by decide⟩
    have e3 : k0_off1 k 3#32 = ![256 * k.val + 48] := k0_off1_eq k ⟨3, by decide⟩
    have e4 : k0_off1 k 4#32 = ![256 * k.val + 64] := k0_off1_eq k ⟨4, by decide⟩
    have e5 : k0_off1 k 5#32 = ![256 * k.val + 80] := k0_off1_eq k ⟨5, by decide⟩
    have e6 : k0_off1 k 6#32 = ![256 * k.val + 96] := k0_off1_eq k ⟨6, by decide⟩
    have e7 : k0_off1 k 7#32 = ![256 * k.val + 112] := k0_off1_eq k ⟨7, by decide⟩
    have e8 : k0_off1 k 8#32 = ![256 * k.val + 128] := k0_off1_eq k ⟨8, by decide⟩
    have e9 : k0_off1 k 9#32 = ![256 * k.val + 144] := k0_off1_eq k ⟨9, by decide⟩
    have e10 : k0_off1 k 10#32 = ![256 * k.val + 160] := k0_off1_eq k ⟨10, by decide⟩
    have e11 : k0_off1 k 11#32 = ![256 * k.val + 176] := k0_off1_eq k ⟨11, by decide⟩
    have e12 : k0_off1 k 12#32 = ![256 * k.val + 192] := k0_off1_eq k ⟨12, by decide⟩
    have e13 : k0_off1 k 13#32 = ![256 * k.val + 208] := k0_off1_eq k ⟨13, by decide⟩
    have e14 : k0_off1 k 14#32 = ![256 * k.val + 224] := k0_off1_eq k ⟨14, by decide⟩
    have e15 : k0_off1 k 15#32 = ![256 * k.val + 240] := k0_off1_eq k ⟨15, by decide⟩
    rw [writes_block d L _ _ (256 * k.val) (256 * k.val + 256) (Scalar.ofBits .f32 0x00000000#32), zfill_succ]
    · iexact Hs
    · intro p hp x
      simp only [List.mem_cons, List.not_mem_nil, _root_.or_false] at hp
      repeat (rcases hp with rfl | hp; · rfl)
    · intro y
      simp only [List.mem_cons, List.not_mem_nil, _root_.or_false, exists_eq_or_imp, exists_eq_left, mem_unit16 e0, mem_unit16 e1, mem_unit16 e2, mem_unit16 e3, mem_unit16 e4, mem_unit16 e5, mem_unit16 e6, mem_unit16 e7, mem_unit16 e8, mem_unit16 e9, mem_unit16 e10, mem_unit16 e11, mem_unit16 e12, mem_unit16 e13, mem_unit16 e14, mem_unit16 e15]
      omega
  · unfold zinv
    rw [zfill_zero]
    iexact Hs
  iintro %acc HI
  unfold zinv
  rw [t1_trips', zfill_full m]
  sl_respell []
  iapply Hk
  iexact HI

end Cert.Proof.KI

end
-- ==== Proof.LibLanes.lean ====
/-
  General lemmas for the in-range checks of a SparseCore body's indexed loads and stores (`load_gather`,
  `store_scatter`, `addupdate_scatter`), for any lane count and any array extents. Nothing here mentions a program.

  A printed body assumes, before each indexed access, that every lane of each index vector names a coordinate inside the
  base array: `∀ a x, ((![v₀, …] : Fin r → IVec t 32) a x).toNat < s.size a`. Each check definition of a printed program
  unfolds to that proposition, so the lemmas below prove it whatever the check's name is:

  * `idx1_ok`, `idx2_ok`: the one- and two-coordinate shapes, from a bound per index vector.
  * `bcast_lt`: a constant column / row (a broadcast scalar) is below any bound its value is below.
  * `lane_apply`, `lane_toNat`: the lane counter (`tpu.iota` over axis 0 of a rank-one vector) at lane x is x.
  * `iv01`, `iv01_toNat`: the induction variable of a loop from 0 by 1 at trip k is k.
  * `addi_lit_toNat`, `muli_lit_toNat`: a word plus / times a literal, read unsigned, when nothing overflows.
  * `row_lane_lt`: the index vector "trip base + lane" (a broadcast k·n plus the lane counter) is below trips·n.
  * `readAt_lt`: the lanes a plain vector load reads out of a scratch inherit a bound every entry of the scratch has
    (an index list copied in from an array whose entries the precondition bounds).
-/
import Idealize.ShloMosaic.Lib.ValueIdx
import Idealize.ShloMosaic.Lib.Scf
import Idealize.ShloMosaic.Signature.View
import Mathlib.Tactic

noncomputable section

namespace Cert.Lib

open Idealize.ShloMosaic

/-- One index vector below the array's only extent names elements of the array. -/
theorem idx1_ok {t : Shape} {n : Nat} (A : IVec t 32) (hA : ∀ x, (A x).toNat < n) :
    ∀ a x, ((![A] : Fin 1 → IVec t 32) a x).toNat < (⟨1, ![n]⟩ : Shape).size a := by
  intro a x
  match a with
  | ⟨0, _⟩ => exact hA x

/-- A row index vector below the row extent beside a column index vector below the column extent names elements of the array. -/
theorem idx2_ok {t : Shape} {n m : Nat} (A B : IVec t 32) (hA : ∀ x, (A x).toNat < n) (hB : ∀ x, (B x).toNat < m) :
    ∀ a x, ((![A, B] : Fin 2 → IVec t 32) a x).toNat < (⟨2, ![n, m]⟩ : Shape).size a := by
  intro a x
  match a with
  | ⟨0, _⟩ => exact hA x
  | ⟨1, _⟩ => exact hB x

/-- A broadcast word is below whatever the word is below, at every lane. -/
theorem bcast_lt {t : Shape} (c : BitVec 32) (n : Nat) (hc : c.toNat < n) : ∀ x, ((broadcast t c : IVec t 32) x).toNat < n :=
  fun _ => hc

/-- The lane counter at lane x is the word x. -/
theorem lane_apply {κ : Kind} {n : Nat} (h : (⟨1, ![n]⟩ : Shape).Iotas κ 32 [0]) (x : (⟨1, ![n]⟩ : Shape).Idx) :
    (iota κ ⟨1, ![n]⟩ 32 [0] h : IVec ⟨1, ![n]⟩ 32) x = BitVec.ofNat 32 (x 0).val := by
  simp [iota]

/-- The lane counter at lane x, read unsigned, is x (for fewer than 2³² lanes). -/
theorem lane_toNat {κ : Kind} {n : Nat} (hn : n ≤ 2 ^ 32) (h : (⟨1, ![n]⟩ : Shape).Iotas κ 32 [0]) (x : (⟨1, ![n]⟩ : Shape).Idx) :
    ((iota κ ⟨1, ![n]⟩ 32 [0] h : IVec ⟨1, ![n]⟩ 32) x).toNat = (x 0).val := by
  have hx : (x 0).val < n := (x 0).isLt
  rw [lane_apply, BitVec.toNat_ofNat]
  omega

/-- The induction variable of a loop from 0 by 1, at trip k. -/
theorem iv01 (k : Nat) : Scf.iv (0#32) (1#32) k = BitVec.ofNat 32 k := by simp [Scf.iv]

theorem iv01_toNat (k : Nat) (hk : k < 2 ^ 32) : (Scf.iv (0#32) (1#32) k).toNat = k := by
  rw [iv01, BitVec.toNat_ofNat]; omega

/-- A word plus a literal, read unsigned, when the sum does not overflow. -/
theorem addi_lit_toNat (w : BitVec 32) (c m : Nat) (hw : w.toNat < m) (hm : m + c < 2 ^ 32) :
    (IntOp.addi w (BitVec.ofNat 32 c)).toNat = w.toNat + c := by
  simp only [IntOp.addi, BitVec.toNat_add, BitVec.toNat_ofNat]
  omega

/-- A word times a literal, read unsigned, when the product does not overflow. -/
theorem muli_lit_toNat (w : BitVec 32) (c m : Nat) (hw : w.toNat < m) (hm : m * c < 2 ^ 32) :
    (IntOp.muli w (BitVec.ofNat 32 c)).toNat = w.toNat * c := by
  have h1 : w.toNat * c ≤ m * c := Nat.mul_le_mul_right c (Nat.le_of_lt hw)
  rcases Nat.eq_zero_or_pos c with hc | hc
  · subst hc; simp [IntOp.muli]
  · have hc2 : c < 2 ^ 32 := lt_of_le_of_lt (Nat.le_mul_of_pos_left c (Nat.pos_of_ne_zero (by rintro rfl; omega))) hm
    simp only [IntOp.muli, BitVec.toNat_mul, BitVec.toNat_ofNat, Nat.mod_eq_of_lt hc2]
    exact Nat.mod_eq_of_lt (lt_of_le_of_lt h1 hm)

/-- "Trip base plus lane": the broadcast of k·n plus the lane counter, at a trip k below `trips`, is below trips·n. -/
theorem row_lane_lt {κ : Kind} {n trips : Nat} (hb : trips * n < 2 ^ 32) (h : (⟨1, ![n]⟩ : Shape).Iotas κ 32 [0])
    (k : Nat) (hk : k < trips) :
    ∀ x, ((addi (broadcast ⟨1, ![n]⟩ (Scalar.muli (Scf.iv (0#32) (1#32) k) (BitVec.ofNat 32 n))) (iota κ ⟨1, ![n]⟩ 32 [0] h) : IVec ⟨1, ![n]⟩ 32) x).toNat
      < trips * n := by
  intro x
  have hx : (x 0).val < n := (x 0).isLt
  have hkn : k * n + n ≤ trips * n := by
    calc k * n + n = (k + 1) * n := by ring
      _ ≤ trips * n := Nat.mul_le_mul_right n hk
  have hk32 : k < 2 ^ 32 := by
    rcases Nat.eq_zero_or_pos n with hn | hn
    · subst hn; exact absurd hx (Nat.not_lt_zero _)
    · exact lt_of_le_of_lt (Nat.le_mul_of_pos_right k hn) (lt_of_lt_of_le (by omega) (Nat.le_of_lt hb))
  have hn32 : n < 2 ^ 32 := by
    have : n ≤ trips * n := Nat.le_mul_of_pos_left n (by omega)
    omega
  show (IntOp.addi (Scalar.muli (Scf.iv (0#32) (1#32) k) (BitVec.ofNat 32 n)) ((iota κ ⟨1, ![n]⟩ 32 [0] h : IVec ⟨1, ![n]⟩ 32) x)).toNat < trips * n
  rw [lane_apply, iv01]
  have e1 : (Scalar.muli (BitVec.ofNat 32 k) (BitVec.ofNat 32 n)).toNat = k * n := by
    simp only [Scalar.muli, IntOp.muli, BitVec.toNat_mul, BitVec.toNat_ofNat, Nat.mod_eq_of_lt hk32, Nat.mod_eq_of_lt hn32]
    exact Nat.mod_eq_of_lt (by omega)
  have e2 : (BitVec.ofNat 32 (x 0).val).toNat = (x 0).val := by rw [BitVec.toNat_ofNat]; omega
  simp only [IntOp.addi, BitVec.toNat_add, e1, e2]
  rw [Nat.mod_eq_of_lt (by omega)]
  omega

/-- The lanes a plain vector load reads out of a view of 32-bit words inherit a bound that every word the view reads has. -/
theorem readAt_lt {sig : RefSig} {κ : Kind} {sp : Space} {s : Shape} {F : FTy → Type} (v : View sig κ sp s .i32) (r : LoadRect s)
    (f : v.ty.Contents (Elt F)) (n : Nat) (hf : ∀ j, (v.read (Elt F) f j).toNat < n) :
    ∀ x, (v.readAt (Elt F) r f x).toNat < n :=
  fun x => hf (r.idx x)

end Cert.Lib

end
-- ==== Proof.TileScat.lean ====
/-
  One step of a chunk's loop: the indexed add-store of one vector of sixteen rows into the accumulator, at sixteen
  times each row's segment number plus the lane. The positions lie inside the accumulator because segment numbers are
  at most 4095; the store then takes the accumulator after n vectors to the accumulator after n + 1. Also: what a
  load of sixteen lanes reads out of a chunk buffer, and the bound on a chunk of segment numbers.
-/
import proofs.«203046_g35227321762133_cont_8to1_b_835_12_alg».proof.Proof.TileDefs
import proofs.«203046_g35227321762133_cont_8to1_b_835_12_alg».proof.Proof.LibLanes

noncomputable section

namespace Cert.Proof.KI

open Cert.KernelIdeal Cert.KernelIdeal.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [hK : Cert.KernelIdeal.Facts]
variable (m : (ℓ : Loc nD τ sig) → Buf (Elt F) ℓ) (d : Dev nD) (L : grid0.Coords)

/-- The lane numbers the kernel makes are the lane numbers of the specification. -/
theorem lanes_eq : (lanes : IVec S16 32) = laneVec := by
  funext x
  exact Cert.Lib.lane_apply _ x

/-- Sixteen times a segment number below 4096, plus a lane below 16, lies in the accumulator. -/
theorem posOk_of_le (ids : IVec S16 32) (h : ∀ x, (ids x).toNat ≤ 4095) : PosOk ids := by
  intro a x
  have ha : a = 0 := Subsingleton.elim _ _
  subst ha
  have hx : (x 0).val < 16 := (x 0).isLt
  have h1 : (IntOp.muli (ids x) (BitVec.ofNat 32 16)).toNat = (ids x).toNat * 16 :=
    Cert.Lib.muli_lit_toNat (ids x) 16 4096 (by have := h x; omega) (by norm_num)
  show (IntOp.addi (IntOp.muli (ids x) (BitVec.ofNat 32 16)) (BitVec.ofNat 32 (x 0).val)).toNat < 65536
  rw [Cert.Lib.addi_lit_toNat _ (x 0).val 65521 (by rw [h1]; have := h x; omega) (by omega), h1]
  have := h x; omega

/-- The indexed add-store depends on its index vector only. -/
theorem storeIdx_congr_idx (g : Vec F S65536 .f32) (v : Vec F S16 .f32) {A B : IVec S16 32} (e : A = B)
    (hA : ∀ a x, ((![A] : Fin S65536.rank → IVec S16 32) a x).toNat < S65536.size a)
    (hB : ∀ a x, ((![B] : Fin S65536.rank → IVec S16 32) a x).toNat < S65536.size a) :
    storeIdx g ![A] v (fun _ => 1#1) true hA = storeIdx g ![B] v (fun _ => 1#1) true hB := by
  subst e; rfl

/-- One vector added: the accumulator after n vectors, scattered into at sixteen times vector n's segment numbers plus
    the lane, with vector n's rows, is the accumulator after n + 1 vectors. -/
theorem accAt_step (hpre : PreOK m) (n : Nat) (hn : n < 12500)
    (h : ∀ a x, ((![addi (muli (bVec (bt m d) (wOf L) ⟨n, hn⟩) (broadcast S16 16#32)) lanes] : Fin S65536.rank → IVec S16 32) a x).toNat < S65536.size a) :
    accAt (F := F) (xf m d) (bt m d) (wOf L) (n + 1)
      = storeIdx (accAt (F := F) (xf m d) (bt m d) (wOf L) n) ![addi (muli (bVec (bt m d) (wOf L) ⟨n, hn⟩) (broadcast S16 16#32)) lanes]
          (xVec (F := F) (xf m d) (wOf L) ⟨n, hn⟩) (fun _ => 1#1) true h := by
  have hok : PosOk (bVec (bt m d) (wOf L) ⟨n, hn⟩) := posOk_of_le _ (fun x => hpre d _)
  have e : posVec (bVec (bt m d) (wOf L) ⟨n, hn⟩) = addi (muli (bVec (bt m d) (wOf L) ⟨n, hn⟩) (broadcast S16 16#32)) lanes := by
    unfold posVec; rw [lanes_eq]
  exact (accAt_succ _ _ _ n hn).trans ((scat_of_ok _ _ _ hok).trans (storeIdx_congr_idx _ _ e _ _))

/-- The accumulator held whole, as the indexed store's rule spells it. -/
theorem pts_acc (f : Buf (Elt F) ((thr d L).loc cc0_scratch4)) :
    ((((s4).access (Rect.whole S65536)).loc (thr d L) ↦[((s4).access (Rect.whole S65536)).set]{fullShare} f) : sProp 𝕄)
      = ((s4).view.loc (thr d L) ↦{fullShare} f) := by
  have e : ((s4).access (Rect.whole S65536)).set = Finset.univ := Memref.set_access_whole cc0_scratch4
  rw [e]

/-- The indexed add-store of one vector: from the accumulator after n vectors to the accumulator after n + 1, when the
    stored vector and the index vector are vector n's rows and sixteen times its segment numbers plus the lane. -/
theorem wp_scat (hpre : PreOK m) (n : Nat) (hn : n < 12500) (ids : IVec S16 32) (v : Vec F S16 .f32)
    (hids : ids = bVec (bt m d) (wOf L) ⟨n, hn⟩) (hv : v = xVec (F := F) (xf m d) (wOf L) ⟨n, hn⟩)
    (h : ∀ a x, ((![addi (muli ids (broadcast S16 16#32)) lanes] : Fin S65536.rank → IVec S16 32) a x).toNat < S65536.size a)
    (hs : ((s4).access (Rect.whole S65536)).Stores Finset.univ)
    {β : Type} (kk : PUnit → Prog (TpuEff nD τ sig (Elt F) Λ₀ (thr d L).2) β) (Q : β → sProp 𝕄) :
    ((s4).view.loc (thr d L) ↦{fullShare} (accAt (F := F) (xf m d) (bt m d) (wOf L) n : Buf (Elt F) ((thr d L).loc cc0_scratch4)))
      ⊢ iprop((((s4).view.loc (thr d L) ↦{fullShare} (accAt (F := F) (xf m d) (bt m d) (wOf L) (n + 1) : Buf (Elt F) ((thr d L).loc cc0_scratch4)))
            -∗ wp frame (wpE (defs₀ (F := F)) 𝒱₀ (thr d L) none) Set.univ (kk ⟨⟩) Q)
          -∗ wp frame (wpE (defs₀ (F := F)) 𝒱₀ (thr d L) none) Set.univ
              (SparseCore.vectorStoreIdx s4 ![addi (muli ids (broadcast S16 16#32)) lanes] v (fun _ => 1#1) true h hs >>= kk) Q) := by
  subst hids hv
  rw [← pts_acc, ← pts_acc, accAt_step m d L hpre n hn h]
  have hw := SparseCore.wp_vectorStoreIdx (defs := defs₀ (F := F)) 𝒱₀ (thr d L) none Set.univ (base := s4)
    (idxs := ![addi (muli (bVec (bt m d) (wOf L) ⟨n, hn⟩) (broadcast S16 16#32)) lanes]) (v := xVec (F := F) (xf m d) (wOf L) ⟨n, hn⟩)
    (mask := fun _ => 1#1) (add := true) (h := h) (hs := hs) (k := kk) (Q := Q)
    (f := (accAt (F := F) (xf m d) (bt m d) (wOf L) n : Buf (Elt F) ((thr d L).loc cc0_scratch4)))
  have ew : ∀ f w : Buf (Elt F) ((thr d L).loc cc0_scratch4), View.write (Elt F) ((s4).access (Rect.whole S65536)) f w Finset.univ = w :=
    fun f w => Memref.write_access_whole_univ (Elt F) cc0_scratch4 f w
  have er : ∀ f : Buf (Elt F) ((thr d L).loc cc0_scratch4), View.read (Elt F) ((s4).access (Rect.whole S65536)) f = f :=
    fun f => Memref.read_access_whole (Elt F) cc0_scratch4 f
  rw [ew, er] at hw
  exact hw

/-- The in-range check of an indexed add-store whose segment numbers are at most 4095. -/
theorem chk_ok (ids : IVec S16 32) (h : ∀ x, (ids x).toNat ≤ 4095) :
    ∀ a x, ((![addi (muli ids (broadcast S16 16#32)) lanes] : Fin S65536.rank → IVec S16 32) a x).toNat < S65536.size a := by
  rw [lanes_eq]; exact posOk_of_le ids h

/-- A load of sixteen lanes at sixteen times n reads vector n of the buffer. -/
theorem readAt_c0 (c : Buf (Elt F) ((thr d L).loc cc0_scratch0)) (off : Fin 1 → Nat) (o : Nat) (hoff : off = ![o]) (n : Fin 625) (ho : o = 16 * n.val)
    (inb : ∀ a, off a + S16.size a ≤ S10000.size a) :
    View.readAt (Elt F) (Memref.whole cc0_scratch0 : Memref sig .scVector .vmem S10000 .f32).view (Rect.unit (s := S10000) off S16.size inb).toLoadRect c
      = vecOf (F := F) (e := .f32) c n := by
  subst hoff; subst ho
  funext x
  refine congrArg c (funext fun (a : Fin 1) => Fin.ext ?_)
  have ha : a = 0 := Subsingleton.elim _ _
  subst ha
  show 16 * n.val + 1 * (x 0).val = 16 * n.val + (x 0).val
  omega

/-- A load of sixteen lanes at sixteen times n reads vector n of the buffer. -/
theorem readAt_c1 (c : Buf (Elt F) ((thr d L).loc cc0_scratch1)) (off : Fin 1 → Nat) (o : Nat) (hoff : off = ![o]) (n : Fin 625) (ho : o = 16 * n.val)
    (inb : ∀ a, off a + S16.size a ≤ S10000.size a) :
    View.readAt (Elt F) (Memref.whole cc0_scratch1 : Memref sig .scVector .vmem S10000 .f32).view (Rect.unit (s := S10000) off S16.size inb).toLoadRect c
      = vecOf (F := F) (e := .f32) c n := by
  subst hoff; subst ho
  funext x
  refine congrArg c (funext fun (a : Fin 1) => Fin.ext ?_)
  have ha : a = 0 := Subsingleton.elim _ _
  subst ha
  show 16 * n.val + 1 * (x 0).val = 16 * n.val + (x 0).val
  omega

/-- A load of sixteen lanes at sixteen times n reads vector n of the buffer. -/
theorem readAt_c2 (c : Buf (Elt F) ((thr d L).loc cc0_scratch2)) (off : Fin 1 → Nat) (o : Nat) (hoff : off = ![o]) (n : Fin 625) (ho : o = 16 * n.val)
    (inb : ∀ a, off a + S16.size a ≤ S10000.size a) :
    View.readAt (Elt F) (Memref.whole cc0_scratch2 : Memref sig .scVector .vmem S10000 .i32).view (Rect.unit (s := S10000) off S16.size inb).toLoadRect c
      = vecOf (F := F) (e := .i32) c n := by
  subst hoff; subst ho
  funext x
  refine congrArg c (funext fun (a : Fin 1) => Fin.ext ?_)
  have ha : a = 0 := Subsingleton.elim _ _
  subst ha
  show 16 * n.val + 1 * (x 0).val = 16 * n.val + (x 0).val
  omega

/-- A load of sixteen lanes at sixteen times n reads vector n of the buffer. -/
theorem readAt_c3 (c : Buf (Elt F) ((thr d L).loc cc0_scratch3)) (off : Fin 1 → Nat) (o : Nat) (hoff : off = ![o]) (n : Fin 625) (ho : o = 16 * n.val)
    (inb : ∀ a, off a + S16.size a ≤ S10000.size a) :
    View.readAt (Elt F) (Memref.whole cc0_scratch3 : Memref sig .scVector .vmem S10000 .i32).view (Rect.unit (s := S10000) off S16.size inb).toLoadRect c
      = vecOf (F := F) (e := .i32) c n := by
  subst hoff; subst ho
  funext x
  refine congrArg c (funext fun (a : Fin 1) => Fin.ext ?_)
  have ha : a = 0 := Subsingleton.elim _ _
  subst ha
  show 16 * n.val + 1 * (x 0).val = 16 * n.val + (x 0).val
  omega

/-- A chunk of segment numbers that is made of vectors of the tile's segment numbers holds nothing above 4095. -/
theorem chunk_le (hpre : PreOK m) (bc : Vec F S10000 .i32) (n0 : Nat) (hn0 : n0 + 625 ≤ 12500)
    (hb : ∀ n : Fin 625, vecOf (F := F) (e := .i32) bc n = bVec (bt m d) (wOf L) ⟨n0 + n.val, by have := n.isLt; omega⟩) :
    ∀ i : S10000.Idx, (bc i).toNat ≤ 4095 := by
  intro i
  have hi : (i 0).val < 10000 := (i 0).isLt
  have e : bc i = vecOf (F := F) (e := .i32) bc ⟨(i 0).val / 16, by omega⟩ (ix1 ⟨(i 0).val % 16, Nat.mod_lt _ (by norm_num)⟩) := by
    unfold vecOf
    refine congrArg bc (funext fun (a : Fin 1) => Fin.ext ?_)
    have ha : a = 0 := Subsingleton.elim _ _
    subst ha
    show (i 0).val = 16 * ((i 0).val / 16) + (i 0).val % 16
    omega
  rw [e, hb]
  exact hpre d _

/-- The same with the two vector counts named apart from the vector's own number. -/
theorem wp_scat' (hpre : PreOK m) (nA nB n : Nat) (hn : n < 12500) (hA : nA = n) (hB : nB = n + 1) (ids : IVec S16 32) (v : Vec F S16 .f32)
    (hids : ids = bVec (bt m d) (wOf L) ⟨n, hn⟩) (hv : v = xVec (F := F) (xf m d) (wOf L) ⟨n, hn⟩)
    (h : ∀ a x, ((![addi (muli ids (broadcast S16 16#32)) lanes] : Fin S65536.rank → IVec S16 32) a x).toNat < S65536.size a)
    (hs : ((s4).access (Rect.whole S65536)).Stores Finset.univ)
    {β : Type} (kk : PUnit → Prog (TpuEff nD τ sig (Elt F) Λ₀ (thr d L).2) β) (Q : β → sProp 𝕄) :
    ((s4).view.loc (thr d L) ↦{fullShare} (accAt (F := F) (xf m d) (bt m d) (wOf L) nA : Buf (Elt F) ((thr d L).loc cc0_scratch4)))
      ⊢ iprop((((s4).view.loc (thr d L) ↦{fullShare} (accAt (F := F) (xf m d) (bt m d) (wOf L) nB : Buf (Elt F) ((thr d L).loc cc0_scratch4)))
            -∗ wp frame (wpE (defs₀ (F := F)) 𝒱₀ (thr d L) none) Set.univ (kk ⟨⟩) Q)
          -∗ wp frame (wpE (defs₀ (F := F)) 𝒱₀ (thr d L) none) Set.univ
              (SparseCore.vectorStoreIdx s4 ![addi (muli ids (broadcast S16 16#32)) lanes] v (fun _ => 1#1) true h hs >>= kk) Q) := by
  subst hA; subst hB
  exact wp_scat m d L hpre nA hn ids v hids hv h hs kk Q

end Cert.Proof.KI

end
-- ==== Proof.TileAdd0.lean ====
/-
  The loop that adds one chunk from the first pair of chunk buffers into the accumulator: 25 trips of 25 vectors. Trip k,
  vector u: sixteen rows and their segment numbers are read at position 400 k + 16 u of the two buffers, that is vector
  25 k + u of the chunk, and added into the accumulator at sixteen times the segment number plus the lane; the
  accumulator goes from its state after n0 + 25 k + u vectors to its state after one more.
-/
import proofs.«203046_g35227321762133_cont_8to1_b_835_12_alg».proof.Proof.TileScat

noncomputable section

namespace Cert.Proof.KI

open Cert.KernelIdeal Cert.KernelIdeal.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [hK : Cert.KernelIdeal.Facts]
variable (m : (ℓ : Loc nD τ sig) → Buf (Elt F) ℓ) (d : Dev nD) (L : grid0.Coords)

/-- The loop makes 25 trips. -/
theorem t3_trips : k0_t3_loop.trips = 25 := by decide +kernel
theorem t3_trips' : Scf.trips k0_t3_loop.lb k0_t3_loop.ub k0_t3_loop.st = 25 := t3_trips

/-- Before trip k of a chunk's loop the two chunk buffers are as they were and the accumulator has had 25 k more vectors added. -/
def ainv0 (xc : Buf (Elt F) ((thr d L).loc cc0_scratch0)) (bc : Buf (Elt F) ((thr d L).loc cc0_scratch2)) (n0 : Nat) (k : Nat) (_ : PUnit) : sProp 𝕄 :=
  iprop(((s0).view.loc (thr d L) ↦{fullShare} xc) ∗ ((s2).view.loc (thr d L) ↦{fullShare} bc)
    ∗ ((s4).view.loc (thr d L) ↦{fullShare} (accAt (F := F) (xf m d) (bt m d) (wOf L) (n0 + 25 * k) : Buf (Elt F) ((thr d L).loc cc0_scratch4))))

/-- The chunk's loop: from the accumulator after n0 vectors to the accumulator after n0 + 625, the chunk buffers unchanged. -/
theorem add_chunk0_run (hpre : PreOK m) (xc : Buf (Elt F) ((thr d L).loc cc0_scratch0)) (bc : Buf (Elt F) ((thr d L).loc cc0_scratch2))
    (n0 : Nat) (hn0 : n0 + 625 ≤ 12500)
    (hx : ∀ n : Fin 625, vecOf (F := F) (e := .f32) xc n = xVec (F := F) (xf m d) (wOf L) ⟨n0 + n.val, by have := n.isLt; omega⟩)
    (hb : ∀ n : Fin 625, vecOf (F := F) (e := .i32) bc n = bVec (bt m d) (wOf L) ⟨n0 + n.val, by have := n.isLt; omega⟩)
    {α : Type} (k : Unit → Prog (TpuEff nD τ sig (Elt F) Λ₀ (thr d L).2) α) (Φ : α → sProp 𝕄) :
    iprop(((s0).view.loc (thr d L) ↦{fullShare} xc) ∗ ((s2).view.loc (thr d L) ↦{fullShare} bc)
        ∗ ((s4).view.loc (thr d L) ↦{fullShare} (accAt (F := F) (xf m d) (bt m d) (wOf L) n0 : Buf (Elt F) ((thr d L).loc cc0_scratch4)))
        ∗ ((((s0).view.loc (thr d L) ↦{fullShare} xc) ∗ ((s2).view.loc (thr d L) ↦{fullShare} bc)
            ∗ ((s4).view.loc (thr d L) ↦{fullShare} (accAt (F := F) (xf m d) (bt m d) (wOf L) (n0 + 625) : Buf (Elt F) ((thr d L).loc cc0_scratch4))))
            -∗ wp frame (wpE (defs₀ (F := F)) 𝒱₀ (thr d L) none) Set.univ (k ⟨⟩) Φ))
      ⊢ wp frame (wpE (defs₀ (F := F)) 𝒱₀ (thr d L) none) Set.univ
          (Scf.Loop.for k0_t3_loop k0_t3_ok ⟨⟩ (k0_t3_body L xV (Memref.isWhole_whole _) bV (Memref.isWhole_whole _) pV (Memref.isWhole_whole _)
            s0 (Memref.isWhole_whole _) s1 (Memref.isWhole_whole _) s2 (Memref.isWhole_whole _) s3 (Memref.isWhole_whole _) s4 (Memref.isWhole_whole _)
            cc0_scratch5 cc0_scratch6 cc0_scoped0 lanes) >>= k) Φ := by
  iintro ⟨Hx, Hb, Ha, Hk⟩
  sl_for (ainv0 m d L xc bc n0) $$ [Hx Hb Ha]
  case region =>
    intro k _
    have hk : k.val < 25 := Nat.lt_of_lt_of_le k.isLt k0_t3_abs.2.1
    have hbc := chunk_le m d L hpre bc n0 hn0 hb
    unfold ainv0
    iintro ⟨Hx, Hb, Ha⟩
    -- vector 0 of the trip
    sl_exec (disch := exact chk_ok _ (fun x => hbc _))
    iapply (wp_scat' m d L hpre (n0 + 25 * k.val) (n0 + (25 * k.val + 1)) (n0 + (25 * k.val + 0)) (by omega) (by omega) (by omega)
      (View.readAt (Elt F) (s2).view (Rect.unit (s := S10000) (k0_off4 k) S16.size (k0_off4_inb k)).toLoadRect bc)
      (View.readAt (Elt F) (s0).view (Rect.unit (s := S10000) (k0_off4 k) S16.size (k0_off4_inb k)).toLoadRect xc)
      ((readAt_c2 d L bc (k0_off4 k) _ (k0_off4_eq k) ⟨25 * k.val + 0, by omega⟩ (by show _ = 16 * (25 * k.val + 0); omega) (k0_off4_inb k)).trans (hb ⟨25 * k.val + 0, by omega⟩))
      ((readAt_c0 d L xc (k0_off4 k) _ (k0_off4_eq k) ⟨25 * k.val + 0, by omega⟩ (by show _ = 16 * (25 * k.val + 0); omega) (k0_off4_inb k)).trans (hx ⟨25 * k.val + 0, by omega⟩))
      _ _ _ _) $$ Ha
    iintro Ha
    -- vector 1 of the trip
    sl_exec (disch := exact chk_ok _ (fun x => hbc _))
    iapply (wp_scat' m d L hpre (n0 + (25 * k.val + 1)) (n0 + (25 * k.val + 2)) (n0 + (25 * k.val + 1)) (by omega) (by omega) (by omega)
      (View.readAt (Elt F) (s2).view (Rect.unit (s := S10000) (k0_off5 k) S16.size (k0_off5_inb k)).toLoadRect bc)
      (View.readAt (Elt F) (s0).view (Rect.unit (s := S10000) (k0_off5 k) S16.size (k0_off5_inb k)).toLoadRect xc)
      ((readAt_c2 d L bc (k0_off5 k) _ (k0_off5_eq k) ⟨25 * k.val + 1, by omega⟩ (by show _ = 16 * (25 * k.val + 1); omega) (k0_off5_inb k)).trans (hb ⟨25 * k.val + 1, by omega⟩))
      ((readAt_c0 d L xc (k0_off5 k) _ (k0_off5_eq k) ⟨25 * k.val + 1, by omega⟩ (by show _ = 16 * (25 * k.val + 1); omega) (k0_off5_inb k)).trans (hx ⟨25 * k.val + 1, by omega⟩))
      _ _ _ _) $$ Ha
    iintro Ha
    -- vector 2 of the trip
    sl_exec (disch := exact chk_ok _ (fun x => hbc _))
    iapply (wp_scat' m d L hpre (n0 + (25 * k.val + 2)) (n0 + (25 * k.val + 3)) (n0 + (25 * k.val + 2)) (by omega) (by omega) (by omega)
      (View.readAt (Elt F) (s2).view (Rect.unit (s := S10000) (k0_off6 k) S16.size (k0_off6_inb k)).toLoadRect bc)
      (View.readAt (Elt F) (s0).view (Rect.unit (s := S10000) (k0_off6 k) S16.size (k0_off6_inb k)).toLoadRect xc)
      ((readAt_c2 d L bc (k0_off6 k) _ (k0_off6_eq k) ⟨25 * k.val + 2, by omega⟩ (by show _ = 16 * (25 * k.val + 2); omega) (k0_off6_inb k)).trans (hb ⟨25 * k.val + 2, by omega⟩))
      ((readAt_c0 d L xc (k0_off6 k) _ (k0_off6_eq k) ⟨25 * k.val + 2, by omega⟩ (by show _ = 16 * (25 * k.val + 2); omega) (k0_off6_inb k)).trans (hx ⟨25 * k.val + 2, by omega⟩))
      _ _ _ _) $$ Ha
    iintro Ha
    -- vector 3 of the trip
    sl_exec (disch := exact chk_ok _ (fun x => hbc _))
    iapply (wp_scat' m d L hpre (n0 + (25 * k.val + 3)) (n0 + (25 * k.val + 4)) (n0 + (25 * k.val + 3)) (by omega) (by omega) (by omega)
      (View.readAt (Elt F) (s2).view (Rect.unit (s := S10000) (k0_off7 k) S16.size (k0_off7_inb k)).toLoadRect bc)
      (View.readAt (Elt F) (s0).view (Rect.unit (s := S10000) (k0_off7 k) S16.size (k0_off7_inb k)).toLoadRect xc)
      ((readAt_c2 d L bc (k0_off7 k) _ (k0_off7_eq k) ⟨25 * k.val + 3, by omega⟩ (by show _ = 16 * (25 * k.val + 3); omega) (k0_off7_inb k)).trans (hb ⟨25 * k.val + 3, by omega⟩))
      ((readAt_c0 d L xc (k0_off7 k) _ (k0_off7_eq k) ⟨25 * k.val + 3, by omega⟩ (by show _ = 16 * (25 * k.val + 3); omega) (k0_off7_inb k)).trans (hx ⟨25 * k.val + 3, by omega⟩))
      _ _ _ _) $$ Ha
    iintro Ha
    -- vector 4 of the trip
    sl_exec (disch := exact chk_ok _ (fun x => hbc _))
    iapply (wp_scat' m d L hpre (n0 + (25 * k.val + 4)) (n0 + (25 * k.val + 5)) (n0 + (25 * k.val + 4)) (by omega) (by omega) (by omega)
      (View.readAt (Elt F) (s2).view (Rect.unit (s := S10000) (k0_off8 k) S16.size (k0_off8_inb k)).toLoadRect bc)
      (View.readAt (Elt F) (s0).view (Rect.unit (s := S10000) (k0_off8 k) S16.size (k0_off8_inb k)).toLoadRect xc)
      ((readAt_c2 d L bc (k0_off8 k) _ (k0_off8_eq k) ⟨25 * k.val + 4, by omega⟩ (by show _ = 16 * (25 * k.val + 4); omega) (k0_off8_inb k)).trans (hb ⟨25 * k.val + 4, by omega⟩))
      ((readAt_c0 d L xc (k0_off8 k) _ (k0_off8_eq k) ⟨25 * k.val + 4, by omega⟩ (by show _ = 16 * (25 * k.val + 4); omega) (k0_off8_inb k)).trans (hx ⟨25 * k.val + 4, by omega⟩))
      _ _ _ _) $$ Ha
    iintro Ha
    -- vector 5 of the trip
    sl_exec (disch := exact chk_ok _ (fun x => hbc _))
    iapply (wp_scat' m d L hpre (n0 + (25 * k.val + 5)) (n0 + (25 * k.val + 6)) (n0 + (25 * k.val + 5)) (by omega) (by omega) (by omega)
      (View.readAt (Elt F) (s2).view (Rect.unit (s := S10000) (k0_off9 k) S16.size (k0_off9_inb k)).toLoadRect bc)
      (View.readAt (Elt F) (s0).view (Rect.unit (s := S10000) (k0_off9 k) S16.size (k0_off9_inb k)).toLoadRect xc)
      ((readAt_c2 d L bc (k0_off9 k) _ (k0_off9_eq k) ⟨25 * k.val + 5, by omega⟩ (by show _ = 16 * (25 * k.val + 5); omega) (k0_off9_inb k)).trans (hb ⟨25 * k.val + 5, by omega⟩))
      ((readAt_c0 d L xc (k0_off9 k) _ (k0_off9_eq k) ⟨25 * k.val + 5, by omega⟩ (by show _ = 16 * (25 * k.val + 5); omega) (k0_off9_inb k)).trans (hx ⟨25 * k.val + 5, by omega⟩))
      _ _ _ _) $$ Ha
    iintro Ha
    -- vector 6 of the trip
    sl_exec (disch := exact chk_ok _ (fun x => hbc _))
    iapply (wp_scat' m d L hpre (n0 + (25 * k.val + 6)) (n0 + (25 * k.val + 7)) (n0 + (25 * k.val + 6)) (by omega) (by omega) (by omega)
      (View.readAt (Elt F) (s2).view (Rect.unit (s := S10000) (k0_off10 k) S16.size (k0_off10_inb k)).toLoadRect bc)
      (View.readAt (Elt F) (s0).view (Rect.unit (s := S10000) (k0_off10 k) S16.size (k0_off10_inb k)).toLoadRect xc)
      ((readAt_c2 d L bc (k0_off10 k) _ (k0_off10_eq k) ⟨25 * k.val + 6, by omega⟩ (by show _ = 16 * (25 * k.val + 6); omega) (k0_off10_inb k)).trans (hb ⟨25 * k.val + 6, by omega⟩))
      ((readAt_c0 d L xc (k0_off10 k) _ (k0_off10_eq k) ⟨25 * k.val + 6, by omega⟩ (by show _ = 16 * (25 * k.val + 6); omega) (k0_off10_inb k)).trans (hx ⟨25 * k.val + 6, by omega⟩))
      _ _ _ _) $$ Ha
    iintro Ha
    -- vector 7 of the trip
    sl_exec (disch := exact chk_ok _ (fun x => hbc _))
    iapply (wp_scat' m d L hpre (n0 + (25 * k.val + 7)) (n0 + (25 * k.val + 8)) (n0 + (25 * k.val + 7)) (by omega) (by omega) (by omega)
      (View.readAt (Elt F) (s2).view (Rect.unit (s := S10000) (k0_off11 k) S16.size (k0_off11_inb k)).toLoadRect bc)
      (View.readAt (Elt F) (s0).view (Rect.unit (s := S10000) (k0_off11 k) S16.size (k0_off11_inb k)).toLoadRect xc)
      ((readAt_c2 d L bc (k0_off11 k) _ (k0_off11_eq k) ⟨25 * k.val + 7, by omega⟩ (by show _ = 16 * (25 * k.val + 7); omega) (k0_off11_inb k)).trans (hb ⟨25 * k.val + 7, by omega⟩))
      ((readAt_c0 d L xc (k0_off11 k) _ (k0_off11_eq k) ⟨25 * k.val + 7, by omega⟩ (by show _ = 16 * (25 * k.val + 7); omega) (k0_off11_inb k)).trans (hx ⟨25 * k.val + 7, by omega⟩))
      _ _ _ _) $$ Ha
    iintro Ha
    -- vector 8 of the trip
    sl_exec (disch := exact chk_ok _ (fun x => hbc _))
    iapply (wp_scat' m d L hpre (n0 + (25 * k.val + 8)) (n0 + (25 * k.val + 9)) (n0 + (25 * k.val + 8)) (by omega) (by omega) (by omega)
      (View.readAt (Elt F) (s2).view (Rect.unit (s := S10000) (k0_off12 k) S16.size (k0_off12_inb k)).toLoadRect bc)
      (View.readAt (Elt F) (s0).view (Rect.unit (s := S10000) (k0_off12 k) S16.size (k0_off12_inb k)).toLoadRect xc)
      ((readAt_c2 d L bc (k0_off12 k) _ (k0_off12_eq k) ⟨25 * k.val + 8, by omega⟩ (by show _ = 16 * (25 * k.val + 8); omega) (k0_off12_inb k)).trans (hb ⟨25 * k.val + 8, by omega⟩))
      ((readAt_c0 d L xc (k0_off12 k) _ (k0_off12_eq k) ⟨25 * k.val + 8, by omega⟩ (by show _ = 16 * (25 * k.val + 8); omega) (k0_off12_inb k)).trans (hx ⟨25 * k.val + 8, by omega⟩))
      _ _ _ _) $$ Ha
    iintro Ha
    -- vector 9 of the trip
    sl_exec (disch := exact chk_ok _ (fun x => hbc _))
    iapply (wp_scat' m d L hpre (n0 + (25 * k.val + 9)) (n0 + (25 * k.val + 10)) (n0 + (25 * k.val + 9)) (by omega) (by omega) (by omega)
      (View.readAt (Elt F) (s2).view (Rect.unit (s := S10000) (k0_off13 k) S16.size (k0_off13_inb k)).toLoadRect bc)
      (View.readAt (Elt F) (s0).view (Rect.unit (s := S10000) (k0_off13 k) S16.size (k0_off13_inb k)).toLoadRect xc)
      ((readAt_c2 d L bc (k0_off13 k) _ (k0_off13_eq k) ⟨25 * k.val + 9, by omega⟩ (by show _ = 16 * (25 * k.val + 9); omega) (k0_off13_inb k)).trans (hb ⟨25 * k.val + 9, by omega⟩))
      ((readAt_c0 d L xc (k0_off13 k) _ (k0_off13_eq k) ⟨25 * k.val + 9, by omega⟩ (by show _ = 16 * (25 * k.val + 9); omega) (k0_off13_inb k)).trans (hx ⟨25 * k.val + 9, by omega⟩))
      _ _ _ _) $$ Ha
    iintro Ha
    -- vector 10 of the trip
    sl_exec (disch := exact chk_ok _ (fun x => hbc _))
    iapply (wp_scat' m d L hpre (n0 + (25 * k.val + 10)) (n0 + (25 * k.val + 11)) (n0 + (25 * k.val + 10)) (by omega) (by omega) (by omega)
      (View.readAt (Elt F) (s2).view (Rect.unit (s := S10000) (k0_off14 k) S16.size (k0_off14_inb k)).toLoadRect bc)
      (View.readAt (Elt F) (s0).view (Rect.unit (s := S10000) (k0_off14 k) S16.size (k0_off14_inb k)).toLoadRect xc)
      ((readAt_c2 d L bc (k0_off14 k) _ (k0_off14_eq k) ⟨25 * k.val + 10, by omega⟩ (by show _ = 16 * (25 * k.val + 10); omega) (k0_off14_inb k)).trans (hb ⟨25 * k.val + 10, by omega⟩))
      ((readAt_c0 d L xc (k0_off14 k) _ (k0_off14_eq k) ⟨25 * k.val + 10, by omega⟩ (by show _ = 16 * (25 * k.val + 10); omega) (k0_off14_inb k)).trans (hx ⟨25 * k.val + 10, by omega⟩))
      _ _ _ _) $$ Ha
    iintro Ha
    -- vector 11 of the trip
    sl_exec (disch := exact chk_ok _ (fun x => hbc _))
    iapply (wp_scat' m d L hpre (n0 + (25 * k.val + 11)) (n0 + (25 * k.val + 12)) (n0 + (25 * k.val + 11)) (by omega) (by omega) (by omega)
      (View.readAt (Elt F) (s2).view (Rect.unit (s := S10000) (k0_off15 k) S16.size (k0_off15_inb k)).toLoadRect bc)
      (View.readAt (Elt F) (s0).view (Rect.unit (s := S10000) (k0_off15 k) S16.size (k0_off15_inb k)).toLoadRect xc)
      ((readAt_c2 d L bc (k0_off15 k) _ (k0_off15_eq k) ⟨25 * k.val + 11, by omega⟩ (by show _ = 16 * (25 * k.val + 11); omega) (k0_off15_inb k)).trans (hb ⟨25 * k.val + 11, by omega⟩))
      ((readAt_c0 d L xc (k0_off15 k) _ (k0_off15_eq k) ⟨25 * k.val + 11, by omega⟩ (by show _ = 16 * (25 * k.val + 11); omega) (k0_off15_inb k)).trans (hx ⟨25 * k.val + 11, by omega⟩))
      _ _ _ _) $$ Ha
    iintro Ha
    -- vector 12 of the trip
    sl_exec (disch := exact chk_ok _ (fun x => hbc _))
    iapply (wp_scat' m d L hpre (n0 + (25 * k.val + 12)) (n0 + (25 * k.val + 13)) (n0 + (25 * k.val + 12)) (by omega) (by omega) (by omega)
      (View.readAt (Elt F) (s2).view (Rect.unit (s := S10000) (k0_off16 k) S16.size (k0_off16_inb k)).toLoadRect bc)
      (View.readAt (Elt F) (s0).view (Rect.unit (s := S10000) (k0_off16 k) S16.size (k0_off16_inb k)).toLoadRect xc)
      ((readAt_c2 d L bc (k0_off16 k) _ (k0_off16_eq k) ⟨25 * k.val + 12, by omega⟩ (by show _ = 16 * (25 * k.val + 12); omega) (k0_off16_inb k)).trans (hb ⟨25 * k.val + 12, by omega⟩))
      ((readAt_c0 d L xc (k0_off16 k) _ (k0_off16_eq k) ⟨25 * k.val + 12, by omega⟩ (by show _ = 16 * (25 * k.val + 12); omega) (k0_off16_inb k)).trans (hx ⟨25 * k.val + 12, by omega⟩))
      _ _ _ _) $$ Ha
    iintro Ha
    -- vector 13 of the trip
    sl_exec (disch := exact chk_ok _ (fun x => hbc _))
    iapply (wp_scat' m d L hpre (n0 + (25 * k.val + 13)) (n0 + (25 * k.val + 14)) (n0 + (25 * k.val + 13)) (by omega) (by omega) (by omega)
      (View.readAt (Elt F) (s2).view (Rect.unit (s := S10000) (k0_off17 k) S16.size (k0_off17_inb k)).toLoadRect bc)
      (View.readAt (Elt F) (s0).view (Rect.unit (s := S10000) (k0_off17 k) S16.size (k0_off17_inb k)).toLoadRect xc)
      ((readAt_c2 d L bc (k0_off17 k) _ (k0_off17_eq k) ⟨25 * k.val + 13, by omega⟩ (by show _ = 16 * (25 * k.val + 13); omega) (k0_off17_inb k)).trans (hb ⟨25 * k.val + 13, by omega⟩))
      ((readAt_c0 d L xc (k0_off17 k) _ (k0_off17_eq k) ⟨25 * k.val + 13, by omega⟩ (by show _ = 16 * (25 * k.val + 13); omega) (k0_off17_inb k)).trans (hx ⟨25 * k.val + 13, by omega⟩))
      _ _ _ _) $$ Ha
    iintro Ha
    -- vector 14 of the trip
    sl_exec (disch := exact chk_ok _ (fun x => hbc _))
    iapply (wp_scat' m d L hpre (n0 + (25 * k.val + 14)) (n0 + (25 * k.val + 15)) (n0 + (25 * k.val + 14)) (by omega) (by omega) (by omega)
      (View.readAt (Elt F) (s2).view (Rect.unit (s := S10000) (k0_off18 k) S16.size (k0_off18_inb k)).toLoadRect bc)
      (View.readAt (Elt F) (s0).view (Rect.unit (s := S10000) (k0_off18 k) S16.size (k0_off18_inb k)).toLoadRect xc)
      ((readAt_c2 d L bc (k0_off18 k) _ (k0_off18_eq k) ⟨25 * k.val + 14, by omega⟩ (by show _ = 16 * (25 * k.val + 14); omega) (k0_off18_inb k)).trans (hb ⟨25 * k.val + 14, by omega⟩))
      ((readAt_c0 d L xc (k0_off18 k) _ (k0_off18_eq k) ⟨25 * k.val + 14, by omega⟩ (by show _ = 16 * (25 * k.val + 14); omega) (k0_off18_inb k)).trans (hx ⟨25 * k.val + 14, by omega⟩))
      _ _ _ _) $$ Ha
    iintro Ha
    -- vector 15 of the trip
    sl_exec (disch := exact chk_ok _ (fun x => hbc _))
    iapply (wp_scat' m d L hpre (n0 + (25 * k.val + 15)) (n0 + (25 * k.val + 16)) (n0 + (25 * k.val + 15)) (by omega) (by omega) (by omega)
      (View.readAt (Elt F) (s2).view (Rect.unit (s := S10000) (k0_off19 k) S16.size (k0_off19_inb k)).toLoadRect bc)
      (View.readAt (Elt F) (s0).view (Rect.unit (s := S10000) (k0_off19 k) S16.size (k0_off19_inb k)).toLoadRect xc)
      ((readAt_c2 d L bc (k0_off19 k) _ (k0_off19_eq k) ⟨25 * k.val + 15, by omega⟩ (by show _ = 16 * (25 * k.val + 15); omega) (k0_off19_inb k)).trans (hb ⟨25 * k.val + 15, by omega⟩))
      ((readAt_c0 d L xc (k0_off19 k) _ (k0_off19_eq k) ⟨25 * k.val + 15, by omega⟩ (by show _ = 16 * (25 * k.val + 15); omega) (k0_off19_inb k)).trans (hx ⟨25 * k.val + 15, by omega⟩))
      _ _ _ _) $$ Ha
    iintro Ha
    -- vector 16 of the trip
    sl_exec (disch := exact chk_ok _ (fun x => hbc _))
    iapply (wp_scat' m d L hpre (n0 + (25 * k.val + 16)) (n0 + (25 * k.val + 17)) (n0 + (25 * k.val + 16)) (by omega) (by omega) (by omega)
      (View.readAt (Elt F) (s2).view (Rect.unit (s := S10000) (k0_off20 k) S16.size (k0_off20_inb k)).toLoadRect bc)
      (View.readAt (Elt F) (s0).view (Rect.unit (s := S10000) (k0_off20 k) S16.size (k0_off20_inb k)).toLoadRect xc)
      ((readAt_c2 d L bc (k0_off20 k) _ (k0_off20_eq k) ⟨25 * k.val + 16, by omega⟩ (by show _ = 16 * (25 * k.val + 16); omega) (k0_off20_inb k)).trans (hb ⟨25 * k.val + 16, by omega⟩))
      ((readAt_c0 d L xc (k0_off20 k) _ (k0_off20_eq k) ⟨25 * k.val + 16, by omega⟩ (by show _ = 16 * (25 * k.val + 16); omega) (k0_off20_inb k)).trans (hx ⟨25 * k.val + 16, by omega⟩))
      _ _ _ _) $$ Ha
    iintro Ha
    -- vector 17 of the trip
    sl_exec (disch := exact chk_ok _ (fun x => hbc _))
    iapply (wp_scat' m d L hpre (n0 + (25 * k.val + 17)) (n0 + (25 * k.val + 18)) (n0 + (25 * k.val + 17)) (by omega) (by omega) (by omega)
      (View.readAt (Elt F) (s2).view (Rect.unit (s := S10000) (k0_off21 k) S16.size (k0_off21_inb k)).toLoadRect bc)
      (View.readAt (Elt F) (s0).view (Rect.unit (s := S10000) (k0_off21 k) S16.size (k0_off21_inb k)).toLoadRect xc)
      ((readAt_c2 d L bc (k0_off21 k) _ (k0_off21_eq k) ⟨25 * k.val + 17, by omega⟩ (by show _ = 16 * (25 * k.val + 17); omega) (k0_off21_inb k)).trans (hb ⟨25 * k.val + 17, by omega⟩))
      ((readAt_c0 d L xc (k0_off21 k) _ (k0_off21_eq k) ⟨25 * k.val + 17, by omega⟩ (by show _ = 16 * (25 * k.val + 17); omega) (k0_off21_inb k)).trans (hx ⟨25 * k.val + 17, by omega⟩))
      _ _ _ _) $$ Ha
    iintro Ha
    -- vector 18 of the trip
    sl_exec (disch := exact chk_ok _ (fun x => hbc _))
    iapply (wp_scat' m d L hpre (n0 + (25 * k.val + 18)) (n0 + (25 * k.val + 19)) (n0 + (25 * k.val + 18)) (by omega) (by omega) (by omega)
      (View.readAt (Elt F) (s2).view (Rect.unit (s := S10000) (k0_off22 k) S16.size (k0_off22_inb k)).toLoadRect bc)
      (View.readAt (Elt F) (s0).view (Rect.unit (s := S10000) (k0_off22 k) S16.size (k0_off22_inb k)).toLoadRect xc)
      ((readAt_c2 d L bc (k0_off22 k) _ (k0_off22_eq k) ⟨25 * k.val + 18, by omega⟩ (by show _ = 16 * (25 * k.val + 18); omega) (k0_off22_inb k)).trans (hb ⟨25 * k.val + 18, by omega⟩))
      ((readAt_c0 d L xc (k0_off22 k) _ (k0_off22_eq k) ⟨25 * k.val + 18, by omega⟩ (by show _ = 16 * (25 * k.val + 18); omega) (k0_off22_inb k)).trans (hx ⟨25 * k.val + 18, by omega⟩))
      _ _ _ _) $$ Ha
    iintro Ha
    -- vector 19 of the trip
    sl_exec (disch := exact chk_ok _ (fun x => hbc _))
    iapply (wp_scat' m d L hpre (n0 + (25 * k.val + 19)) (n0 + (25 * k.val + 20)) (n0 + (25 * k.val + 19)) (by omega) (by omega) (by omega)
      (View.readAt (Elt F) (s2).view (Rect.unit (s := S10000) (k0_off23 k) S16.size (k0_off23_inb k)).toLoadRect bc)
      (View.readAt (Elt F) (s0).view (Rect.unit (s := S10000) (k0_off23 k) S16.size (k0_off23_inb k)).toLoadRect xc)
      ((readAt_c2 d L bc (k0_off23 k) _ (k0_off23_eq k) ⟨25 * k.val + 19, by omega⟩ (by show _ = 16 * (25 * k.val + 19); omega) (k0_off23_inb k)).trans (hb ⟨25 * k.val + 19, by omega⟩))
      ((readAt_c0 d L xc (k0_off23 k) _ (k0_off23_eq k) ⟨25 * k.val + 19, by omega⟩ (by show _ = 16 * (25 * k.val + 19); omega) (k0_off23_inb k)).trans (hx ⟨25 * k.val + 19, by omega⟩))
      _ _ _ _) $$ Ha
    iintro Ha
    -- vector 20 of the trip
    sl_exec (disch := exact chk_ok _ (fun x => hbc _))
    iapply (wp_scat' m d L hpre (n0 + (25 * k.val + 20)) (n0 + (25 * k.val + 21)) (n0 + (25 * k.val + 20)) (by omega) (by omega) (by omega)
      (View.readAt (Elt F) (s2).view (Rect.unit (s := S10000) (k0_off24 k) S16.size (k0_off24_inb k)).toLoadRect bc)
      (View.readAt (Elt F) (s0).view (Rect.unit (s := S10000) (k0_off24 k) S16.size (k0_off24_inb k)).toLoadRect xc)
      ((readAt_c2 d L bc (k0_off24 k) _ (k0_off24_eq k) ⟨25 * k.val + 20, by omega⟩ (by show _ = 16 * (25 * k.val + 20); omega) (k0_off24_inb k)).trans (hb ⟨25 * k.val + 20, by omega⟩))
      ((readAt_c0 d L xc (k0_off24 k) _ (k0_off24_eq k) ⟨25 * k.val + 20, by omega⟩ (by show _ = 16 * (25 * k.val + 20); omega) (k0_off24_inb k)).trans (hx ⟨25 * k.val + 20, by omega⟩))
      _ _ _ _) $$ Ha
    iintro Ha
    -- vector 21 of the trip
    sl_exec (disch := exact chk_ok _ (fun x => hbc _))
    iapply (wp_scat' m d L hpre (n0 + (25 * k.val + 21)) (n0 + (25 * k.val + 22)) (n0 + (25 * k.val + 21)) (by omega) (by omega) (by omega)
      (View.readAt (Elt F) (s2).view (Rect.unit (s := S10000) (k0_off25 k) S16.size (k0_off25_inb k)).toLoadRect bc)
      (View.readAt (Elt F) (s0).view (Rect.unit (s := S10000) (k0_off25 k) S16.size (k0_off25_inb k)).toLoadRect xc)
      ((readAt_c2 d L bc (k0_off25 k) _ (k0_off25_eq k) ⟨25 * k.val + 21, by omega⟩ (by show _ = 16 * (25 * k.val + 21); omega) (k0_off25_inb k)).trans (hb ⟨25 * k.val + 21, by omega⟩))
      ((readAt_c0 d L xc (k0_off25 k) _ (k0_off25_eq k) ⟨25 * k.val + 21, by omega⟩ (by show _ = 16 * (25 * k.val + 21); omega) (k0_off25_inb k)).trans (hx ⟨25 * k.val + 21, by omega⟩))
      _ _ _ _) $$ Ha
    iintro Ha
    -- vector 22 of the trip
    sl_exec (disch := exact chk_ok _ (fun x => hbc _))
    iapply (wp_scat' m d L hpre (n0 + (25 * k.val + 22)) (n0 + (25 * k.val + 23)) (n0 + (25 * k.val + 22)) (by omega) (by omega) (by omega)
      (View.readAt (Elt F) (s2).view (Rect.unit (s := S10000) (k0_off26 k) S16.size (k0_off26_inb k)).toLoadRect bc)
      (View.readAt (Elt F) (s0).view (Rect.unit (s := S10000) (k0_off26 k) S16.size (k0_off26_inb k)).toLoadRect xc)
      ((readAt_c2 d L bc (k0_off26 k) _ (k0_off26_eq k) ⟨25 * k.val + 22, by omega⟩ (by show _ = 16 * (25 * k.val + 22); omega) (k0_off26_inb k)).trans (hb ⟨25 * k.val + 22, by omega⟩))
      ((readAt_c0 d L xc (k0_off26 k) _ (k0_off26_eq k) ⟨25 * k.val + 22, by omega⟩ (by show _ = 16 * (25 * k.val + 22); omega) (k0_off26_inb k)).trans (hx ⟨25 * k.val + 22, by omega⟩))
      _ _ _ _) $$ Ha
    iintro Ha
    -- vector 23 of the trip
    sl_exec (disch := exact chk_ok _ (fun x => hbc _))
    iapply (wp_scat' m d L hpre (n0 + (25 * k.val + 23)) (n0 + (25 * k.val + 24)) (n0 + (25 * k.val + 23)) (by omega) (by omega) (by omega)
      (View.readAt (Elt F) (s2).view (Rect.unit (s := S10000) (k0_off27 k) S16.size (k0_off27_inb k)).toLoadRect bc)
      (View.readAt (Elt F) (s0).view (Rect.unit (s := S10000) (k0_off27 k) S16.size (k0_off27_inb k)).toLoadRect xc)
      ((readAt_c2 d L bc (k0_off27 k) _ (k0_off27_eq k) ⟨25 * k.val + 23, by omega⟩ (by show _ = 16 * (25 * k.val + 23); omega) (k0_off27_inb k)).trans (hb ⟨25 * k.val + 23, by omega⟩))
      ((readAt_c0 d L xc (k0_off27 k) _ (k0_off27_eq k) ⟨25 * k.val + 23, by omega⟩ (by show _ = 16 * (25 * k.val + 23); omega) (k0_off27_inb k)).trans (hx ⟨25 * k.val + 23, by omega⟩))
      _ _ _ _) $$ Ha
    iintro Ha
    -- vector 24 of the trip
    sl_exec (disch := exact chk_ok _ (fun x => hbc _))
    iapply (wp_scat' m d L hpre (n0 + (25 * k.val + 24)) (n0 + 25 * (k.val + 1)) (n0 + (25 * k.val + 24)) (by omega) (by omega) (by omega)
      (View.readAt (Elt F) (s2).view (Rect.unit (s := S10000) (k0_off28 k) S16.size (k0_off28_inb k)).toLoadRect bc)
      (View.readAt (Elt F) (s0).view (Rect.unit (s := S10000) (k0_off28 k) S16.size (k0_off28_inb k)).toLoadRect xc)
      ((readAt_c2 d L bc (k0_off28 k) _ (k0_off28_eq k) ⟨25 * k.val + 24, by omega⟩ (by show _ = 16 * (25 * k.val + 24); omega) (k0_off28_inb k)).trans (hb ⟨25 * k.val + 24, by omega⟩))
      ((readAt_c0 d L xc (k0_off28 k) _ (k0_off28_eq k) ⟨25 * k.val + 24, by omega⟩ (by show _ = 16 * (25 * k.val + 24); omega) (k0_off28_inb k)).trans (hx ⟨25 * k.val + 24, by omega⟩))
      _ _ _ _) $$ Ha
    iintro Ha
    try sl_exec
    sl_step
    isplitl [Hx]; · iexact Hx
    isplitl [Hb]; · iexact Hb
    iexact Ha
  · unfold ainv0
    isplitl [Hx]; · iexact Hx
    isplitl [Hb]; · iexact Hb
    iexact Ha
  iintro %acc HI
  unfold ainv0
  rw [t3_trips']
  icases HI with ⟨Hx, Hb, Ha⟩
  sl_respell []
  iapply Hk
  isplitl [Hx]; · iexact Hx
  isplitl [Hb]; · iexact Hb
  iexact Ha

end Cert.Proof.KI

end
-- ==== Proof.TileAdd1.lean ====
/-
  The loop that adds one chunk from the second pair of chunk buffers into the accumulator: 25 trips of 25 vectors. Trip k,
  vector u: sixteen rows and their segment numbers are read at position 400 k + 16 u of the two buffers, that is vector
  25 k + u of the chunk, and added into the accumulator at sixteen times the segment number plus the lane; the
  accumulator goes from its state after n0 + 25 k + u vectors to its state after one more.
-/
import proofs.«203046_g35227321762133_cont_8to1_b_835_12_alg».proof.Proof.TileScat

noncomputable section

namespace Cert.Proof.KI

open Cert.KernelIdeal Cert.KernelIdeal.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [hK : Cert.KernelIdeal.Facts]
variable (m : (ℓ : Loc nD τ sig) → Buf (Elt F) ℓ) (d : Dev nD) (L : grid0.Coords)

/-- The loop makes 25 trips. -/
theorem t4_trips : k0_t4_loop.trips = 25 := by decide +kernel
theorem t4_trips' : Scf.trips k0_t4_loop.lb k0_t4_loop.ub k0_t4_loop.st = 25 := t4_trips

/-- Before trip k of a chunk's loop the two chunk buffers are as they were and the accumulator has had 25 k more vectors added. -/
def ainv1 (xc : Buf (Elt F) ((thr d L).loc cc0_scratch1)) (bc : Buf (Elt F) ((thr d L).loc cc0_scratch3)) (n0 : Nat) (k : Nat) (_ : PUnit) : sProp 𝕄 :=
  iprop(((s1).view.loc (thr d L) ↦{fullShare} xc) ∗ ((s3).view.loc (thr d L) ↦{fullShare} bc)
    ∗ ((s4).view.loc (thr d L) ↦{fullShare} (accAt (F := F) (xf m d) (bt m d) (wOf L) (n0 + 25 * k) : Buf (Elt F) ((thr d L).loc cc0_scratch4))))

/-- The chunk's loop: from the accumulator after n0 vectors to the accumulator after n0 + 625, the chunk buffers unchanged. -/
theorem add_chunk1_run (hpre : PreOK m) (xc : Buf (Elt F) ((thr d L).loc cc0_scratch1)) (bc : Buf (Elt F) ((thr d L).loc cc0_scratch3))
    (n0 : Nat) (hn0 : n0 + 625 ≤ 12500)
    (hx : ∀ n : Fin 625, vecOf (F := F) (e := .f32) xc n = xVec (F := F) (xf m d) (wOf L) ⟨n0 + n.val, by have := n.isLt; omega⟩)
    (hb : ∀ n : Fin 625, vecOf (F := F) (e := .i32) bc n = bVec (bt m d) (wOf L) ⟨n0 + n.val, by have := n.isLt; omega⟩)
    {α : Type} (k : Unit → Prog (TpuEff nD τ sig (Elt F) Λ₀ (thr d L).2) α) (Φ : α → sProp 𝕄) :
    iprop(((s1).view.loc (thr d L) ↦{fullShare} xc) ∗ ((s3).view.loc (thr d L) ↦{fullShare} bc)
        ∗ ((s4).view.loc (thr d L) ↦{fullShare} (accAt (F := F) (xf m d) (bt m d) (wOf L) n0 : Buf (Elt F) ((thr d L).loc cc0_scratch4)))
        ∗ ((((s1).view.loc (thr d L) ↦{fullShare} xc) ∗ ((s3).view.loc (thr d L) ↦{fullShare} bc)
            ∗ ((s4).view.loc (thr d L) ↦{fullShare} (accAt (F := F) (xf m d) (bt m d) (wOf L) (n0 + 625) : Buf (Elt F) ((thr d L).loc cc0_scratch4))))
            -∗ wp frame (wpE (defs₀ (F := F)) 𝒱₀ (thr d L) none) Set.univ (k ⟨⟩) Φ))
      ⊢ wp frame (wpE (defs₀ (F := F)) 𝒱₀ (thr d L) none) Set.univ
          (Scf.Loop.for k0_t4_loop k0_t4_ok ⟨⟩ (k0_t4_body L xV (Memref.isWhole_whole _) bV (Memref.isWhole_whole _) pV (Memref.isWhole_whole _)
            s0 (Memref.isWhole_whole _) s1 (Memref.isWhole_whole _) s2 (Memref.isWhole_whole _) s3 (Memref.isWhole_whole _) s4 (Memref.isWhole_whole _)
            cc0_scratch5 cc0_scratch6 cc0_scoped0 lanes) >>= k) Φ := by
  iintro ⟨Hx, Hb, Ha, Hk⟩
  sl_for (ainv1 m d L xc bc n0) $$ [Hx Hb Ha]
  case region =>
    intro k _
    have hk : k.val < 25 := Nat.lt_of_lt_of_le k.isLt k0_t4_abs.2.1
    have hbc := chunk_le m d L hpre bc n0 hn0 hb
    unfold ainv1
    iintro ⟨Hx, Hb, Ha⟩
    -- vector 0 of the trip
    sl_exec (disch := exact chk_ok _ (fun x => hbc _))
    iapply (wp_scat' m d L hpre (n0 + 25 * k.val) (n0 + (25 * k.val + 1)) (n0 + (25 * k.val + 0)) (by omega) (by omega) (by omega)
      (View.readAt (Elt F) (s3).view (Rect.unit (s := S10000) (k0_off30 k) S16.size (k0_off30_inb k)).toLoadRect bc)
      (View.readAt (Elt F) (s1).view (Rect.unit (s := S10000) (k0_off30 k) S16.size (k0_off30_inb k)).toLoadRect xc)
      ((readAt_c3 d L bc (k0_off30 k) _ (k0_off30_eq k) ⟨25 * k.val + 0, by omega⟩ (by show _ = 16 * (25 * k.val + 0); omega) (k0_off30_inb k)).trans (hb ⟨25 * k.val + 0, by omega⟩))
      ((readAt_c1 d L xc (k0_off30 k) _ (k0_off30_eq k) ⟨25 * k.val + 0, by omega⟩ (by show _ = 16 * (25 * k.val + 0); omega) (k0_off30_inb k)).trans (hx ⟨25 * k.val + 0, by omega⟩))
      _ _ _ _) $$ Ha
    iintro Ha
    -- vector 1 of the trip
    sl_exec (disch := exact chk_ok _ (fun x => hbc _))
    iapply (wp_scat' m d L hpre (n0 + (25 * k.val + 1)) (n0 + (25 * k.val + 2)) (n0 + (25 * k.val + 1)) (by omega) (by omega) (by omega)
      (View.readAt (Elt F) (s3).view (Rect.unit (s := S10000) (k0_off31 k) S16.size (k0_off31_inb k)).toLoadRect bc)
      (View.readAt (Elt F) (s1).view (Rect.unit (s := S10000) (k0_off31 k) S16.size (k0_off31_inb k)).toLoadRect xc)
      ((readAt_c3 d L bc (k0_off31 k) _ (k0_off31_eq k) ⟨25 * k.val + 1, by omega⟩ (by show _ = 16 * (25 * k.val + 1); omega) (k0_off31_inb k)).trans (hb ⟨25 * k.val + 1, by omega⟩))
      ((readAt_c1 d L xc (k0_off31 k) _ (k0_off31_eq k) ⟨25 * k.val + 1, by omega⟩ (by show _ = 16 * (25 * k.val + 1); omega) (k0_off31_inb k)).trans (hx ⟨25 * k.val + 1, by omega⟩))
      _ _ _ _) $$ Ha
    iintro Ha
    -- vector 2 of the trip
    sl_exec (disch := exact chk_ok _ (fun x => hbc _))
    iapply (wp_scat' m d L hpre (n0 + (25 * k.val + 2)) (n0 + (25 * k.val + 3)) (n0 + (25 * k.val + 2)) (by omega) (by omega) (by omega)
      (View.readAt (Elt F) (s3).view (Rect.unit (s := S10000) (k0_off32 k) S16.size (k0_off32_inb k)).toLoadRect bc)
      (View.readAt (Elt F) (s1).view (Rect.unit (s := S10000) (k0_off32 k) S16.size (k0_off32_inb k)).toLoadRect xc)
      ((readAt_c3 d L bc (k0_off32 k) _ (k0_off32_eq k) ⟨25 * k.val + 2, by omega⟩ (by show _ = 16 * (25 * k.val + 2); omega) (k0_off32_inb k)).trans (hb ⟨25 * k.val + 2, by omega⟩))
      ((readAt_c1 d L xc (k0_off32 k) _ (k0_off32_eq k) ⟨25 * k.val + 2, by omega⟩ (by show _ = 16 * (25 * k.val + 2); omega) (k0_off32_inb k)).trans (hx ⟨25 * k.val + 2, by omega⟩))
      _ _ _ _) $$ Ha
    iintro Ha
    -- vector 3 of the trip
    sl_exec (disch := exact chk_ok _ (fun x => hbc _))
    iapply (wp_scat' m d L hpre (n0 + (25 * k.val + 3)) (n0 + (25 * k.val + 4)) (n0 + (25 * k.val + 3)) (by omega) (by omega) (by omega)
      (View.readAt (Elt F) (s3).view (Rect.unit (s := S10000) (k0_off33 k) S16.size (k0_off33_inb k)).toLoadRect bc)
      (View.readAt (Elt F) (s1).view (Rect.unit (s := S10000) (k0_off33 k) S16.size (k0_off33_inb k)).toLoadRect xc)
      ((readAt_c3 d L bc (k0_off33 k) _ (k0_off33_eq k) ⟨25 * k.val + 3, by omega⟩ (by show _ = 16 * (25 * k.val + 3); omega) (k0_off33_inb k)).trans (hb ⟨25 * k.val + 3, by omega⟩))
      ((readAt_c1 d L xc (k0_off33 k) _ (k0_off33_eq k) ⟨25 * k.val + 3, by omega⟩ (by show _ = 16 * (25 * k.val + 3); omega) (k0_off33_inb k)).trans (hx ⟨25 * k.val + 3, by omega⟩))
      _ _ _ _) $$ Ha
    iintro Ha
    -- vector 4 of the trip
    sl_exec (disch := exact chk_ok _ (fun x => hbc _))
    iapply (wp_scat' m d L hpre (n0 + (25 * k.val + 4)) (n0 + (25 * k.val + 5)) (n0 + (25 * k.val + 4)) (by omega) (by omega) (by omega)
      (View.readAt (Elt F) (s3).view (Rect.unit (s := S10000) (k0_off34 k) S16.size (k0_off34_inb k)).toLoadRect bc)
      (View.readAt (Elt F) (s1).view (Rect.unit (s := S10000) (k0_off34 k) S16.size (k0_off34_inb k)).toLoadRect xc)
      ((readAt_c3 d L bc (k0_off34 k) _ (k0_off34_eq k) ⟨25 * k.val + 4, by omega⟩ (by show _ = 16 * (25 * k.val + 4); omega) (k0_off34_inb k)).trans (hb ⟨25 * k.val + 4, by omega⟩))
      ((readAt_c1 d L xc (k0_off34 k) _ (k0_off34_eq k) ⟨25 * k.val + 4, by omega⟩ (by show _ = 16 * (25 * k.val + 4); omega) (k0_off34_inb k)).trans (hx ⟨25 * k.val + 4, by omega⟩))
      _ _ _ _) $$ Ha
    iintro Ha
    -- vector 5 of the trip
    sl_exec (disch := exact chk_ok _ (fun x => hbc _))
    iapply (wp_scat' m d L hpre (n0 + (25 * k.val + 5)) (n0 + (25 * k.val + 6)) (n0 + (25 * k.val + 5)) (by omega) (by omega) (by omega)
      (View.readAt (Elt F) (s3).view (Rect.unit (s := S10000) (k0_off35 k) S16.size (k0_off35_inb k)).toLoadRect bc)
      (View.readAt (Elt F) (s1).view (Rect.unit (s := S10000) (k0_off35 k) S16.size (k0_off35_inb k)).toLoadRect xc)
      ((readAt_c3 d L bc (k0_off35 k) _ (k0_off35_eq k) ⟨25 * k.val + 5, by omega⟩ (by show _ = 16 * (25 * k.val + 5); omega) (k0_off35_inb k)).trans (hb ⟨25 * k.val + 5, by omega⟩))
      ((readAt_c1 d L xc (k0_off35 k) _ (k0_off35_eq k) ⟨25 * k.val + 5, by omega⟩ (by show _ = 16 * (25 * k.val + 5); omega) (k0_off35_inb k)).trans (hx ⟨25 * k.val + 5, by omega⟩))
      _ _ _ _) $$ Ha
    iintro Ha
    -- vector 6 of the trip
    sl_exec (disch := exact chk_ok _ (fun x => hbc _))
    iapply (wp_scat' m d L hpre (n0 + (25 * k.val + 6)) (n0 + (25 * k.val + 7)) (n0 + (25 * k.val + 6)) (by omega) (by omega) (by omega)
      (View.readAt (Elt F) (s3).view (Rect.unit (s := S10000) (k0_off36 k) S16.size (k0_off36_inb k)).toLoadRect bc)
      (View.readAt (Elt F) (s1).view (Rect.unit (s := S10000) (k0_off36 k) S16.size (k0_off36_inb k)).toLoadRect xc)
      ((readAt_c3 d L bc (k0_off36 k) _ (k0_off36_eq k) ⟨25 * k.val + 6, by omega⟩ (by show _ = 16 * (25 * k.val + 6); omega) (k0_off36_inb k)).trans (hb ⟨25 * k.val + 6, by omega⟩))
      ((readAt_c1 d L xc (k0_off36 k) _ (k0_off36_eq k) ⟨25 * k.val + 6, by omega⟩ (by show _ = 16 * (25 * k.val + 6); omega) (k0_off36_inb k)).trans (hx ⟨25 * k.val + 6, by omega⟩))
      _ _ _ _) $$ Ha
    iintro Ha
    -- vector 7 of the trip
    sl_exec (disch := exact chk_ok _ (fun x => hbc _))
    iapply (wp_scat' m d L hpre (n0 + (25 * k.val + 7)) (n0 + (25 * k.val + 8)) (n0 + (25 * k.val + 7)) (by omega) (by omega) (by omega)
      (View.readAt (Elt F) (s3).view (Rect.unit (s := S10000) (k0_off37 k) S16.size (k0_off37_inb k)).toLoadRect bc)
      (View.readAt (Elt F) (s1).view (Rect.unit (s := S10000) (k0_off37 k) S16.size (k0_off37_inb k)).toLoadRect xc)
      ((readAt_c3 d L bc (k0_off37 k) _ (k0_off37_eq k) ⟨25 * k.val + 7, by omega⟩ (by show _ = 16 * (25 * k.val + 7); omega) (k0_off37_inb k)).trans (hb ⟨25 * k.val + 7, by omega⟩))
      ((readAt_c1 d L xc (k0_off37 k) _ (k0_off37_eq k) ⟨25 * k.val + 7, by omega⟩ (by show _ = 16 * (25 * k.val + 7); omega) (k0_off37_inb k)).trans (hx ⟨25 * k.val + 7, by omega⟩))
      _ _ _ _) $$ Ha
    iintro Ha
    -- vector 8 of the trip
    sl_exec (disch := exact chk_ok _ (fun x => hbc _))
    iapply (wp_scat' m d L hpre (n0 + (25 * k.val + 8)) (n0 + (25 * k.val + 9)) (n0 + (25 * k.val + 8)) (by omega) (by omega) (by omega)
      (View.readAt (Elt F) (s3).view (Rect.unit (s := S10000) (k0_off38 k) S16.size (k0_off38_inb k)).toLoadRect bc)
      (View.readAt (Elt F) (s1).view (Rect.unit (s := S10000) (k0_off38 k) S16.size (k0_off38_inb k)).toLoadRect xc)
      ((readAt_c3 d L bc (k0_off38 k) _ (k0_off38_eq k) ⟨25 * k.val + 8, by omega⟩ (by show _ = 16 * (25 * k.val + 8); omega) (k0_off38_inb k)).trans (hb ⟨25 * k.val + 8, by omega⟩))
      ((readAt_c1 d L xc (k0_off38 k) _ (k0_off38_eq k) ⟨25 * k.val + 8, by omega⟩ (by show _ = 16 * (25 * k.val + 8); omega) (k0_off38_inb k)).trans (hx ⟨25 * k.val + 8, by omega⟩))
      _ _ _ _) $$ Ha
    iintro Ha
    -- vector 9 of the trip
    sl_exec (disch := exact chk_ok _ (fun x => hbc _))
    iapply (wp_scat' m d L hpre (n0 + (25 * k.val + 9)) (n0 + (25 * k.val + 10)) (n0 + (25 * k.val + 9)) (by omega) (by omega) (by omega)
      (View.readAt (Elt F) (s3).view (Rect.unit (s := S10000) (k0_off39 k) S16.size (k0_off39_inb k)).toLoadRect bc)
      (View.readAt (Elt F) (s1).view (Rect.unit (s := S10000) (k0_off39 k) S16.size (k0_off39_inb k)).toLoadRect xc)
      ((readAt_c3 d L bc (k0_off39 k) _ (k0_off39_eq k) ⟨25 * k.val + 9, by omega⟩ (by show _ = 16 * (25 * k.val + 9); omega) (k0_off39_inb k)).trans (hb ⟨25 * k.val + 9, by omega⟩))
      ((readAt_c1 d L xc (k0_off39 k) _ (k0_off39_eq k) ⟨25 * k.val + 9, by omega⟩ (by show _ = 16 * (25 * k.val + 9); omega) (k0_off39_inb k)).trans (hx ⟨25 * k.val + 9, by omega⟩))
      _ _ _ _) $$ Ha
    iintro Ha
    -- vector 10 of the trip
    sl_exec (disch := exact chk_ok _ (fun x => hbc _))
    iapply (wp_scat' m d L hpre (n0 + (25 * k.val + 10)) (n0 + (25 * k.val + 11)) (n0 + (25 * k.val + 10)) (by omega) (by omega) (by omega)
      (View.readAt (Elt F) (s3).view (Rect.unit (s := S10000) (k0_off40 k) S16.size (k0_off40_inb k)).toLoadRect bc)
      (View.readAt (Elt F) (s1).view (Rect.unit (s := S10000) (k0_off40 k) S16.size (k0_off40_inb k)).toLoadRect xc)
      ((readAt_c3 d L bc (k0_off40 k) _ (k0_off40_eq k) ⟨25 * k.val + 10, by omega⟩ (by show _ = 16 * (25 * k.val + 10); omega) (k0_off40_inb k)).trans (hb ⟨25 * k.val + 10, by omega⟩))
      ((readAt_c1 d L xc (k0_off40 k) _ (k0_off40_eq k) ⟨25 * k.val + 10, by omega⟩ (by show _ = 16 * (25 * k.val + 10); omega) (k0_off40_inb k)).trans (hx ⟨25 * k.val + 10, by omega⟩))
      _ _ _ _) $$ Ha
    iintro Ha
    -- vector 11 of the trip
    sl_exec (disch := exact chk_ok _ (fun x => hbc _))
    iapply (wp_scat' m d L hpre (n0 + (25 * k.val + 11)) (n0 + (25 * k.val + 12)) (n0 + (25 * k.val + 11)) (by omega) (by omega) (by omega)
      (View.readAt (Elt F) (s3).view (Rect.unit (s := S10000) (k0_off41 k) S16.size (k0_off41_inb k)).toLoadRect bc)
      (View.readAt (Elt F) (s1).view (Rect.unit (s := S10000) (k0_off41 k) S16.size (k0_off41_inb k)).toLoadRect xc)
      ((readAt_c3 d L bc (k0_off41 k) _ (k0_off41_eq k) ⟨25 * k.val + 11, by omega⟩ (by show _ = 16 * (25 * k.val + 11); omega) (k0_off41_inb k)).trans (hb ⟨25 * k.val + 11, by omega⟩))
      ((readAt_c1 d L xc (k0_off41 k) _ (k0_off41_eq k) ⟨25 * k.val + 11, by omega⟩ (by show _ = 16 * (25 * k.val + 11); omega) (k0_off41_inb k)).trans (hx ⟨25 * k.val + 11, by omega⟩))
      _ _ _ _) $$ Ha
    iintro Ha
    -- vector 12 of the trip
    sl_exec (disch := exact chk_ok _ (fun x => hbc _))
    iapply (wp_scat' m d L hpre (n0 + (25 * k.val + 12)) (n0 + (25 * k.val + 13)) (n0 + (25 * k.val + 12)) (by omega) (by omega) (by omega)
      (View.readAt (Elt F) (s3).view (Rect.unit (s := S10000) (k0_off42 k) S16.size (k0_off42_inb k)).toLoadRect bc)
      (View.readAt (Elt F) (s1).view (Rect.unit (s := S10000) (k0_off42 k) S16.size (k0_off42_inb k)).toLoadRect xc)
      ((readAt_c3 d L bc (k0_off42 k) _ (k0_off42_eq k) ⟨25 * k.val + 12, by omega⟩ (by show _ = 16 * (25 * k.val + 12); omega) (k0_off42_inb k)).trans (hb ⟨25 * k.val + 12, by omega⟩))
      ((readAt_c1 d L xc (k0_off42 k) _ (k0_off42_eq k) ⟨25 * k.val + 12, by omega⟩ (by show _ = 16 * (25 * k.val + 12); omega) (k0_off42_inb k)).trans (hx ⟨25 * k.val + 12, by omega⟩))
      _ _ _ _) $$ Ha
    iintro Ha
    -- vector 13 of the trip
    sl_exec (disch := exact chk_ok _ (fun x => hbc _))
    iapply (wp_scat' m d L hpre (n0 + (25 * k.val + 13)) (n0 + (25 * k.val + 14)) (n0 + (25 * k.val + 13)) (by omega) (by omega) (by omega)
      (View.readAt (Elt F) (s3).view (Rect.unit (s := S10000) (k0_off43 k) S16.size (k0_off43_inb k)).toLoadRect bc)
      (View.readAt (Elt F) (s1).view (Rect.unit (s := S10000) (k0_off43 k) S16.size (k0_off43_inb k)).toLoadRect xc)
      ((readAt_c3 d L bc (k0_off43 k) _ (k0_off43_eq k) ⟨25 * k.val + 13, by omega⟩ (by show _ = 16 * (25 * k.val + 13); omega) (k0_off43_inb k)).trans (hb ⟨25 * k.val + 13, by omega⟩))
      ((readAt_c1 d L xc (k0_off43 k) _ (k0_off43_eq k) ⟨25 * k.val + 13, by omega⟩ (by show _ = 16 * (25 * k.val + 13); omega) (k0_off43_inb k)).trans (hx ⟨25 * k.val + 13, by omega⟩))
      _ _ _ _) $$ Ha
    iintro Ha
    -- vector 14 of the trip
    sl_exec (disch := exact chk_ok _ (fun x => hbc _))
    iapply (wp_scat' m d L hpre (n0 + (25 * k.val + 14)) (n0 + (25 * k.val + 15)) (n0 + (25 * k.val + 14)) (by omega) (by omega) (by omega)
      (View.readAt (Elt F) (s3).view (Rect.unit (s := S10000) (k0_off44 k) S16.size (k0_off44_inb k)).toLoadRect bc)
      (View.readAt (Elt F) (s1).view (Rect.unit (s := S10000) (k0_off44 k) S16.size (k0_off44_inb k)).toLoadRect xc)
      ((readAt_c3 d L bc (k0_off44 k) _ (k0_off44_eq k) ⟨25 * k.val + 14, by omega⟩ (by show _ = 16 * (25 * k.val + 14); omega) (k0_off44_inb k)).trans (hb ⟨25 * k.val + 14, by omega⟩))
      ((readAt_c1 d L xc (k0_off44 k) _ (k0_off44_eq k) ⟨25 * k.val + 14, by omega⟩ (by show _ = 16 * (25 * k.val + 14); omega) (k0_off44_inb k)).trans (hx ⟨25 * k.val + 14, by omega⟩))
      _ _ _ _) $$ Ha
    iintro Ha
    -- vector 15 of the trip
    sl_exec (disch := exact chk_ok _ (fun x => hbc _))
    iapply (wp_scat' m d L hpre (n0 + (25 * k.val + 15)) (n0 + (25 * k.val + 16)) (n0 + (25 * k.val + 15)) (by omega) (by omega) (by omega)
      (View.readAt (Elt F) (s3).view (Rect.unit (s := S10000) (k0_off45 k) S16.size (k0_off45_inb k)).toLoadRect bc)
      (View.readAt (Elt F) (s1).view (Rect.unit (s := S10000) (k0_off45 k) S16.size (k0_off45_inb k)).toLoadRect xc)
      ((readAt_c3 d L bc (k0_off45 k) _ (k0_off45_eq k) ⟨25 * k.val + 15, by omega⟩ (by show _ = 16 * (25 * k.val + 15); omega) (k0_off45_inb k)).trans (hb ⟨25 * k.val + 15, by omega⟩))
      ((readAt_c1 d L xc (k0_off45 k) _ (k0_off45_eq k) ⟨25 * k.val + 15, by omega⟩ (by show _ = 16 * (25 * k.val + 15); omega) (k0_off45_inb k)).trans (hx ⟨25 * k.val + 15, by omega⟩))
      _ _ _ _) $$ Ha
    iintro Ha
    -- vector 16 of the trip
    sl_exec (disch := exact chk_ok _ (fun x => hbc _))
    iapply (wp_scat' m d L hpre (n0 + (25 * k.val + 16)) (n0 + (25 * k.val + 17)) (n0 + (25 * k.val + 16)) (by omega) (by omega) (by omega)
      (View.readAt (Elt F) (s3).view (Rect.unit (s := S10000) (k0_off46 k) S16.size (k0_off46_inb k)).toLoadRect bc)
      (View.readAt (Elt F) (s1).view (Rect.unit (s := S10000) (k0_off46 k) S16.size (k0_off46_inb k)).toLoadRect xc)
      ((readAt_c3 d L bc (k0_off46 k) _ (k0_off46_eq k) ⟨25 * k.val + 16, by omega⟩ (by show _ = 16 * (25 * k.val + 16); omega) (k0_off46_inb k)).trans (hb ⟨25 * k.val + 16, by omega⟩))
      ((readAt_c1 d L xc (k0_off46 k) _ (k0_off46_eq k) ⟨25 * k.val + 16, by omega⟩ (by show _ = 16 * (25 * k.val + 16); omega) (k0_off46_inb k)).trans (hx ⟨25 * k.val + 16, by omega⟩))
      _ _ _ _) $$ Ha
    iintro Ha
    -- vector 17 of the trip
    sl_exec (disch := exact chk_ok _ (fun x => hbc _))
    iapply (wp_scat' m d L hpre (n0 + (25 * k.val + 17)) (n0 + (25 * k.val + 18)) (n0 + (25 * k.val + 17)) (by omega) (by omega) (by omega)
      (View.readAt (Elt F) (s3).view (Rect.unit (s := S10000) (k0_off47 k) S16.size (k0_off47_inb k)).toLoadRect bc)
      (View.readAt (Elt F) (s1).view (Rect.unit (s := S10000) (k0_off47 k) S16.size (k0_off47_inb k)).toLoadRect xc)
      ((readAt_c3 d L bc (k0_off47 k) _ (k0_off47_eq k) ⟨25 * k.val + 17, by omega⟩ (by show _ = 16 * (25 * k.val + 17); omega) (k0_off47_inb k)).trans (hb ⟨25 * k.val + 17, by omega⟩))
      ((readAt_c1 d L xc (k0_off47 k) _ (k0_off47_eq k) ⟨25 * k.val + 17, by omega⟩ (by show _ = 16 * (25 * k.val + 17); omega) (k0_off47_inb k)).trans (hx ⟨25 * k.val + 17, by omega⟩))
      _ _ _ _) $$ Ha
    iintro Ha
    -- vector 18 of the trip
    sl_exec (disch := exact chk_ok _ (fun x => hbc _))
    iapply (wp_scat' m d L hpre (n0 + (25 * k.val + 18)) (n0 + (25 * k.val + 19)) (n0 + (25 * k.val + 18)) (by omega) (by omega) (by omega)
      (View.readAt (Elt F) (s3).view (Rect.unit (s := S10000) (k0_off48 k) S16.size (k0_off48_inb k)).toLoadRect bc)
      (View.readAt (Elt F) (s1).view (Rect.unit (s := S10000) (k0_off48 k) S16.size (k0_off48_inb k)).toLoadRect xc)
      ((readAt_c3 d L bc (k0_off48 k) _ (k0_off48_eq k) ⟨25 * k.val + 18, by omega⟩ (by show _ = 16 * (25 * k.val + 18); omega) (k0_off48_inb k)).trans (hb ⟨25 * k.val + 18, by omega⟩))
      ((readAt_c1 d L xc (k0_off48 k) _ (k0_off48_eq k) ⟨25 * k.val + 18, by omega⟩ (by show _ = 16 * (25 * k.val + 18); omega) (k0_off48_inb k)).trans (hx ⟨25 * k.val + 18, by omega⟩))
      _ _ _ _) $$ Ha
    iintro Ha
    -- vector 19 of the trip
    sl_exec (disch := exact chk_ok _ (fun x => hbc _))
    iapply (wp_scat' m d L hpre (n0 + (25 * k.val + 19)) (n0 + (25 * k.val + 20)) (n0 + (25 * k.val + 19)) (by omega) (by omega) (by omega)
      (View.readAt (Elt F) (s3).view (Rect.unit (s := S10000) (k0_off49 k) S16.size (k0_off49_inb k)).toLoadRect bc)
      (View.readAt (Elt F) (s1).view (Rect.unit (s := S10000) (k0_off49 k) S16.size (k0_off49_inb k)).toLoadRect xc)
      ((readAt_c3 d L bc (k0_off49 k) _ (k0_off49_eq k) ⟨25 * k.val + 19, by omega⟩ (by show _ = 16 * (25 * k.val + 19); omega) (k0_off49_inb k)).trans (hb ⟨25 * k.val + 19, by omega⟩))
      ((readAt_c1 d L xc (k0_off49 k) _ (k0_off49_eq k) ⟨25 * k.val + 19, by omega⟩ (by show _ = 16 * (25 * k.val + 19); omega) (k0_off49_inb k)).trans (hx ⟨25 * k.val + 19, by omega⟩))
      _ _ _ _) $$ Ha
    iintro Ha
    -- vector 20 of the trip
    sl_exec (disch := exact chk_ok _ (fun x => hbc _))
    iapply (wp_scat' m d L hpre (n0 + (25 * k.val + 20)) (n0 + (25 * k.val + 21)) (n0 + (25 * k.val + 20)) (by omega) (by omega) (by omega)
      (View.readAt (Elt F) (s3).view (Rect.unit (s := S10000) (k0_off50 k) S16.size (k0_off50_inb k)).toLoadRect bc)
      (View.readAt (Elt F) (s1).view (Rect.unit (s := S10000) (k0_off50 k) S16.size (k0_off50_inb k)).toLoadRect xc)
      ((readAt_c3 d L bc (k0_off50 k) _ (k0_off50_eq k) ⟨25 * k.val + 20, by omega⟩ (by show _ = 16 * (25 * k.val + 20); omega) (k0_off50_inb k)).trans (hb ⟨25 * k.val + 20, by omega⟩))
      ((readAt_c1 d L xc (k0_off50 k) _ (k0_off50_eq k) ⟨25 * k.val + 20, by omega⟩ (by show _ = 16 * (25 * k.val + 20); omega) (k0_off50_inb k)).trans (hx ⟨25 * k.val + 20, by omega⟩))
      _ _ _ _) $$ Ha
    iintro Ha
    -- vector 21 of the trip
    sl_exec (disch := exact chk_ok _ (fun x => hbc _))
    iapply (wp_scat' m d L hpre (n0 + (25 * k.val + 21)) (n0 + (25 * k.val + 22)) (n0 + (25 * k.val + 21)) (by omega) (by omega) (by omega)
      (View.readAt (Elt F) (s3).view (Rect.unit (s := S10000) (k0_off51 k) S16.size (k0_off51_inb k)).toLoadRect bc)
      (View.readAt (Elt F) (s1).view (Rect.unit (s := S10000) (k0_off51 k) S16.size (k0_off51_inb k)).toLoadRect xc)
      ((readAt_c3 d L bc (k0_off51 k) _ (k0_off51_eq k) ⟨25 * k.val + 21, by omega⟩ (by show _ = 16 * (25 * k.val + 21); omega) (k0_off51_inb k)).trans (hb ⟨25 * k.val + 21, by omega⟩))
      ((readAt_c1 d L xc (k0_off51 k) _ (k0_off51_eq k) ⟨25 * k.val + 21, by omega⟩ (by show _ = 16 * (25 * k.val + 21); omega) (k0_off51_inb k)).trans (hx ⟨25 * k.val + 21, by omega⟩))
      _ _ _ _) $$ Ha
    iintro Ha
    -- vector 22 of the trip
    sl_exec (disch := exact chk_ok _ (fun x => hbc _))
    iapply (wp_scat' m d L hpre (n0 + (25 * k.val + 22)) (n0 + (25 * k.val + 23)) (n0 + (25 * k.val + 22)) (by omega) (by omega) (by omega)
      (View.readAt (Elt F) (s3).view (Rect.unit (s := S10000) (k0_off52 k) S16.size (k0_off52_inb k)).toLoadRect bc)
      (View.readAt (Elt F) (s1).view (Rect.unit (s := S10000) (k0_off52 k) S16.size (k0_off52_inb k)).toLoadRect xc)
      ((readAt_c3 d L bc (k0_off52 k) _ (k0_off52_eq k) ⟨25 * k.val + 22, by omega⟩ (by show _ = 16 * (25 * k.val + 22); omega) (k0_off52_inb k)).trans (hb ⟨25 * k.val + 22, by omega⟩))
      ((readAt_c1 d L xc (k0_off52 k) _ (k0_off52_eq k) ⟨25 * k.val + 22, by omega⟩ (by show _ = 16 * (25 * k.val + 22); omega) (k0_off52_inb k)).trans (hx ⟨25 * k.val + 22, by omega⟩))
      _ _ _ _) $$ Ha
    iintro Ha
    -- vector 23 of the trip
    sl_exec (disch := exact chk_ok _ (fun x => hbc _))
    iapply (wp_scat' m d L hpre (n0 + (25 * k.val + 23)) (n0 + (25 * k.val + 24)) (n0 + (25 * k.val + 23)) (by omega) (by omega) (by omega)
      (View.readAt (Elt F) (s3).view (Rect.unit (s := S10000) (k0_off53 k) S16.size (k0_off53_inb k)).toLoadRect bc)
      (View.readAt (Elt F) (s1).view (Rect.unit (s := S10000) (k0_off53 k) S16.size (k0_off53_inb k)).toLoadRect xc)
      ((readAt_c3 d L bc (k0_off53 k) _ (k0_off53_eq k) ⟨25 * k.val + 23, by omega⟩ (by show _ = 16 * (25 * k.val + 23); omega) (k0_off53_inb k)).trans (hb ⟨25 * k.val + 23, by omega⟩))
      ((readAt_c1 d L xc (k0_off53 k) _ (k0_off53_eq k) ⟨25 * k.val + 23, by omega⟩ (by show _ = 16 * (25 * k.val + 23); omega) (k0_off53_inb k)).trans (hx ⟨25 * k.val + 23, by omega⟩))
      _ _ _ _) $$ Ha
    iintro Ha
    -- vector 24 of the trip
    sl_exec (disch := exact chk_ok _ (fun x => hbc _))
    iapply (wp_scat' m d L hpre (n0 + (25 * k.val + 24)) (n0 + 25 * (k.val + 1)) (n0 + (25 * k.val + 24)) (by omega) (by omega) (by omega)
      (View.readAt (Elt F) (s3).view (Rect.unit (s := S10000) (k0_off54 k) S16.size (k0_off54_inb k)).toLoadRect bc)
      (View.readAt (Elt F) (s1).view (Rect.unit (s := S10000) (k0_off54 k) S16.size (k0_off54_inb k)).toLoadRect xc)
      ((readAt_c3 d L bc (k0_off54 k) _ (k0_off54_eq k) ⟨25 * k.val + 24, by omega⟩ (by show _ = 16 * (25 * k.val + 24); omega) (k0_off54_inb k)).trans (hb ⟨25 * k.val + 24, by omega⟩))
      ((readAt_c1 d L xc (k0_off54 k) _ (k0_off54_eq k) ⟨25 * k.val + 24, by omega⟩ (by show _ = 16 * (25 * k.val + 24); omega) (k0_off54_inb k)).trans (hx ⟨25 * k.val + 24, by omega⟩))
      _ _ _ _) $$ Ha
    iintro Ha
    try sl_exec
    sl_step
    isplitl [Hx]; · iexact Hx
    isplitl [Hb]; · iexact Hb
    iexact Ha
  · unfold ainv1
    isplitl [Hx]; · iexact Hx
    isplitl [Hb]; · iexact Hb
    iexact Ha
  iintro %acc HI
  unfold ainv1
  rw [t4_trips']
  icases HI with ⟨Hx, Hb, Ha⟩
  sl_respell []
  iapply Hk
  isplitl [Hx]; · iexact Hx
  isplitl [Hb]; · iexact Hb
  iexact Ha

end Cert.Proof.KI

end
-- ==== Proof.TileLoops.lean ====
/-
  The three counted loops of a tile's task that touch only its own buffers: the loop that zeroes the accumulator, and
  the two copies of the loop that adds one chunk (625 vectors, 25 trips of 25) into it, from the first pair of chunk
  buffers and from the second.
-/
import proofs.«203046_g35227321762133_cont_8to1_b_835_12_alg».proof.Proof.TileDefs
import proofs.«203046_g35227321762133_cont_8to1_b_835_12_alg».proof.Proof.TileZero
import proofs.«203046_g35227321762133_cont_8to1_b_835_12_alg».proof.Proof.TileAdd0
import proofs.«203046_g35227321762133_cont_8to1_b_835_12_alg».proof.Proof.TileAdd1

noncomputable section

namespace Cert.Proof.KI

open Cert.KernelIdeal Cert.KernelIdeal.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [hK : Cert.KernelIdeal.Facts]
variable (m : (ℓ : Loc nD τ sig) → Buf (Elt F) ℓ) (d : Dev nD) (L : grid0.Coords)

/-- The zeroing loop: whatever the accumulator held, it ends holding the accumulator before any vector. -/
theorem zero_loop (g0 : Buf (Elt F) ((thr d L).loc cc0_scratch4)) {α : Type}
    (k : Unit → Prog (TpuEff nD τ sig (Elt F) Λ₀ (thr d L).2) α) (Φ : α → sProp 𝕄) :
    iprop(((s4).view.loc (thr d L) ↦{fullShare} g0)
        ∗ (((s4).view.loc (thr d L) ↦{fullShare} (accAt (F := F) (xf m d) (bt m d) (wOf L) 0 : Buf (Elt F) ((thr d L).loc cc0_scratch4)))
            -∗ wp frame (wpE (defs₀ (F := F)) 𝒱₀ (thr d L) none) Set.univ (k ⟨⟩) Φ))
      ⊢ wp frame (wpE (defs₀ (F := F)) 𝒱₀ (thr d L) none) Set.univ
          (Scf.Loop.for k0_t1_loop k0_t1_ok ⟨⟩ (k0_t1_body L xV (Memref.isWhole_whole _) bV (Memref.isWhole_whole _) pV (Memref.isWhole_whole _)
            s0 (Memref.isWhole_whole _) s1 (Memref.isWhole_whole _) s2 (Memref.isWhole_whole _) s3 (Memref.isWhole_whole _) s4 (Memref.isWhole_whole _)
            cc0_scratch5 cc0_scratch6 cc0_scoped0) >>= k) Φ := by
  exact zero_loop_run m d L g0 k Φ

/-- Adding one chunk from the first pair of buffers: with the buffers holding vectors `n0 … n0 + 624` of the tile's rows
    and segment numbers, the accumulator goes from its state after `n0` vectors to its state after `n0 + 625`. -/
theorem add_chunk0 (hpre : PreOK m) (xc : Buf (Elt F) ((thr d L).loc cc0_scratch0)) (bc : Buf (Elt F) ((thr d L).loc cc0_scratch2))
    (n0 : Nat) (hn0 : n0 + 625 ≤ 12500)
    (hx : ∀ n : Fin 625, vecOf (F := F) (e := .f32) xc n = xVec (F := F) (xf m d) (wOf L) ⟨n0 + n.val, by have := n.isLt; omega⟩)
    (hb : ∀ n : Fin 625, vecOf (F := F) (e := .i32) bc n = bVec (bt m d) (wOf L) ⟨n0 + n.val, by have := n.isLt; omega⟩)
    {α : Type} (k : Unit → Prog (TpuEff nD τ sig (Elt F) Λ₀ (thr d L).2) α) (Φ : α → sProp 𝕄) :
    iprop(((s0).view.loc (thr d L) ↦{fullShare} xc) ∗ ((s2).view.loc (thr d L) ↦{fullShare} bc)
        ∗ ((s4).view.loc (thr d L) ↦{fullShare} (accAt (F := F) (xf m d) (bt m d) (wOf L) n0 : Buf (Elt F) ((thr d L).loc cc0_scratch4)))
        ∗ ((((s0).view.loc (thr d L) ↦{fullShare} xc) ∗ ((s2).view.loc (thr d L) ↦{fullShare} bc)
            ∗ ((s4).view.loc (thr d L) ↦{fullShare} (accAt (F := F) (xf m d) (bt m d) (wOf L) (n0 + 625) : Buf (Elt F) ((thr d L).loc cc0_scratch4))))
            -∗ wp frame (wpE (defs₀ (F := F)) 𝒱₀ (thr d L) none) Set.univ (k ⟨⟩) Φ))
      ⊢ wp frame (wpE (defs₀ (F := F)) 𝒱₀ (thr d L) none) Set.univ
          (Scf.Loop.for k0_t3_loop k0_t3_ok ⟨⟩ (k0_t3_body L xV (Memref.isWhole_whole _) bV (Memref.isWhole_whole _) pV (Memref.isWhole_whole _)
            s0 (Memref.isWhole_whole _) s1 (Memref.isWhole_whole _) s2 (Memref.isWhole_whole _) s3 (Memref.isWhole_whole _) s4 (Memref.isWhole_whole _)
            cc0_scratch5 cc0_scratch6 cc0_scoped0 lanes) >>= k) Φ := by
  exact add_chunk0_run m d L hpre xc bc n0 hn0 hx hb k Φ

/-- The same from the second pair of buffers. -/
theorem add_chunk1 (hpre : PreOK m) (xc : Buf (Elt F) ((thr d L).loc cc0_scratch1)) (bc : Buf (Elt F) ((thr d L).loc cc0_scratch3))
    (n0 : Nat) (hn0 : n0 + 625 ≤ 12500)
    (hx : ∀ n : Fin 625, vecOf (F := F) (e := .f32) xc n = xVec (F := F) (xf m d) (wOf L) ⟨n0 + n.val, by have := n.isLt; omega⟩)
    (hb : ∀ n : Fin 625, vecOf (F := F) (e := .i32) bc n = bVec (bt m d) (wOf L) ⟨n0 + n.val, by have := n.isLt; omega⟩)
    {α : Type} (k : Unit → Prog (TpuEff nD τ sig (Elt F) Λ₀ (thr d L).2) α) (Φ : α → sProp 𝕄) :
    iprop(((s1).view.loc (thr d L) ↦{fullShare} xc) ∗ ((s3).view.loc (thr d L) ↦{fullShare} bc)
        ∗ ((s4).view.loc (thr d L) ↦{fullShare} (accAt (F := F) (xf m d) (bt m d) (wOf L) n0 : Buf (Elt F) ((thr d L).loc cc0_scratch4)))
        ∗ ((((s1).view.loc (thr d L) ↦{fullShare} xc) ∗ ((s3).view.loc (thr d L) ↦{fullShare} bc)
            ∗ ((s4).view.loc (thr d L) ↦{fullShare} (accAt (F := F) (xf m d) (bt m d) (wOf L) (n0 + 625) : Buf (Elt F) ((thr d L).loc cc0_scratch4))))
            -∗ wp frame (wpE (defs₀ (F := F)) 𝒱₀ (thr d L) none) Set.univ (k ⟨⟩) Φ))
      ⊢ wp frame (wpE (defs₀ (F := F)) 𝒱₀ (thr d L) none) Set.univ
          (Scf.Loop.for k0_t4_loop k0_t4_ok ⟨⟩ (k0_t4_body L xV (Memref.isWhole_whole _) bV (Memref.isWhole_whole _) pV (Memref.isWhole_whole _)
            s0 (Memref.isWhole_whole _) s1 (Memref.isWhole_whole _) s2 (Memref.isWhole_whole _) s3 (Memref.isWhole_whole _) s4 (Memref.isWhole_whole _)
            cc0_scratch5 cc0_scratch6 cc0_scoped0 lanes) >>= k) Φ := by
  exact add_chunk1_run m d L hpre xc bc n0 hn0 hx hb k Φ

end Cert.Proof.KI

end
-- ==== Proof.TileRes.lean ====
/-
  One tile's resources: its three DMA semaphores and five scratch buffers picked out of what the tile owns, the chunks
  of the rows and of the segment numbers and the tile's row of the accumulators' array respelt as the slices the task
  addresses them by, and the offsets the task computes as the tile's chunk numbers.
-/
import proofs.«203046_g35227321762133_cont_8to1_b_835_12_alg».proof.Proof.TileDefs

noncomputable section

namespace Cert.Proof.KI

open Cert.KernelIdeal Cert.KernelIdeal.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [hK : Cert.KernelIdeal.Facts]
variable (m : (ℓ : Loc nD τ sig) → Buf (Elt F) ℓ) (d : Dev nD) (L : grid0.Coords)

/-- The tile's three DMA semaphores, as cells. -/
abbrev c5cell : GSem nD τ sig := (thr d L, .dma cc0_scratch5.sem)
abbrev c6cell : GSem nD τ sig := (thr d L, .dma cc0_scratch6.sem)
abbrev cOcell : GSem nD τ sig := (thr d L, .dma cc0_scoped0.sem)

/-- They are among the tile's own semaphores: those are them, at zero, and the rest. -/
theorem ownSems0_V :
    (ownSems0 (thr d L) : sProp 𝕄)
      = iprop(semVal (c5cell d L) 0 ∗ semVal (c6cell d L) 0 ∗ semVal (cOcell d L) 0
          ∗ bigSep ((((ownCells (thr d L)).erase (c5cell d L)).erase (c6cell d L)).erase (cOcell d L)) fun g => semVal g 0) := by
  unfold SparseCore.Cfg.ownSems0
  rw [SparseCore.bigSep_erase' ((mem_ownCells (g := c5cell d L)).mpr ⟨rfl, by show (SemLoc.dma cc0_scratch5.sem : SemLoc sig).isScoped .scVector = true; decide⟩),
    SparseCore.bigSep_erase' (Finset.mem_erase.mpr ⟨fun e => absurd (Prod.mk.inj e).2 (show (SemLoc.dma cc0_scratch6.sem : SemLoc sig) ≠ SemLoc.dma cc0_scratch5.sem by decide), (mem_ownCells (g := c6cell d L)).mpr ⟨rfl, by show (SemLoc.dma cc0_scratch6.sem : SemLoc sig).isScoped .scVector = true; decide⟩⟩),
    SparseCore.bigSep_erase' (Finset.mem_erase.mpr ⟨fun e => absurd (Prod.mk.inj e).2 (show (SemLoc.dma cc0_scoped0.sem : SemLoc sig) ≠ SemLoc.dma cc0_scratch6.sem by decide), Finset.mem_erase.mpr ⟨fun e => absurd (Prod.mk.inj e).2 (show (SemLoc.dma cc0_scoped0.sem : SemLoc sig) ≠ SemLoc.dma cc0_scratch5.sem by decide), (mem_ownCells (g := cOcell d L)).mpr ⟨rfl, by show (SemLoc.dma cc0_scoped0.sem : SemLoc sig).isScoped .scVector = true; decide⟩⟩⟩)]

/-- The five scratch buffers are among the tile's own: they are them, at some contents, and the rest. -/
theorem ownBufs_V :
    (ownBufs (thr d L) : sProp 𝕄)
      = iprop((∃ f, (thr d L).loc cc0_scratch0 ↦{fullShare} f)
          ∗ (∃ f, (thr d L).loc cc0_scratch1 ↦{fullShare} f)
          ∗ (∃ f, (thr d L).loc cc0_scratch2 ↦{fullShare} f)
          ∗ (∃ f, (thr d L).loc cc0_scratch3 ↦{fullShare} f)
          ∗ (∃ f, (thr d L).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩)]

/-! ## The chunks and the row, as the task slices them -/

/-- A chunk of the rows and of the segment numbers, sliced at an offset; the tile's row of the accumulators' array. -/
abbrev xSl (off : Fin S6400000.rank → Nat) (h : ∀ a, off a + S10000.size a ≤ S6400000.size a) : Memref sig .scVector .hbm S10000 .f32 :=
  (xV : Memref sig .scVector .hbm S6400000 .f32).slice (Rect.unit (s := S6400000) off S10000.size h) (fun _ => rfl)
abbrev bSl (off : Fin S6400000.rank → Nat) (h : ∀ a, off a + S10000.size a ≤ S6400000.size a) : Memref sig .scVector .hbm S10000 .i32 :=
  (bV : Memref sig .scVector .hbm S6400000 .i32).slice (Rect.unit (s := S6400000) off S10000.size h) (fun _ => rfl)
abbrev pSl (off : Fin S32x65536.rank → Nat) (h : ∀ a, off a + S1x65536.size a ≤ S32x65536.size a) : Memref sig .scVector .hbm S65536 .f32 :=
  ((pV : Memref sig .scVector .hbm S32x65536 .f32).slice (Rect.unit (s := S32x65536) off S1x65536.size h) (fun _ => rfl)).squeeze S65536 squeezes_S1x65536_S65536

/-- The offset of chunk `j` of tile `w`. -/
abbrev chunkOff (w : Fin 32) (j : Fin 20) : Fin S6400000.rank → Nat := ![200000 * w.val + 10000 * j.val]

theorem set_xSl (w : Fin 32) (j : Fin 20) (off : Fin S6400000.rank → Nat) (h : ∀ a, off a + S10000.size a ≤ S6400000.size a)
    (heq : off = chunkOff w j) : (xSl off h).view.set = chunkSet w j := by
  subst heq; rfl
theorem set_bSl (w : Fin 32) (j : Fin 20) (off : Fin S6400000.rank → Nat) (h : ∀ a, off a + S10000.size a ≤ S6400000.size a)
    (heq : off = chunkOff w j) : (bSl off h).view.set = chunkSet w j := by
  subst heq; rfl
theorem set_pSl (w : Fin 32) (off : Fin S32x65536.rank → Nat) (h : ∀ a, off a + S1x65536.size a ≤ S32x65536.size a)
    (heq : off = ![w.val, 0]) : (pSl off h).view.set = prowSet w := by
  subst heq
  show (((pV : Memref sig .scVector .hbm S32x65536 .f32).view.slice (prowRect w)).reshape S65536 squeezes_S1x65536_S65536.numel_eq).set = _
  rw [View.set_reshape]

theorem pts_xSl (w : Fin 32) (j : Fin 20) (off : Fin S6400000.rank → Nat) (h : ∀ a, off a + S10000.size a ≤ S6400000.size a)
    (heq : off = chunkOff w j) (f : Buf (Elt F) (xLoc d)) :
    ((xSl off h).view.loc (thr d L) ↦[(xSl off h).view.set]{fullShare} f : sProp 𝕄) = xLoc d ↦[chunkSet w j]{fullShare} f := by
  rw [set_xSl w j off h heq]
theorem pts_bSl (w : Fin 32) (j : Fin 20) (off : Fin S6400000.rank → Nat) (h : ∀ a, off a + S10000.size a ≤ S6400000.size a)
    (heq : off = chunkOff w j) (f : Buf (Elt F) (a1Loc d)) :
    ((bSl off h).view.loc (thr d L) ↦[(bSl off h).view.set]{fullShare} f : sProp 𝕄) = a1Loc d ↦[chunkSet w j]{fullShare} f := by
  rw [set_bSl w j off h heq]
theorem pts_pSl (w : Fin 32) (off : Fin S32x65536.rank → Nat) (h : ∀ a, off a + S1x65536.size a ≤ S32x65536.size a)
    (heq : off = ![w.val, 0]) (f : Buf (Elt F) (pLoc d)) :
    ((pSl off h).view.loc (thr d L) ↦[(pSl off h).view.set]{fullShare} f : sProp 𝕄) = pLoc d ↦[prowSet w]{fullShare} f := by
  rw [set_pSl w off h heq]

/-! ## The offsets the task computes, at the tile's number -/

theorem vec1_eq {a b : Nat} (h : a = b) : (![a] : Fin 1 → Nat) = ![b] := by rw [h]

theorem off_first (r : Fin 2) : k0_off2 L (BitVec.ofNat 32 (10000 * r.val)) = chunkOff (wOf L) ⟨r.val, by have := r.isLt; omega⟩ := by
  rw [k0_off2_eq L r]; exact vec1_eq (by simp only [Fin.val_mk, wOf_val]; omega)
theorem off_wait (t : Fin k0_t2_loop.trips) (r : Fin 2) (ht : 2 * t.val + r.val < 20) :
    k0_off3 L t (BitVec.ofNat 32 r.val) = chunkOff (wOf L) ⟨2 * t.val + r.val, ht⟩ := by
  rw [k0_off3_eq L t r]; exact vec1_eq (by simp only [Fin.val_mk, wOf_val]; omega)
theorem off_next0 (t : Fin k0_t2_loop.trips) (ht : 2 * t.val + 2 < 20) :
    k0_off29 L t = chunkOff (wOf L) ⟨2 * t.val + 2, ht⟩ := by
  rw [k0_off29_eq L t]; exact vec1_eq (by simp only [Fin.val_mk, wOf_val]; omega)
theorem off_next1 (t : Fin k0_t2_loop.trips) (ht : 2 * t.val + 3 < 20) :
    k0_off55 L t = chunkOff (wOf L) ⟨2 * t.val + 3, ht⟩ := by
  rw [k0_off55_eq L t]; exact vec1_eq (by simp only [Fin.val_mk, wOf_val]; omega)
theorem off_row : k0_off56 L = ![(wOf L).val, 0] := by
  rw [k0_off56_eq L, wOf_val]

theorem trips2 : k0_t2_loop.trips = 10 := by decide
theorem cond1_iff (t : Fin k0_t2_loop.trips) : k0_cond1 t = 1#1 ↔ t.val < 9 := by revert t; decide +kernel
theorem cond2_iff (t : Fin k0_t2_loop.trips) : k0_cond2 t = 1#1 ↔ t.val < 9 := by revert t; decide +kernel

/-! ## The scratch buffers, as the task's memrefs address them -/

theorem pts_s0 (f : Buf (Elt F) ((thr d L).loc cc0_scratch0)) :
    ((s0).view.loc (thr d L) ↦{fullShare} f : sProp 𝕄) = (thr d L).loc cc0_scratch0 ↦{fullShare} f := rfl
theorem pts_s1 (f : Buf (Elt F) ((thr d L).loc cc0_scratch1)) :
    ((s1).view.loc (thr d L) ↦{fullShare} f : sProp 𝕄) = (thr d L).loc cc0_scratch1 ↦{fullShare} f := rfl
theorem pts_s2 (f : Buf (Elt F) ((thr d L).loc cc0_scratch2)) :
    ((s2).view.loc (thr d L) ↦{fullShare} f : sProp 𝕄) = (thr d L).loc cc0_scratch2 ↦{fullShare} f := rfl
theorem pts_s3 (f : Buf (Elt F) ((thr d L).loc cc0_scratch3)) :
    ((s3).view.loc (thr d L) ↦{fullShare} f : sProp 𝕄) = (thr d L).loc cc0_scratch3 ↦{fullShare} f := rfl
theorem pts_s4 (f : Buf (Elt F) ((thr d L).loc cc0_scratch4)) :
    ((s4).view.loc (thr d L) ↦{fullShare} f : sProp 𝕄) = (thr d L).loc cc0_scratch4 ↦{fullShare} f := rfl

theorem off_first0 : k0_off2 L 0#32 = chunkOff (wOf L) 0 := off_first L 0
theorem off_first1 : k0_off2 L 10000#32 = chunkOff (wOf L) 1 := off_first L 1
theorem off_wait0 (t : Fin k0_t2_loop.trips) (ht : 2 * t.val + 0 < 20) : k0_off3 L t 0#32 = chunkOff (wOf L) ⟨2 * t.val + 0, ht⟩ := off_wait L t 0 ht
theorem off_wait1 (t : Fin k0_t2_loop.trips) (ht : 2 * t.val + 1 < 20) : k0_off3 L t 1#32 = chunkOff (wOf L) ⟨2 * t.val + 1, ht⟩ := off_wait L t 1 ht

theorem off_first0' (j : Fin 20) (hj : j.val = 0) : k0_off2 L 0#32 = chunkOff (wOf L) j :=
  (off_first0 L).trans (congrArg (chunkOff (wOf L)) (Fin.ext hj.symm))
theorem off_first1' (j : Fin 20) (hj : j.val = 1) : k0_off2 L 10000#32 = chunkOff (wOf L) j :=
  (off_first1 L).trans (congrArg (chunkOff (wOf L)) (Fin.ext hj.symm))
theorem off_next0' (t : Fin k0_t2_loop.trips) (j : Fin 20) (hj : j.val = 2 * t.val + 2) : k0_off29 L t = chunkOff (wOf L) j := by
  rw [k0_off29_eq L t]; exact vec1_eq (by rw [hj, wOf_val]; omega)
theorem off_next1' (t : Fin k0_t2_loop.trips) (j : Fin 20) (hj : j.val = 2 * t.val + 3) : k0_off55 L t = chunkOff (wOf L) j := by
  rw [k0_off55_eq L t]; exact vec1_eq (by rw [hj, wOf_val]; omega)

/-! ## The twenty chunks, taken in order -/

/-- All twenty are the first two and those from the third on; -/
theorem chunks_open (Φ : Fin 20 → sProp 𝕄) : bigSep Finset.univ Φ = iprop(Φ 0 ∗ Φ 1 ∗ bigSep (Transfers.pending 2) Φ) := by
  rw [Transfers.bigSep_pending_zero, Transfers.bigSep_pending_step Φ 0 (by decide), Transfers.bigSep_pending_step Φ (0 + 1) (by decide)]
  rfl
/-- those from the `k`-th on are the `k`-th and those from the next on; -/
theorem pend_step (Φ : Fin 20 → sProp 𝕄) (k : ℕ) (hk : k < 20) :
    bigSep (Transfers.pending k) Φ = iprop(Φ ⟨k, hk⟩ ∗ bigSep (Transfers.pending (k + 1)) Φ) :=
  Transfers.bigSep_pending_step Φ k hk
/-- past the last there is none; -/
theorem pend_end (Φ : Fin 20 → sProp 𝕄) (k : ℕ) (hk : 20 ≤ k) : bigSep (Transfers.pending k) Φ = (iprop(emp) : sProp 𝕄) := by
  rw [show (Transfers.pending k : Finset (Fin 20)) = ∅ from by
    ext t; simp only [Transfers.pending, Finset.mem_filter, Finset.mem_univ, true_and, Finset.notMem_empty, iff_false]; have := t.isLt; omega]
  exact bigSep_empty
/-- the first `k + 1` are the `k`-th and the first `k`; -/
theorem iss_step (Φ : Fin 20 → sProp 𝕄) (k : ℕ) (hk : k < 20) :
    bigSep (Transfers.issued (k + 1)) Φ = iprop(Φ ⟨k, hk⟩ ∗ bigSep (Transfers.issued k) Φ) := by
  rw [Transfers.issued_succ hk, bigSep_insert (Transfers.not_mem_issued hk)]
  rfl
/-- the first none is nothing, the first twenty are all. -/
theorem iss_zero (Φ : Fin 20 → sProp 𝕄) : bigSep (Transfers.issued 0 : Finset (Fin 20)) Φ = (iprop(emp) : sProp 𝕄) := by
  rw [Transfers.issued_zero]; exact bigSep_empty
theorem iss_all (Φ : Fin 20 → sProp 𝕄) : bigSep (Transfers.issued 20 : Finset (Fin 20)) Φ = bigSep Finset.univ Φ := by
  rw [Transfers.issued_all rfl]

theorem iss_step' (Φ : Fin 20 → sProp 𝕄) (k k' : ℕ) (hk : k < 20) (hk' : k' = k + 1) :
    bigSep (Transfers.issued k') Φ = iprop(Φ ⟨k, hk⟩ ∗ bigSep (Transfers.issued k) Φ) := by
  subst hk'; exact iss_step Φ k hk
theorem pend_step' (Φ : Fin 20 → sProp 𝕄) (k k' : ℕ) (hk : k < 20) (hk' : k' = k + 1) :
    bigSep (Transfers.pending k) Φ = iprop(Φ ⟨k, hk⟩ ∗ bigSep (Transfers.pending k') Φ) := by
  subst hk'; exact pend_step Φ k hk
theorem iss_idx (Φ : Fin 20 → sProp 𝕄) (k k' : ℕ) (h : k = k') : bigSep (Transfers.issued k) Φ = bigSep (Transfers.issued k') Φ := h ▸ rfl
theorem pend_idx (Φ : Fin 20 → sProp 𝕄) (k k' : ℕ) (h : k = k') : bigSep (Transfers.pending k) Φ = bigSep (Transfers.pending k') Φ := h ▸ rfl

/-- Waits at index `none` recorded beyond `W` stay so when one more is recorded. -/
theorem waits_ins {W W1 : Waits sig (HIx 1)} (sm : SemLoc sig) (h : ∀ p ∈ W1, p ∈ W ∨ p.2 = none) :
    ∀ p ∈ insert (sm, (default : HIx 1)) W1, p ∈ W ∨ p.2 = none := by
  intro p hp
  rcases Finset.mem_insert.mp hp with hp | hp
  · exact .inr (hp ▸ rfl)
  · exact h p hp

end Cert.Proof.KI

end
-- ==== Proof.TileInv.lean ====
/-
  One tile's fetching loop, stated: what a fetched chunk holds (vector `n` of chunk `j` is vector `625 j + n` of the
  tile's rows, and likewise of its segment numbers), what the tile's row of the accumulators' array holds once the
  accumulator has been copied into it, and the loop's invariant: before trip `t` the accumulator has taken in `1250 t`
  vectors, the first pair of buffers is being filled with chunk `2t` and the second with chunk `2t + 1` (each pair's two
  copies counted on the pair's one semaphore), and every other chunk is held.
-/
import proofs.«203046_g35227321762133_cont_8to1_b_835_12_alg».proof.Proof.TileRes

noncomputable section

namespace Cert.Proof.KI

open Cert.KernelIdeal Cert.KernelIdeal.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [hK : Cert.KernelIdeal.Facts]
variable (m : (ℓ : Loc nD τ sig) → Buf (Elt F) ℓ) (d : Dev nD) (L : grid0.Coords)

/-! ## What a fetched chunk holds -/

/-- Vector `n` of chunk `j` of tile `w`'s rows is vector `625 j + n` of the tile; -/
theorem xread_vec (w : Fin 32) (j : Fin 20) (off : Fin S6400000.rank → Nat) (h : ∀ a, off a + S10000.size a ≤ S6400000.size a)
    (heq : off = chunkOff w j) (n : Fin 625) :
    vecOf (F := F) (e := .f32) ((xSl off h).view.read (Elt F) (xf m d)) n
      = xVec (F := F) (xf m d) w ⟨625 * j.val + n.val, by have := j.isLt; have := n.isLt; omega⟩ := by
  subst heq
  funext l
  unfold vecOf xVec
  rw [View.read_apply]
  refine (cast_eq _ _).trans (congrArg (xf m d) ?_)
  funext a
  apply Fin.ext
  match a with
  | ⟨0, _⟩ =>
    show (200000 * w.val + 10000 * j.val) + 1 * (16 * n.val + (l 0).val) = w.val * 200000 + (625 * j.val + n.val) * 16 + (l 0).val
    omega

/-- likewise of its segment numbers. -/
theorem bread_vec (w : Fin 32) (j : Fin 20) (off : Fin S6400000.rank → Nat) (h : ∀ a, off a + S10000.size a ≤ S6400000.size a)
    (heq : off = chunkOff w j) (n : Fin 625) :
    vecOf (F := F) (e := .i32) ((bSl off h).view.read (Elt F) (bt m d)) n
      = bVec (bt m d) w ⟨625 * j.val + n.val, by have := j.isLt; have := n.isLt; omega⟩ := by
  subst heq
  funext l
  unfold vecOf bVec
  rw [View.read_apply]
  refine (cast_eq _ _).trans (congrArg (bt m d) ?_)
  funext a
  apply Fin.ext
  match a with
  | ⟨0, _⟩ =>
    show (200000 * w.val + 10000 * j.val) + 1 * (16 * n.val + (l 0).val) = w.val * 200000 + (625 * j.val + n.val) * 16 + (l 0).val
    omega

/-- The same of any contents equal to the chunk's read, the vector numbered from `n0 = 625 j`. -/
theorem xvec_of (w : Fin 32) (j : Fin 20) (off : Fin S6400000.rank → Nat) (h : ∀ a, off a + S10000.size a ≤ S6400000.size a)
    (heq : off = chunkOff w j) (c : Vec F S10000 .f32) (hc : c = (xSl off h).view.read (Elt F) (xf m d))
    (n0 : Nat) (hn0 : n0 = 625 * j.val) (n : Fin 625) :
    vecOf (F := F) (e := .f32) c n = xVec (F := F) (xf m d) w ⟨n0 + n.val, by have := j.isLt; have := n.isLt; omega⟩ := by
  subst hc; subst hn0; exact xread_vec m d w j off h heq n
theorem bvec_of (w : Fin 32) (j : Fin 20) (off : Fin S6400000.rank → Nat) (h : ∀ a, off a + S10000.size a ≤ S6400000.size a)
    (heq : off = chunkOff w j) (c : Vec F S10000 .i32) (hc : c = (bSl off h).view.read (Elt F) (bt m d))
    (n0 : Nat) (hn0 : n0 = 625 * j.val) (n : Fin 625) :
    vecOf (F := F) (e := .i32) c n = bVec (bt m d) w ⟨n0 + n.val, by have := j.isLt; have := n.isLt; omega⟩ := by
  subst hc; subst hn0; exact bread_vec m d w j off h heq n

/-- The same of a buffer the chunk's copy has landed in, whatever it held before. -/
theorem hx_s0 (w : Fin 32) (j : Fin 20) (off : Fin S6400000.rank → Nat) (h : ∀ a, off a + S10000.size a ≤ S6400000.size a)
    (heq : off = chunkOff w j) (g : Buf (Elt F) ((thr d L).loc cc0_scratch0)) (n0 : Nat) (hn0 : n0 = 625 * j.val) (n : Fin 625) :
    vecOf (F := F) (e := .f32) ((s0).view.write (Elt F) g (ReadAs.same.apply ((xSl off h).view.read (Elt F) (xf m d))) Finset.univ) n
      = xVec (F := F) (xf m d) w ⟨n0 + n.val, by have := j.isLt; have := n.isLt; omega⟩ :=
  xvec_of m d w j off h heq _ (View.write_whole_univ cc0_scratch0 g _) n0 hn0 n
theorem hx_s1 (w : Fin 32) (j : Fin 20) (off : Fin S6400000.rank → Nat) (h : ∀ a, off a + S10000.size a ≤ S6400000.size a)
    (heq : off = chunkOff w j) (g : Buf (Elt F) ((thr d L).loc cc0_scratch1)) (n0 : Nat) (hn0 : n0 = 625 * j.val) (n : Fin 625) :
    vecOf (F := F) (e := .f32) ((s1).view.write (Elt F) g (ReadAs.same.apply ((xSl off h).view.read (Elt F) (xf m d))) Finset.univ) n
      = xVec (F := F) (xf m d) w ⟨n0 + n.val, by have := j.isLt; have := n.isLt; omega⟩ :=
  xvec_of m d w j off h heq _ (View.write_whole_univ cc0_scratch1 g _) n0 hn0 n
theorem hb_s2 (w : Fin 32) (j : Fin 20) (off : Fin S6400000.rank → Nat) (h : ∀ a, off a + S10000.size a ≤ S6400000.size a)
    (heq : off = chunkOff w j) (g : Buf (Elt F) ((thr d L).loc cc0_scratch2)) (n0 : Nat) (hn0 : n0 = 625 * j.val) (n : Fin 625) :
    vecOf (F := F) (e := .i32) ((s2).view.write (Elt F) g (ReadAs.same.apply ((bSl off h).view.read (Elt F) (bt m d))) Finset.univ) n
      = bVec (bt m d) w ⟨n0 + n.val, by have := j.isLt; have := n.isLt; omega⟩ :=
  bvec_of m d w j off h heq _ (View.write_whole_univ cc0_scratch2 g _) n0 hn0 n
theorem hb_s3 (w : Fin 32) (j : Fin 20) (off : Fin S6400000.rank → Nat) (h : ∀ a, off a + S10000.size a ≤ S6400000.size a)
    (heq : off = chunkOff w j) (g : Buf (Elt F) ((thr d L).loc cc0_scratch3)) (n0 : Nat) (hn0 : n0 = 625 * j.val) (n : Fin 625) :
    vecOf (F := F) (e := .i32) ((s3).view.write (Elt F) g (ReadAs.same.apply ((bSl off h).view.read (Elt F) (bt m d))) Finset.univ) n
      = bVec (bt m d) w ⟨n0 + n.val, by have := j.isLt; have := n.isLt; omega⟩ :=
  bvec_of m d w j off h heq _ (View.write_whole_univ cc0_scratch3 g _) n0 hn0 n

/-- Row `w` of the finished accumulators is tile `w`'s accumulator after all its vectors. -/
theorem part_row (w : Fin 32) (p : Fin 65536) :
    partBuf (F := F) m d (ix2 w p) = accAt (F := F) (xf m d) (bt m d) w 12500 (ix1 p) := rfl

/-- The tile's row after the accumulator's copy has landed in it is the finished accumulators' row. -/
theorem row_written (fp : Buf (Elt F) (pLoc d)) (w : Fin 32) (off : Fin S32x65536.rank → Nat)
    (h : ∀ a, off a + S1x65536.size a ≤ S32x65536.size a) (heq : off = ![w.val, 0])
    (v : Vec F S65536 .f32) (hv : v = accAt (F := F) (xf m d) (bt m d) w 12500) :
    ∀ i ∈ prowSet w, ((pSl off h).view.writes (Elt F) fp [⟨Rect.whole S65536, v⟩]) i = partBuf m d i := by
  subst heq; subst hv
  intro i hi
  have hi' : i ∈ (pSl ![w.val, 0] h).view.set := by rw [set_pSl w _ h rfl]; exact hi
  obtain ⟨x, -, rfl⟩ := Finset.mem_map.mp hi'
  have hx : (pSl ![w.val, 0] h).view.emb x = ix2 w (x 0) := by
    show (prowRect w).emb (Shape.reshapeEquiv _ x) = _
    rw [Shape.reshapeEquiv_cons_one]
    funext a; apply Fin.ext
    match a with
    | ⟨0, _⟩ => show w.val + 1 * 0 = w.val; omega
    | ⟨1, _⟩ => show 0 + 1 * (x 0).val = (x 0).val; omega
  have e := View.write_univ_eq_writes_whole (Val := Elt F) (pSl ![w.val, 0] h).view fp [] (accAt (F := F) (xf m d) (bt m d) w 12500)
  refine (congrFun e.symm _).trans ?_
  rw [View.writes_nil, View.write_emb_of_mem _ _ (Finset.mem_univ x)]
  refine (cast_eq _ _).trans ?_
  rw [hx]
  exact ((part_row m d w (x 0)).trans (congrArg (accAt (F := F) (xf m d) (bt m d) w 12500) (eq_ix1 x).symm)).symm

/-! ## The fetching loop's invariant -/

/-- What the two copies of a pair deliver: the buffer holding the chunk's read, and the chunk back. -/
abbrev dlv5 (off : Fin S6400000.rank → Nat) (h : ∀ a, off a + S10000.size a ≤ S6400000.size a)
    (f0 : Buf (Elt F) ((thr d L).loc cc0_scratch0)) (f2 : Buf (Elt F) ((thr d L).loc cc0_scratch2)) : List (sProp 𝕄) :=
  [iprop(((s0).view.loc (thr d L) ↦{fullShare} (s0).view.write (Elt F) f0 (ReadAs.same.apply ((xSl off h).view.read (Elt F) (xf m d))) Finset.univ)
      ∗ ((xSl off h).view.loc (thr d L) ↦[(xSl off h).view.set]{fullShare} xf m d)),
   iprop(((s2).view.loc (thr d L) ↦{fullShare} (s2).view.write (Elt F) f2 (ReadAs.same.apply ((bSl off h).view.read (Elt F) (bt m d))) Finset.univ)
      ∗ ((bSl off h).view.loc (thr d L) ↦[(bSl off h).view.set]{fullShare} bt m d))]
abbrev dlv6 (off : Fin S6400000.rank → Nat) (h : ∀ a, off a + S10000.size a ≤ S6400000.size a)
    (f1 : Buf (Elt F) ((thr d L).loc cc0_scratch1)) (f3 : Buf (Elt F) ((thr d L).loc cc0_scratch3)) : List (sProp 𝕄) :=
  [iprop(((s1).view.loc (thr d L) ↦{fullShare} (s1).view.write (Elt F) f1 (ReadAs.same.apply ((xSl off h).view.read (Elt F) (xf m d))) Finset.univ)
      ∗ ((xSl off h).view.loc (thr d L) ↦[(xSl off h).view.set]{fullShare} xf m d)),
   iprop(((s3).view.loc (thr d L) ↦{fullShare} (s3).view.write (Elt F) f3 (ReadAs.same.apply ((bSl off h).view.read (Elt F) (bt m d))) Finset.univ)
      ∗ ((bSl off h).view.loc (thr d L) ↦[(bSl off h).view.set]{fullShare} bt m d))]

/-- The first pair in flight with chunk `j`, the second likewise; -/
def fl5 (j : Fin 20) : sProp 𝕄 :=
  iprop(∃ (off : Fin S6400000.rank → Nat) (h : ∀ a, off a + S10000.size a ≤ S6400000.size a)
      (f0 : Buf (Elt F) ((thr d L).loc cc0_scratch0)) (f2 : Buf (Elt F) ((thr d L).loc cc0_scratch2)),
    ⌜off = chunkOff (wOf L) j⌝ ∗
    Transfers.Batched (countersEmb : UEmb Counters 𝕄) (thr d L) (SemLoc.dma cc0_scratch5.sem) (default : HIx 1) 320000 2 (dlv5 m d L off h f0 f2) 0)
def fl6 (j : Fin 20) : sProp 𝕄 :=
  iprop(∃ (off : Fin S6400000.rank → Nat) (h : ∀ a, off a + S10000.size a ≤ S6400000.size a)
      (f1 : Buf (Elt F) ((thr d L).loc cc0_scratch1)) (f3 : Buf (Elt F) ((thr d L).loc cc0_scratch3)),
    ⌜off = chunkOff (wOf L) j⌝ ∗
    Transfers.Batched (countersEmb : UEmb Counters 𝕄) (thr d L) (SemLoc.dma cc0_scratch6.sem) (default : HIx 1) 320000 2 (dlv6 m d L off h f1 f3) 0)
/-- and each pair at rest: its buffers at some contents, its semaphore at zero. -/
def rest5 : sProp 𝕄 :=
  iprop((∃ f, (thr d L).loc cc0_scratch0 ↦{fullShare} f) ∗ (∃ f, (thr d L).loc cc0_scratch2 ↦{fullShare} f) ∗ semVal (c5cell d L) 0)
def rest6 : sProp 𝕄 :=
  iprop((∃ f, (thr d L).loc cc0_scratch1 ↦{fullShare} f) ∗ (∃ f, (thr d L).loc cc0_scratch3 ↦{fullShare} f) ∗ semVal (c6cell d L) 0)

/-- Before trip `t`: the first pair is fetching chunk `2t` and the second chunk `2t + 1` (after the last trip both are at rest). -/
def pair5 (t : Nat) : sProp 𝕄 := if h : 2 * t < 20 then fl5 m d L ⟨2 * t, h⟩ else rest5 d L
def pair6 (t : Nat) : sProp 𝕄 := if h : 2 * t + 1 < 20 then fl6 m d L ⟨2 * t + 1, h⟩ else rest6 d L

/-- Before trip `t` of the fetching loop: the accumulator after `1250 t` vectors, the two pairs as above, the chunks
    before `2t` and from `2t + 2` on held, the thread's debts with its waits at index `none` recorded. -/
def inv2 (O : CellTallies nD τ sig (HIx 1)) (W : Waits sig (HIx 1)) (t : Nat) (_ : PUnit) : sProp 𝕄 :=
  iprop(Transfers.MayWaits (thr d L) (none : HIx 1) O
    ∗ ((s4).view.loc (thr d L) ↦{fullShare} (accAt (F := F) (xf m d) (bt m d) (wOf L) (1250 * t) : Buf (Elt F) ((thr d L).loc cc0_scratch4)))
    ∗ pair5 m d L t ∗ pair6 m d L t
    ∗ bigSep (Transfers.issued (2 * t)) (xChunk m d (wOf L)) ∗ bigSep (Transfers.pending (2 * t + 2)) (xChunk m d (wOf L))
    ∗ bigSep (Transfers.issued (2 * t)) (bChunk m d (wOf L)) ∗ bigSep (Transfers.pending (2 * t + 2)) (bChunk m d (wOf L))
    ∗ ∃ W', ⌜∀ p ∈ W', p ∈ W ∨ p.2 = none⌝ ∗ owes (thr d L) O W')

/-- The accumulator holding the tile's state after `n` vectors. -/
abbrev accPts (n : Nat) : sProp 𝕄 :=
  (s4).view.loc (thr d L) ↦{fullShare} (accAt (F := F) (xf m d) (bt m d) (wOf L) n : Buf (Elt F) ((thr d L).loc cc0_scratch4))

theorem pair5_lt (t : Nat) (h : 2 * t < 20) : pair5 m d L t = fl5 m d L ⟨2 * t, h⟩ := dif_pos h
theorem pair5_ge (t : Nat) (h : ¬ 2 * t < 20) : pair5 m d L t = rest5 (F := F) d L := dif_neg h
theorem pair6_lt (t : Nat) (h : 2 * t + 1 < 20) : pair6 m d L t = fl6 m d L ⟨2 * t + 1, h⟩ := dif_pos h
theorem pair6_ge (t : Nat) (h : ¬ 2 * t + 1 < 20) : pair6 m d L t = rest6 (F := F) d L := dif_neg h

/-- After the last trip: the accumulator finished, both pairs at rest, every chunk held. -/
theorem inv2_last (O : CellTallies nD τ sig (HIx 1)) (W : Waits sig (HIx 1)) (x : PUnit) :
    inv2 m d L O W (Scf.trips k0_t2_loop.lb k0_t2_loop.ub k0_t2_loop.st) x
      = iprop(Transfers.MayWaits (thr d L) (none : HIx 1) O ∗ accPts m d L 12500 ∗ rest5 d L ∗ rest6 d L
          ∗ bigSep Finset.univ (xChunk m d (wOf L)) ∗ emp ∗ bigSep Finset.univ (bChunk m d (wOf L)) ∗ emp
          ∗ ∃ W', ⌜∀ p ∈ W', p ∈ W ∨ p.2 = none⌝ ∗ owes (thr d L) O W') := by
  rw [show Scf.trips k0_t2_loop.lb k0_t2_loop.ub k0_t2_loop.st = 10 from trips2]
  unfold inv2
  rw [pair5_ge m d L 10 (by omega), pair6_ge m d L 10 (by omega), show 2 * 10 = 20 from rfl, iss_all, iss_all,
    pend_end _ _ (by omega), pend_end _ _ (by omega)]

end Cert.Proof.KI

end
-- ==== Proof.TileBody.lean ====
/-
  One tile's whole task: zero the accumulator, fetch the tile's twenty chunks of rows and segment numbers two pairs of
  buffers at a time (each pair's two copies waited for together before either buffer is read, the next chunk fetched into
  a pair only after the chunk in it has been added), add every chunk into the accumulator, and copy the accumulator out
  to the tile's row of the accumulators' array.
-/
import proofs.«203046_g35227321762133_cont_8to1_b_835_12_alg».proof.Proof.TileLoops
import proofs.«203046_g35227321762133_cont_8to1_b_835_12_alg».proof.Proof.TileInv

noncomputable section

namespace Cert.Proof.KI

open Cert.KernelIdeal Cert.KernelIdeal.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [hK : Cert.KernelIdeal.Facts]
variable (m : (ℓ : Loc nD τ sig) → Buf (Elt F) ℓ) (d : Dev nD) (L : grid0.Coords)

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goRes m d (wOf L)
        ∗ scopedBufs (thr d L) ∗ scopedSems0 (thr d L) ∗ owes (thr d L) O W)
      ⊢ wp frame (wpE (defs₀ (F := F)) 𝒱₀ (thr d L) none) Set.univ
          (cc0__seg_partial L xV (Memref.isWhole_whole _) bV (Memref.isWhole_whole _) pV (Memref.isWhole_whole _)
            s0 (Memref.isWhole_whole _) s1 (Memref.isWhole_whole _) s2 (Memref.isWhole_whole _) s3 (Memref.isWhole_whole _) s4 (Memref.isWhole_whole _)
            cc0_scratch5 cc0_scratch6 cc0_scoped0)
          fun _ => iprop(tdRes m d (wOf L) ∗ scopedBufs (thr d L) ∗ scopedSems0 (thr d L)
            ∗ ∃ W', ⌜∀ p ∈ W', p ∈ W ∨ p.2 = none⌝ ∗ owes (thr d L) O W') := by
  simp only [cc0__seg_partial_eq_skeleton]; unfold cc0__seg_partial_skel
  rw [(K (F := F)).scopedBufs_V hF d (cV L) (jV L), SparseCore.Cfg.scopedSems0_V (Val := Elt F) d (cV L) (jV L), ownSems0_V, ownBufs_V]
  unfold goRes tdRes
  iintro ⟨#Hlv, -, ⟨Hxs, Hbs, %fp, Hp⟩, ⟨⟨%f0, Hs0⟩, ⟨%f1, Hs1⟩, ⟨%f2, Hs2⟩, ⟨%f3, Hs3⟩, ⟨%f4, Hs4⟩, Hbufs⟩, ⟨Hsem5, Hsem6, HsemO, Hsems⟩, HO⟩
  ihave Hmw := ((K (F := F)).mayWaits_none (thr := thr d L) hO) $$ Hlv
  -- the accumulator zeroed
  iapply (zero_loop (F := F) m d L f4)
  isplitl [Hs4]; · iexact Hs4
  iintro Hs4
  -- the first two chunks' fetches: each pair's two copies on the pair's semaphore
  have plan5 : Transfers.BatchOf (thr d L) (SemLoc.dma (sig := sig) cc0_scratch5.sem) 2 := trivial
  have plan6 : Transfers.BatchOf (thr d L) (SemLoc.dma (sig := sig) cc0_scratch6.sem) 2 := trivial
  ihave Hxs' := (Entails.of_eq (chunks_open (F := F) (xChunk m d (wOf L)))) $$ Hxs
  ihave Hbs' := (Entails.of_eq (chunks_open (F := F) (bChunk m d (wOf L)))) $$ Hbs
  icases Hxs' with ⟨Hx0, Hx1, Hxs⟩
  icases Hbs' with ⟨Hb0, Hb1, Hbs⟩
  ihave Hx0' := (Entails.of_eq (pts_xSl (F := F) d L (wOf L) 0 _ (k0_off2_inb L 0) (off_first0 L) _).symm) $$ Hx0
  ihave Hb0' := (Entails.of_eq (pts_bSl (F := F) d L (wOf L) 0 _ (k0_off2_inb L 0) (off_first0 L) _).symm) $$ Hb0
  ihave Hx1' := (Entails.of_eq (pts_xSl (F := F) d L (wOf L) 1 _ (k0_off2_inb L 1) (off_first1 L) _).symm) $$ Hx1
  ihave Hb1' := (Entails.of_eq (pts_bSl (F := F) d L (wOf L) 1 _ (k0_off2_inb L 1) (off_first1 L) _).symm) $$ Hb1
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  ihave Hs3' := (Entails.of_eq (pts_s3 (F := F) d L _).symm) $$ Hs3
  sl_exec
  sl_for (inv2 m d L O W) $$ [Hmw Hs4 Hsem5 Hsem6 Hxs Hbs HO]
  case region =>
    intro k _
    have hk : k.val < 10 := trips2 ▸ k.isLt
    unfold inv2
    by_cases h9 : k.val < 9
    · have k0_h1 : k0_cond1 k = 1#1 := (cond1_iff k).mpr h9
      have k0_h2 : k0_cond2 k = 1#1 := (cond2_iff k).mpr h9
      have h22 : 2 * k.val + 2 < 20 := by omega
      have h23 : 2 * k.val + 3 < 20 := by omega

      iintro ⟨#Hmw, Hs4, Hp5, Hp6, Hxi, Hxp, Hbi, Hbp, %W', %hW', HO⟩
      ihave Hp5' := (Entails.of_eq (pair5_lt m d L k.val (by omega))) $$ Hp5
      ihave Hp6' := (Entails.of_eq (pair6_lt m d L k.val (by omega))) $$ Hp6
      unfold fl5 fl6
      icases Hp5' with ⟨%off5, %h5, %g0, %g2, %e5, HB5⟩
      icases Hp6' with ⟨%off6, %h6, %g1, %g3, %e6, HB6⟩
      have plan5 : Transfers.BatchOf (thr d L) (SemLoc.dma (sig := sig) cc0_scratch5.sem) 2 := trivial
      have plan6 : Transfers.BatchOf (thr d L) (SemLoc.dma (sig := sig) cc0_scratch6.sem) 2 := trivial
      -- the first pair's two waits, then its chunk is added
      sl_exec
      iapply (add_chunk0 (F := F) m d L hpre _ _ (1250 * k.val) (by omega)
        (fun n => hx_s0 m d L (wOf L) ⟨2 * k.val, by omega⟩ off5 h5 e5 g0 (1250 * k.val) (by show 1250 * k.val = 625 * (2 * k.val); omega) n)
        (fun n => hb_s2 m d L (wOf L) ⟨2 * k.val, by omega⟩ off5 h5 e5 g2 (1250 * k.val) (by show 1250 * k.val = 625 * (2 * k.val); omega) n))
      isplitl [HB5_dst0]; · iexact HB5_dst0
      isplitl [HB5_dst1]; · iexact HB5_dst1
      isplitl [Hs4]; · iexact Hs4
      iintro ⟨Hs0, Hs2, Hs4⟩
      -- chunk `2k` goes back among those done, chunk `2k + 2` is taken for the pair's next fetch
      ihave Hx2k := (Entails.of_eq (pts_xSl (F := F) d L (wOf L) ⟨2 * k.val, by omega⟩ off5 h5 e5 _)) $$ HB5_src0
      ihave Hb2k := (Entails.of_eq (pts_bSl (F := F) d L (wOf L) ⟨2 * k.val, by omega⟩ off5 h5 e5 _)) $$ HB5_src1
      ihave Hxp' := (Entails.of_eq (pend_step' (F := F) (xChunk m d (wOf L)) (2 * k.val + 2) (2 * k.val + 3) (by omega) rfl)) $$ Hxp
      icases Hxp' with ⟨Hxn, Hxp⟩
      ihave Hbp' := (Entails.of_eq (pend_step' (F := F) (bChunk m d (wOf L)) (2 * k.val + 2) (2 * k.val + 3) (by omega) rfl)) $$ Hbp
      icases Hbp' with ⟨Hbn, Hbp⟩
      ihave Hxn' := (Entails.of_eq (pts_xSl (F := F) d L (wOf L) ⟨2 * k.val + 2, h22⟩ _ (k0_off29_inb L k k0_h1) (off_next0' L k _ rfl) _).symm) $$ Hxn
      ihave Hbn' := (Entails.of_eq (pts_bSl (F := F) d L (wOf L) ⟨2 * k.val + 2, h22⟩ _ (k0_off29_inb L k k0_h1) (off_next0' L k _ rfl) _).symm) $$ Hbn
      -- the pair's next fetch, the second pair's two waits, then its chunk is added
      sl_exec
      iapply (add_chunk1 (F := F) m d L hpre _ _ (1250 * k.val + 625) (by omega)
        (fun n => hx_s1 m d L (wOf L) ⟨2 * k.val + 1, by omega⟩ off6 h6 e6 g1 (1250 * k.val + 625) (by show 1250 * k.val + 625 = 625 * (2 * k.val + 1); omega) n)
        (fun n => hb_s3 m d L (wOf L) ⟨2 * k.val + 1, by omega⟩ off6 h6 e6 g3 (1250 * k.val + 625) (by show 1250 * k.val + 625 = 625 * (2 * k.val + 1); omega) n))
      isplitl [HB6_dst0]; · iexact HB6_dst0
      isplitl [HB6_dst1]; · iexact HB6_dst1
      isplitl [Hs4]; · iexact Hs4
      iintro ⟨Hs1, Hs3, Hs4⟩
      ihave Hx2k1 := (Entails.of_eq (pts_xSl (F := F) d L (wOf L) ⟨2 * k.val + 1, by omega⟩ off6 h6 e6 _)) $$ HB6_src0
      ihave Hb2k1 := (Entails.of_eq (pts_bSl (F := F) d L (wOf L) ⟨2 * k.val + 1, by omega⟩ off6 h6 e6 _)) $$ HB6_src1
      ihave Hxp' := (Entails.of_eq (pend_step' (F := F) (xChunk m d (wOf L)) (2 * k.val + 3) (2 * (k.val + 1) + 2) (by omega) (by omega))) $$ Hxp
      icases Hxp' with ⟨Hxn, Hxp⟩
      ihave Hbp' := (Entails.of_eq (pend_step' (F := F) (bChunk m d (wOf L)) (2 * k.val + 3) (2 * (k.val + 1) + 2) (by omega) (by omega))) $$ Hbp
      icases Hbp' with ⟨Hbn, Hbp⟩
      ihave Hxn'' := (Entails.of_eq (pts_xSl (F := F) d L (wOf L) ⟨2 * k.val + 3, h23⟩ _ (k0_off55_inb L k k0_h2) (off_next1' L k _ rfl) _).symm) $$ Hxn
      ihave Hbn'' := (Entails.of_eq (pts_bSl (F := F) d L (wOf L) ⟨2 * k.val + 3, h23⟩ _ (k0_off55_inb L k k0_h2) (off_next1' L k _ rfl) _).symm) $$ Hbn
      sl_exec
      sl_step
      -- the invariant before the next trip
      isplitr; · iexact Hmw
      isplitl [Hs4]
      · iapply (Entails.of_eq (congrArg (accPts m d L) (show 1250 * k.val + 625 + 625 = 1250 * (k.val + 1) by omega))); iexact Hs4
      isplitl [HB5]
      · iapply (Entails.of_eq (pair5_lt m d L (k.val + 1) (by omega)).symm)
        unfold fl5
        iexists (k0_off29 L k), (k0_off29_inb L k k0_h1), _, _
        isplitr; · ipureintro; exact off_next0' L k _ (by show 2 * (k.val + 1) = 2 * k.val + 2; omega)
        iexact HB5
      isplitl [HB6]
      · iapply (Entails.of_eq (pair6_lt m d L (k.val + 1) (by omega)).symm)
        unfold fl6
        iexists (k0_off55 L k), (k0_off55_inb L k k0_h2), _, _
        isplitr; · ipureintro; exact off_next1' L k _ (by show 2 * (k.val + 1) + 1 = 2 * k.val + 3; omega)
        iexact HB6
      isplitl [Hxi Hx2k Hx2k1]
      · iapply (Entails.of_eq (iss_step' (F := F) (xChunk m d (wOf L)) (2 * k.val + 1) (2 * (k.val + 1)) (by omega) (by omega)).symm)
        isplitl [Hx2k1]; · iexact Hx2k1
        iapply (Entails.of_eq (iss_step' (F := F) (xChunk m d (wOf L)) (2 * k.val) (2 * k.val + 1) (by omega) rfl).symm)
        isplitl [Hx2k]; · iexact Hx2k
        iexact Hxi
      isplitl [Hxp]
      · iexact Hxp
      isplitl [Hbi Hb2k Hb2k1]
      · iapply (Entails.of_eq (iss_step' (F := F) (bChunk m d (wOf L)) (2 * k.val + 1) (2 * (k.val + 1)) (by omega) (by omega)).symm)
        isplitl [Hb2k1]; · iexact Hb2k1
        iapply (Entails.of_eq (iss_step' (F := F) (bChunk m d (wOf L)) (2 * k.val) (2 * k.val + 1) (by omega) rfl).symm)
        isplitl [Hb2k]; · iexact Hb2k
        iexact Hbi
      isplitl [Hbp]
      · iexact Hbp
      iexists (insert (SemLoc.dma cc0_scratch6.sem, (default : HIx 1)) (insert (SemLoc.dma cc0_scratch6.sem, (default : HIx 1)) (insert (SemLoc.dma cc0_scratch5.sem, (default : HIx 1)) (insert (SemLoc.dma cc0_scratch5.sem, (default : HIx 1)) W')))); isplitr
      · ipureintro; exact waits_ins _ (waits_ins _ (waits_ins _ (waits_ins _ hW')))
      · iexact HO
    · have k0_h1 : ¬ k0_cond1 k = 1#1 := fun h => h9 ((cond1_iff k).mp h)
      have k0_h2 : ¬ k0_cond2 k = 1#1 := fun h => h9 ((cond2_iff k).mp h)

      iintro ⟨#Hmw, Hs4, Hp5, Hp6, Hxi, Hxp, Hbi, Hbp, %W', %hW', HO⟩
      ihave Hp5' := (Entails.of_eq (pair5_lt m d L k.val (by omega))) $$ Hp5
      ihave Hp6' := (Entails.of_eq (pair6_lt m d L k.val (by omega))) $$ Hp6
      unfold fl5 fl6
      icases Hp5' with ⟨%off5, %h5, %g0, %g2, %e5, HB5⟩
      icases Hp6' with ⟨%off6, %h6, %g1, %g3, %e6, HB6⟩
      have plan5 : Transfers.BatchOf (thr d L) (SemLoc.dma (sig := sig) cc0_scratch5.sem) 2 := trivial
      have plan6 : Transfers.BatchOf (thr d L) (SemLoc.dma (sig := sig) cc0_scratch6.sem) 2 := trivial
      -- the first pair's two waits, then its chunk is added
      sl_exec
      iapply (add_chunk0 (F := F) m d L hpre _ _ (1250 * k.val) (by omega)
        (fun n => hx_s0 m d L (wOf L) ⟨2 * k.val, by omega⟩ off5 h5 e5 g0 (1250 * k.val) (by show 1250 * k.val = 625 * (2 * k.val); omega) n)
        (fun n => hb_s2 m d L (wOf L) ⟨2 * k.val, by omega⟩ off5 h5 e5 g2 (1250 * k.val) (by show 1250 * k.val = 625 * (2 * k.val); omega) n))
      isplitl [HB5_dst0]; · iexact HB5_dst0
      isplitl [HB5_dst1]; · iexact HB5_dst1
      isplitl [Hs4]; · iexact Hs4
      iintro ⟨Hs0, Hs2, Hs4⟩
      -- chunk `2k` goes back among those done
      ihave Hx2k := (Entails.of_eq (pts_xSl (F := F) d L (wOf L) ⟨2 * k.val, by omega⟩ off5 h5 e5 _)) $$ HB5_src0
      ihave Hb2k := (Entails.of_eq (pts_bSl (F := F) d L (wOf L) ⟨2 * k.val, by omega⟩ off5 h5 e5 _)) $$ HB5_src1
      -- the second pair's two waits, then its chunk is added
      sl_exec
      iapply (add_chunk1 (F := F) m d L hpre _ _ (1250 * k.val + 625) (by omega)
        (fun n => hx_s1 m d L (wOf L) ⟨2 * k.val + 1, by omega⟩ off6 h6 e6 g1 (1250 * k.val + 625) (by show 1250 * k.val + 625 = 625 * (2 * k.val + 1); omega) n)
        (fun n => hb_s3 m d L (wOf L) ⟨2 * k.val + 1, by omega⟩ off6 h6 e6 g3 (1250 * k.val + 625) (by show 1250 * k.val + 625 = 625 * (2 * k.val + 1); omega) n))
      isplitl [HB6_dst0]; · iexact HB6_dst0
      isplitl [HB6_dst1]; · iexact HB6_dst1
      isplitl [Hs4]; · iexact Hs4
      iintro ⟨Hs1, Hs3, Hs4⟩
      ihave Hx2k1 := (Entails.of_eq (pts_xSl (F := F) d L (wOf L) ⟨2 * k.val + 1, by omega⟩ off6 h6 e6 _)) $$ HB6_src0
      ihave Hb2k1 := (Entails.of_eq (pts_bSl (F := F) d L (wOf L) ⟨2 * k.val + 1, by omega⟩ off6 h6 e6 _)) $$ HB6_src1
      sl_exec
      sl_step
      -- the invariant before the next trip
      isplitr; · iexact Hmw
      isplitl [Hs4]
      · iapply (Entails.of_eq (congrArg (accPts m d L) (show 1250 * k.val + 625 + 625 = 1250 * (k.val + 1) by omega))); iexact Hs4
      isplitl [Hs0 Hs2 HB5]
      · iapply (Entails.of_eq (pair5_ge m d L (k.val + 1) (by omega)).symm)
        unfold rest5
        isplitl [Hs0]; · iexists _; iexact Hs0
        isplitl [Hs2]; · iexists _; iexact Hs2
        iexact HB5
      isplitl [Hs1 Hs3 HB6]
      · iapply (Entails.of_eq (pair6_ge m d L (k.val + 1) (by omega)).symm)
        unfold rest6
        isplitl [Hs1]; · iexists _; iexact Hs1
        isplitl [Hs3]; · iexists _; iexact Hs3
        iexact HB6
      isplitl [Hxi Hx2k Hx2k1]
      · iapply (Entails.of_eq (iss_step' (F := F) (xChunk m d (wOf L)) (2 * k.val + 1) (2 * (k.val + 1)) (by omega) (by omega)).symm)
        isplitl [Hx2k1]; · iexact Hx2k1
        iapply (Entails.of_eq (iss_step' (F := F) (xChunk m d (wOf L)) (2 * k.val) (2 * k.val + 1) (by omega) rfl).symm)
        isplitl [Hx2k]; · iexact Hx2k
        iexact Hxi
      isplitl [Hxp]
      · iapply (Entails.of_eq ((pend_end (F := F) (xChunk m d (wOf L)) (2 * k.val + 2) (by omega)).trans (pend_end (F := F) (xChunk m d (wOf L)) (2 * (k.val + 1) + 2) (by omega)).symm)); iexact Hxp
      isplitl [Hbi Hb2k Hb2k1]
      · iapply (Entails.of_eq (iss_step' (F := F) (bChunk m d (wOf L)) (2 * k.val + 1) (2 * (k.val + 1)) (by omega) (by omega)).symm)
        isplitl [Hb2k1]; · iexact Hb2k1
        iapply (Entails.of_eq (iss_step' (F := F) (bChunk m d (wOf L)) (2 * k.val) (2 * k.val + 1) (by omega) rfl).symm)
        isplitl [Hb2k]; · iexact Hb2k
        iexact Hbi
      isplitl [Hbp]
      · iapply (Entails.of_eq ((pend_end (F := F) (bChunk m d (wOf L)) (2 * k.val + 2) (by omega)).trans (pend_end (F := F) (bChunk m d (wOf L)) (2 * (k.val + 1) + 2) (by omega)).symm)); iexact Hbp
      iexists (insert (SemLoc.dma cc0_scratch6.sem, (default : HIx 1)) (insert (SemLoc.dma cc0_scratch6.sem, (default : HIx 1)) (insert (SemLoc.dma cc0_scratch5.sem, (default : HIx 1)) (insert (SemLoc.dma cc0_scratch5.sem, (default : HIx 1)) W')))); isplitr
      · ipureintro; exact waits_ins _ (waits_ins _ (waits_ins _ (waits_ins _ hW')))
      · iexact HO
  · unfold inv2
    isplitl [Hmw]; · iexact Hmw
    isplitl [Hs4]
    · iapply (Entails.of_eq (congrArg (accPts m d L) (show 0 = 1250 * 0 from rfl))); iexact Hs4
    isplitl [Hsem5]
    · iapply (Entails.of_eq (pair5_lt m d L 0 (by omega)).symm)
      unfold fl5
      iexists (k0_off2 L 0#32), (k0_off2_inb L 0), _, _
      isplitr; · ipureintro; exact off_first0' L _ rfl
      iexact Hsem5
    isplitl [Hsem6]
    · iapply (Entails.of_eq (pair6_lt m d L 0 (by omega)).symm)
      unfold fl6
      iexists (k0_off2 L 10000#32), (k0_off2_inb L 1), _, _
      isplitr; · ipureintro; exact off_first1' L _ rfl
      iexact Hsem6
    isplitr [Hxs Hbs HO]
    · iapply (Entails.of_eq (iss_zero (F := F) (xChunk m d (wOf L))).symm); iempintro
    isplitl [Hxs]; · iexact Hxs
    isplitr [Hbs HO]
    · iapply (Entails.of_eq (iss_zero (F := F) (bChunk m d (wOf L))).symm); iempintro
    isplitl [Hbs]; · iexact Hbs
    iexists W; isplitr
    · ipureintro; exact fun p hp => .inl hp
    · iexact HO
  iintro %_ HI
  ihave HI' := (Entails.of_eq (inv2_last m d L O W _)) $$ HI
  unfold rest5 rest6
  icases HI' with ⟨-, Hs4, ⟨⟨%g0, Hs0⟩, ⟨%g2, Hs2⟩, Hsem5⟩, ⟨⟨%g1, Hs1⟩, ⟨%g3, Hs3⟩, Hsem6⟩, Hxs, -, Hbs, -, %W', %hW', HO⟩
  -- the accumulator copied out to the tile's row
  ihave Hp' := (Entails.of_eq (pts_pSl (F := F) d L (wOf L) _ (k0_off56_inb L) (off_row L) _).symm) $$ Hp
  sl_exec
  sl_step
  -- everything is handed back
  isplitl [Hxs Hbs Hp']
  · isplitl [Hxs]; · iexact Hxs
    isplitl [Hbs]; · iexact Hbs
    ihave Hp := (Entails.of_eq (pts_pSl (F := F) d L (wOf L) _ (k0_off56_inb L) (off_row L) _)) $$ Hp'
    iapply (Entails.of_eq (pointsTo_congr (row_written m d fp (wOf L) _ (k0_off56_inb L) (off_row L) _ rfl)))
    iexact Hp
  isplitl [Hs0 Hs1 Hs2 Hs3 Hs4 Hbufs]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iapply (Entails.of_eq (pts_s4 (F := F) d L _)); iexact Hs4
    iexact Hbufs
  isplitl [Hsem5 Hsem6 HsemO Hsems]
  · isplitl [Hsem5]; · iexact Hsem5
    isplitl [Hsem6]; · iexact Hsem6
    isplitl [HsemO]; · iexact HsemO
    iexact Hsems
  iexists (insert (SemLoc.dma cc0_scoped0.sem, (default : HIx 1)) W'); isplitr
  · ipureintro; exact waits_ins _ hW'
  · iexact HO

end Cert.Proof.KI

end
-- ==== Proof.LaunchTiles.lean ====
/-
  The launch theorem's two obligations for the tiles' kernel: every tile's task, from what the call hands the tile to what
  the tile hands back (the tile's body, at the tile's grid coordinates), and how a SparseCore's share of the call's
  operands is its sixteen tiles' shares (by definition of what the call carries).
-/
import proofs.«203046_g35227321762133_cont_8to1_b_835_12_alg».proof.Proof.TileBody

noncomputable section

namespace Cert.Proof.KI

open Cert.KernelIdeal Cert.KernelIdeal.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [hK : Cert.KernelIdeal.Facts]
variable (m : (ℓ : Loc nD τ sig) → Buf (Elt F) ℓ) (ρ : Dev nD → PrngReg)

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile Facts₀.hcore0 Facts₀.hsub0 (fun c s => cc0__seg_partial (coordsV c s)
          xV (Memref.isWhole_whole _) bV (Memref.isWhole_whole _) pV (Memref.isWhole_whole _)
          s0 (Memref.isWhole_whole _) s1 (Memref.isWhole_whole _) s2 (Memref.isWhole_whole _) s3 (Memref.isWhole_whole _) s4 (Memref.isWhole_whole _)
          cc0_scratch5 cc0_scratch6 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

/-- What the call carries, field by field. -/
theorem P_st (d : Dev nD) (c : Fin ((K (F := F)).nCore 0)) :
    (P m).st 0 d c = bigSep Finset.univ fun i : Fin 16 => goRes m d (tileNo (Fin.cast nCore_zero c) i) := rfl
theorem P_dn (d : Dev nD) (c : Fin ((K (F := F)).nCore 0)) :
    (P m).dn 0 d c = bigSep Finset.univ fun i : Fin 16 => tdRes m d (tileNo (Fin.cast nCore_zero c) i) := rfl
theorem P_go (d : Dev nD) (c : Fin ((K (F := F)).nCore 0)) (i : Fin ((K (F := F)).nSub 0)) :
    (P m).go 0 d c i = goRes m d (tileNo (Fin.cast nCore_zero c) (Fin.cast nSub_zero i)) := rfl
theorem P_td (d : Dev nD) (c : Fin ((K (F := F)).nCore 0)) (i : Fin ((K (F := F)).nSub 0)) :
    (P m).td 0 d c i = tdRes m d (tileNo (Fin.cast nCore_zero c) (Fin.cast nSub_zero i)) := rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  rw [P_st, P_dn, bigSep_congr fun i _ => P_go m d c i, bigSep_congr fun i _ => P_td m d c i,
    bigSep_tasks (F := F) (fun i => goRes m d (tileNo (Fin.cast nCore_zero c) i)),
    bigSep_tasks (F := F) (fun i => tdRes m d (tileNo (Fin.cast nCore_zero c) i))]
  iintro H; imodintro
  isplitl [H]; · iexact H
  iintro H; iexact H

end Cert.Proof.KI

end
-- ==== Proof.Shares.lean ====
/-
  How the arrays split among the tiles and rejoin. The 32 * 20 chunks of 10 000 consecutive rows are pairwise disjoint and
  cover the 6 400 000 rows; the 32 rows of the accumulators' array are pairwise disjoint and cover it. So an array of
  rows held whole is its chunks held tile by tile, the accumulators' array held whole is its rows, and the tiles are
  the sixteen of each of the two SparseCores.
-/
import proofs.«203046_g35227321762133_cont_8to1_b_835_12_alg».proof.Proof.LaunchTiles

noncomputable section

namespace Cert.Proof.KI

open Cert.KernelIdeal Cert.KernelIdeal.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [hK : Cert.KernelIdeal.Facts]
variable (m : (ℓ : Loc nD τ sig) → Buf (Elt F) ℓ) (ρ : Dev nD → PrngReg)

/-! ## Chunks of rows -/

omit [FloatOps F] in
theorem chunkSet_eq (w : Fin 32) (j : Fin 20) : chunkSet w j = (chunkRect w j).set := by
  exact View.set_slice_whole (main_v0_scv : Ref sig .scVector) (chunkRect w j)

omit [FloatOps F] in
theorem mem_chunkSet (w : Fin 32) (j : Fin 20) (i : S6400000.Idx) :
    i ∈ chunkSet w j ↔ 200000 * w.val + 10000 * j.val ≤ (i 0).val ∧ (i 0).val < 200000 * w.val + 10000 * j.val + 10000 := by
  rw [chunkSet_eq, Rect.mem_set_unit]
  constructor
  · intro h; exact h 0
  · intro h a; match a with | ⟨0, _⟩ => exact h

omit [FloatOps F] in
theorem chunks_disjoint : ∀ t ∈ (Finset.univ : Finset (Fin 32 × Fin 20)), ∀ t' ∈ (Finset.univ : Finset (Fin 32 × Fin 20)), t ≠ t' →
    Disjoint (chunkSet t.1 t.2) (chunkSet t'.1 t'.2) := by
  intro t _ t' _ hne
  rw [Finset.disjoint_left]
  intro i hi hi'
  rw [mem_chunkSet] at hi hi'
  apply hne
  have h1 := t.1.isLt; have h2 := t.2.isLt; have h3 := t'.1.isLt; have h4 := t'.2.isLt
  have hw : t.1.val = t'.1.val := by omega
  have hj : t.2.val = t'.2.val := by omega
  exact Prod.ext (Fin.ext hw) (Fin.ext hj)

omit [FloatOps F] in
theorem chunks_cover : (Finset.univ : Finset (Fin 32 × Fin 20)).biUnion (fun t => chunkSet t.1 t.2) = (Finset.univ : Finset S6400000.Idx) := by
  ext i
  simp only [Finset.mem_biUnion, Finset.mem_univ, true_and, iff_true]
  have hi : (i 0).val < 6400000 := (i 0).isLt
  refine ⟨(⟨(i 0).val / 200000, by omega⟩, ⟨(i 0).val % 200000 / 10000, by omega⟩), ?_⟩
  rw [mem_chunkSet]
  dsimp only
  omega

omit [FloatOps F] in
/-- The flat rows held whole are their chunks, tile by tile; -/
theorem x_split (d : Dev nD) (f : Buf (Elt F) (xLoc d)) :
    (xLoc d ↦{fullShare} f : sProp 𝕄)
      = bigSep Finset.univ fun w : Fin 32 => bigSep Finset.univ fun j : Fin 20 => xLoc d ↦[chunkSet w j]{fullShare} f := by
  rw [← bigSep_univ_prod (fun t : Fin 32 × Fin 20 => (xLoc d ↦[chunkSet t.1 t.2]{fullShare} f : sProp 𝕄)),
    ← pointsTo_biUnion Finset.univ (ℓ := xLoc d) (fun t : Fin 32 × Fin 20 => chunkSet t.1 t.2) chunks_disjoint, chunks_cover]; try rfl

omit [FloatOps F] in
/-- and so are the segment numbers. -/
theorem b_split (d : Dev nD) (f : Buf (Elt F) (a1Loc d)) :
    (a1Loc d ↦{fullShare} f : sProp 𝕄)
      = bigSep Finset.univ fun w : Fin 32 => bigSep Finset.univ fun j : Fin 20 => a1Loc d ↦[chunkSet w j]{fullShare} f := by
  rw [← bigSep_univ_prod (fun t : Fin 32 × Fin 20 => (a1Loc d ↦[chunkSet t.1 t.2]{fullShare} f : sProp 𝕄)),
    ← pointsTo_biUnion Finset.univ (ℓ := a1Loc d) (fun t : Fin 32 × Fin 20 => chunkSet t.1 t.2) chunks_disjoint, chunks_cover]; try rfl

/-! ## Rows of the accumulators' array -/

omit [FloatOps F] in
theorem prowSet_eq (w : Fin 32) : prowSet w = (prowRect w).set :=
  View.set_slice_whole (main_v1_scv : Ref sig .scVector) (prowRect w)

omit [FloatOps F] in
theorem mem_prowSet (w : Fin 32) (i : S32x65536.Idx) : i ∈ prowSet w ↔ (i 0).val = w.val := by
  rw [prowSet_eq, Rect.mem_set_unit]
  constructor
  · intro h
    have h0 := h 0
    have e1 : (![w.val, 0] : Fin 2 → Nat) 0 = w.val := rfl
    have e2 : S1x65536.size 0 = 1 := rfl
    rw [e1, e2] at h0; omega
  · intro h a
    match a with
    | ⟨0, _⟩ =>
      show w.val ≤ (i 0).val ∧ (i 0).val < w.val + 1
      omega
    | ⟨1, _⟩ =>
      have h1 : (i 1).val < 65536 := (i 1).isLt
      show 0 ≤ (i 1).val ∧ (i 1).val < 0 + 65536
      omega

omit [FloatOps F] in
theorem prows_disjoint : ∀ w ∈ (Finset.univ : Finset (Fin 32)), ∀ w' ∈ (Finset.univ : Finset (Fin 32)), w ≠ w' → Disjoint (prowSet w) (prowSet w') := by
  intro w _ w' _ hne
  rw [Finset.disjoint_left]
  intro i hi hi'
  rw [mem_prowSet] at hi hi'
  exact hne (Fin.ext (hi.symm.trans hi'))

omit [FloatOps F] in
theorem prows_cover : (Finset.univ : Finset (Fin 32)).biUnion prowSet = (Finset.univ : Finset S32x65536.Idx) := by
  ext i
  simp only [Finset.mem_biUnion, Finset.mem_univ, true_and, iff_true]
  have hi : (i 0).val < 32 := (i 0).isLt
  exact ⟨⟨(i 0).val, hi⟩, (mem_prowSet _ _).mpr rfl⟩

omit [FloatOps F] in
/-- The accumulators' array held whole is its 32 rows. -/
theorem p_split (d : Dev nD) (f : Buf (Elt F) (pLoc d)) :
    (pLoc d ↦{fullShare} f : sProp 𝕄) = bigSep Finset.univ fun w : Fin 32 => pLoc d ↦[prowSet w]{fullShare} f := by
  rw [← pointsTo_biUnion Finset.univ (ℓ := pLoc d) prowSet prows_disjoint, prows_cover]; try rfl

/-! ## The tiles are the sixteen of each SparseCore -/

/-- Tile `16 * c + i` is tile `i` of SparseCore `c`. -/
def tileEquiv : Fin 2 × Fin 16 ≃ Fin 32 where
  toFun t := tileNo t.1 t.2
  invFun w := (⟨w.val / 16, by have := w.isLt; omega⟩, ⟨w.val % 16, Nat.mod_lt _ (by decide)⟩)
  left_inv t := by
    have h1 := t.1.isLt; have h2 := t.2.isLt
    refine Prod.ext (Fin.ext ?_) (Fin.ext ?_)
    · show (16 * t.1.val + t.2.val) / 16 = t.1.val; omega
    · show (16 * t.1.val + t.2.val) % 16 = t.2.val; omega
  right_inv w := by
    refine Fin.ext ?_
    show 16 * (w.val / 16) + w.val % 16 = w.val; omega

theorem tileEquiv_apply (t : Fin 2 × Fin 16) : tileEquiv t = tileNo t.1 t.2 := rfl

omit [FloatOps F] in
theorem tile_regroup (X : Fin 32 → sProp 𝕄) :
    bigSep Finset.univ X = bigSep Finset.univ fun c : Fin 2 => bigSep Finset.univ fun i : Fin 16 => X (tileNo c i) := by
  rw [← bigSep_univ_prod (fun t : Fin 2 × Fin 16 => X (tileNo t.1 t.2)),
    show (fun t : Fin 2 × Fin 16 => X (tileNo t.1 t.2)) = fun t => X (tileEquiv t) from
      funext fun t => congrArg X (tileEquiv_apply t).symm]
  exact bigSep_univ_equiv tileEquiv X

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
theorem prow_ex (d : Dev nD) (w : Fin 32) (f : Buf (Elt F) (pLoc d)) :
    (pLoc d ↦[prowSet w]{fullShare} f : sProp 𝕄) ⊢ iprop(∃ g, pRow d w g) := by
  iintro H; iexists f; iexact H

omit [FloatOps F] in
/-- The accumulators' array held whole hands each tile its row, at whatever it holds. -/
theorem p_hand (d : Dev nD) (f : Buf (Elt F) (pLoc d)) :
    (pLoc d ↦{fullShare} f : sProp 𝕄) ⊢ bigSep Finset.univ fun w : Fin 32 => iprop(∃ g, pRow d w g) := by
  rw [p_split]
  exact bigSep_mono fun w _ => prow_ex d w f

/-- What the call takes for the two SparseCores, from the three arrays held whole; -/
theorem st_intro (d : Dev nD) (f : Buf (Elt F) (pLoc d)) :
    iprop((xLoc d ↦{fullShare} xf m d) ∗ (a1Loc d ↦{fullShare} bt m d) ∗ (pLoc d ↦{fullShare} f))
      ⊢ (bigSep Finset.univ fun c : Fin ((K (F := F)).nCore 0) => (P m).st 0 d c : sProp 𝕄) := by
  rw [bigSep_congr fun c _ => P_st m d c, bigSep_cores (F := F) (fun c => bigSep Finset.univ fun i : Fin 16 => goRes m d (tileNo c i)),
    ← tile_regroup (F := F) (fun w => goRes m d w)]
  unfold goRes
  rw [bigSep_sep', bigSep_sep', x_split, b_split]
  iintro ⟨Hx, Hb, Hp⟩
  isplitl [Hx]; · iexact Hx
  isplitl [Hb]; · iexact Hb
  iapply (p_hand d f); iexact Hp

/-- and what it hands back: the rows and the segment numbers as they were, the accumulators' array finished. -/
theorem dn_elim (d : Dev nD) :
    (bigSep Finset.univ fun c : Fin ((K (F := F)).nCore 0) => (P m).dn 0 d c : sProp 𝕄)
      ⊢ iprop((xLoc d ↦{fullShare} xf m d) ∗ (a1Loc d ↦{fullShare} bt m d) ∗ (pLoc d ↦{fullShare} partBuf m d)) := by
  rw [bigSep_congr fun c _ => P_dn m d c, bigSep_cores (F := F) (fun c => bigSep Finset.univ fun i : Fin 16 => tdRes m d (tileNo c i)),
    ← tile_regroup (F := F) (fun w => tdRes m d w)]
  unfold tdRes
  rw [bigSep_sep', bigSep_sep', x_split, b_split, p_split]

end Cert.Proof.KI

end
-- ==== Proof.FoldDefs.lean ====
/-
  The second kernel as the pipeline library names it: its configuration as one with (no) prefetched tables, the one
  admissible table contents, and that its staging cells are distinct.
-/
import proofs.«203046_g35227321762133_cont_8to1_b_835_12_alg».proof.Proof.Common

noncomputable section

namespace Cert.Proof.KI

open Cert.KernelIdeal Cert.KernelIdeal.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [hK : Cert.KernelIdeal.Facts]
variable (m : (ℓ : Loc nD τ sig) → Buf (Elt F) ℓ) (ρ : Dev nD → PrngReg)

/-- The pallas_calls as pipelines with prefetched tables (none has one), and the one admissible contents. -/
abbrev pcs1 : Fin 1 → Pipeline.PCfg sig Λ₀ (Elt F) := fun p => (cfgs p).toPCfg
abbrev adm1 : (p : Fin 1) → (pcs1 (F := F) p).Adm := fun p => (cfgs p).toPCfg_adm
/-- Pinned at those contents the pipelines are the printed ones. -/
abbrev cfgP : Fin 1 → Pipeline.Cfg sig Λ₀ := Pipeline.pin (pcs1 (F := F)) adm1

omit [FloatOps F] in
theorem cfgP_eq : cfgP (F := F) = cfgs := rfl

omit [FloatOps F] in
theorem phinj : Function.Injective (Pipeline.cellOf (nD := nD) (τ := τ) (cfgP (F := F))) := Gen.cellOf_inj

/-- The body table the first kernel's proofs and the second's share. -/
theorem D_eq : D (F := F) = Pipeline.defs (pcs1 (F := F)) defs₀ := rfl

end Cert.Proof.KI

end
-- ==== Proof.LaunchElem.lean ====
/-
  The launch element of the ghost state: the handshakes' rounds at their launch value, the second kernel's staging cells'
  rounds at theirs, the copies' counters at the unit; and what the launch makes of it: the handshakes' part as the launch
  theorem asks it, and per device the staging cells' ghost state and duty tokens, which @main's proof spends when it
  enters the second kernel. The first kernel's proofs take nothing of the launch's.
-/
import proofs.«203046_g35227321762133_cont_8to1_b_835_12_alg».proof.Proof.FoldDefs

noncomputable section

namespace Cert.Proof.KI

open Cert.KernelIdeal Cert.KernelIdeal.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [hK : Cert.KernelIdeal.Facts]
variable (m : (ℓ : Loc nD τ sig) → Buf (Elt F) ℓ) (ρ : Dev nD → PrngReg)

/-- What @main's proof on device `d` starts from, beside what the launch theorem deals it: the second kernel's staging
    cells' ghost state and the tokens of the transfers its pipeline issues. -/
def G (d : Dev nD) : sProp 𝕄 :=
  iprop(Pipeline.cellsGhost (cfgP (F := F)) EP 0 d ∗ Pipeline.toksInit (cfgP (F := F)) EP 0 d)

def u₀ : UU :=
  (initOf (K (F := F)).hsCells (K (F := F)).hsToks,
    (initOf (Pipeline.cells (nD := nD) (τ := τ) (cfgP (F := F)) phinj) (Pipeline.launchToks (nD := nD) (τ := τ) (cfgP (F := F)) phinj), 1))

omit [FloatOps F] in
theorem bigSep_emp' {I : Type} (s : Finset I) : (bigSep s fun _ => iprop(emp)) = (iprop(emp) : sProp 𝕄) := bigSep_emp_const s

omit [FloatOps F] in
theorem bigSep_fin1 (Φ : Fin 1 → sProp 𝕄) : bigSep Finset.univ Φ = Φ 0 := by
  rw [show (Finset.univ : Finset (Fin 1)) = {0} by decide, bigSep_singleton]

omit [FloatOps F] in
theorem ghost_regroup (E : Emb UP 𝕄) :
    iprop((bigSep Finset.univ fun c : Dev nD => bigSep Finset.univ fun p : Fin 1 => Pipeline.cellsGhost (cfgP (F := F)) E p c)
        ∗ (bigSep Finset.univ fun c : Dev nD => bigSep Finset.univ fun p : Fin 1 => (Pipeline.toksInit (cfgP (F := F)) E p c : sProp 𝕄)))
      = bigSep Finset.univ fun d : Dev nD => iprop(Pipeline.cellsGhost (cfgP (F := F)) E 0 d ∗ Pipeline.toksInit (cfgP (F := F)) E 0 d) := by
  rw [bigSep_sep', bigSep_congr fun d _ => bigSep_fin1 (F := F) _, bigSep_congr (Φ := fun c : Dev nD => bigSep Finset.univ fun p : Fin 1 => (Pipeline.toksInit (cfgP (F := F)) E p c : sProp 𝕄)) fun d _ => bigSep_fin1 (F := F) _]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀ G
  rw [show (EP (F := F)) = (Emb.inl : Emb UP (UP × Counters)).trans embR from rfl]
  iintro Hu
  ihave H := (ownU_pair _ _) $$ Hu
  icases H with ⟨HH, HR⟩
  ihave H2 := (own_pair_emb embR _ _) $$ HR
  icases H2 with ⟨HP, -⟩
  imod (Pipeline.fund_ghost (cfgP (F := F)) ((Emb.inl : Emb UP (UP × Counters)).trans embR) phinj) $$ HP with ⟨Hg, Ht⟩
  imodintro
  isplitl [HH]; · iexact HH
  isplitl [Hg Ht]
  · iapply (Entails.of_eq (ghost_regroup (F := F) _))
    isplitl [Hg]; · iexact Hg
    iexact Ht
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

end Cert.Proof.KI

end
-- ==== Proof.LaunchMain.lean ====
/-
  @main on the TensorCore: the reshape of `x` to its flat rows, the call of the tiles' kernel — handing the flat rows, the
  segment numbers and the accumulators' array to the two SparseCores tile by tile and taking them back, the accumulators
  finished —, then the second kernel's region, entered from what the call left and leaving the result at the fold of the
  accumulators; the two arguments are kept as they were.
-/
import proofs.«203046_g35227321762133_cont_8to1_b_835_12_alg».proof.Proof.Shares
import proofs.«203046_g35227321762133_cont_8to1_b_835_12_alg».proof.Proof.LaunchElem

noncomputable section

namespace Cert.Proof.KI

open Cert.KernelIdeal Cert.KernelIdeal.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [hK : Cert.KernelIdeal.Facts]
variable (m : (ℓ : Loc nD τ sig) → Buf (Elt F) ℓ) (ρ : Dev nD → PrngReg)

/-! ## The TensorCore's five arrays -/

abbrev a0' : DevRef τ sig := Proc.devRef .tc (main_arg0 : Ref sig .tc)
abbrev a1' : DevRef τ sig := Proc.devRef .tc (main_arg1 : Ref sig .tc)
abbrev x' : DevRef τ sig := Proc.devRef .tc (main_v0 : Ref sig .tc)
abbrev p' : DevRef τ sig := Proc.devRef .tc (main_v1 : Ref sig .tc)
abbrev o' : DevRef τ sig := Proc.devRef .tc (main_v2 : Ref sig .tc)
abbrev opR : HloOp τ sig (Elt F) := StableHlo.reshape main_arg0 main_v0 rfl Facts₀.shapeCasts_S6400000x1_S6400000

abbrev S5 : Finset (DevRef τ sig) := {a0', a1', x', p', o'}

omit [FloatOps F] in
theorem held_S5 (d : Dev nD) (W : Valuation τ sig (Elt F)) :
    (held (T d) S5 W : sProp 𝕄) = iprop((a0Loc d ↦{fullShare} W a0') ∗ (a1Loc d ↦{fullShare} W a1') ∗ (xLoc d ↦{fullShare} W x')
      ∗ (pLoc d ↦{fullShare} W p') ∗ (oLoc d ↦{fullShare} W o')) := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (xLoc d ↦{fullShare} W main_v0)
      ∗ (pLoc d ↦{fullShare} W main_v1) ∗ (oLoc d ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (T d) S5 (V0 m d) := by
  rw [unscopedBufs_eq, held_S5]; rfl

theorem hR : (opR (F := F)).bufs ⊆ S5 := show ({a0', x'} : Finset (DevRef τ sig)) ⊆ S5 by decide

/-- After the reshape: the flat rows are `x`'s column read row-major, every other array what it was. -/
theorem held_after (d : Dev nD) :
    (held (T d) S5 ((opR (F := F)).result (V0 m d)) : sProp 𝕄) = iprop((a0Loc d ↦{fullShare} m (a0Loc d)) ∗ (a1Loc d ↦{fullShare} m (a1Loc d))
      ∗ (xLoc d ↦{fullShare} xf m d) ∗ (pLoc d ↦{fullShare} m (pLoc d)) ∗ (oLoc d ↦{fullShare} m (oLoc d))) := by
  rw [held_S5,
    (opR (F := F)).result_of_not_mem (V0 m d) (b := a0') (show a0' ∉ ({x'} : Finset (DevRef τ sig)) by decide),
    (opR (F := F)).result_of_not_mem (V0 m d) (b := a1') (show a1' ∉ ({x'} : Finset (DevRef τ sig)) by decide),
    (opR (F := F)).result_of_not_mem (V0 m d) (b := p') (show p' ∉ ({x'} : Finset (DevRef τ sig)) by decide),
    (opR (F := F)).result_of_not_mem (V0 m d) (b := o') (show o' ∉ ({x'} : Finset (DevRef τ sig)) by decide),
    show (opR (F := F)).result (V0 m d) x' = xf m d from
      StableHlo.reshape_result main_arg0 main_v0 rfl Facts₀.shapeCasts_S6400000x1_S6400000 ⟨by decide, rfl⟩ ⟨by decide, rfl⟩ (V0 m d)]
  rfl

/-! ## What the TensorCore owes, taken out of its handshake state and put back -/

omit [FloatOps F] in
/-- The TensorCore's state before call `n` holds what it owes under some recorded waits below the call's level; with
    that taken out, the state is back once the same debt is returned under recorded waits below the same level. -/
theorem tcSt_owes (d : Dev nD) (n : ℕ) :
    ((K (F := F)).tcSt EH d n : sProp 𝕄)
      ⊢ iprop(∃ W, ⌜(K (F := F)).WBelow (T d) W (8 * n)⌝ ∗ owes (T d) ((K (F := F)).Otc d n) W
          ∗ (∀ W', ⌜(K (F := F)).WBelow (T d) W' (8 * n)⌝ -∗ owes (T d) ((K (F := F)).Otc d n) W' -∗ (K (F := F)).tcSt EH d n)) := by
  unfold SparseCore.Cfg.tcSt
  iintro ⟨⟨%W, %hW, HO⟩, Hrest⟩
  iexists W
  isplitr; · ipureintro; exact hW
  isplitl [HO]; · iexact HO
  iintro %W' %hW' HO'
  isplitl [HO']
  · iexists W'; isplitr
    · ipureintro; exact hW'
    · iexact HO'
  · iexact Hrest

/-! ## @main -/

/-- What @main leaves the claim: the two arguments as they were, the result at the fold of the finished accumulators. -/
abbrev FIN (d : Dev nD) : sProp 𝕄 :=
  iprop((a0Loc d ↦{fullShare} m (a0Loc d)) ∗ (a1Loc d ↦{fullShare} m (a1Loc d)) ∗ (oLoc d ↦{fullShare} outBuf m d))

/-- The second kernel's region as @main's proof enters it: from the accumulators' array and the result array held
    whole, the core owing nothing, and the region's staging cells' ghost state, the call runs to the result array at the
    fold of the accumulators. -/
def FoldStep (d : Dev nD) : Prop :=
  ∀ (part : Buf (Elt F) (pLoc d)) (o0 : Buf (Elt F) (oLoc d)) (W0 : Waits sig (HIx 1)) (Q : PUnit → sProp 𝕄),
    iprop((iprop(boundary (T d) ∗ (pLoc d ↦{fullShare} part) ∗ (oLoc d ↦{fullShare} (outOf (F := F) part : Buf (Elt F) (oLoc d)))
            ∗ ∃ W', ⌜∀ p ∈ W', p ∈ W0 ∨ p.2 = none⌝ ∗ owes (T d) (0 : CellTallies nD τ sig (HIx 1)) W')
          -∗ wp frame (wpE (D (F := F)) 𝒱 (T d) none) Set.univ (.ret ⟨⟩) Q)
        ∗ boundary (T d) ∗ (pLoc d ↦{fullShare} part) ∗ (oLoc d ↦{fullShare} o0) ∗ owes (T d) (0 : CellTallies nD τ sig (HIx 1)) W0
        ∗ levAts (K (F := F)).L (K (F := F)).lev ∗ G (F := F) d)
      ⊢ wp frame (wpE (D (F := F)) 𝒱 (T d) none) Set.univ (.op (.customCall (Pipeline.entry 0) ()) .ret) Q

theorem hmain (hfold : ∀ d, FoldStep (F := F) d) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, HG⟩
  -- the reshape: the flat rows
  iapply (wp_hlo_within 𝒱 (SparseCore.T d) none Set.univ (op := opR) (S := S5) hR (V := V0 m d)) $$ [Hb Hheld]
  · isplitl [Hb]; · iexact Hb
    iexact Hheld
  iintro ⟨Hb, Hheld⟩
  ihave Hh := (Entails.of_eq (held_after m d)) $$ Hheld
  icases Hh with ⟨Ha0, Ha1, Hx, Hp, Ho⟩
  rw [wp_ret]; imodintro
  -- the call: each tile its chunks and its row, and back
  iapply ((K (F := F)).wp_run (D (F := F)) 𝒱 (EH := EH) (P := P m) κ d 0) $$ [Hst Ha1 Hx Hp HG Hb Ha0 Ho]
  isplitr; · iexact Hctx
  isplitl [Hst]; · iexact Hst
  isplitl [Ha1 Hx Hp]
  · iapply (st_intro m d (m (pLoc d)))
    isplitl [Hx]; · iexact Hx
    isplitl [Ha1]; · iexact Ha1
    iexact Hp
  iintro ⟨Hst, Hdn⟩
  ihave Hdn' := (dn_elim m d) $$ Hdn
  icases Hdn' with ⟨Hx, Ha1, Hp⟩
  ihave Hlev := (SparseCore.Cfg.ctx_levAts κ) $$ Hctx
  ihave Hst' := (tcSt_owes (F := F) d ((0 : Fin 1).val + 1)) $$ Hst
  icases Hst' with ⟨%W, %hW, HO, Hback⟩
  rw [(K (F := F)).Otc_end d (show 1 ≤ (0 : Fin 1).val + 1 from le_rfl)]
  -- the second kernel's region
  iapply ((K (F := F)).wp_liftProg (D (F := F)) 𝒱 (SparseCore.T d) Set.univ none (.op (.customCall (Pipeline.entry 0) ()) .ret) _)
  iapply (hfold d (partBuf m d) (m (oLoc d)) W _) $$ [Hb Hp Ho HO Hlev HG Hback Ha0 Ha1]
  isplitl [Hback Ha0 Ha1]
  · iintro ⟨Hb, Hp, Ho, %W', %hW', HO⟩
    rw [wp_ret]; imodintro; imodintro
    isplitl [Hback HO]
    · ispecialize Hback $$ %W'
      iapply Hback
      · ipureintro
        intro p hp
        rcases hW' p hp with h | h
        · exact hW p h
        · show (K (F := F)).lev (SparseCore.T d, p.1) p.2 ≤ _
          rw [h]; exact Nat.zero_le _
      · iexact HO
    · unfold FIN outBuf
      isplitl [Ha0]; · iexact Ha0
      isplitl [Ha1]; · iexact Ha1
      iexact Ho
  isplitl [Hb]; · iexact Hb
  isplitl [Hp]; · iexact Hp
  isplitl [Ho]; · iexact Ho
  isplitl [HO]; · iexact HO
  isplitr; · iexact Hlev
  iexact HG

end Cert.Proof.KI

end
-- ==== Proof.Run.lean ====
/-
  The kernel program's run: every weakly fair execution of the device's threads terminates, nothing faulting, with the
  result array at the fold of the 32 finished accumulators and the two argument arrays as they were.
-/
import proofs.«203046_g35227321762133_cont_8to1_b_835_12_alg».proof.Proof.LaunchMain

noncomputable section

namespace Cert.Proof.KI

open Cert.KernelIdeal Cert.KernelIdeal.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [hK : Cert.KernelIdeal.Facts]
variable (m : (ℓ : Loc nD τ sig) → Buf (Elt F) ℓ) (ρ : Dev nD → PrngReg)

/-! ## Reading the final memory -/

def fq (d : Dev nD) (s' : Phys nD τ sig (Elt F)) : Prop :=
  s'.mem.mem (oLoc d) = outBuf m d ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨Ha0, Ha1, Ho⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (SI_pointsTo_agree (st := s') (ℓ := oLoc d) (I := Finset.univ) (q := fullShare) (f := outBuf m d)) $$ [HSI Ho]
  · isplitl [HSI] <;> iassumption
  icases H with %h2
  ipureintro
  exact ⟨funext fun i => h2 i (Finset.mem_univ i), funext fun i => h0 i (Finset.mem_univ i), funext fun i => h1 i (Finset.mem_univ i)⟩

/-! ## The run -/

def QC : PUnit × MemSt nD τ sig (Elt F) → Prop := fun r => ∀ c : Dev nD,
  r.2.mem (oLoc c) = outBuf m c ∧ r.2.mem (a0Loc c) = m (a0Loc c) ∧ r.2.mem (a1Loc c) = m (a1Loc c)

theorem run_main [∀ e, Nonempty (Elt F e)] (hpre : PreOK m) (hfold : ∀ d, FoldStep (F := F) d) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ hfold) (fq m) (hfin m) (QC m) (fun _ h => h)

end Cert.Proof.KI

end
-- ==== Proof.FoldBody.lean ====
/-
  The second kernel's body on its staging buffers, and the pipeline's proof data that records it: handed a block of
  the accumulators (all 32 rows, 8192 columns) the body reads it whole and leaves in the result's staging buffer
  the fold of that block, 512 sums; the block itself stays as fetched.
-/
import proofs.«203046_g35227321762133_cont_8to1_b_835_12_alg».proof.Proof.FoldDefs
import Idealize.ShloMosaic.Lib.Pipeline.FrameBody
import Idealize.ShloMosaic.Lib.Pipeline.Value
import Idealize.ShloMosaic.Lib.Tactic

noncomputable section

namespace Cert.Proof.KI

open Cert.KernelIdeal Cert.KernelIdeal.Gen Cert.Proof.Seg

open Idealize.ShloMosaic Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [hK : Cert.KernelIdeal.Facts]

local notation "𝕄" => MT nD τ sig (HIx 1) (Elt F) ℕ UU ℕ

/-! ## The body's triple -/

/-- The offsets of the body's three accesses are zero: each is of a whole staging buffer. -/
theorem off2_zero : (![0, 0] : Fin 2 → Nat) = fun _ => 0 := by
  funext a; match a with | ⟨0, _⟩ => rfl | ⟨1, _⟩ => rfl
theorem off1_zero : (![0] : Fin 1 → Nat) = fun _ => 0 := by
  funext a; match a with | ⟨0, _⟩ => rfl

set_option maxHeartbeats 1000000 in
/-- The body on whole staging memrefs, the block's at contents `x0` and the result's at anything, runs to the
    continuation holding the block's as it was and the result's at the fold of `x0`: the one store covers the
    result's buffer, and the load it is computed from reads the block's buffer whole. -/
theorem sound_kernel (c : Dev nD) (E : Set ℕ) (i : grid1.Coords)
    (arg1 : Memref sig .tc .vmem S32x8192 .f32) (harg1 : arg1.IsWhole)
    (arg2 : Memref sig .tc .vmem S512 .f32) (harg2 : arg2.IsWhole)
    (x0 : Vec F S32x8192 .f32) (K : PUnit → sProp 𝕄) :
    iprop(owns (T c) arg1 fullShare x0 ∗ (∃ d, owns (T c) arg2 fullShare d)
        ∗ (iprop(owns (T c) arg1 fullShare x0 ∗ owns (T c) arg2 fullShare (k1_pay1 x0)) -∗ K ⟨⟩))
      ⊢ wp frame (wpE (defs₀ (F := F)) 𝒱₀ (T c) none) E (cc1__fold_body i arg1 harg1 arg2 harg2) K := by
  simp only [cc1__fold_body_eq_skeleton]; unfold cc1__fold_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  have e : View.readAt (Elt F) arg1.view (Rect.unit ![0, 0] S32x8192.size inb_S32x8192_S32x8192_0_0).toLoadRect f0
      = View.read (Elt F) arg1.view f0 :=
    (View.readAt_eq_ld _ _ _).trans (View.ld_unit_zero off2_zero _ _)
  rw [View.read_writes_eq_canon _ _ _ (fun y => ⟨⟨Rect.unit ![0] S512.size inb_S512_S512_0, _⟩, List.mem_singleton_self _,
      View.mem_set_unit_zero off1_zero inb_S512_S512_0 y⟩),
    View.canon_unit_zero off1_zero, e]

/-! ## The pipeline's proof data -/

/-- The block of the accumulators the pipeline fetches at point `t`, read off the array. -/
def iblk0 (c : Dev nD) (part : Vec F S32x65536 .f32) (t : Fin cfg1.N) : Vec F S32x8192 .f32 :=
  ((cfg1.win 0).blk t).view.read (Elt F) (part : Buf (Elt F) ((cfg1.win 0).arr.view.loc (c.tc : Thread nD τ)))

/-- The proof data on core `c`: the accumulators' array at `part` and the result's at `o0` when the kernel is entered;
    after the body at point `t` the block's buffer at the block and the result's at its fold; no invariant of the
    body's own; nothing owed; full shares; the waits recorded before the kernel are those of `W0`. -/
def foldDat (c : Dev nD) (part : Vec F S32x65536 .f32) (o0 : Vec F S4096 .f32) (W0 : Waits sig (HIx 1)) :
    Dat τ (Elt F) (HIx 1) ℕ UU ℕ cfg1 c where
  A w := match w with
    | ⟨0, _⟩ => part
    | ⟨1, _⟩ => o0
  after w t := match w with
    | ⟨0, _⟩ => iblk0 c part t
    | ⟨1, _⟩ => k1_pay1 (iblk0 c part t)
  Φ _ := iprop(emp)
  q _ := fullShare
  owed _ := 0
  recorded _ := (↑W0 : Set (SemLoc sig × HIx 1))

/-- The proof data of the program's one pipeline, on every core. -/
def foldDats (part : Dev nD → Vec F S32x65536 .f32) (o0 : Dev nD → Vec F S4096 .f32) (W0 : Dev nD → Waits sig (HIx 1)) :
    (p : Fin 1) → (c : Dev nD) → Dat τ (Elt F) (HIx 1) ℕ UU ℕ (Pipeline.pin (pcs1 (F := F)) adm1 p) c :=
  fun _ c => foldDat c (part c) (o0 c) (W0 c)

variable (part : Dev nD → Vec F S32x65536 .f32) (o0 : Dev nD → Vec F S4096 .f32) (W0 : Dev nD → Waits sig (HIx 1))

theorem foldDats_eq (p : Fin 1) (c : Dev nD) : foldDats part o0 W0 p c = foldDat c (part c) (o0 c) (W0 c) := rfl

section

variable (c : Dev nD) (pt : Vec F S32x65536 .f32) (ot : Vec F S4096 .f32) (Wt : Waits sig (HIx 1))

/-- The arrays when the kernel is entered, and what the body leaves, window by window. -/
theorem A_0 : (foldDat c pt ot Wt).A 0 = pt := rfl
theorem A_1 : (foldDat c pt ot Wt).A 1 = ot := rfl
theorem after_0 (t : Fin cfg1.N) : (foldDat c pt ot Wt).after 0 t = iblk0 c pt t := rfl
theorem after_1 (t : Fin cfg1.N) : (foldDat c pt ot Wt).after 1 t = k1_pay1 (iblk0 c pt t) := rfl

/-- The block's buffer holds the block when the body runs: it is fetched at every point. -/
theorem before_0 (t : Fin cfg1.N) (d) : (foldDat c pt ot Wt).before 0 t d = iblk0 c pt t := by
  rw [(foldDat c pt ot Wt).before_fetched 0 t (fetch1_0 t) d]
  unfold Dat.fetched Dat.blockOf iblk0; rw [A_0]; rfl

/-! ## The body obligation -/

/-- What the body is called with at point `t`, the windows one by one, -/
def bodyPre (t : Fin cfg1.N) : sProp 𝕄 :=
  iprop((foldDat c pt ot Wt).Φ t.castSucc ∗ (foldDat c pt ot Wt).owesAt (none : HIx 1) t.castSucc
    ∗ (∃ d, owns (T c) (st1_0 t) fullShare ((foldDat c pt ot Wt).before 0 t d))
    ∗ (∃ d, owns (T c) (st1_1 t) fullShare ((foldDat c pt ot Wt).before 1 t d)))

/-- and what it returns. -/
def bodyPost (t : Fin cfg1.N) : sProp 𝕄 :=
  iprop((foldDat c pt ot Wt).Φ t.succ ∗ (foldDat c pt ot Wt).owesAt (none : HIx 1) t.succ
    ∗ owns (T c) (st1_0 t) fullShare ((foldDat c pt ot Wt).after 0 t)
    ∗ owns (T c) (st1_1 t) fullShare ((foldDat c pt ot Wt).after 1 t))

/-- The body at any point: the block's memref holds the block, so the triple applies; the core's `owes` passes
    through unread. -/
theorem sound_body (t : Fin cfg1.N) :
    bodyPre c pt ot Wt t ⊢ wp frame (wpE (defs₀ (F := F)) 𝒱₀ (T c) none) Set.univ (bodyAt1 t) (fun _ => bodyPost c pt ot Wt t) := by
  unfold bodyPre bodyPost bodyAt1
  simp only [before_0]
  rw [show (foldDat c pt ot Wt).Φ t.succ = (foldDat c pt ot Wt).Φ t.castSucc from rfl,
    show (foldDat c pt ot Wt).owesAt (none : HIx 1) t.succ = (foldDat c pt ot Wt).owesAt (none : HIx 1) t.castSucc from rfl,
    after_0, after_1]
  iintro ⟨HΦ, Ho, ⟨%d0, H0⟩, ⟨%d1, H1⟩⟩
  iapply (sound_kernel c Set.univ (grid1.coords t) _ _ _ _ (iblk0 c pt t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation : BodyObligation (foldDat c pt ot Wt) (defs₀ (F := F)) 𝒱₀ (none : HIx 1) Set.univ := fun t => by
  rw [bigSep_W1, bigSep_W1]
  exact sound_body c pt ot Wt t

end

end Cert.Proof.KI

end
-- ==== Proof.FoldValue.lean ====
/-
  The result's array after the second kernel, as one function of the accumulators: the block the kernel fetches at
  grid point `t` is block `t` of the accumulators (all rows, columns from `8192 * t`), what it writes back at `t`
  is block `t` of the folded result (entries from `512 * t`), and the eight blocks of 512 tile the 4096 entries.
-/
import proofs.«203046_g35227321762133_cont_8to1_b_835_12_alg».proof.Proof.FoldBody

noncomputable section

namespace Cert.Proof.KI

open Cert.KernelIdeal Cert.KernelIdeal.Gen Cert.Proof.Seg

open Idealize.ShloMosaic Idealize.ShloMosaic.ValueIdx
open Idealize.ShloMosaic.SparseCore (S V T)
open Idealize.ShloMosaic.SparseCore.Cfg (HIx)
open Idealize.SL Idealize.SL.RA Idealize.SL.BI
open Idealize.ShloMosaic.Pipeline (Dat Cfg Window)

variable {F : FTy → Type} [FloatOps F]

/-! ## The index maps over the grid -/

/-- At point `t` the accumulators' block starts at row block 0 and column block `t`, the result's at block `t`. -/
theorem fold_idx : ∀ t : Fin cfg1.N, win1_0.index t (0 : Fin 2) = 0 ∧ win1_0.index t (1 : Fin 2) = t.val
    ∧ win1_1.index t (0 : Fin 1) = t.val :=
  (by decide +kernel : ∀ t : Fin grid1.N, _)

variable [hK : Cert.KernelIdeal.Facts]

/-- A grid point as a block number. -/
abbrev blkNo (t : Fin cfg1.N) : Fin 8 := Fin.cast N_1 t

/-! ## The blocks -/

/-- An entry of the folded result inside block `g`, at place `r` of it, is the fold of block `g` at `r`. -/
theorem outOf_block (part : Vec F S32x65536 .f32) (g : Fin 8) (r : Fin 512) (s : S4096.Idx)
    (hs : (s 0).val = g.val * 512 + r.val) : outOf part s = k1_pay1 (blkOf part g) (ix1 r) := by
  have hg := g.isLt; have hr := r.isLt
  have hs4 : (s 0).val < 4096 := (s 0).isLt
  have h1 : (⟨(s 0).val / 512, by omega⟩ : Fin 8) = g := Fin.ext (by show (s 0).val / 512 = g.val; omega)
  have h2 : (⟨(s 0).val % 512, Nat.mod_lt _ (by decide)⟩ : Fin 512) = r := Fin.ext (by show (s 0).val % 512 = r.val; omega)
  show k1_pay1 (blkOf part ⟨(s 0).val / 512, _⟩) (ix1 ⟨(s 0).val % 512, _⟩) = _
  rw [h1, h2]

/-- The block fetched at point `t` is block `t` of the accumulators. -/
theorem iblk0_eq (c : Dev nD) (pt : Vec F S32x65536 .f32) (t : Fin cfg1.N) : iblk0 c pt t = blkOf pt (blkNo t) := by
  obtain ⟨e0, e1, -⟩ := fold_idx t
  have e0' : win1_0.index t (0 : Fin 2) = 0 := e0
  have e1' : win1_0.index t (1 : Fin 2) = t.val := e1
  funext j
  show pt (((cfg1.win 0).blk t).view.emb j) = pt (ix2 (j 0) ⟨(blkNo t).val * 8192 + (j 1).val, _⟩)
  refine congrArg pt ?_
  funext a; apply Fin.ext
  match a with
  | ⟨0, _⟩ => show win1_0.index t (0 : Fin 2) * 32 + 1 * (j 0).val = (j 0).val; omega
  | ⟨1, _⟩ => show win1_0.index t (1 : Fin 2) * 8192 + 1 * (j 1).val = t.val * 8192 + (j 1).val; omega

variable (c : Dev nD) (pt : Vec F S32x65536 .f32) (ot : Vec F S4096 .f32) (Wt : Waits sig (HIx 1))

/-- What point `t` writes back is block `t` of the folded result. -/
theorem flushed1_eq (t : Fin cfg1.N) :
    (foldDat c pt ot Wt).flushed 1 t
      = ((cfg1.win 1).blk t).view.read (Elt F) (outOf pt : Buf (Elt F) ((cfg1.win 1).arr.view.loc (c.tc : Thread nD τ))) := by
  show (cfg1.win 1).cut (grid1.coords t) ((foldDat c pt ot Wt).after 1 t) = _
  rw [after_1, iblk0_eq]
  obtain ⟨-, -, e2⟩ := fold_idx t
  have e2' : win1_1.index t (0 : Fin 1) = t.val := e2
  refine funext fun (j : S512.Idx) => ?_
  show k1_pay1 (blkOf pt (blkNo t)) j = outOf pt (((cfg1.win 1).blk t).view.emb j)
  refine Eq.trans ?_ (outOf_block pt (blkNo t) (j 0) (((cfg1.win 1).blk t).view.emb j) ?_).symm
  · exact congrArg _ (eq_ix1 j)
  · show win1_1.index t (0 : Fin 1) * 512 + 1 * (j 0).val = t.val * 512 + (j 0).val
    omega

/-- An entry of the result is in point `t`'s block iff it lies in that block's range. -/
theorem mem_blk1 (t : Fin cfg1.N) (i : S4096.Idx) :
    i ∈ ((cfg1.win 1).blk t).view.set
      ↔ ∀ a : Fin 1, win1_1.index t a * S512.size a ≤ (i a).val ∧ (i a).val < win1_1.index t a * S512.size a + S512.size a := by
  show i ∈ ((View.whole main_v2).slice (win1_1.rect t)).set ↔ _
  rw [View.set_slice_whole, Rect.mem_set_unit]
  exact Iff.rfl

/-- Every entry of the result is in the block some point writes back: entry `s` in block `s / 512`. -/
theorem cover1 (i : S4096.Idx) : ∃ t : Fin cfg1.N, (cfg1.win 1).flush t = true ∧ i ∈ ((cfg1.win 1).blk t).view.set := by
  have hi : (i 0).val < 4096 := (i 0).isLt
  refine ⟨Fin.cast N_1.symm ⟨(i 0).val / 512, by omega⟩, flush1_1 _, ?_⟩
  rw [mem_blk1]
  obtain ⟨-, -, e2⟩ := fold_idx (Fin.cast N_1.symm ⟨(i 0).val / 512, by omega⟩)
  have e2' : win1_1.index (Fin.cast N_1.symm ⟨(i 0).val / 512, by omega⟩) (0 : Fin 1) = (i 0).val / 512 := e2
  intro a
  match a with
  | ⟨0, _⟩ =>
    show win1_1.index (Fin.cast N_1.symm ⟨(i 0).val / 512, by omega⟩) (0 : Fin 1) * 512 ≤ (i 0).val
      ∧ (i 0).val < win1_1.index (Fin.cast N_1.symm ⟨(i 0).val / 512, by omega⟩) (0 : Fin 1) * 512 + 512
    omega

/-! ## The arrays after the kernel -/

/-- The result's array ends at the fold of the accumulators, block by block; -/
theorem arrAt_1 : (foldDat c pt ot Wt).arrAt 1 cfg1.N = outOf pt :=
  (foldDat c pt ot Wt).arrAt_eq_of_cover 1 (outOf pt) (fun t _ => flushed1_eq c pt ot Wt t) cover1

/-- the accumulators' array is never written. -/
theorem arrAt_0 (n : Nat) : (foldDat c pt ot Wt).arrAt 0 n = pt :=
  ((foldDat c pt ot Wt).arrAt_in 0 rfl n).trans (A_0 c pt ot Wt)

end Cert.Proof.KI

end
-- ==== Proof.FoldRegion.lean ====
/-
  The second kernel as a region of the program's run: entered holding the accumulators' array and the result's
  array whole and owing nothing, it leaves the accumulators as they were and the result's array at their fold;
  the waits it records besides those recorded before are at the index of no call.
-/
import proofs.«203046_g35227321762133_cont_8to1_b_835_12_alg».proof.Proof.FoldValue
import Idealize.ShloMosaic.Lib.Pipeline.Regions

noncomputable section

namespace Cert.Proof.KI

open Cert.KernelIdeal Cert.KernelIdeal.Gen Cert.Proof.Seg

open Idealize.ShloMosaic Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [hK : Cert.KernelIdeal.Facts]

local notation "𝕄" => MT nD τ sig (HIx 1) (Elt F) ℕ UU ℕ

variable (part : Dev nD → Vec F S32x65536 .f32) (o0 : Dev nD → Vec F S4096 .f32) (W0 : Dev nD → Waits sig (HIx 1))

/-! ## The pipeline's arrays, tables and scoped rest, spelt out -/

/-- The pipeline's two arrays at contents `Fa`: the accumulators' buffer and the result's, each whole. -/
theorem arrays_fold (c : Dev nD) (Fa) :
    ((foldDats part o0 W0 0 c).arrays Fa : sProp 𝕄) = iprop((pLoc c ↦{fullShare} Fa 0) ∗ (oLoc c ↦{fullShare} Fa 1)) := by
  rw [Pipeline.arrays_eq (cfgP (F := F)) (foldDats part o0 W0) 0 c arr_whole1
    ((foldDats part o0 W0 0 c).share_full fun _ => rfl), bigSep_W1]

/-- It has no prefetched table, -/
theorem prefHeld_fold (c : Dev nD) (q) (pf) :
    (Pipeline.prefHeld (Ix := HIx 1) (Name := ℕ) (U := UU) (Lvl := ℕ) (Val := Elt F) (pcs1 (F := F) 0).pre c q pf : sProp 𝕄) = BI.emp := by
  unfold Pipeline.prefHeld; rw [show (Finset.univ : Finset (Fin 0)) = ∅ from rfl, BI.bigSep_empty]

/-- and every scoped buffer of the core is one of its staging buffers. -/
theorem scopedRest_fold (c : Dev nD) :
    (Pipeline.scopedRest (Ix := HIx 1) (Name := ℕ) (U := UU) (Lvl := ℕ) (Val := Elt F) (Pipeline.pin (pcs1 (F := F)) adm1 0).spec c : sProp 𝕄) = BI.emp :=
  scopedRest1_eq c

/-- The arrays after the kernel: the accumulators as they were, the result at their fold. -/
theorem arrays_exit (c : Dev nD) :
    ((foldDats part o0 W0 0 c).arrays ((foldDats part o0 W0 0 c).arrAt · (cfgP (F := F) 0).N) : sProp 𝕄)
      = iprop((pLoc c ↦{fullShare} (part c : Buf (Elt F) (pLoc c))) ∗ (oLoc c ↦{fullShare} (outOf (F := F) (part c) : Buf (Elt F) (oLoc c)))) := by
  rw [arrays_fold]
  show iprop((pLoc c ↦{fullShare} ((foldDat c (part c) (o0 c) (W0 c)).arrAt 0 cfg1.N : Buf (Elt F) (pLoc c)))
      ∗ (oLoc c ↦{fullShare} ((foldDat c (part c) (o0 c) (W0 c)).arrAt 1 cfg1.N : Buf (Elt F) (oLoc c)))) = _
  rw [arrAt_0, arrAt_1]

/-! ## The region -/

set_option backward.isDefEq.respectTransparency.types false in
/-- The second kernel's region: the launch's layout, no semaphore of its own, the body obligation, no wait evidence
    needed (the body owes nothing); both arrays go into the pipeline and come back, nothing else is touched. -/
def foldSeg : Pipeline.RegionSeg (pcs1 (F := F)) adm1 (foldDats part o0 W0) (none : HIx 1) (defs₀ (F := F)) 𝒱₀
    (K (F := F)).L (K (F := F)).lev (0 : Fin 1) where
  win := launch1.win.to₀
  block_pos := launch1.block_pos
  stage_whole := launch1.stage_whole
  K := PEmpty
  osem k := k.elim
  ho := Pipeline.OwnSemFacts.none _
  hbody c := (body_obligation c (part c) (o0 c) (W0 c)).loose
  hwaits := Pipeline.hwaits_of_owed_zero _ _ _ _ _ _ 0 fun _ _ => rfl
  pre c := iprop((pLoc c ↦{fullShare} (part c : Buf (Elt F) (pLoc c))) ∗ (oLoc c ↦{fullShare} (o0 c : Buf (Elt F) (oLoc c)))
    ∗ owes (T c) (0 : CellTallies nD τ sig (HIx 1)) (W0 c))
  post c := iprop((pLoc c ↦{fullShare} (part c : Buf (Elt F) (pLoc c))) ∗ (oLoc c ↦{fullShare} (outOf (F := F) (part c) : Buf (Elt F) (oLoc c)))
    ∗ ∃ W', ⌜∀ p ∈ W', p ∈ W0 c ∨ p.2 = none⌝ ∗ owes (T c) (0 : CellTallies nD τ sig (HIx 1)) W')
  X _ := iprop(emp)
  Y _ := iprop(emp)
  Z _ := iprop(emp)
  hentry c := by
    rw [arrays_fold, prefHeld_fold]
    iintro ⟨⟨Hp, Ho, HO⟩, -, -⟩
    imodintro
    isplitl [Hp Ho]
    · isplitl [Hp]; · iexact Hp
      iexact Ho
    isplitr; · iempintro
    isplitl [HO]
    · unfold Pipeline.Dat.owesAt Pipeline.owesWithin
      iexists (W0 c); isplitr; · ipureintro; exact fun _ h => Or.inl h
      iexact HO
    isplitr <;> iempintro
  hin c := by
    rw [show (foldDats part o0 W0 0 c).Φ 0 = iprop(emp) from rfl]
    iintro -; iempintro
  hout c := by
    rw [show (foldDats part o0 W0 0 c).Φ (Fin.last _) = iprop(emp) from rfl, Pipeline.ownSems0_none, scopedRest_fold]
    iintro -
    isplitr; · iempintro
    isplitr <;> iempintro
  hexit c := by
    rw [arrays_exit]
    iintro ⟨⟨Hp, Ho⟩, HO, -, -⟩
    imodintro
    isplitl [Hp]; · iexact Hp
    isplitl [Ho]; · iexact Ho
    unfold Pipeline.Dat.owesAt Pipeline.owesWithin
    icases HO with ⟨%W, %hW, HO⟩
    iexists W; isplitr
    · ipureintro
      intro p hp
      rcases hW (Finset.mem_coe.mpr hp) with h | ⟨w, s, rfl⟩
      · exact Or.inl (Finset.mem_coe.mp h)
      · exact Or.inr rfl
    iexact HO

/-- What the region is entered from, -/
theorem foldSeg_pre (c : Dev nD) : (foldSeg part o0 W0).pre c
    = iprop((pLoc c ↦{fullShare} (part c : Buf (Elt F) (pLoc c))) ∗ (oLoc c ↦{fullShare} (o0 c : Buf (Elt F) (oLoc c)))
      ∗ owes (T c) (0 : CellTallies nD τ sig (HIx 1)) (W0 c)) := rfl

/-- and what it leaves. -/
theorem foldSeg_post (c : Dev nD) : (foldSeg part o0 W0).post c
    ⊢ iprop((pLoc c ↦{fullShare} (part c : Buf (Elt F) (pLoc c))) ∗ (oLoc c ↦{fullShare} (outOf (F := F) (part c) : Buf (Elt F) (oLoc c)))
      ∗ ∃ W', ⌜∀ p ∈ W', p ∈ W0 c ∨ p.2 = none⌝ ∗ owes (T c) (0 : CellTallies nD τ sig (HIx 1)) W') := .rfl

/-- The TensorCore thread, either way it is written. -/
theorem T_eq_tc (c : Dev nD) : (T c : Thread nD τ) = (c.tc : Thread nD τ) := rfl

set_option backward.isDefEq.respectTransparency.types false in
/-- The region's step at the top of the program's run on core `c`: from the boundary, what the region is entered
    from, the level facts and the pipeline's ghost state, the kernel's call runs to the boundary and what the region
    leaves, for the continuation. -/
theorem foldSeg_wp (c : Dev nD) {α : Type}
    (k : PUnit → Prog (TpuEff nD τ sig (Elt F) (ΛP (F := F)) .tc) α) (Q : α → sProp 𝕄) :
    iprop((iprop(boundary (T c) ∗ (foldSeg part o0 W0).post c) -∗ wp frame (wpE (D (F := F)) 𝒱 (T c) none) Set.univ (k ⟨⟩) Q)
        ∗ boundary (T c) ∗ (foldSeg part o0 W0).pre c ∗ levAts (K (F := F)).L (K (F := F)).lev
        ∗ Pipeline.cellsGhost (cfgP (F := F)) EP 0 c ∗ Pipeline.toksInit (cfgP (F := F)) EP 0 c)
      ⊢ wp frame (wpE (D (F := F)) 𝒱 (T c) none) Set.univ (.op (.customCall (Pipeline.entry 0) ()) k) Q :=
  Pipeline.RegionSeg.wp (pcs1 (F := F)) adm1 (foldDats part o0 W0) (none : HIx 1) phinj EP defs₀ 𝒱₀ (K (F := F)).L (K (F := F)).lev
    (foldSeg part o0 W0) c none (fun u h => absurd h (Option.not_mem_none u)) k Q

end Cert.Proof.KI

end
-- ==== Proof.FoldStep.lean ====
/-
  The second kernel's region in the form @main's proof enters it: the region's record at constant families (the
  accumulators' array, the result array's entry contents and the recorded waits the same on every device), its entry
  state spelt out and its exit state read.
-/
import proofs.«203046_g35227321762133_cont_8to1_b_835_12_alg».proof.Proof.FoldRegion
import proofs.«203046_g35227321762133_cont_8to1_b_835_12_alg».proof.Proof.LaunchMain

noncomputable section

namespace Cert.Proof.KI

open Cert.KernelIdeal Cert.KernelIdeal.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [hK : Cert.KernelIdeal.Facts]
variable (m : (ℓ : Loc nD τ sig) → Buf (Elt F) ℓ) (ρ : Dev nD → PrngReg)

set_option backward.isDefEq.respectTransparency.types false in
theorem foldStep (d : Dev nD) : FoldStep (F := F) d := by
  intro part o0 W0 Q
  have h := foldSeg_wp (F := F) (fun _ => part) (fun _ => o0) (fun _ => W0) d (k := .ret) Q
  rw [foldSeg_pre] at h
  unfold G
  iintro ⟨Hk, Hb, Hp, Ho, HO, Hlev, Hg, Ht⟩
  iapply h $$ [Hk Hb Hp Ho HO Hlev Hg Ht]
  isplitl [Hk]
  · iintro ⟨Hb, Hpost⟩
    iapply Hk
    isplitl [Hb]; · iexact Hb
    iapply (foldSeg_post (F := F) (fun _ => part) (fun _ => o0) (fun _ => W0) d); iexact Hpost
  isplitl [Hb]; · iexact Hb
  isplitl [Hp Ho HO]
  · isplitl [Hp]; · iexact Hp
    isplitl [Ho]; · iexact Ho
    iexact HO
  isplitl [Hlev]; · iexact Hlev
  isplitl [Hg]; · iexact Hg
  iexact Ht

end Cert.Proof.KI

end
-- ==== Proof.Bits.SegOut.lean ====
/-
  The second kernel's result as a pure function of the 32 accumulators, and the whole program's result as a
  function of the flat rows and their segment numbers: entry `s` of the result is computed from block `s / 512`
  of the accumulators (columns `(s / 512) * 8192` onward, 8192 of them: 512 segments of 16 lanes) by the fold the
  second kernel's body applies to a block.
-/
import proofs.«203046_g35227321762133_cont_8to1_b_835_12_alg».proof.Proof.SegSpec
import proofs.«203046_g35227321762133_cont_8to1_b_835_12_alg».proof.Proof.Gen.Kernel.Skeleton

noncomputable section

namespace Cert.Proof.KB

open Idealize.ShloMosaic Idealize.ShloMosaic.ValueIdx
open Cert.Kernel Cert.Kernel.Gen Cert.Proof.Seg

variable {F : FTy → Type} [FloatOps F] [Cert.Kernel.Facts]

/-- Block `g` of the accumulators: all 32 rows, columns `g * 8192 + j`. -/
def blkOf (part : Vec F S32x65536 .f32) (g : Fin 8) : Vec F S32x8192 .f32 :=
  fun j => part (ix2 (j 0) ⟨g.val * 8192 + (j 1).val, by
    have h : (j 1).val < 8192 := (j 1).isLt
    have hg := g.isLt; omega⟩)

/-- The folded result: 4096 sums, block by block. -/
def outOf (part : Vec F S32x65536 .f32) : Vec F S4096 .f32 :=
  fun s => k1_pay1 (blkOf part ⟨(s 0).val / 512, by
      have h : (s 0).val < 4096 := (s 0).isLt
      omega⟩) (ix1 ⟨(s 0).val % 512, Nat.mod_lt _ (by decide)⟩)

/-- The program's result from the flat rows and their segment numbers. -/
def resultOf (xf : Vec F S6400000 .f32) (bt : IVec S6400000 32) : Vec F S4096 .f32 :=
  outOf (partOf xf bt)

end Cert.Proof.KB

end
-- ==== Proof.Bits.Common.lean ====
/-
  What every part of the kernel program's run shares: the program as the launch theorem sees it, the ghost state
  (the handshakes' rounds beside the second kernel's staging cells and the copies' counters), the five arrays, how
  the flat rows and the accumulators' array split among the 32 tiles (tile `w` reads the 20 chunks of 10 000
  rows from `200000 * w` on, and writes row `w` of the accumulators), and what the one call's handshakes carry.
-/
import proofs.«203046_g35227321762133_cont_8to1_b_835_12_alg».proof.Defs
import proofs.«203046_g35227321762133_cont_8to1_b_835_12_alg».proof.Proof.Bits.SegOut
import proofs.«203046_g35227321762133_cont_8to1_b_835_12_alg».proof.Proof.Gen.Kernel
import proofs.«203046_g35227321762133_cont_8to1_b_835_12_alg».proof.Proof.Gen.Kernel.Skeleton
import proofs.«203046_g35227321762133_cont_8to1_b_835_12_alg».proof.Proof.Gen.Kernel.Launch
import proofs.«203046_g35227321762133_cont_8to1_b_835_12_alg».proof.Proof.Gen.Kernel.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Batch
import Idealize.ShloMosaic.Lib.Tactic

noncomputable section

namespace Cert.Proof.KB

open Cert.Kernel Cert.Kernel.Gen Cert.Proof.Seg

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the second kernel's staging cells, the copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The staging cells' rounds: the left of the right factor (the counters are found by instance in its right). -/
def EP : Emb UP (MT nD τ sig (HIx 1) (Elt F) ℕ UU ℕ) :=
  (Emb.inl : Emb UP (UP × Counters)).trans embR

instance EP_landsIn : (EP : Emb UP 𝕄).LandsIn (upEmb : UEmb _ 𝕄) := by
  unfold EP embR; infer_instance

/-! ## The launch memory and the arrays -/

variable (m : (ℓ : Loc nD τ sig) → Buf (Elt F) ℓ) (ρ : Dev nD → PrngReg)

/-- `x` as given (one column), the segment numbers, the flat rows, the 32 accumulators, the result. -/
abbrev a0Loc (d : Dev nD) : Loc nD τ sig := (SparseCore.T d).loc main_arg0
abbrev a1Loc (d : Dev nD) : Loc nD τ sig := (SparseCore.T d).loc main_arg1
abbrev xLoc (d : Dev nD) : Loc nD τ sig := (SparseCore.T d).loc main_v0
abbrev pLoc (d : Dev nD) : Loc nD τ sig := (SparseCore.T d).loc main_v1
abbrev oLoc (d : Dev nD) : Loc nD τ sig := (SparseCore.T d).loc main_v2

variable [FloatOps F] [hK : Cert.Kernel.Facts]

/-- The flat rows: `x`'s one column read row-major. -/
def xf (d : Dev nD) : Buf (Elt F) (xLoc d) :=
  shapeCast S6400000 (m (a0Loc d)) Facts₀.shapeCasts_S6400000x1_S6400000
/-- The segment numbers. -/
abbrev bt (d : Dev nD) : Buf (Elt F) (a1Loc d) := m (a1Loc d)
/-- The finished accumulators, and the result. -/
def partBuf (d : Dev nD) : Buf (Elt F) (pLoc d) := partOf (F := F) (xf m d) (bt m d)
def outBuf (d : Dev nD) : Buf (Elt F) (oLoc d) := outOf (F := F) (partBuf m d)

/-- Every segment number names a segment. -/
def PreOK : Prop := ∀ (d : Dev nD) (r : S6400000.Idx), (bt m d r).toNat ≤ 4095

/-! ## The tiles' shares -/

/-- The arrays as a vector subcore names them. -/
abbrev xV : Memref sig .scVector .hbm S6400000 .f32 := Memref.whole main_v0_scv
abbrev bV : Memref sig .scVector .hbm S6400000 .i32 := Memref.whole main_arg1_scv
abbrev pV : Memref sig .scVector .hbm S32x65536 .f32 := Memref.whole main_v1_scv

theorem chunk_inb (w : Fin 32) (j : Fin 20) : ∀ a, (![200000 * w.val + 10000 * j.val] : Fin 1 → Nat) a + S10000.size a ≤ S6400000.size a := by
  intro a; have hw := w.isLt; have hj := j.isLt
  match a with | ⟨0, _⟩ => show 200000 * w.val + 10000 * j.val + 10000 ≤ 6400000; omega
/-- Chunk `j` of tile `w`: 10 000 consecutive rows. -/
abbrev chunkRect (w : Fin 32) (j : Fin 20) : Rect S6400000 :=
  Rect.unit (s := S6400000) ![200000 * w.val + 10000 * j.val] S10000.size (chunk_inb w j)
abbrev chunkSet (w : Fin 32) (j : Fin 20) : Finset S6400000.Idx := ((xV : Memref sig .scVector .hbm S6400000 .f32).view.slice (chunkRect w j)).set

theorem prow_inb (w : Fin 32) : ∀ a, (![w.val, 0] : Fin 2 → Nat) a + S1x65536.size a ≤ S32x65536.size a := by
  intro a; have hw := w.isLt
  match a with
  | ⟨0, _⟩ => show w.val + 1 ≤ 32; omega
  | ⟨1, _⟩ => show 0 + 65536 ≤ 65536; omega
/-- Row `w` of the accumulators' array. -/
abbrev prowRect (w : Fin 32) : Rect S32x65536 := Rect.unit (s := S32x65536) ![w.val, 0] S1x65536.size (prow_inb w)
abbrev prowSet (w : Fin 32) : Finset S32x65536.Idx := ((pV : Memref sig .scVector .hbm S32x65536 .f32).view.slice (prowRect w)).set

abbrev xChunk (d : Dev nD) (w : Fin 32) (j : Fin 20) : sProp 𝕄 := xLoc d ↦[chunkSet w j]{fullShare} xf m d
abbrev bChunk (d : Dev nD) (w : Fin 32) (j : Fin 20) : sProp 𝕄 := a1Loc d ↦[chunkSet w j]{fullShare} bt m d
abbrev pRow (d : Dev nD) (w : Fin 32) (f : Buf (Elt F) (pLoc d)) : sProp 𝕄 := pLoc d ↦[prowSet w]{fullShare} f

/-- What tile `w` is handed: its chunks of the rows and of the segment numbers, and its row of the accumulators' array
    at whatever it holds; -/
def goRes (d : Dev nD) (w : Fin 32) : sProp 𝕄 :=
  iprop((bigSep Finset.univ fun j : Fin 20 => xChunk m d w j) ∗ (bigSep Finset.univ fun j : Fin 20 => bChunk m d w j) ∗ ∃ f, pRow d w f)
/-- and what it hands back: the same, its row at the finished accumulator. -/
def tdRes (d : Dev nD) (w : Fin 32) : sProp 𝕄 :=
  iprop((bigSep Finset.univ fun j : Fin 20 => xChunk m d w j) ∗ (bigSep Finset.univ fun j : Fin 20 => bChunk m d w j) ∗ pRow d w (partBuf m d))

/-- The tile's number from its SparseCore and its place on it. -/
def tileNo (c : Fin 2) (i : Fin 16) : Fin 32 := ⟨16 * c.val + i.val, by have := c.isLt; have := i.isLt; omega⟩

/-- The one call hands each SparseCore its sixteen tiles' shares and takes them back. -/
def P : (K (F := F)).Pay (nD := nD) (Val := Elt F) (Name := ℕ) (U := UU) where
  st := fun q d c => match q with | 0 => bigSep Finset.univ fun i : Fin 16 => goRes m d (tileNo (Fin.cast nCore_zero c) i)
  dn := fun q d c => match q with | 0 => bigSep Finset.univ fun i : Fin 16 => tdRes m d (tileNo (Fin.cast nCore_zero c) i)
  go := fun q d c i => match q with | 0 => goRes m d (tileNo (Fin.cast nCore_zero c) (Fin.cast nSub_zero i))
  td := fun q d c i => match q with | 0 => tdRes m d (tileNo (Fin.cast nCore_zero c) (Fin.cast nSub_zero i))
  x := fun _ _ => iprop(emp)

instance P_storable : (P (F := F) m).IsStorable where
  st q d c := match q with | 0 => by unfold P goRes; infer_instance
  dn q d c := match q with | 0 => by unfold P tdRes; infer_instance
  go q d c i := match q with | 0 => by unfold P goRes; infer_instance
  td q d c i := match q with | 0 => by unfold P tdRes; infer_instance

end Cert.Proof.KB

end
-- ==== Proof.Bits.TileDefs.lean ====
/-
  One tile's task: its thread, its five scratch buffers and its number, and the contents its two chunk buffers
  hold while chunk `j` is being added (rows `200000 * w + 10000 * j` onward of the flat rows and of the segment
  numbers).
-/
import proofs.«203046_g35227321762133_cont_8to1_b_835_12_alg».proof.Proof.Bits.Common

noncomputable section

namespace Cert.Proof.KB

open Cert.Kernel Cert.Kernel.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [hK : Cert.Kernel.Facts]

/-- The tile at grid coordinates `L`: its SparseCore, its place on it, its thread, its number. -/
abbrev cV (L : grid0.Coords) : Fin τ.nSC := (L 0).castLE Facts₀.hcore0
abbrev jV (L : grid0.Coords) : Fin τ.nSub := (L 1).castLE Facts₀.hsub0
abbrev thr (d : Dev nD) (L : grid0.Coords) : Thread nD τ := V d (cV L) (jV L)
theorem bound_zero : grid0.bound 0 = 2 := rfl
theorem bound_one : grid0.bound 1 = 16 := rfl
def wOf (L : grid0.Coords) : Fin 32 := tileNo (Fin.cast bound_zero (L 0)) (Fin.cast bound_one (L 1))
theorem wOf_val (L : grid0.Coords) : (wOf L).val = 16 * (L 0).val + (L 1).val := rfl

/-- The two row buffers, the two segment-number buffers, the accumulator. -/
abbrev s0 : Memref sig .scVector .vmem S10000 .f32 := Memref.whole cc0_scratch0
abbrev s1 : Memref sig .scVector .vmem S10000 .f32 := Memref.whole cc0_scratch1
abbrev s2 : Memref sig .scVector .vmem S10000 .i32 := Memref.whole cc0_scratch2
abbrev s3 : Memref sig .scVector .vmem S10000 .i32 := Memref.whole cc0_scratch3
abbrev s4 : Memref sig .scVector .vmem S65536 .f32 := Memref.whole cc0_scratch4

/-- The lane numbers, as the kernel makes them. -/
abbrev lanes : IVec S16 32 := iota .scVector S16 32 [0] Facts₀.iota_S16_d0_w32_scVector

/-- Vector `n` (of 625) of a chunk buffer's contents. -/
def vecOf {e : EltTy} (c : Vec F S10000 e) (n : Fin 625) : Vec F S16 e :=
  fun l => c (ix1 ⟨16 * n.val + (l 0).val, by
    have h : (l 0).val < 16 := (l 0).isLt
    have hn := n.isLt; omega⟩)

end Cert.Proof.KB

end
-- ==== Proof.Bits.TileZero.lean ====
/-
  The loop that zeroes a tile's accumulator: 256 trips, each storing sixteen zero vectors of sixteen lanes, so that
  trip k leaves positions below 256 (k + 1) at zero and the rest as they were.
-/
import proofs.«203046_g35227321762133_cont_8to1_b_835_12_alg».proof.Proof.Bits.TileDefs

noncomputable section

namespace Cert.Proof.KB

open Cert.Kernel Cert.Kernel.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [hK : Cert.Kernel.Facts]
variable (m : (ℓ : Loc nD τ sig) → Buf (Elt F) ℓ) (d : Dev nD) (L : grid0.Coords)

/-- The accumulator with its first 256*k positions zeroed. -/
def zfill (g0 : Buf (Elt F) ((thr d L).loc cc0_scratch4)) (k : Nat) : Buf (Elt F) ((thr d L).loc cc0_scratch4) :=
  fun i => if (i 0).val < 256 * k then Scalar.ofBits .f32 0x00000000#32 else g0 i

/-- Before trip k the accumulator has its first 256 k positions zeroed. -/
def zinv (g0 : Buf (Elt F) ((thr d L).loc cc0_scratch4)) (k : Nat) (_ : PUnit) : sProp 𝕄 :=
  iprop((s4).view.loc (thr d L) ↦{fullShare} zfill d L g0 k)

/-- Writes of one value through rectangles that together cover exactly the positions from lo up to hi (excluded). -/
theorem writes_block (f : Buf (Elt F) ((thr d L).loc cc0_scratch4)) (Ls : List (View.Piece (Elt F) S65536 .f32)) (lo hi : Nat) (z : Elt F .f32)
    (hz : ∀ p ∈ Ls, ∀ x, p.2 x = z)
    (hmem : ∀ y : S65536.Idx, (∃ p ∈ Ls, y ∈ p.1.set) ↔ (lo ≤ (y 0).val ∧ (y 0).val < hi)) :
    (s4).view.writes (Elt F) f Ls = fun i => if lo ≤ (i 0).val ∧ (i 0).val < hi then z else f i := by
  funext i
  by_cases hi' : lo ≤ (i 0).val ∧ (i 0).val < hi
  · rw [if_pos hi']
    exact View.read_writes_apply_of_pieces (s4).view f (fun _ => z) Ls hz i ((hmem i).mpr hi')
  · rw [if_neg hi']
    exact View.read_writes_apply_of_forall_not_mem (s4).view f i Ls (fun p hp hy => hi' ((hmem i).mp ⟨p, hp, hy⟩))

/-- The zeroing loop makes 256 trips. -/
theorem t1_trips : k0_t1_loop.trips = 256 := by decide +kernel

theorem t1_trips' : Scf.trips k0_t1_loop.lb k0_t1_loop.ub k0_t1_loop.st = 256 := t1_trips

/-- Sixteen consecutive positions from o on. -/
theorem mem_unit16 {off : Fin 1 → Nat} {o : Nat} (h : off = ![o]) {inb : ∀ a, off a + S16.size a ≤ S65536.size a} {y : S65536.Idx} :
    y ∈ (Rect.unit (s := S65536) off S16.size inb).set ↔ (o ≤ (y 0).val ∧ (y 0).val < o + 16) := by
  subst h
  rw [Rect.mem_set_unit]
  constructor
  · intro h; exact h 0
  · intro h a
    have ha : a = 0 := Subsingleton.elim _ _
    subst ha; exact h

theorem zfill_zero (g0 : Buf (Elt F) ((thr d L).loc cc0_scratch4)) : zfill d L g0 0 = g0 := by
  funext i; unfold zfill; rw [if_neg (by omega)]

theorem zfill_succ (g0 : Buf (Elt F) ((thr d L).loc cc0_scratch4)) (k : Nat) :
    (fun i => if 256 * k ≤ (i 0).val ∧ (i 0).val < 256 * k + 256 then Scalar.ofBits .f32 0x00000000#32 else zfill d L g0 k i) = zfill d L g0 (k + 1) := by
  funext i; unfold zfill
  by_cases h1 : (i 0).val < 256 * k
  · rw [if_neg (by omega), if_pos h1, if_pos (by omega)]
  · by_cases h2 : (i 0).val < 256 * k + 256
    · rw [if_pos (by omega), if_pos (by omega)]
    · rw [if_neg (by omega), if_neg h1, if_neg (by omega)]

theorem zfill_full (g0 : Buf (Elt F) ((thr d L).loc cc0_scratch4)) :
    zfill d L g0 256 = (accAt (F := F) (xf m d) (bt m d) (wOf L) 0 : Buf (Elt F) ((thr d L).loc cc0_scratch4)) := by
  funext i; unfold zfill
  have hi : (i 0).val < 65536 := (i 0).isLt
  rw [if_pos (by omega)]; rfl

/-- The zeroing loop: trip k zeroes positions 256 k to 256 k + 255, in sixteen stores of sixteen lanes. -/
theorem zero_loop_run (g0 : Buf (Elt F) ((thr d L).loc cc0_scratch4)) {α : Type}
    (k : Unit → Prog (TpuEff nD τ sig (Elt F) Λ₀ (thr d L).2) α) (Φ : α → sProp 𝕄) :
    iprop(((s4).view.loc (thr d L) ↦{fullShare} g0)
        ∗ (((s4).view.loc (thr d L) ↦{fullShare} (accAt (F := F) (xf m d) (bt m d) (wOf L) 0 : Buf (Elt F) ((thr d L).loc cc0_scratch4)))
            -∗ wp frame (wpE (defs₀ (F := F)) 𝒱₀ (thr d L) none) Set.univ (k ⟨⟩) Φ))
      ⊢ wp frame (wpE (defs₀ (F := F)) 𝒱₀ (thr d L) none) Set.univ
          (Scf.Loop.for k0_t1_loop k0_t1_ok ⟨⟩ (k0_t1_body L xV (Memref.isWhole_whole _) bV (Memref.isWhole_whole _) pV (Memref.isWhole_whole _)
            s0 (Memref.isWhole_whole _) s1 (Memref.isWhole_whole _) s2 (Memref.isWhole_whole _) s3 (Memref.isWhole_whole _) s4 (Memref.isWhole_whole _)
            cc0_scratch5 cc0_scratch6 cc0_scoped0) >>= k) Φ := by
  iintro ⟨Hs, Hk⟩
  sl_for (zinv d L g0) $$ [Hs]
  case region =>
    intro k _
    unfold zinv
    iintro Hs
    sl_exec
    sl_step
    have e0 : k0_off1 k 0#32 = ![256 * k.val + 0] := k0_off1_eq k ⟨0, by decide⟩
    have e1 : k0_off1 k 1#32 = ![256 * k.val + 16] := k0_off1_eq k ⟨1, by decide⟩
    have e2 : k0_off1 k 2#32 = ![256 * k.val + 32] := k0_off1_eq k ⟨2, by decide⟩
    have e3 : k0_off1 k 3#32 = ![256 * k.val + 48] := k0_off1_eq k ⟨3, by decide⟩
    have e4 : k0_off1 k 4#32 = ![256 * k.val + 64] := k0_off1_eq k ⟨4, by decide⟩
    have e5 : k0_off1 k 5#32 = ![256 * k.val + 80] := k0_off1_eq k ⟨5, by decide⟩
    have e6 : k0_off1 k 6#32 = ![256 * k.val + 96] := k0_off1_eq k ⟨6, by decide⟩
    have e7 : k0_off1 k 7#32 = ![256 * k.val + 112] := k0_off1_eq k ⟨7, by decide⟩
    have e8 : k0_off1 k 8#32 = ![256 * k.val + 128] := k0_off1_eq k ⟨8, by decide⟩
    have e9 : k0_off1 k 9#32 = ![256 * k.val + 144] := k0_off1_eq k ⟨9, by decide⟩
    have e10 : k0_off1 k 10#32 = ![256 * k.val + 160] := k0_off1_eq k ⟨10, by decide⟩
    have e11 : k0_off1 k 11#32 = ![256 * k.val + 176] := k0_off1_eq k ⟨11, by decide⟩
    have e12 : k0_off1 k 12#32 = ![256 * k.val + 192] := k0_off1_eq k ⟨12, by decide⟩
    have e13 : k0_off1 k 13#32 = ![256 * k.val + 208] := k0_off1_eq k ⟨13, by decide⟩
    have e14 : k0_off1 k 14#32 = ![256 * k.val + 224] := k0_off1_eq k ⟨14, by decide⟩
    have e15 : k0_off1 k 15#32 = ![256 * k.val + 240] := k0_off1_eq k ⟨15, by decide⟩
    rw [writes_block d L _ _ (256 * k.val) (256 * k.val + 256) (Scalar.ofBits .f32 0x00000000#32), zfill_succ]
    · iexact Hs
    · intro p hp x
      simp only [List.mem_cons, List.not_mem_nil, _root_.or_false] at hp
      repeat (rcases hp with rfl | hp; · rfl)
    · intro y
      simp only [List.mem_cons, List.not_mem_nil, _root_.or_false, exists_eq_or_imp, exists_eq_left, mem_unit16 e0, mem_unit16 e1, mem_unit16 e2, mem_unit16 e3, mem_unit16 e4, mem_unit16 e5, mem_unit16 e6, mem_unit16 e7, mem_unit16 e8, mem_unit16 e9, mem_unit16 e10, mem_unit16 e11, mem_unit16 e12, mem_unit16 e13, mem_unit16 e14, mem_unit16 e15]
      omega
  · unfold zinv
    rw [zfill_zero]
    iexact Hs
  iintro %acc HI
  unfold zinv
  rw [t1_trips', zfill_full m]
  sl_respell []
  iapply Hk
  iexact HI

end Cert.Proof.KB

end
-- ==== Proof.Bits.TileScat.lean ====
/-
  One step of a chunk's loop: the indexed add-store of one vector of sixteen rows into the accumulator, at sixteen
  times each row's segment number plus the lane. The positions lie inside the accumulator because segment numbers are
  at most 4095; the store then takes the accumulator after n vectors to the accumulator after n + 1. Also: what a
  load of sixteen lanes reads out of a chunk buffer, and the bound on a chunk of segment numbers.
-/
import proofs.«203046_g35227321762133_cont_8to1_b_835_12_alg».proof.Proof.Bits.TileDefs
import proofs.«203046_g35227321762133_cont_8to1_b_835_12_alg».proof.Proof.LibLanes

noncomputable section

namespace Cert.Proof.KB

open Cert.Kernel Cert.Kernel.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [hK : Cert.Kernel.Facts]
variable (m : (ℓ : Loc nD τ sig) → Buf (Elt F) ℓ) (d : Dev nD) (L : grid0.Coords)

/-- The lane numbers the kernel makes are the lane numbers of the specification. -/
theorem lanes_eq : (lanes : IVec S16 32) = laneVec := by
  funext x
  exact Cert.Lib.lane_apply _ x

/-- Sixteen times a segment number below 4096, plus a lane below 16, lies in the accumulator. -/
theorem posOk_of_le (ids : IVec S16 32) (h : ∀ x, (ids x).toNat ≤ 4095) : PosOk ids := by
  intro a x
  have ha : a = 0 := Subsingleton.elim _ _
  subst ha
  have hx : (x 0).val < 16 := (x 0).isLt
  have h1 : (IntOp.muli (ids x) (BitVec.ofNat 32 16)).toNat = (ids x).toNat * 16 :=
    Cert.Lib.muli_lit_toNat (ids x) 16 4096 (by have := h x; omega) (by norm_num)
  show (IntOp.addi (IntOp.muli (ids x) (BitVec.ofNat 32 16)) (BitVec.ofNat 32 (x 0).val)).toNat < 65536
  rw [Cert.Lib.addi_lit_toNat _ (x 0).val 65521 (by rw [h1]; have := h x; omega) (by omega), h1]
  have := h x; omega

/-- The indexed add-store depends on its index vector only. -/
theorem storeIdx_congr_idx (g : Vec F S65536 .f32) (v : Vec F S16 .f32) {A B : IVec S16 32} (e : A = B)
    (hA : ∀ a x, ((![A] : Fin S65536.rank → IVec S16 32) a x).toNat < S65536.size a)
    (hB : ∀ a x, ((![B] : Fin S65536.rank → IVec S16 32) a x).toNat < S65536.size a) :
    storeIdx g ![A] v (fun _ => 1#1) true hA = storeIdx g ![B] v (fun _ => 1#1) true hB := by
  subst e; rfl

/-- One vector added: the accumulator after n vectors, scattered into at sixteen times vector n's segment numbers plus
    the lane, with vector n's rows, is the accumulator after n + 1 vectors. -/
theorem accAt_step (hpre : PreOK m) (n : Nat) (hn : n < 12500)
    (h : ∀ a x, ((![addi (muli (bVec (bt m d) (wOf L) ⟨n, hn⟩) (broadcast S16 16#32)) lanes] : Fin S65536.rank → IVec S16 32) a x).toNat < S65536.size a) :
    accAt (F := F) (xf m d) (bt m d) (wOf L) (n + 1)
      = storeIdx (accAt (F := F) (xf m d) (bt m d) (wOf L) n) ![addi (muli (bVec (bt m d) (wOf L) ⟨n, hn⟩) (broadcast S16 16#32)) lanes]
          (xVec (F := F) (xf m d) (wOf L) ⟨n, hn⟩) (fun _ => 1#1) true h := by
  have hok : PosOk (bVec (bt m d) (wOf L) ⟨n, hn⟩) := posOk_of_le _ (fun x => hpre d _)
  have e : posVec (bVec (bt m d) (wOf L) ⟨n, hn⟩) = addi (muli (bVec (bt m d) (wOf L) ⟨n, hn⟩) (broadcast S16 16#32)) lanes := by
    unfold posVec; rw [lanes_eq]
  exact (accAt_succ _ _ _ n hn).trans ((scat_of_ok _ _ _ hok).trans (storeIdx_congr_idx _ _ e _ _))

/-- The accumulator held whole, as the indexed store's rule spells it. -/
theorem pts_acc (f : Buf (Elt F) ((thr d L).loc cc0_scratch4)) :
    ((((s4).access (Rect.whole S65536)).loc (thr d L) ↦[((s4).access (Rect.whole S65536)).set]{fullShare} f) : sProp 𝕄)
      = ((s4).view.loc (thr d L) ↦{fullShare} f) := by
  have e : ((s4).access (Rect.whole S65536)).set = Finset.univ := Memref.set_access_whole cc0_scratch4
  rw [e]

/-- The indexed add-store of one vector: from the accumulator after n vectors to the accumulator after n + 1, when the
    stored vector and the index vector are vector n's rows and sixteen times its segment numbers plus the lane. -/
theorem wp_scat (hpre : PreOK m) (n : Nat) (hn : n < 12500) (ids : IVec S16 32) (v : Vec F S16 .f32)
    (hids : ids = bVec (bt m d) (wOf L) ⟨n, hn⟩) (hv : v = xVec (F := F) (xf m d) (wOf L) ⟨n, hn⟩)
    (h : ∀ a x, ((![addi (muli ids (broadcast S16 16#32)) lanes] : Fin S65536.rank → IVec S16 32) a x).toNat < S65536.size a)
    (hs : ((s4).access (Rect.whole S65536)).Stores Finset.univ)
    {β : Type} (kk : PUnit → Prog (TpuEff nD τ sig (Elt F) Λ₀ (thr d L).2) β) (Q : β → sProp 𝕄) :
    ((s4).view.loc (thr d L) ↦{fullShare} (accAt (F := F) (xf m d) (bt m d) (wOf L) n : Buf (Elt F) ((thr d L).loc cc0_scratch4)))
      ⊢ iprop((((s4).view.loc (thr d L) ↦{fullShare} (accAt (F := F) (xf m d) (bt m d) (wOf L) (n + 1) : Buf (Elt F) ((thr d L).loc cc0_scratch4)))
            -∗ wp frame (wpE (defs₀ (F := F)) 𝒱₀ (thr d L) none) Set.univ (kk ⟨⟩) Q)
          -∗ wp frame (wpE (defs₀ (F := F)) 𝒱₀ (thr d L) none) Set.univ
              (SparseCore.vectorStoreIdx s4 ![addi (muli ids (broadcast S16 16#32)) lanes] v (fun _ => 1#1) true h hs >>= kk) Q) := by
  subst hids hv
  rw [← pts_acc, ← pts_acc, accAt_step m d L hpre n hn h]
  have hw := SparseCore.wp_vectorStoreIdx (defs := defs₀ (F := F)) 𝒱₀ (thr d L) none Set.univ (base := s4)
    (idxs := ![addi (muli (bVec (bt m d) (wOf L) ⟨n, hn⟩) (broadcast S16 16#32)) lanes]) (v := xVec (F := F) (xf m d) (wOf L) ⟨n, hn⟩)
    (mask := fun _ => 1#1) (add := true) (h := h) (hs := hs) (k := kk) (Q := Q)
    (f := (accAt (F := F) (xf m d) (bt m d) (wOf L) n : Buf (Elt F) ((thr d L).loc cc0_scratch4)))
  have ew : ∀ f w : Buf (Elt F) ((thr d L).loc cc0_scratch4), View.write (Elt F) ((s4).access (Rect.whole S65536)) f w Finset.univ = w :=
    fun f w => Memref.write_access_whole_univ (Elt F) cc0_scratch4 f w
  have er : ∀ f : Buf (Elt F) ((thr d L).loc cc0_scratch4), View.read (Elt F) ((s4).access (Rect.whole S65536)) f = f :=
    fun f => Memref.read_access_whole (Elt F) cc0_scratch4 f
  rw [ew, er] at hw
  exact hw

/-- The in-range check of an indexed add-store whose segment numbers are at most 4095. -/
theorem chk_ok (ids : IVec S16 32) (h : ∀ x, (ids x).toNat ≤ 4095) :
    ∀ a x, ((![addi (muli ids (broadcast S16 16#32)) lanes] : Fin S65536.rank → IVec S16 32) a x).toNat < S65536.size a := by
  rw [lanes_eq]; exact posOk_of_le ids h

/-- A load of sixteen lanes at sixteen times n reads vector n of the buffer. -/
theorem readAt_c0 (c : Buf (Elt F) ((thr d L).loc cc0_scratch0)) (off : Fin 1 → Nat) (o : Nat) (hoff : off = ![o]) (n : Fin 625) (ho : o = 16 * n.val)
    (inb : ∀ a, off a + S16.size a ≤ S10000.size a) :
    View.readAt (Elt F) (Memref.whole cc0_scratch0 : Memref sig .scVector .vmem S10000 .f32).view (Rect.unit (s := S10000) off S16.size inb).toLoadRect c
      = vecOf (F := F) (e := .f32) c n := by
  subst hoff; subst ho
  funext x
  refine congrArg c (funext fun (a : Fin 1) => Fin.ext ?_)
  have ha : a = 0 := Subsingleton.elim _ _
  subst ha
  show 16 * n.val + 1 * (x 0).val = 16 * n.val + (x 0).val
  omega

/-- A load of sixteen lanes at sixteen times n reads vector n of the buffer. -/
theorem readAt_c1 (c : Buf (Elt F) ((thr d L).loc cc0_scratch1)) (off : Fin 1 → Nat) (o : Nat) (hoff : off = ![o]) (n : Fin 625) (ho : o = 16 * n.val)
    (inb : ∀ a, off a + S16.size a ≤ S10000.size a) :
    View.readAt (Elt F) (Memref.whole cc0_scratch1 : Memref sig .scVector .vmem S10000 .f32).view (Rect.unit (s := S10000) off S16.size inb).toLoadRect c
      = vecOf (F := F) (e := .f32) c n := by
  subst hoff; subst ho
  funext x
  refine congrArg c (funext fun (a : Fin 1) => Fin.ext ?_)
  have ha : a = 0 := Subsingleton.elim _ _
  subst ha
  show 16 * n.val + 1 * (x 0).val = 16 * n.val + (x 0).val
  omega

/-- A load of sixteen lanes at sixteen times n reads vector n of the buffer. -/
theorem readAt_c2 (c : Buf (Elt F) ((thr d L).loc cc0_scratch2)) (off : Fin 1 → Nat) (o : Nat) (hoff : off = ![o]) (n : Fin 625) (ho : o = 16 * n.val)
    (inb : ∀ a, off a + S16.size a ≤ S10000.size a) :
    View.readAt (Elt F) (Memref.whole cc0_scratch2 : Memref sig .scVector .vmem S10000 .i32).view (Rect.unit (s := S10000) off S16.size inb).toLoadRect c
      = vecOf (F := F) (e := .i32) c n := by
  subst hoff; subst ho
  funext x
  refine congrArg c (funext fun (a : Fin 1) => Fin.ext ?_)
  have ha : a = 0 := Subsingleton.elim _ _
  subst ha
  show 16 * n.val + 1 * (x 0).val = 16 * n.val + (x 0).val
  omega

/-- A load of sixteen lanes at sixteen times n reads vector n of the buffer. -/
theorem readAt_c3 (c : Buf (Elt F) ((thr d L).loc cc0_scratch3)) (off : Fin 1 → Nat) (o : Nat) (hoff : off = ![o]) (n : Fin 625) (ho : o = 16 * n.val)
    (inb : ∀ a, off a + S16.size a ≤ S10000.size a) :
    View.readAt (Elt F) (Memref.whole cc0_scratch3 : Memref sig .scVector .vmem S10000 .i32).view (Rect.unit (s := S10000) off S16.size inb).toLoadRect c
      = vecOf (F := F) (e := .i32) c n := by
  subst hoff; subst ho
  funext x
  refine congrArg c (funext fun (a : Fin 1) => Fin.ext ?_)
  have ha : a = 0 := Subsingleton.elim _ _
  subst ha
  show 16 * n.val + 1 * (x 0).val = 16 * n.val + (x 0).val
  omega

/-- A chunk of segment numbers that is made of vectors of the tile's segment numbers holds nothing above 4095. -/
theorem chunk_le (hpre : PreOK m) (bc : Vec F S10000 .i32) (n0 : Nat) (hn0 : n0 + 625 ≤ 12500)
    (hb : ∀ n : Fin 625, vecOf (F := F) (e := .i32) bc n = bVec (bt m d) (wOf L) ⟨n0 + n.val, by have := n.isLt; omega⟩) :
    ∀ i : S10000.Idx, (bc i).toNat ≤ 4095 := by
  intro i
  have hi : (i 0).val < 10000 := (i 0).isLt
  have e : bc i = vecOf (F := F) (e := .i32) bc ⟨(i 0).val / 16, by omega⟩ (ix1 ⟨(i 0).val % 16, Nat.mod_lt _ (by norm_num)⟩) := by
    unfold vecOf
    refine congrArg bc (funext fun (a : Fin 1) => Fin.ext ?_)
    have ha : a = 0 := Subsingleton.elim _ _
    subst ha
    show (i 0).val = 16 * ((i 0).val / 16) + (i 0).val % 16
    omega
  rw [e, hb]
  exact hpre d _

/-- The same with the two vector counts named apart from the vector's own number. -/
theorem wp_scat' (hpre : PreOK m) (nA nB n : Nat) (hn : n < 12500) (hA : nA = n) (hB : nB = n + 1) (ids : IVec S16 32) (v : Vec F S16 .f32)
    (hids : ids = bVec (bt m d) (wOf L) ⟨n, hn⟩) (hv : v = xVec (F := F) (xf m d) (wOf L) ⟨n, hn⟩)
    (h : ∀ a x, ((![addi (muli ids (broadcast S16 16#32)) lanes] : Fin S65536.rank → IVec S16 32) a x).toNat < S65536.size a)
    (hs : ((s4).access (Rect.whole S65536)).Stores Finset.univ)
    {β : Type} (kk : PUnit → Prog (TpuEff nD τ sig (Elt F) Λ₀ (thr d L).2) β) (Q : β → sProp 𝕄) :
    ((s4).view.loc (thr d L) ↦{fullShare} (accAt (F := F) (xf m d) (bt m d) (wOf L) nA : Buf (Elt F) ((thr d L).loc cc0_scratch4)))
      ⊢ iprop((((s4).view.loc (thr d L) ↦{fullShare} (accAt (F := F) (xf m d) (bt m d) (wOf L) nB : Buf (Elt F) ((thr d L).loc cc0_scratch4)))
            -∗ wp frame (wpE (defs₀ (F := F)) 𝒱₀ (thr d L) none) Set.univ (kk ⟨⟩) Q)
          -∗ wp frame (wpE (defs₀ (F := F)) 𝒱₀ (thr d L) none) Set.univ
              (SparseCore.vectorStoreIdx s4 ![addi (muli ids (broadcast S16 16#32)) lanes] v (fun _ => 1#1) true h hs >>= kk) Q) := by
  subst hA; subst hB
  exact wp_scat m d L hpre nA hn ids v hids hv h hs kk Q

end Cert.Proof.KB

end
-- ==== Proof.Bits.TileAdd0.lean ====
/-
  The loop that adds one chunk from the first pair of chunk buffers into the accumulator: 25 trips of 25 vectors. Trip k,
  vector u: sixteen rows and their segment numbers are read at position 400 k + 16 u of the two buffers, that is vector
  25 k + u of the chunk, and added into the accumulator at sixteen times the segment number plus the lane; the
  accumulator goes from its state after n0 + 25 k + u vectors to its state after one more.
-/
import proofs.«203046_g35227321762133_cont_8to1_b_835_12_alg».proof.Proof.Bits.TileScat

noncomputable section

namespace Cert.Proof.KB

open Cert.Kernel Cert.Kernel.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [hK : Cert.Kernel.Facts]
variable (m : (ℓ : Loc nD τ sig) → Buf (Elt F) ℓ) (d : Dev nD) (L : grid0.Coords)

/-- The loop makes 25 trips. -/
theorem t3_trips : k0_t3_loop.trips = 25 := by decide +kernel
theorem t3_trips' : Scf.trips k0_t3_loop.lb k0_t3_loop.ub k0_t3_loop.st = 25 := t3_trips

/-- Before trip k of a chunk's loop the two chunk buffers are as they were and the accumulator has had 25 k more vectors added. -/
def ainv0 (xc : Buf (Elt F) ((thr d L).loc cc0_scratch0)) (bc : Buf (Elt F) ((thr d L).loc cc0_scratch2)) (n0 : Nat) (k : Nat) (_ : PUnit) : sProp 𝕄 :=
  iprop(((s0).view.loc (thr d L) ↦{fullShare} xc) ∗ ((s2).view.loc (thr d L) ↦{fullShare} bc)
    ∗ ((s4).view.loc (thr d L) ↦{fullShare} (accAt (F := F) (xf m d) (bt m d) (wOf L) (n0 + 25 * k) : Buf (Elt F) ((thr d L).loc cc0_scratch4))))

/-- The chunk's loop: from the accumulator after n0 vectors to the accumulator after n0 + 625, the chunk buffers unchanged. -/
theorem add_chunk0_run (hpre : PreOK m) (xc : Buf (Elt F) ((thr d L).loc cc0_scratch0)) (bc : Buf (Elt F) ((thr d L).loc cc0_scratch2))
    (n0 : Nat) (hn0 : n0 + 625 ≤ 12500)
    (hx : ∀ n : Fin 625, vecOf (F := F) (e := .f32) xc n = xVec (F := F) (xf m d) (wOf L) ⟨n0 + n.val, by have := n.isLt; omega⟩)
    (hb : ∀ n : Fin 625, vecOf (F := F) (e := .i32) bc n = bVec (bt m d) (wOf L) ⟨n0 + n.val, by have := n.isLt; omega⟩)
    {α : Type} (k : Unit → Prog (TpuEff nD τ sig (Elt F) Λ₀ (thr d L).2) α) (Φ : α → sProp 𝕄) :
    iprop(((s0).view.loc (thr d L) ↦{fullShare} xc) ∗ ((s2).view.loc (thr d L) ↦{fullShare} bc)
        ∗ ((s4).view.loc (thr d L) ↦{fullShare} (accAt (F := F) (xf m d) (bt m d) (wOf L) n0 : Buf (Elt F) ((thr d L).loc cc0_scratch4)))
        ∗ ((((s0).view.loc (thr d L) ↦{fullShare} xc) ∗ ((s2).view.loc (thr d L) ↦{fullShare} bc)
            ∗ ((s4).view.loc (thr d L) ↦{fullShare} (accAt (F := F) (xf m d) (bt m d) (wOf L) (n0 + 625) : Buf (Elt F) ((thr d L).loc cc0_scratch4))))
            -∗ wp frame (wpE (defs₀ (F := F)) 𝒱₀ (thr d L) none) Set.univ (k ⟨⟩) Φ))
      ⊢ wp frame (wpE (defs₀ (F := F)) 𝒱₀ (thr d L) none) Set.univ
          (Scf.Loop.for k0_t3_loop k0_t3_ok ⟨⟩ (k0_t3_body L xV (Memref.isWhole_whole _) bV (Memref.isWhole_whole _) pV (Memref.isWhole_whole _)
            s0 (Memref.isWhole_whole _) s1 (Memref.isWhole_whole _) s2 (Memref.isWhole_whole _) s3 (Memref.isWhole_whole _) s4 (Memref.isWhole_whole _)
            cc0_scratch5 cc0_scratch6 cc0_scoped0 lanes) >>= k) Φ := by
  iintro ⟨Hx, Hb, Ha, Hk⟩
  sl_for (ainv0 m d L xc bc n0) $$ [Hx Hb Ha]
  case region =>
    intro k _
    have hk : k.val < 25 := Nat.lt_of_lt_of_le k.isLt k0_t3_abs.2.1
    have hbc := chunk_le m d L hpre bc n0 hn0 hb
    unfold ainv0
    iintro ⟨Hx, Hb, Ha⟩
    -- vector 0 of the trip
    sl_exec (disch := exact chk_ok _ (fun x => hbc _))
    iapply (wp_scat' m d L hpre (n0 + 25 * k.val) (n0 + (25 * k.val + 1)) (n0 + (25 * k.val + 0)) (by omega) (by omega) (by omega)
      (View.readAt (Elt F) (s2).view (Rect.unit (s := S10000) (k0_off4 k) S16.size (k0_off4_inb k)).toLoadRect bc)
      (View.readAt (Elt F) (s0).view (Rect.unit (s := S10000) (k0_off4 k) S16.size (k0_off4_inb k)).toLoadRect xc)
      ((readAt_c2 d L bc (k0_off4 k) _ (k0_off4_eq k) ⟨25 * k.val + 0, by omega⟩ (by show _ = 16 * (25 * k.val + 0); omega) (k0_off4_inb k)).trans (hb ⟨25 * k.val + 0, by omega⟩))
      ((readAt_c0 d L xc (k0_off4 k) _ (k0_off4_eq k) ⟨25 * k.val + 0, by omega⟩ (by show _ = 16 * (25 * k.val + 0); omega) (k0_off4_inb k)).trans (hx ⟨25 * k.val + 0, by omega⟩))
      _ _ _ _) $$ Ha
    iintro Ha
    -- vector 1 of the trip
    sl_exec (disch := exact chk_ok _ (fun x => hbc _))
    iapply (wp_scat' m d L hpre (n0 + (25 * k.val + 1)) (n0 + (25 * k.val + 2)) (n0 + (25 * k.val + 1)) (by omega) (by omega) (by omega)
      (View.readAt (Elt F) (s2).view (Rect.unit (s := S10000) (k0_off5 k) S16.size (k0_off5_inb k)).toLoadRect bc)
      (View.readAt (Elt F) (s0).view (Rect.unit (s := S10000) (k0_off5 k) S16.size (k0_off5_inb k)).toLoadRect xc)
      ((readAt_c2 d L bc (k0_off5 k) _ (k0_off5_eq k) ⟨25 * k.val + 1, by omega⟩ (by show _ = 16 * (25 * k.val + 1); omega) (k0_off5_inb k)).trans (hb ⟨25 * k.val + 1, by omega⟩))
      ((readAt_c0 d L xc (k0_off5 k) _ (k0_off5_eq k) ⟨25 * k.val + 1, by omega⟩ (by show _ = 16 * (25 * k.val + 1); omega) (k0_off5_inb k)).trans (hx ⟨25 * k.val + 1, by omega⟩))
      _ _ _ _) $$ Ha
    iintro Ha
    -- vector 2 of the trip
    sl_exec (disch := exact chk_ok _ (fun x => hbc _))
    iapply (wp_scat' m d L hpre (n0 + (25 * k.val + 2)) (n0 + (25 * k.val + 3)) (n0 + (25 * k.val + 2)) (by omega) (by omega) (by omega)
      (View.readAt (Elt F) (s2).view (Rect.unit (s := S10000) (k0_off6 k) S16.size (k0_off6_inb k)).toLoadRect bc)
      (View.readAt (Elt F) (s0).view (Rect.unit (s := S10000) (k0_off6 k) S16.size (k0_off6_inb k)).toLoadRect xc)
      ((readAt_c2 d L bc (k0_off6 k) _ (k0_off6_eq k) ⟨25 * k.val + 2, by omega⟩ (by show _ = 16 * (25 * k.val + 2); omega) (k0_off6_inb k)).trans (hb ⟨25 * k.val + 2, by omega⟩))
      ((readAt_c0 d L xc (k0_off6 k) _ (k0_off6_eq k) ⟨25 * k.val + 2, by omega⟩ (by show _ = 16 * (25 * k.val + 2); omega) (k0_off6_inb k)).trans (hx ⟨25 * k.val + 2, by omega⟩))
      _ _ _ _) $$ Ha
    iintro Ha
    -- vector 3 of the trip
    sl_exec (disch := exact chk_ok _ (fun x => hbc _))
    iapply (wp_scat' m d L hpre (n0 + (25 * k.val + 3)) (n0 + (25 * k.val + 4)) (n0 + (25 * k.val + 3)) (by omega) (by omega) (by omega)
      (View.readAt (Elt F) (s2).view (Rect.unit (s := S10000) (k0_off7 k) S16.size (k0_off7_inb k)).toLoadRect bc)
      (View.readAt (Elt F) (s0).view (Rect.unit (s := S10000) (k0_off7 k) S16.size (k0_off7_inb k)).toLoadRect xc)
      ((readAt_c2 d L bc (k0_off7 k) _ (k0_off7_eq k) ⟨25 * k.val + 3, by omega⟩ (by show _ = 16 * (25 * k.val + 3); omega) (k0_off7_inb k)).trans (hb ⟨25 * k.val + 3, by omega⟩))
      ((readAt_c0 d L xc (k0_off7 k) _ (k0_off7_eq k) ⟨25 * k.val + 3, by omega⟩ (by show _ = 16 * (25 * k.val + 3); omega) (k0_off7_inb k)).trans (hx ⟨25 * k.val + 3, by omega⟩))
      _ _ _ _) $$ Ha
    iintro Ha
    -- vector 4 of the trip
    sl_exec (disch := exact chk_ok _ (fun x => hbc _))
    iapply (wp_scat' m d L hpre (n0 + (25 * k.val + 4)) (n0 + (25 * k.val + 5)) (n0 + (25 * k.val + 4)) (by omega) (by omega) (by omega)
      (View.readAt (Elt F) (s2).view (Rect.unit (s := S10000) (k0_off8 k) S16.size (k0_off8_inb k)).toLoadRect bc)
      (View.readAt (Elt F) (s0).view (Rect.unit (s := S10000) (k0_off8 k) S16.size (k0_off8_inb k)).toLoadRect xc)
      ((readAt_c2 d L bc (k0_off8 k) _ (k0_off8_eq k) ⟨25 * k.val + 4, by omega⟩ (by show _ = 16 * (25 * k.val + 4); omega) (k0_off8_inb k)).trans (hb ⟨25 * k.val + 4, by omega⟩))
      ((readAt_c0 d L xc (k0_off8 k) _ (k0_off8_eq k) ⟨25 * k.val + 4, by omega⟩ (by show _ = 16 * (25 * k.val + 4); omega) (k0_off8_inb k)).trans (hx ⟨25 * k.val + 4, by omega⟩))
      _ _ _ _) $$ Ha
    iintro Ha
    -- vector 5 of the trip
    sl_exec (disch := exact chk_ok _ (fun x => hbc _))
    iapply (wp_scat' m d L hpre (n0 + (25 * k.val + 5)) (n0 + (25 * k.val + 6)) (n0 + (25 * k.val + 5)) (by omega) (by omega) (by omega)
      (View.readAt (Elt F) (s2).view (Rect.unit (s := S10000) (k0_off9 k) S16.size (k0_off9_inb k)).toLoadRect bc)
      (View.readAt (Elt F) (s0).view (Rect.unit (s := S10000) (k0_off9 k) S16.size (k0_off9_inb k)).toLoadRect xc)
      ((readAt_c2 d L bc (k0_off9 k) _ (k0_off9_eq k) ⟨25 * k.val + 5, by omega⟩ (by show _ = 16 * (25 * k.val + 5); omega) (k0_off9_inb k)).trans (hb ⟨25 * k.val + 5, by omega⟩))
      ((readAt_c0 d L xc (k0_off9 k) _ (k0_off9_eq k) ⟨25 * k.val + 5, by omega⟩ (by show _ = 16 * (25 * k.val + 5); omega) (k0_off9_inb k)).trans (hx ⟨25 * k.val + 5, by omega⟩))
      _ _ _ _) $$ Ha
    iintro Ha
    -- vector 6 of the trip
    sl_exec (disch := exact chk_ok _ (fun x => hbc _))
    iapply (wp_scat' m d L hpre (n0 + (25 * k.val + 6)) (n0 + (25 * k.val + 7)) (n0 + (25 * k.val + 6)) (by omega) (by omega) (by omega)
      (View.readAt (Elt F) (s2).view (Rect.unit (s := S10000) (k0_off10 k) S16.size (k0_off10_inb k)).toLoadRect bc)
      (View.readAt (Elt F) (s0).view (Rect.unit (s := S10000) (k0_off10 k) S16.size (k0_off10_inb k)).toLoadRect xc)
      ((readAt_c2 d L bc (k0_off10 k) _ (k0_off10_eq k) ⟨25 * k.val + 6, by omega⟩ (by show _ = 16 * (25 * k.val + 6); omega) (k0_off10_inb k)).trans (hb ⟨25 * k.val + 6, by omega⟩))
      ((readAt_c0 d L xc (k0_off10 k) _ (k0_off10_eq k) ⟨25 * k.val + 6, by omega⟩ (by show _ = 16 * (25 * k.val + 6); omega) (k0_off10_inb k)).trans (hx ⟨25 * k.val + 6, by omega⟩))
      _ _ _ _) $$ Ha
    iintro Ha
    -- vector 7 of the trip
    sl_exec (disch := exact chk_ok _ (fun x => hbc _))
    iapply (wp_scat' m d L hpre (n0 + (25 * k.val + 7)) (n0 + (25 * k.val + 8)) (n0 + (25 * k.val + 7)) (by omega) (by omega) (by omega)
      (View.readAt (Elt F) (s2).view (Rect.unit (s := S10000) (k0_off11 k) S16.size (k0_off11_inb k)).toLoadRect bc)
      (View.readAt (Elt F) (s0).view (Rect.unit (s := S10000) (k0_off11 k) S16.size (k0_off11_inb k)).toLoadRect xc)
      ((readAt_c2 d L bc (k0_off11 k) _ (k0_off11_eq k) ⟨25 * k.val + 7, by omega⟩ (by show _ = 16 * (25 * k.val + 7); omega) (k0_off11_inb k)).trans (hb ⟨25 * k.val + 7, by omega⟩))
      ((readAt_c0 d L xc (k0_off11 k) _ (k0_off11_eq k) ⟨25 * k.val + 7, by omega⟩ (by show _ = 16 * (25 * k.val + 7); omega) (k0_off11_inb k)).trans (hx ⟨25 * k.val + 7, by omega⟩))
      _ _ _ _) $$ Ha
    iintro Ha
    -- vector 8 of the trip
    sl_exec (disch := exact chk_ok _ (fun x => hbc _))
    iapply (wp_scat' m d L hpre (n0 + (25 * k.val + 8)) (n0 + (25 * k.val + 9)) (n0 + (25 * k.val + 8)) (by omega) (by omega) (by omega)
      (View.readAt (Elt F) (s2).view (Rect.unit (s := S10000) (k0_off12 k) S16.size (k0_off12_inb k)).toLoadRect bc)
      (View.readAt (Elt F) (s0).view (Rect.unit (s := S10000) (k0_off12 k) S16.size (k0_off12_inb k)).toLoadRect xc)
      ((readAt_c2 d L bc (k0_off12 k) _ (k0_off12_eq k) ⟨25 * k.val + 8, by omega⟩ (by show _ = 16 * (25 * k.val + 8); omega) (k0_off12_inb k)).trans (hb ⟨25 * k.val + 8, by omega⟩))
      ((readAt_c0 d L xc (k0_off12 k) _ (k0_off12_eq k) ⟨25 * k.val + 8, by omega⟩ (by show _ = 16 * (25 * k.val + 8); omega) (k0_off12_inb k)).trans (hx ⟨25 * k.val + 8, by omega⟩))
      _ _ _ _) $$ Ha
    iintro Ha
    -- vector 9 of the trip
    sl_exec (disch := exact chk_ok _ (fun x => hbc _))
    iapply (wp_scat' m d L hpre (n0 + (25 * k.val + 9)) (n0 + (25 * k.val + 10)) (n0 + (25 * k.val + 9)) (by omega) (by omega) (by omega)
      (View.readAt (Elt F) (s2).view (Rect.unit (s := S10000) (k0_off13 k) S16.size (k0_off13_inb k)).toLoadRect bc)
      (View.readAt (Elt F) (s0).view (Rect.unit (s := S10000) (k0_off13 k) S16.size (k0_off13_inb k)).toLoadRect xc)
      ((readAt_c2 d L bc (k0_off13 k) _ (k0_off13_eq k) ⟨25 * k.val + 9, by omega⟩ (by show _ = 16 * (25 * k.val + 9); omega) (k0_off13_inb k)).trans (hb ⟨25 * k.val + 9, by omega⟩))
      ((readAt_c0 d L xc (k0_off13 k) _ (k0_off13_eq k) ⟨25 * k.val + 9, by omega⟩ (by show _ = 16 * (25 * k.val + 9); omega) (k0_off13_inb k)).trans (hx ⟨25 * k.val + 9, by omega⟩))
      _ _ _ _) $$ Ha
    iintro Ha
    -- vector 10 of the trip
    sl_exec (disch := exact chk_ok _ (fun x => hbc _))
    iapply (wp_scat' m d L hpre (n0 + (25 * k.val + 10)) (n0 + (25 * k.val + 11)) (n0 + (25 * k.val + 10)) (by omega) (by omega) (by omega)
      (View.readAt (Elt F) (s2).view (Rect.unit (s := S10000) (k0_off14 k) S16.size (k0_off14_inb k)).toLoadRect bc)
      (View.readAt (Elt F) (s0).view (Rect.unit (s := S10000) (k0_off14 k) S16.size (k0_off14_inb k)).toLoadRect xc)
      ((readAt_c2 d L bc (k0_off14 k) _ (k0_off14_eq k) ⟨25 * k.val + 10, by omega⟩ (by show _ = 16 * (25 * k.val + 10); omega) (k0_off14_inb k)).trans (hb ⟨25 * k.val + 10, by omega⟩))
      ((readAt_c0 d L xc (k0_off14 k) _ (k0_off14_eq k) ⟨25 * k.val + 10, by omega⟩ (by show _ = 16 * (25 * k.val + 10); omega) (k0_off14_inb k)).trans (hx ⟨25 * k.val + 10, by omega⟩))
      _ _ _ _) $$ Ha
    iintro Ha
    -- vector 11 of the trip
    sl_exec (disch := exact chk_ok _ (fun x => hbc _))
    iapply (wp_scat' m d L hpre (n0 + (25 * k.val + 11)) (n0 + (25 * k.val + 12)) (n0 + (25 * k.val + 11)) (by omega) (by omega) (by omega)
      (View.readAt (Elt F) (s2).view (Rect.unit (s := S10000) (k0_off15 k) S16.size (k0_off15_inb k)).toLoadRect bc)
      (View.readAt (Elt F) (s0).view (Rect.unit (s := S10000) (k0_off15 k) S16.size (k0_off15_inb k)).toLoadRect xc)
      ((readAt_c2 d L bc (k0_off15 k) _ (k0_off15_eq k) ⟨25 * k.val + 11, by omega⟩ (by show _ = 16 * (25 * k.val + 11); omega) (k0_off15_inb k)).trans (hb ⟨25 * k.val + 11, by omega⟩))
      ((readAt_c0 d L xc (k0_off15 k) _ (k0_off15_eq k) ⟨25 * k.val + 11, by omega⟩ (by show _ = 16 * (25 * k.val + 11); omega) (k0_off15_inb k)).trans (hx ⟨25 * k.val + 11, by omega⟩))
      _ _ _ _) $$ Ha
    iintro Ha
    -- vector 12 of the trip
    sl_exec (disch := exact chk_ok _ (fun x => hbc _))
    iapply (wp_scat' m d L hpre (n0 + (25 * k.val + 12)) (n0 + (25 * k.val + 13)) (n0 + (25 * k.val + 12)) (by omega) (by omega) (by omega)
      (View.readAt (Elt F) (s2).view (Rect.unit (s := S10000) (k0_off16 k) S16.size (k0_off16_inb k)).toLoadRect bc)
      (View.readAt (Elt F) (s0).view (Rect.unit (s := S10000) (k0_off16 k) S16.size (k0_off16_inb k)).toLoadRect xc)
      ((readAt_c2 d L bc (k0_off16 k) _ (k0_off16_eq k) ⟨25 * k.val + 12, by omega⟩ (by show _ = 16 * (25 * k.val + 12); omega) (k0_off16_inb k)).trans (hb ⟨25 * k.val + 12, by omega⟩))
      ((readAt_c0 d L xc (k0_off16 k) _ (k0_off16_eq k) ⟨25 * k.val + 12, by omega⟩ (by show _ = 16 * (25 * k.val + 12); omega) (k0_off16_inb k)).trans (hx ⟨25 * k.val + 12, by omega⟩))
      _ _ _ _) $$ Ha
    iintro Ha
    -- vector 13 of the trip
    sl_exec (disch := exact chk_ok _ (fun x => hbc _))
    iapply (wp_scat' m d L hpre (n0 + (25 * k.val + 13)) (n0 + (25 * k.val + 14)) (n0 + (25 * k.val + 13)) (by omega) (by omega) (by omega)
      (View.readAt (Elt F) (s2).view (Rect.unit (s := S10000) (k0_off17 k) S16.size (k0_off17_inb k)).toLoadRect bc)
      (View.readAt (Elt F) (s0).view (Rect.unit (s := S10000) (k0_off17 k) S16.size (k0_off17_inb k)).toLoadRect xc)
      ((readAt_c2 d L bc (k0_off17 k) _ (k0_off17_eq k) ⟨25 * k.val + 13, by omega⟩ (by show _ = 16 * (25 * k.val + 13); omega) (k0_off17_inb k)).trans (hb ⟨25 * k.val + 13, by omega⟩))
      ((readAt_c0 d L xc (k0_off17 k) _ (k0_off17_eq k) ⟨25 * k.val + 13, by omega⟩ (by show _ = 16 * (25 * k.val + 13); omega) (k0_off17_inb k)).trans (hx ⟨25 * k.val + 13, by omega⟩))
      _ _ _ _) $$ Ha
    iintro Ha
    -- vector 14 of the trip
    sl_exec (disch := exact chk_ok _ (fun x => hbc _))
    iapply (wp_scat' m d L hpre (n0 + (25 * k.val + 14)) (n0 + (25 * k.val + 15)) (n0 + (25 * k.val + 14)) (by omega) (by omega) (by omega)
      (View.readAt (Elt F) (s2).view (Rect.unit (s := S10000) (k0_off18 k) S16.size (k0_off18_inb k)).toLoadRect bc)
      (View.readAt (Elt F) (s0).view (Rect.unit (s := S10000) (k0_off18 k) S16.size (k0_off18_inb k)).toLoadRect xc)
      ((readAt_c2 d L bc (k0_off18 k) _ (k0_off18_eq k) ⟨25 * k.val + 14, by omega⟩ (by show _ = 16 * (25 * k.val + 14); omega) (k0_off18_inb k)).trans (hb ⟨25 * k.val + 14, by omega⟩))
      ((readAt_c0 d L xc (k0_off18 k) _ (k0_off18_eq k) ⟨25 * k.val + 14, by omega⟩ (by show _ = 16 * (25 * k.val + 14); omega) (k0_off18_inb k)).trans (hx ⟨25 * k.val + 14, by omega⟩))
      _ _ _ _) $$ Ha
    iintro Ha
    -- vector 15 of the trip
    sl_exec (disch := exact chk_ok _ (fun x => hbc _))
    iapply (wp_scat' m d L hpre (n0 + (25 * k.val + 15)) (n0 + (25 * k.val + 16)) (n0 + (25 * k.val + 15)) (by omega) (by omega) (by omega)
      (View.readAt (Elt F) (s2).view (Rect.unit (s := S10000) (k0_off19 k) S16.size (k0_off19_inb k)).toLoadRect bc)
      (View.readAt (Elt F) (s0).view (Rect.unit (s := S10000) (k0_off19 k) S16.size (k0_off19_inb k)).toLoadRect xc)
      ((readAt_c2 d L bc (k0_off19 k) _ (k0_off19_eq k) ⟨25 * k.val + 15, by omega⟩ (by show _ = 16 * (25 * k.val + 15); omega) (k0_off19_inb k)).trans (hb ⟨25 * k.val + 15, by omega⟩))
      ((readAt_c0 d L xc (k0_off19 k) _ (k0_off19_eq k) ⟨25 * k.val + 15, by omega⟩ (by show _ = 16 * (25 * k.val + 15); omega) (k0_off19_inb k)).trans (hx ⟨25 * k.val + 15, by omega⟩))
      _ _ _ _) $$ Ha
    iintro Ha
    -- vector 16 of the trip
    sl_exec (disch := exact chk_ok _ (fun x => hbc _))
    iapply (wp_scat' m d L hpre (n0 + (25 * k.val + 16)) (n0 + (25 * k.val + 17)) (n0 + (25 * k.val + 16)) (by omega) (by omega) (by omega)
      (View.readAt (Elt F) (s2).view (Rect.unit (s := S10000) (k0_off20 k) S16.size (k0_off20_inb k)).toLoadRect bc)
      (View.readAt (Elt F) (s0).view (Rect.unit (s := S10000) (k0_off20 k) S16.size (k0_off20_inb k)).toLoadRect xc)
      ((readAt_c2 d L bc (k0_off20 k) _ (k0_off20_eq k) ⟨25 * k.val + 16, by omega⟩ (by show _ = 16 * (25 * k.val + 16); omega) (k0_off20_inb k)).trans (hb ⟨25 * k.val + 16, by omega⟩))
      ((readAt_c0 d L xc (k0_off20 k) _ (k0_off20_eq k) ⟨25 * k.val + 16, by omega⟩ (by show _ = 16 * (25 * k.val + 16); omega) (k0_off20_inb k)).trans (hx ⟨25 * k.val + 16, by omega⟩))
      _ _ _ _) $$ Ha
    iintro Ha
    -- vector 17 of the trip
    sl_exec (disch := exact chk_ok _ (fun x => hbc _))
    iapply (wp_scat' m d L hpre (n0 + (25 * k.val + 17)) (n0 + (25 * k.val + 18)) (n0 + (25 * k.val + 17)) (by omega) (by omega) (by omega)
      (View.readAt (Elt F) (s2).view (Rect.unit (s := S10000) (k0_off21 k) S16.size (k0_off21_inb k)).toLoadRect bc)
      (View.readAt (Elt F) (s0).view (Rect.unit (s := S10000) (k0_off21 k) S16.size (k0_off21_inb k)).toLoadRect xc)
      ((readAt_c2 d L bc (k0_off21 k) _ (k0_off21_eq k) ⟨25 * k.val + 17, by omega⟩ (by show _ = 16 * (25 * k.val + 17); omega) (k0_off21_inb k)).trans (hb ⟨25 * k.val + 17, by omega⟩))
      ((readAt_c0 d L xc (k0_off21 k) _ (k0_off21_eq k) ⟨25 * k.val + 17, by omega⟩ (by show _ = 16 * (25 * k.val + 17); omega) (k0_off21_inb k)).trans (hx ⟨25 * k.val + 17, by omega⟩))
      _ _ _ _) $$ Ha
    iintro Ha
    -- vector 18 of the trip
    sl_exec (disch := exact chk_ok _ (fun x => hbc _))
    iapply (wp_scat' m d L hpre (n0 + (25 * k.val + 18)) (n0 + (25 * k.val + 19)) (n0 + (25 * k.val + 18)) (by omega) (by omega) (by omega)
      (View.readAt (Elt F) (s2).view (Rect.unit (s := S10000) (k0_off22 k) S16.size (k0_off22_inb k)).toLoadRect bc)
      (View.readAt (Elt F) (s0).view (Rect.unit (s := S10000) (k0_off22 k) S16.size (k0_off22_inb k)).toLoadRect xc)
      ((readAt_c2 d L bc (k0_off22 k) _ (k0_off22_eq k) ⟨25 * k.val + 18, by omega⟩ (by show _ = 16 * (25 * k.val + 18); omega) (k0_off22_inb k)).trans (hb ⟨25 * k.val + 18, by omega⟩))
      ((readAt_c0 d L xc (k0_off22 k) _ (k0_off22_eq k) ⟨25 * k.val + 18, by omega⟩ (by show _ = 16 * (25 * k.val + 18); omega) (k0_off22_inb k)).trans (hx ⟨25 * k.val + 18, by omega⟩))
      _ _ _ _) $$ Ha
    iintro Ha
    -- vector 19 of the trip
    sl_exec (disch := exact chk_ok _ (fun x => hbc _))
    iapply (wp_scat' m d L hpre (n0 + (25 * k.val + 19)) (n0 + (25 * k.val + 20)) (n0 + (25 * k.val + 19)) (by omega) (by omega) (by omega)
      (View.readAt (Elt F) (s2).view (Rect.unit (s := S10000) (k0_off23 k) S16.size (k0_off23_inb k)).toLoadRect bc)
      (View.readAt (Elt F) (s0).view (Rect.unit (s := S10000) (k0_off23 k) S16.size (k0_off23_inb k)).toLoadRect xc)
      ((readAt_c2 d L bc (k0_off23 k) _ (k0_off23_eq k) ⟨25 * k.val + 19, by omega⟩ (by show _ = 16 * (25 * k.val + 19); omega) (k0_off23_inb k)).trans (hb ⟨25 * k.val + 19, by omega⟩))
      ((readAt_c0 d L xc (k0_off23 k) _ (k0_off23_eq k) ⟨25 * k.val + 19, by omega⟩ (by show _ = 16 * (25 * k.val + 19); omega) (k0_off23_inb k)).trans (hx ⟨25 * k.val + 19, by omega⟩))
      _ _ _ _) $$ Ha
    iintro Ha
    -- vector 20 of the trip
    sl_exec (disch := exact chk_ok _ (fun x => hbc _))
    iapply (wp_scat' m d L hpre (n0 + (25 * k.val + 20)) (n0 + (25 * k.val + 21)) (n0 + (25 * k.val + 20)) (by omega) (by omega) (by omega)
      (View.readAt (Elt F) (s2).view (Rect.unit (s := S10000) (k0_off24 k) S16.size (k0_off24_inb k)).toLoadRect bc)
      (View.readAt (Elt F) (s0).view (Rect.unit (s := S10000) (k0_off24 k) S16.size (k0_off24_inb k)).toLoadRect xc)
      ((readAt_c2 d L bc (k0_off24 k) _ (k0_off24_eq k) ⟨25 * k.val + 20, by omega⟩ (by show _ = 16 * (25 * k.val + 20); omega) (k0_off24_inb k)).trans (hb ⟨25 * k.val + 20, by omega⟩))
      ((readAt_c0 d L xc (k0_off24 k) _ (k0_off24_eq k) ⟨25 * k.val + 20, by omega⟩ (by show _ = 16 * (25 * k.val + 20); omega) (k0_off24_inb k)).trans (hx ⟨25 * k.val + 20, by omega⟩))
      _ _ _ _) $$ Ha
    iintro Ha
    -- vector 21 of the trip
    sl_exec (disch := exact chk_ok _ (fun x => hbc _))
    iapply (wp_scat' m d L hpre (n0 + (25 * k.val + 21)) (n0 + (25 * k.val + 22)) (n0 + (25 * k.val + 21)) (by omega) (by omega) (by omega)
      (View.readAt (Elt F) (s2).view (Rect.unit (s := S10000) (k0_off25 k) S16.size (k0_off25_inb k)).toLoadRect bc)
      (View.readAt (Elt F) (s0).view (Rect.unit (s := S10000) (k0_off25 k) S16.size (k0_off25_inb k)).toLoadRect xc)
      ((readAt_c2 d L bc (k0_off25 k) _ (k0_off25_eq k) ⟨25 * k.val + 21, by omega⟩ (by show _ = 16 * (25 * k.val + 21); omega) (k0_off25_inb k)).trans (hb ⟨25 * k.val + 21, by omega⟩))
      ((readAt_c0 d L xc (k0_off25 k) _ (k0_off25_eq k) ⟨25 * k.val + 21, by omega⟩ (by show _ = 16 * (25 * k.val + 21); omega) (k0_off25_inb k)).trans (hx ⟨25 * k.val + 21, by omega⟩))
      _ _ _ _) $$ Ha
    iintro Ha
    -- vector 22 of the trip
    sl_exec (disch := exact chk_ok _ (fun x => hbc _))
    iapply (wp_scat' m d L hpre (n0 + (25 * k.val + 22)) (n0 + (25 * k.val + 23)) (n0 + (25 * k.val + 22)) (by omega) (by omega) (by omega)
      (View.readAt (Elt F) (s2).view (Rect.unit (s := S10000) (k0_off26 k) S16.size (k0_off26_inb k)).toLoadRect bc)
      (View.readAt (Elt F) (s0).view (Rect.unit (s := S10000) (k0_off26 k) S16.size (k0_off26_inb k)).toLoadRect xc)
      ((readAt_c2 d L bc (k0_off26 k) _ (k0_off26_eq k) ⟨25 * k.val + 22, by omega⟩ (by show _ = 16 * (25 * k.val + 22); omega) (k0_off26_inb k)).trans (hb ⟨25 * k.val + 22, by omega⟩))
      ((readAt_c0 d L xc (k0_off26 k) _ (k0_off26_eq k) ⟨25 * k.val + 22, by omega⟩ (by show _ = 16 * (25 * k.val + 22); omega) (k0_off26_inb k)).trans (hx ⟨25 * k.val + 22, by omega⟩))
      _ _ _ _) $$ Ha
    iintro Ha
    -- vector 23 of the trip
    sl_exec (disch := exact chk_ok _ (fun x => hbc _))
    iapply (wp_scat' m d L hpre (n0 + (25 * k.val + 23)) (n0 + (25 * k.val + 24)) (n0 + (25 * k.val + 23)) (by omega) (by omega) (by omega)
      (View.readAt (Elt F) (s2).view (Rect.unit (s := S10000) (k0_off27 k) S16.size (k0_off27_inb k)).toLoadRect bc)
      (View.readAt (Elt F) (s0).view (Rect.unit (s := S10000) (k0_off27 k) S16.size (k0_off27_inb k)).toLoadRect xc)
      ((readAt_c2 d L bc (k0_off27 k) _ (k0_off27_eq k) ⟨25 * k.val + 23, by omega⟩ (by show _ = 16 * (25 * k.val + 23); omega) (k0_off27_inb k)).trans (hb ⟨25 * k.val + 23, by omega⟩))
      ((readAt_c0 d L xc (k0_off27 k) _ (k0_off27_eq k) ⟨25 * k.val + 23, by omega⟩ (by show _ = 16 * (25 * k.val + 23); omega) (k0_off27_inb k)).trans (hx ⟨25 * k.val + 23, by omega⟩))
      _ _ _ _) $$ Ha
    iintro Ha
    -- vector 24 of the trip
    sl_exec (disch := exact chk_ok _ (fun x => hbc _))
    iapply (wp_scat' m d L hpre (n0 + (25 * k.val + 24)) (n0 + 25 * (k.val + 1)) (n0 + (25 * k.val + 24)) (by omega) (by omega) (by omega)
      (View.readAt (Elt F) (s2).view (Rect.unit (s := S10000) (k0_off28 k) S16.size (k0_off28_inb k)).toLoadRect bc)
      (View.readAt (Elt F) (s0).view (Rect.unit (s := S10000) (k0_off28 k) S16.size (k0_off28_inb k)).toLoadRect xc)
      ((readAt_c2 d L bc (k0_off28 k) _ (k0_off28_eq k) ⟨25 * k.val + 24, by omega⟩ (by show _ = 16 * (25 * k.val + 24); omega) (k0_off28_inb k)).trans (hb ⟨25 * k.val + 24, by omega⟩))
      ((readAt_c0 d L xc (k0_off28 k) _ (k0_off28_eq k) ⟨25 * k.val + 24, by omega⟩ (by show _ = 16 * (25 * k.val + 24); omega) (k0_off28_inb k)).trans (hx ⟨25 * k.val + 24, by omega⟩))
      _ _ _ _) $$ Ha
    iintro Ha
    try sl_exec
    sl_step
    isplitl [Hx]; · iexact Hx
    isplitl [Hb]; · iexact Hb
    iexact Ha
  · unfold ainv0
    isplitl [Hx]; · iexact Hx
    isplitl [Hb]; · iexact Hb
    iexact Ha
  iintro %acc HI
  unfold ainv0
  rw [t3_trips']
  icases HI with ⟨Hx, Hb, Ha⟩
  sl_respell []
  iapply Hk
  isplitl [Hx]; · iexact Hx
  isplitl [Hb]; · iexact Hb
  iexact Ha

end Cert.Proof.KB

end
-- ==== Proof.Bits.TileAdd1.lean ====
/-
  The loop that adds one chunk from the second pair of chunk buffers into the accumulator: 25 trips of 25 vectors. Trip k,
  vector u: sixteen rows and their segment numbers are read at position 400 k + 16 u of the two buffers, that is vector
  25 k + u of the chunk, and added into the accumulator at sixteen times the segment number plus the lane; the
  accumulator goes from its state after n0 + 25 k + u vectors to its state after one more.
-/
import proofs.«203046_g35227321762133_cont_8to1_b_835_12_alg».proof.Proof.Bits.TileScat

noncomputable section

namespace Cert.Proof.KB

open Cert.Kernel Cert.Kernel.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [hK : Cert.Kernel.Facts]
variable (m : (ℓ : Loc nD τ sig) → Buf (Elt F) ℓ) (d : Dev nD) (L : grid0.Coords)

/-- The loop makes 25 trips. -/
theorem t4_trips : k0_t4_loop.trips = 25 := by decide +kernel
theorem t4_trips' : Scf.trips k0_t4_loop.lb k0_t4_loop.ub k0_t4_loop.st = 25 := t4_trips

/-- Before trip k of a chunk's loop the two chunk buffers are as they were and the accumulator has had 25 k more vectors added. -/
def ainv1 (xc : Buf (Elt F) ((thr d L).loc cc0_scratch1)) (bc : Buf (Elt F) ((thr d L).loc cc0_scratch3)) (n0 : Nat) (k : Nat) (_ : PUnit) : sProp 𝕄 :=
  iprop(((s1).view.loc (thr d L) ↦{fullShare} xc) ∗ ((s3).view.loc (thr d L) ↦{fullShare} bc)
    ∗ ((s4).view.loc (thr d L) ↦{fullShare} (accAt (F := F) (xf m d) (bt m d) (wOf L) (n0 + 25 * k) : Buf (Elt F) ((thr d L).loc cc0_scratch4))))

/-- The chunk's loop: from the accumulator after n0 vectors to the accumulator after n0 + 625, the chunk buffers unchanged. -/
theorem add_chunk1_run (hpre : PreOK m) (xc : Buf (Elt F) ((thr d L).loc cc0_scratch1)) (bc : Buf (Elt F) ((thr d L).loc cc0_scratch3))
    (n0 : Nat) (hn0 : n0 + 625 ≤ 12500)
    (hx : ∀ n : Fin 625, vecOf (F := F) (e := .f32) xc n = xVec (F := F) (xf m d) (wOf L) ⟨n0 + n.val, by have := n.isLt; omega⟩)
    (hb : ∀ n : Fin 625, vecOf (F := F) (e := .i32) bc n = bVec (bt m d) (wOf L) ⟨n0 + n.val, by have := n.isLt; omega⟩)
    {α : Type} (k : Unit → Prog (TpuEff nD τ sig (Elt F) Λ₀ (thr d L).2) α) (Φ : α → sProp 𝕄) :
    iprop(((s1).view.loc (thr d L) ↦{fullShare} xc) ∗ ((s3).view.loc (thr d L) ↦{fullShare} bc)
        ∗ ((s4).view.loc (thr d L) ↦{fullShare} (accAt (F := F) (xf m d) (bt m d) (wOf L) n0 : Buf (Elt F) ((thr d L).loc cc0_scratch4)))
        ∗ ((((s1).view.loc (thr d L) ↦{fullShare} xc) ∗ ((s3).view.loc (thr d L) ↦{fullShare} bc)
            ∗ ((s4).view.loc (thr d L) ↦{fullShare} (accAt (F := F) (xf m d) (bt m d) (wOf L) (n0 + 625) : Buf (Elt F) ((thr d L).loc cc0_scratch4))))
            -∗ wp frame (wpE (defs₀ (F := F)) 𝒱₀ (thr d L) none) Set.univ (k ⟨⟩) Φ))
      ⊢ wp frame (wpE (defs₀ (F := F)) 𝒱₀ (thr d L) none) Set.univ
          (Scf.Loop.for k0_t4_loop k0_t4_ok ⟨⟩ (k0_t4_body L xV (Memref.isWhole_whole _) bV (Memref.isWhole_whole _) pV (Memref.isWhole_whole _)
            s0 (Memref.isWhole_whole _) s1 (Memref.isWhole_whole _) s2 (Memref.isWhole_whole _) s3 (Memref.isWhole_whole _) s4 (Memref.isWhole_whole _)
            cc0_scratch5 cc0_scratch6 cc0_scoped0 lanes) >>= k) Φ := by
  iintro ⟨Hx, Hb, Ha, Hk⟩
  sl_for (ainv1 m d L xc bc n0) $$ [Hx Hb Ha]
  case region =>
    intro k _
    have hk : k.val < 25 := Nat.lt_of_lt_of_le k.isLt k0_t4_abs.2.1
    have hbc := chunk_le m d L hpre bc n0 hn0 hb
    unfold ainv1
    iintro ⟨Hx, Hb, Ha⟩
    -- vector 0 of the trip
    sl_exec (disch := exact chk_ok _ (fun x => hbc _))
    iapply (wp_scat' m d L hpre (n0 + 25 * k.val) (n0 + (25 * k.val + 1)) (n0 + (25 * k.val + 0)) (by omega) (by omega) (by omega)
      (View.readAt (Elt F) (s3).view (Rect.unit (s := S10000) (k0_off30 k) S16.size (k0_off30_inb k)).toLoadRect bc)
      (View.readAt (Elt F) (s1).view (Rect.unit (s := S10000) (k0_off30 k) S16.size (k0_off30_inb k)).toLoadRect xc)
      ((readAt_c3 d L bc (k0_off30 k) _ (k0_off30_eq k) ⟨25 * k.val + 0, by omega⟩ (by show _ = 16 * (25 * k.val + 0); omega) (k0_off30_inb k)).trans (hb ⟨25 * k.val + 0, by omega⟩))
      ((readAt_c1 d L xc (k0_off30 k) _ (k0_off30_eq k) ⟨25 * k.val + 0, by omega⟩ (by show _ = 16 * (25 * k.val + 0); omega) (k0_off30_inb k)).trans (hx ⟨25 * k.val + 0, by omega⟩))
      _ _ _ _) $$ Ha
    iintro Ha
    -- vector 1 of the trip
    sl_exec (disch := exact chk_ok _ (fun x => hbc _))
    iapply (wp_scat' m d L hpre (n0 + (25 * k.val + 1)) (n0 + (25 * k.val + 2)) (n0 + (25 * k.val + 1)) (by omega) (by omega) (by omega)
      (View.readAt (Elt F) (s3).view (Rect.unit (s := S10000) (k0_off31 k) S16.size (k0_off31_inb k)).toLoadRect bc)
      (View.readAt (Elt F) (s1).view (Rect.unit (s := S10000) (k0_off31 k) S16.size (k0_off31_inb k)).toLoadRect xc)
      ((readAt_c3 d L bc (k0_off31 k) _ (k0_off31_eq k) ⟨25 * k.val + 1, by omega⟩ (by show _ = 16 * (25 * k.val + 1); omega) (k0_off31_inb k)).trans (hb ⟨25 * k.val + 1, by omega⟩))
      ((readAt_c1 d L xc (k0_off31 k) _ (k0_off31_eq k) ⟨25 * k.val + 1, by omega⟩ (by show _ = 16 * (25 * k.val + 1); omega) (k0_off31_inb k)).trans (hx ⟨25 * k.val + 1, by omega⟩))
      _ _ _ _) $$ Ha
    iintro Ha
    -- vector 2 of the trip
    sl_exec (disch := exact chk_ok _ (fun x => hbc _))
    iapply (wp_scat' m d L hpre (n0 + (25 * k.val + 2)) (n0 + (25 * k.val + 3)) (n0 + (25 * k.val + 2)) (by omega) (by omega) (by omega)
      (View.readAt (Elt F) (s3).view (Rect.unit (s := S10000) (k0_off32 k) S16.size (k0_off32_inb k)).toLoadRect bc)
      (View.readAt (Elt F) (s1).view (Rect.unit (s := S10000) (k0_off32 k) S16.size (k0_off32_inb k)).toLoadRect xc)
      ((readAt_c3 d L bc (k0_off32 k) _ (k0_off32_eq k) ⟨25 * k.val + 2, by omega⟩ (by show _ = 16 * (25 * k.val + 2); omega) (k0_off32_inb k)).trans (hb ⟨25 * k.val + 2, by omega⟩))
      ((readAt_c1 d L xc (k0_off32 k) _ (k0_off32_eq k) ⟨25 * k.val + 2, by omega⟩ (by show _ = 16 * (25 * k.val + 2); omega) (k0_off32_inb k)).trans (hx ⟨25 * k.val + 2, by omega⟩))
      _ _ _ _) $$ Ha
    iintro Ha
    -- vector 3 of the trip
    sl_exec (disch := exact chk_ok _ (fun x => hbc _))
    iapply (wp_scat' m d L hpre (n0 + (25 * k.val + 3)) (n0 + (25 * k.val + 4)) (n0 + (25 * k.val + 3)) (by omega) (by omega) (by omega)
      (View.readAt (Elt F) (s3).view (Rect.unit (s := S10000) (k0_off33 k) S16.size (k0_off33_inb k)).toLoadRect bc)
      (View.readAt (Elt F) (s1).view (Rect.unit (s := S10000) (k0_off33 k) S16.size (k0_off33_inb k)).toLoadRect xc)
      ((readAt_c3 d L bc (k0_off33 k) _ (k0_off33_eq k) ⟨25 * k.val + 3, by omega⟩ (by show _ = 16 * (25 * k.val + 3); omega) (k0_off33_inb k)).trans (hb ⟨25 * k.val + 3, by omega⟩))
      ((readAt_c1 d L xc (k0_off33 k) _ (k0_off33_eq k) ⟨25 * k.val + 3, by omega⟩ (by show _ = 16 * (25 * k.val + 3); omega) (k0_off33_inb k)).trans (hx ⟨25 * k.val + 3, by omega⟩))
      _ _ _ _) $$ Ha
    iintro Ha
    -- vector 4 of the trip
    sl_exec (disch := exact chk_ok _ (fun x => hbc _))
    iapply (wp_scat' m d L hpre (n0 + (25 * k.val + 4)) (n0 + (25 * k.val + 5)) (n0 + (25 * k.val + 4)) (by omega) (by omega) (by omega)
      (View.readAt (Elt F) (s3).view (Rect.unit (s := S10000) (k0_off34 k) S16.size (k0_off34_inb k)).toLoadRect bc)
      (View.readAt (Elt F) (s1).view (Rect.unit (s := S10000) (k0_off34 k) S16.size (k0_off34_inb k)).toLoadRect xc)
      ((readAt_c3 d L bc (k0_off34 k) _ (k0_off34_eq k) ⟨25 * k.val + 4, by omega⟩ (by show _ = 16 * (25 * k.val + 4); omega) (k0_off34_inb k)).trans (hb ⟨25 * k.val + 4, by omega⟩))
      ((readAt_c1 d L xc (k0_off34 k) _ (k0_off34_eq k) ⟨25 * k.val + 4, by omega⟩ (by show _ = 16 * (25 * k.val + 4); omega) (k0_off34_inb k)).trans (hx ⟨25 * k.val + 4, by omega⟩))
      _ _ _ _) $$ Ha
    iintro Ha
    -- vector 5 of the trip
    sl_exec (disch := exact chk_ok _ (fun x => hbc _))
    iapply (wp_scat' m d L hpre (n0 + (25 * k.val + 5)) (n0 + (25 * k.val + 6)) (n0 + (25 * k.val + 5)) (by omega) (by omega) (by omega)
      (View.readAt (Elt F) (s3).view (Rect.unit (s := S10000) (k0_off35 k) S16.size (k0_off35_inb k)).toLoadRect bc)
      (View.readAt (Elt F) (s1).view (Rect.unit (s := S10000) (k0_off35 k) S16.size (k0_off35_inb k)).toLoadRect xc)
      ((readAt_c3 d L bc (k0_off35 k) _ (k0_off35_eq k) ⟨25 * k.val + 5, by omega⟩ (by show _ = 16 * (25 * k.val + 5); omega) (k0_off35_inb k)).trans (hb ⟨25 * k.val + 5, by omega⟩))
      ((readAt_c1 d L xc (k0_off35 k) _ (k0_off35_eq k) ⟨25 * k.val + 5, by omega⟩ (by show _ = 16 * (25 * k.val + 5); omega) (k0_off35_inb k)).trans (hx ⟨25 * k.val + 5, by omega⟩))
      _ _ _ _) $$ Ha
    iintro Ha
    -- vector 6 of the trip
    sl_exec (disch := exact chk_ok _ (fun x => hbc _))
    iapply (wp_scat' m d L hpre (n0 + (25 * k.val + 6)) (n0 + (25 * k.val + 7)) (n0 + (25 * k.val + 6)) (by omega) (by omega) (by omega)
      (View.readAt (Elt F) (s3).view (Rect.unit (s := S10000) (k0_off36 k) S16.size (k0_off36_inb k)).toLoadRect bc)
      (View.readAt (Elt F) (s1).view (Rect.unit (s := S10000) (k0_off36 k) S16.size (k0_off36_inb k)).toLoadRect xc)
      ((readAt_c3 d L bc (k0_off36 k) _ (k0_off36_eq k) ⟨25 * k.val + 6, by omega⟩ (by show _ = 16 * (25 * k.val + 6); omega) (k0_off36_inb k)).trans (hb ⟨25 * k.val + 6, by omega⟩))
      ((readAt_c1 d L xc (k0_off36 k) _ (k0_off36_eq k) ⟨25 * k.val + 6, by omega⟩ (by show _ = 16 * (25 * k.val + 6); omega) (k0_off36_inb k)).trans (hx ⟨25 * k.val + 6, by omega⟩))
      _ _ _ _) $$ Ha
    iintro Ha
    -- vector 7 of the trip
    sl_exec (disch := exact chk_ok _ (fun x => hbc _))
    iapply (wp_scat' m d L hpre (n0 + (25 * k.val + 7)) (n0 + (25 * k.val + 8)) (n0 + (25 * k.val + 7)) (by omega) (by omega) (by omega)
      (View.readAt (Elt F) (s3).view (Rect.unit (s := S10000) (k0_off37 k) S16.size (k0_off37_inb k)).toLoadRect bc)
      (View.readAt (Elt F) (s1).view (Rect.unit (s := S10000) (k0_off37 k) S16.size (k0_off37_inb k)).toLoadRect xc)
      ((readAt_c3 d L bc (k0_off37 k) _ (k0_off37_eq k) ⟨25 * k.val + 7, by omega⟩ (by show _ = 16 * (25 * k.val + 7); omega) (k0_off37_inb k)).trans (hb ⟨25 * k.val + 7, by omega⟩))
      ((readAt_c1 d L xc (k0_off37 k) _ (k0_off37_eq k) ⟨25 * k.val + 7, by omega⟩ (by show _ = 16 * (25 * k.val + 7); omega) (k0_off37_inb k)).trans (hx ⟨25 * k.val + 7, by omega⟩))
      _ _ _ _) $$ Ha
    iintro Ha
    -- vector 8 of the trip
    sl_exec (disch := exact chk_ok _ (fun x => hbc _))
    iapply (wp_scat' m d L hpre (n0 + (25 * k.val + 8)) (n0 + (25 * k.val + 9)) (n0 + (25 * k.val + 8)) (by omega) (by omega) (by omega)
      (View.readAt (Elt F) (s3).view (Rect.unit (s := S10000) (k0_off38 k) S16.size (k0_off38_inb k)).toLoadRect bc)
      (View.readAt (Elt F) (s1).view (Rect.unit (s := S10000) (k0_off38 k) S16.size (k0_off38_inb k)).toLoadRect xc)
      ((readAt_c3 d L bc (k0_off38 k) _ (k0_off38_eq k) ⟨25 * k.val + 8, by omega⟩ (by show _ = 16 * (25 * k.val + 8); omega) (k0_off38_inb k)).trans (hb ⟨25 * k.val + 8, by omega⟩))
      ((readAt_c1 d L xc (k0_off38 k) _ (k0_off38_eq k) ⟨25 * k.val + 8, by omega⟩ (by show _ = 16 * (25 * k.val + 8); omega) (k0_off38_inb k)).trans (hx ⟨25 * k.val + 8, by omega⟩))
      _ _ _ _) $$ Ha
    iintro Ha
    -- vector 9 of the trip
    sl_exec (disch := exact chk_ok _ (fun x => hbc _))
    iapply (wp_scat' m d L hpre (n0 + (25 * k.val + 9)) (n0 + (25 * k.val + 10)) (n0 + (25 * k.val + 9)) (by omega) (by omega) (by omega)
      (View.readAt (Elt F) (s3).view (Rect.unit (s := S10000) (k0_off39 k) S16.size (k0_off39_inb k)).toLoadRect bc)
      (View.readAt (Elt F) (s1).view (Rect.unit (s := S10000) (k0_off39 k) S16.size (k0_off39_inb k)).toLoadRect xc)
      ((readAt_c3 d L bc (k0_off39 k) _ (k0_off39_eq k) ⟨25 * k.val + 9, by omega⟩ (by show _ = 16 * (25 * k.val + 9); omega) (k0_off39_inb k)).trans (hb ⟨25 * k.val + 9, by omega⟩))
      ((readAt_c1 d L xc (k0_off39 k) _ (k0_off39_eq k) ⟨25 * k.val + 9, by omega⟩ (by show _ = 16 * (25 * k.val + 9); omega) (k0_off39_inb k)).trans (hx ⟨25 * k.val + 9, by omega⟩))
      _ _ _ _) $$ Ha
    iintro Ha
    -- vector 10 of the trip
    sl_exec (disch := exact chk_ok _ (fun x => hbc _))
    iapply (wp_scat' m d L hpre (n0 + (25 * k.val + 10)) (n0 + (25 * k.val + 11)) (n0 + (25 * k.val + 10)) (by omega) (by omega) (by omega)
      (View.readAt (Elt F) (s3).view (Rect.unit (s := S10000) (k0_off40 k) S16.size (k0_off40_inb k)).toLoadRect bc)
      (View.readAt (Elt F) (s1).view (Rect.unit (s := S10000) (k0_off40 k) S16.size (k0_off40_inb k)).toLoadRect xc)
      ((readAt_c3 d L bc (k0_off40 k) _ (k0_off40_eq k) ⟨25 * k.val + 10, by omega⟩ (by show _ = 16 * (25 * k.val + 10); omega) (k0_off40_inb k)).trans (hb ⟨25 * k.val + 10, by omega⟩))
      ((readAt_c1 d L xc (k0_off40 k) _ (k0_off40_eq k) ⟨25 * k.val + 10, by omega⟩ (by show _ = 16 * (25 * k.val + 10); omega) (k0_off40_inb k)).trans (hx ⟨25 * k.val + 10, by omega⟩))
      _ _ _ _) $$ Ha
    iintro Ha
    -- vector 11 of the trip
    sl_exec (disch := exact chk_ok _ (fun x => hbc _))
    iapply (wp_scat' m d L hpre (n0 + (25 * k.val + 11)) (n0 + (25 * k.val + 12)) (n0 + (25 * k.val + 11)) (by omega) (by omega) (by omega)
      (View.readAt (Elt F) (s3).view (Rect.unit (s := S10000) (k0_off41 k) S16.size (k0_off41_inb k)).toLoadRect bc)
      (View.readAt (Elt F) (s1).view (Rect.unit (s := S10000) (k0_off41 k) S16.size (k0_off41_inb k)).toLoadRect xc)
      ((readAt_c3 d L bc (k0_off41 k) _ (k0_off41_eq k) ⟨25 * k.val + 11, by omega⟩ (by show _ = 16 * (25 * k.val + 11); omega) (k0_off41_inb k)).trans (hb ⟨25 * k.val + 11, by omega⟩))
      ((readAt_c1 d L xc (k0_off41 k) _ (k0_off41_eq k) ⟨25 * k.val + 11, by omega⟩ (by show _ = 16 * (25 * k.val + 11); omega) (k0_off41_inb k)).trans (hx ⟨25 * k.val + 11, by omega⟩))
      _ _ _ _) $$ Ha
    iintro Ha
    -- vector 12 of the trip
    sl_exec (disch := exact chk_ok _ (fun x => hbc _))
    iapply (wp_scat' m d L hpre (n0 + (25 * k.val + 12)) (n0 + (25 * k.val + 13)) (n0 + (25 * k.val + 12)) (by omega) (by omega) (by omega)
      (View.readAt (Elt F) (s3).view (Rect.unit (s := S10000) (k0_off42 k) S16.size (k0_off42_inb k)).toLoadRect bc)
      (View.readAt (Elt F) (s1).view (Rect.unit (s := S10000) (k0_off42 k) S16.size (k0_off42_inb k)).toLoadRect xc)
      ((readAt_c3 d L bc (k0_off42 k) _ (k0_off42_eq k) ⟨25 * k.val + 12, by omega⟩ (by show _ = 16 * (25 * k.val + 12); omega) (k0_off42_inb k)).trans (hb ⟨25 * k.val + 12, by omega⟩))
      ((readAt_c1 d L xc (k0_off42 k) _ (k0_off42_eq k) ⟨25 * k.val + 12, by omega⟩ (by show _ = 16 * (25 * k.val + 12); omega) (k0_off42_inb k)).trans (hx ⟨25 * k.val + 12, by omega⟩))
      _ _ _ _) $$ Ha
    iintro Ha
    -- vector 13 of the trip
    sl_exec (disch := exact chk_ok _ (fun x => hbc _))
    iapply (wp_scat' m d L hpre (n0 + (25 * k.val + 13)) (n0 + (25 * k.val + 14)) (n0 + (25 * k.val + 13)) (by omega) (by omega) (by omega)
      (View.readAt (Elt F) (s3).view (Rect.unit (s := S10000) (k0_off43 k) S16.size (k0_off43_inb k)).toLoadRect bc)
      (View.readAt (Elt F) (s1).view (Rect.unit (s := S10000) (k0_off43 k) S16.size (k0_off43_inb k)).toLoadRect xc)
      ((readAt_c3 d L bc (k0_off43 k) _ (k0_off43_eq k) ⟨25 * k.val + 13, by omega⟩ (by show _ = 16 * (25 * k.val + 13); omega) (k0_off43_inb k)).trans (hb ⟨25 * k.val + 13, by omega⟩))
      ((readAt_c1 d L xc (k0_off43 k) _ (k0_off43_eq k) ⟨25 * k.val + 13, by omega⟩ (by show _ = 16 * (25 * k.val + 13); omega) (k0_off43_inb k)).trans (hx ⟨25 * k.val + 13, by omega⟩))
      _ _ _ _) $$ Ha
    iintro Ha
    -- vector 14 of the trip
    sl_exec (disch := exact chk_ok _ (fun x => hbc _))
    iapply (wp_scat' m d L hpre (n0 + (25 * k.val + 14)) (n0 + (25 * k.val + 15)) (n0 + (25 * k.val + 14)) (by omega) (by omega) (by omega)
      (View.readAt (Elt F) (s3).view (Rect.unit (s := S10000) (k0_off44 k) S16.size (k0_off44_inb k)).toLoadRect bc)
      (View.readAt (Elt F) (s1).view (Rect.unit (s := S10000) (k0_off44 k) S16.size (k0_off44_inb k)).toLoadRect xc)
      ((readAt_c3 d L bc (k0_off44 k) _ (k0_off44_eq k) ⟨25 * k.val + 14, by omega⟩ (by show _ = 16 * (25 * k.val + 14); omega) (k0_off44_inb k)).trans (hb ⟨25 * k.val + 14, by omega⟩))
      ((readAt_c1 d L xc (k0_off44 k) _ (k0_off44_eq k) ⟨25 * k.val + 14, by omega⟩ (by show _ = 16 * (25 * k.val + 14); omega) (k0_off44_inb k)).trans (hx ⟨25 * k.val + 14, by omega⟩))
      _ _ _ _) $$ Ha
    iintro Ha
    -- vector 15 of the trip
    sl_exec (disch := exact chk_ok _ (fun x => hbc _))
    iapply (wp_scat' m d L hpre (n0 + (25 * k.val + 15)) (n0 + (25 * k.val + 16)) (n0 + (25 * k.val + 15)) (by omega) (by omega) (by omega)
      (View.readAt (Elt F) (s3).view (Rect.unit (s := S10000) (k0_off45 k) S16.size (k0_off45_inb k)).toLoadRect bc)
      (View.readAt (Elt F) (s1).view (Rect.unit (s := S10000) (k0_off45 k) S16.size (k0_off45_inb k)).toLoadRect xc)
      ((readAt_c3 d L bc (k0_off45 k) _ (k0_off45_eq k) ⟨25 * k.val + 15, by omega⟩ (by show _ = 16 * (25 * k.val + 15); omega) (k0_off45_inb k)).trans (hb ⟨25 * k.val + 15, by omega⟩))
      ((readAt_c1 d L xc (k0_off45 k) _ (k0_off45_eq k) ⟨25 * k.val + 15, by omega⟩ (by show _ = 16 * (25 * k.val + 15); omega) (k0_off45_inb k)).trans (hx ⟨25 * k.val + 15, by omega⟩))
      _ _ _ _) $$ Ha
    iintro Ha
    -- vector 16 of the trip
    sl_exec (disch := exact chk_ok _ (fun x => hbc _))
    iapply (wp_scat' m d L hpre (n0 + (25 * k.val + 16)) (n0 + (25 * k.val + 17)) (n0 + (25 * k.val + 16)) (by omega) (by omega) (by omega)
      (View.readAt (Elt F) (s3).view (Rect.unit (s := S10000) (k0_off46 k) S16.size (k0_off46_inb k)).toLoadRect bc)
      (View.readAt (Elt F) (s1).view (Rect.unit (s := S10000) (k0_off46 k) S16.size (k0_off46_inb k)).toLoadRect xc)
      ((readAt_c3 d L bc (k0_off46 k) _ (k0_off46_eq k) ⟨25 * k.val + 16, by omega⟩ (by show _ = 16 * (25 * k.val + 16); omega) (k0_off46_inb k)).trans (hb ⟨25 * k.val + 16, by omega⟩))
      ((readAt_c1 d L xc (k0_off46 k) _ (k0_off46_eq k) ⟨25 * k.val + 16, by omega⟩ (by show _ = 16 * (25 * k.val + 16); omega) (k0_off46_inb k)).trans (hx ⟨25 * k.val + 16, by omega⟩))
      _ _ _ _) $$ Ha
    iintro Ha
    -- vector 17 of the trip
    sl_exec (disch := exact chk_ok _ (fun x => hbc _))
    iapply (wp_scat' m d L hpre (n0 + (25 * k.val + 17)) (n0 + (25 * k.val + 18)) (n0 + (25 * k.val + 17)) (by omega) (by omega) (by omega)
      (View.readAt (Elt F) (s3).view (Rect.unit (s := S10000) (k0_off47 k) S16.size (k0_off47_inb k)).toLoadRect bc)
      (View.readAt (Elt F) (s1).view (Rect.unit (s := S10000) (k0_off47 k) S16.size (k0_off47_inb k)).toLoadRect xc)
      ((readAt_c3 d L bc (k0_off47 k) _ (k0_off47_eq k) ⟨25 * k.val + 17, by omega⟩ (by show _ = 16 * (25 * k.val + 17); omega) (k0_off47_inb k)).trans (hb ⟨25 * k.val + 17, by omega⟩))
      ((readAt_c1 d L xc (k0_off47 k) _ (k0_off47_eq k) ⟨25 * k.val + 17, by omega⟩ (by show _ = 16 * (25 * k.val + 17); omega) (k0_off47_inb k)).trans (hx ⟨25 * k.val + 17, by omega⟩))
      _ _ _ _) $$ Ha
    iintro Ha
    -- vector 18 of the trip
    sl_exec (disch := exact chk_ok _ (fun x => hbc _))
    iapply (wp_scat' m d L hpre (n0 + (25 * k.val + 18)) (n0 + (25 * k.val + 19)) (n0 + (25 * k.val + 18)) (by omega) (by omega) (by omega)
      (View.readAt (Elt F) (s3).view (Rect.unit (s := S10000) (k0_off48 k) S16.size (k0_off48_inb k)).toLoadRect bc)
      (View.readAt (Elt F) (s1).view (Rect.unit (s := S10000) (k0_off48 k) S16.size (k0_off48_inb k)).toLoadRect xc)
      ((readAt_c3 d L bc (k0_off48 k) _ (k0_off48_eq k) ⟨25 * k.val + 18, by omega⟩ (by show _ = 16 * (25 * k.val + 18); omega) (k0_off48_inb k)).trans (hb ⟨25 * k.val + 18, by omega⟩))
      ((readAt_c1 d L xc (k0_off48 k) _ (k0_off48_eq k) ⟨25 * k.val + 18, by omega⟩ (by show _ = 16 * (25 * k.val + 18); omega) (k0_off48_inb k)).trans (hx ⟨25 * k.val + 18, by omega⟩))
      _ _ _ _) $$ Ha
    iintro Ha
    -- vector 19 of the trip
    sl_exec (disch := exact chk_ok _ (fun x => hbc _))
    iapply (wp_scat' m d L hpre (n0 + (25 * k.val + 19)) (n0 + (25 * k.val + 20)) (n0 + (25 * k.val + 19)) (by omega) (by omega) (by omega)
      (View.readAt (Elt F) (s3).view (Rect.unit (s := S10000) (k0_off49 k) S16.size (k0_off49_inb k)).toLoadRect bc)
      (View.readAt (Elt F) (s1).view (Rect.unit (s := S10000) (k0_off49 k) S16.size (k0_off49_inb k)).toLoadRect xc)
      ((readAt_c3 d L bc (k0_off49 k) _ (k0_off49_eq k) ⟨25 * k.val + 19, by omega⟩ (by show _ = 16 * (25 * k.val + 19); omega) (k0_off49_inb k)).trans (hb ⟨25 * k.val + 19, by omega⟩))
      ((readAt_c1 d L xc (k0_off49 k) _ (k0_off49_eq k) ⟨25 * k.val + 19, by omega⟩ (by show _ = 16 * (25 * k.val + 19); omega) (k0_off49_inb k)).trans (hx ⟨25 * k.val + 19, by omega⟩))
      _ _ _ _) $$ Ha
    iintro Ha
    -- vector 20 of the trip
    sl_exec (disch := exact chk_ok _ (fun x => hbc _))
    iapply (wp_scat' m d L hpre (n0 + (25 * k.val + 20)) (n0 + (25 * k.val + 21)) (n0 + (25 * k.val + 20)) (by omega) (by omega) (by omega)
      (View.readAt (Elt F) (s3).view (Rect.unit (s := S10000) (k0_off50 k) S16.size (k0_off50_inb k)).toLoadRect bc)
      (View.readAt (Elt F) (s1).view (Rect.unit (s := S10000) (k0_off50 k) S16.size (k0_off50_inb k)).toLoadRect xc)
      ((readAt_c3 d L bc (k0_off50 k) _ (k0_off50_eq k) ⟨25 * k.val + 20, by omega⟩ (by show _ = 16 * (25 * k.val + 20); omega) (k0_off50_inb k)).trans (hb ⟨25 * k.val + 20, by omega⟩))
      ((readAt_c1 d L xc (k0_off50 k) _ (k0_off50_eq k) ⟨25 * k.val + 20, by omega⟩ (by show _ = 16 * (25 * k.val + 20); omega) (k0_off50_inb k)).trans (hx ⟨25 * k.val + 20, by omega⟩))
      _ _ _ _) $$ Ha
    iintro Ha
    -- vector 21 of the trip
    sl_exec (disch := exact chk_ok _ (fun x => hbc _))
    iapply (wp_scat' m d L hpre (n0 + (25 * k.val + 21)) (n0 + (25 * k.val + 22)) (n0 + (25 * k.val + 21)) (by omega) (by omega) (by omega)
      (View.readAt (Elt F) (s3).view (Rect.unit (s := S10000) (k0_off51 k) S16.size (k0_off51_inb k)).toLoadRect bc)
      (View.readAt (Elt F) (s1).view (Rect.unit (s := S10000) (k0_off51 k) S16.size (k0_off51_inb k)).toLoadRect xc)
      ((readAt_c3 d L bc (k0_off51 k) _ (k0_off51_eq k) ⟨25 * k.val + 21, by omega⟩ (by show _ = 16 * (25 * k.val + 21); omega) (k0_off51_inb k)).trans (hb ⟨25 * k.val + 21, by omega⟩))
      ((readAt_c1 d L xc (k0_off51 k) _ (k0_off51_eq k) ⟨25 * k.val + 21, by omega⟩ (by show _ = 16 * (25 * k.val + 21); omega) (k0_off51_inb k)).trans (hx ⟨25 * k.val + 21, by omega⟩))
      _ _ _ _) $$ Ha
    iintro Ha
    -- vector 22 of the trip
    sl_exec (disch := exact chk_ok _ (fun x => hbc _))
    iapply (wp_scat' m d L hpre (n0 + (25 * k.val + 22)) (n0 + (25 * k.val + 23)) (n0 + (25 * k.val + 22)) (by omega) (by omega) (by omega)
      (View.readAt (Elt F) (s3).view (Rect.unit (s := S10000) (k0_off52 k) S16.size (k0_off52_inb k)).toLoadRect bc)
      (View.readAt (Elt F) (s1).view (Rect.unit (s := S10000) (k0_off52 k) S16.size (k0_off52_inb k)).toLoadRect xc)
      ((readAt_c3 d L bc (k0_off52 k) _ (k0_off52_eq k) ⟨25 * k.val + 22, by omega⟩ (by show _ = 16 * (25 * k.val + 22); omega) (k0_off52_inb k)).trans (hb ⟨25 * k.val + 22, by omega⟩))
      ((readAt_c1 d L xc (k0_off52 k) _ (k0_off52_eq k) ⟨25 * k.val + 22, by omega⟩ (by show _ = 16 * (25 * k.val + 22); omega) (k0_off52_inb k)).trans (hx ⟨25 * k.val + 22, by omega⟩))
      _ _ _ _) $$ Ha
    iintro Ha
    -- vector 23 of the trip
    sl_exec (disch := exact chk_ok _ (fun x => hbc _))
    iapply (wp_scat' m d L hpre (n0 + (25 * k.val + 23)) (n0 + (25 * k.val + 24)) (n0 + (25 * k.val + 23)) (by omega) (by omega) (by omega)
      (View.readAt (Elt F) (s3).view (Rect.unit (s := S10000) (k0_off53 k) S16.size (k0_off53_inb k)).toLoadRect bc)
      (View.readAt (Elt F) (s1).view (Rect.unit (s := S10000) (k0_off53 k) S16.size (k0_off53_inb k)).toLoadRect xc)
      ((readAt_c3 d L bc (k0_off53 k) _ (k0_off53_eq k) ⟨25 * k.val + 23, by omega⟩ (by show _ = 16 * (25 * k.val + 23); omega) (k0_off53_inb k)).trans (hb ⟨25 * k.val + 23, by omega⟩))
      ((readAt_c1 d L xc (k0_off53 k) _ (k0_off53_eq k) ⟨25 * k.val + 23, by omega⟩ (by show _ = 16 * (25 * k.val + 23); omega) (k0_off53_inb k)).trans (hx ⟨25 * k.val + 23, by omega⟩))
      _ _ _ _) $$ Ha
    iintro Ha
    -- vector 24 of the trip
    sl_exec (disch := exact chk_ok _ (fun x => hbc _))
    iapply (wp_scat' m d L hpre (n0 + (25 * k.val + 24)) (n0 + 25 * (k.val + 1)) (n0 + (25 * k.val + 24)) (by omega) (by omega) (by omega)
      (View.readAt (Elt F) (s3).view (Rect.unit (s := S10000) (k0_off54 k) S16.size (k0_off54_inb k)).toLoadRect bc)
      (View.readAt (Elt F) (s1).view (Rect.unit (s := S10000) (k0_off54 k) S16.size (k0_off54_inb k)).toLoadRect xc)
      ((readAt_c3 d L bc (k0_off54 k) _ (k0_off54_eq k) ⟨25 * k.val + 24, by omega⟩ (by show _ = 16 * (25 * k.val + 24); omega) (k0_off54_inb k)).trans (hb ⟨25 * k.val + 24, by omega⟩))
      ((readAt_c1 d L xc (k0_off54 k) _ (k0_off54_eq k) ⟨25 * k.val + 24, by omega⟩ (by show _ = 16 * (25 * k.val + 24); omega) (k0_off54_inb k)).trans (hx ⟨25 * k.val + 24, by omega⟩))
      _ _ _ _) $$ Ha
    iintro Ha
    try sl_exec
    sl_step
    isplitl [Hx]; · iexact Hx
    isplitl [Hb]; · iexact Hb
    iexact Ha
  · unfold ainv1
    isplitl [Hx]; · iexact Hx
    isplitl [Hb]; · iexact Hb
    iexact Ha
  iintro %acc HI
  unfold ainv1
  rw [t4_trips']
  icases HI with ⟨Hx, Hb, Ha⟩
  sl_respell []
  iapply Hk
  isplitl [Hx]; · iexact Hx
  isplitl [Hb]; · iexact Hb
  iexact Ha

end Cert.Proof.KB

end
-- ==== Proof.Bits.TileLoops.lean ====
/-
  The three counted loops of a tile's task that touch only its own buffers: the loop that zeroes the accumulator, and
  the two copies of the loop that adds one chunk (625 vectors, 25 trips of 25) into it, from the first pair of chunk
  buffers and from the second.
-/
import proofs.«203046_g35227321762133_cont_8to1_b_835_12_alg».proof.Proof.Bits.TileDefs
import proofs.«203046_g35227321762133_cont_8to1_b_835_12_alg».proof.Proof.Bits.TileZero
import proofs.«203046_g35227321762133_cont_8to1_b_835_12_alg».proof.Proof.Bits.TileAdd0
import proofs.«203046_g35227321762133_cont_8to1_b_835_12_alg».proof.Proof.Bits.TileAdd1

noncomputable section

namespace Cert.Proof.KB

open Cert.Kernel Cert.Kernel.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [hK : Cert.Kernel.Facts]
variable (m : (ℓ : Loc nD τ sig) → Buf (Elt F) ℓ) (d : Dev nD) (L : grid0.Coords)

/-- The zeroing loop: whatever the accumulator held, it ends holding the accumulator before any vector. -/
theorem zero_loop (g0 : Buf (Elt F) ((thr d L).loc cc0_scratch4)) {α : Type}
    (k : Unit → Prog (TpuEff nD τ sig (Elt F) Λ₀ (thr d L).2) α) (Φ : α → sProp 𝕄) :
    iprop(((s4).view.loc (thr d L) ↦{fullShare} g0)
        ∗ (((s4).view.loc (thr d L) ↦{fullShare} (accAt (F := F) (xf m d) (bt m d) (wOf L) 0 : Buf (Elt F) ((thr d L).loc cc0_scratch4)))
            -∗ wp frame (wpE (defs₀ (F := F)) 𝒱₀ (thr d L) none) Set.univ (k ⟨⟩) Φ))
      ⊢ wp frame (wpE (defs₀ (F := F)) 𝒱₀ (thr d L) none) Set.univ
          (Scf.Loop.for k0_t1_loop k0_t1_ok ⟨⟩ (k0_t1_body L xV (Memref.isWhole_whole _) bV (Memref.isWhole_whole _) pV (Memref.isWhole_whole _)
            s0 (Memref.isWhole_whole _) s1 (Memref.isWhole_whole _) s2 (Memref.isWhole_whole _) s3 (Memref.isWhole_whole _) s4 (Memref.isWhole_whole _)
            cc0_scratch5 cc0_scratch6 cc0_scoped0) >>= k) Φ := by
  exact zero_loop_run m d L g0 k Φ

/-- Adding one chunk from the first pair of buffers: with the buffers holding vectors `n0 … n0 + 624` of the tile's rows
    and segment numbers, the accumulator goes from its state after `n0` vectors to its state after `n0 + 625`. -/
theorem add_chunk0 (hpre : PreOK m) (xc : Buf (Elt F) ((thr d L).loc cc0_scratch0)) (bc : Buf (Elt F) ((thr d L).loc cc0_scratch2))
    (n0 : Nat) (hn0 : n0 + 625 ≤ 12500)
    (hx : ∀ n : Fin 625, vecOf (F := F) (e := .f32) xc n = xVec (F := F) (xf m d) (wOf L) ⟨n0 + n.val, by have := n.isLt; omega⟩)
    (hb : ∀ n : Fin 625, vecOf (F := F) (e := .i32) bc n = bVec (bt m d) (wOf L) ⟨n0 + n.val, by have := n.isLt; omega⟩)
    {α : Type} (k : Unit → Prog (TpuEff nD τ sig (Elt F) Λ₀ (thr d L).2) α) (Φ : α → sProp 𝕄) :
    iprop(((s0).view.loc (thr d L) ↦{fullShare} xc) ∗ ((s2).view.loc (thr d L) ↦{fullShare} bc)
        ∗ ((s4).view.loc (thr d L) ↦{fullShare} (accAt (F := F) (xf m d) (bt m d) (wOf L) n0 : Buf (Elt F) ((thr d L).loc cc0_scratch4)))
        ∗ ((((s0).view.loc (thr d L) ↦{fullShare} xc) ∗ ((s2).view.loc (thr d L) ↦{fullShare} bc)
            ∗ ((s4).view.loc (thr d L) ↦{fullShare} (accAt (F := F) (xf m d) (bt m d) (wOf L) (n0 + 625) : Buf (Elt F) ((thr d L).loc cc0_scratch4))))
            -∗ wp frame (wpE (defs₀ (F := F)) 𝒱₀ (thr d L) none) Set.univ (k ⟨⟩) Φ))
      ⊢ wp frame (wpE (defs₀ (F := F)) 𝒱₀ (thr d L) none) Set.univ
          (Scf.Loop.for k0_t3_loop k0_t3_ok ⟨⟩ (k0_t3_body L xV (Memref.isWhole_whole _) bV (Memref.isWhole_whole _) pV (Memref.isWhole_whole _)
            s0 (Memref.isWhole_whole _) s1 (Memref.isWhole_whole _) s2 (Memref.isWhole_whole _) s3 (Memref.isWhole_whole _) s4 (Memref.isWhole_whole _)
            cc0_scratch5 cc0_scratch6 cc0_scoped0 lanes) >>= k) Φ := by
  exact add_chunk0_run m d L hpre xc bc n0 hn0 hx hb k Φ

/-- The same from the second pair of buffers. -/
theorem add_chunk1 (hpre : PreOK m) (xc : Buf (Elt F) ((thr d L).loc cc0_scratch1)) (bc : Buf (Elt F) ((thr d L).loc cc0_scratch3))
    (n0 : Nat) (hn0 : n0 + 625 ≤ 12500)
    (hx : ∀ n : Fin 625, vecOf (F := F) (e := .f32) xc n = xVec (F := F) (xf m d) (wOf L) ⟨n0 + n.val, by have := n.isLt; omega⟩)
    (hb : ∀ n : Fin 625, vecOf (F := F) (e := .i32) bc n = bVec (bt m d) (wOf L) ⟨n0 + n.val, by have := n.isLt; omega⟩)
    {α : Type} (k : Unit → Prog (TpuEff nD τ sig (Elt F) Λ₀ (thr d L).2) α) (Φ : α → sProp 𝕄) :
    iprop(((s1).view.loc (thr d L) ↦{fullShare} xc) ∗ ((s3).view.loc (thr d L) ↦{fullShare} bc)
        ∗ ((s4).view.loc (thr d L) ↦{fullShare} (accAt (F := F) (xf m d) (bt m d) (wOf L) n0 : Buf (Elt F) ((thr d L).loc cc0_scratch4)))
        ∗ ((((s1).view.loc (thr d L) ↦{fullShare} xc) ∗ ((s3).view.loc (thr d L) ↦{fullShare} bc)
            ∗ ((s4).view.loc (thr d L) ↦{fullShare} (accAt (F := F) (xf m d) (bt m d) (wOf L) (n0 + 625) : Buf (Elt F) ((thr d L).loc cc0_scratch4))))
            -∗ wp frame (wpE (defs₀ (F := F)) 𝒱₀ (thr d L) none) Set.univ (k ⟨⟩) Φ))
      ⊢ wp frame (wpE (defs₀ (F := F)) 𝒱₀ (thr d L) none) Set.univ
          (Scf.Loop.for k0_t4_loop k0_t4_ok ⟨⟩ (k0_t4_body L xV (Memref.isWhole_whole _) bV (Memref.isWhole_whole _) pV (Memref.isWhole_whole _)
            s0 (Memref.isWhole_whole _) s1 (Memref.isWhole_whole _) s2 (Memref.isWhole_whole _) s3 (Memref.isWhole_whole _) s4 (Memref.isWhole_whole _)
            cc0_scratch5 cc0_scratch6 cc0_scoped0 lanes) >>= k) Φ := by
  exact add_chunk1_run m d L hpre xc bc n0 hn0 hx hb k Φ

end Cert.Proof.KB

end
-- ==== Proof.Bits.TileRes.lean ====
/-
  One tile's resources: its three DMA semaphores and five scratch buffers picked out of what the tile owns, the chunks
  of the rows and of the segment numbers and the tile's row of the accumulators' array respelt as the slices the task
  addresses them by, and the offsets the task computes as the tile's chunk numbers.
-/
import proofs.«203046_g35227321762133_cont_8to1_b_835_12_alg».proof.Proof.Bits.TileDefs

noncomputable section

namespace Cert.Proof.KB

open Cert.Kernel Cert.Kernel.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [hK : Cert.Kernel.Facts]
variable (m : (ℓ : Loc nD τ sig) → Buf (Elt F) ℓ) (d : Dev nD) (L : grid0.Coords)

/-- The tile's three DMA semaphores, as cells. -/
abbrev c5cell : GSem nD τ sig := (thr d L, .dma cc0_scratch5.sem)
abbrev c6cell : GSem nD τ sig := (thr d L, .dma cc0_scratch6.sem)
abbrev cOcell : GSem nD τ sig := (thr d L, .dma cc0_scoped0.sem)

/-- They are among the tile's own semaphores: those are them, at zero, and the rest. -/
theorem ownSems0_V :
    (ownSems0 (thr d L) : sProp 𝕄)
      = iprop(semVal (c5cell d L) 0 ∗ semVal (c6cell d L) 0 ∗ semVal (cOcell d L) 0
          ∗ bigSep ((((ownCells (thr d L)).erase (c5cell d L)).erase (c6cell d L)).erase (cOcell d L)) fun g => semVal g 0) := by
  unfold SparseCore.Cfg.ownSems0
  rw [SparseCore.bigSep_erase' ((mem_ownCells (g := c5cell d L)).mpr ⟨rfl, by show (SemLoc.dma cc0_scratch5.sem : SemLoc sig).isScoped .scVector = true; decide⟩),
    SparseCore.bigSep_erase' (Finset.mem_erase.mpr ⟨fun e => absurd (Prod.mk.inj e).2 (show (SemLoc.dma cc0_scratch6.sem : SemLoc sig) ≠ SemLoc.dma cc0_scratch5.sem by decide), (mem_ownCells (g := c6cell d L)).mpr ⟨rfl, by show (SemLoc.dma cc0_scratch6.sem : SemLoc sig).isScoped .scVector = true; decide⟩⟩),
    SparseCore.bigSep_erase' (Finset.mem_erase.mpr ⟨fun e => absurd (Prod.mk.inj e).2 (show (SemLoc.dma cc0_scoped0.sem : SemLoc sig) ≠ SemLoc.dma cc0_scratch6.sem by decide), Finset.mem_erase.mpr ⟨fun e => absurd (Prod.mk.inj e).2 (show (SemLoc.dma cc0_scoped0.sem : SemLoc sig) ≠ SemLoc.dma cc0_scratch5.sem by decide), (mem_ownCells (g := cOcell d L)).mpr ⟨rfl, by show (SemLoc.dma cc0_scoped0.sem : SemLoc sig).isScoped .scVector = true; decide⟩⟩⟩)]

/-- The five scratch buffers are among the tile's own: they are them, at some contents, and the rest. -/
theorem ownBufs_V :
    (ownBufs (thr d L) : sProp 𝕄)
      = iprop((∃ f, (thr d L).loc cc0_scratch0 ↦{fullShare} f)
          ∗ (∃ f, (thr d L).loc cc0_scratch1 ↦{fullShare} f)
          ∗ (∃ f, (thr d L).loc cc0_scratch2 ↦{fullShare} f)
          ∗ (∃ f, (thr d L).loc cc0_scratch3 ↦{fullShare} f)
          ∗ (∃ f, (thr d L).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩)]

/-! ## The chunks and the row, as the task slices them -/

/-- A chunk of the rows and of the segment numbers, sliced at an offset; the tile's row of the accumulators' array. -/
abbrev xSl (off : Fin S6400000.rank → Nat) (h : ∀ a, off a + S10000.size a ≤ S6400000.size a) : Memref sig .scVector .hbm S10000 .f32 :=
  (xV : Memref sig .scVector .hbm S6400000 .f32).slice (Rect.unit (s := S6400000) off S10000.size h) (fun _ => rfl)
abbrev bSl (off : Fin S6400000.rank → Nat) (h : ∀ a, off a + S10000.size a ≤ S6400000.size a) : Memref sig .scVector .hbm S10000 .i32 :=
  (bV : Memref sig .scVector .hbm S6400000 .i32).slice (Rect.unit (s := S6400000) off S10000.size h) (fun _ => rfl)
abbrev pSl (off : Fin S32x65536.rank → Nat) (h : ∀ a, off a + S1x65536.size a ≤ S32x65536.size a) : Memref sig .scVector .hbm S65536 .f32 :=
  ((pV : Memref sig .scVector .hbm S32x65536 .f32).slice (Rect.unit (s := S32x65536) off S1x65536.size h) (fun _ => rfl)).squeeze S65536 squeezes_S1x65536_S65536

/-- The offset of chunk `j` of tile `w`. -/
abbrev chunkOff (w : Fin 32) (j : Fin 20) : Fin S6400000.rank → Nat := ![200000 * w.val + 10000 * j.val]

theorem set_xSl (w : Fin 32) (j : Fin 20) (off : Fin S6400000.rank → Nat) (h : ∀ a, off a + S10000.size a ≤ S6400000.size a)
    (heq : off = chunkOff w j) : (xSl off h).view.set = chunkSet w j := by
  subst heq; rfl
theorem set_bSl (w : Fin 32) (j : Fin 20) (off : Fin S6400000.rank → Nat) (h : ∀ a, off a + S10000.size a ≤ S6400000.size a)
    (heq : off = chunkOff w j) : (bSl off h).view.set = chunkSet w j := by
  subst heq; rfl
theorem set_pSl (w : Fin 32) (off : Fin S32x65536.rank → Nat) (h : ∀ a, off a + S1x65536.size a ≤ S32x65536.size a)
    (heq : off = ![w.val, 0]) : (pSl off h).view.set = prowSet w := by
  subst heq
  show (((pV : Memref sig .scVector .hbm S32x65536 .f32).view.slice (prowRect w)).reshape S65536 squeezes_S1x65536_S65536.numel_eq).set = _
  rw [View.set_reshape]

theorem pts_xSl (w : Fin 32) (j : Fin 20) (off : Fin S6400000.rank → Nat) (h : ∀ a, off a + S10000.size a ≤ S6400000.size a)
    (heq : off = chunkOff w j) (f : Buf (Elt F) (xLoc d)) :
    ((xSl off h).view.loc (thr d L) ↦[(xSl off h).view.set]{fullShare} f : sProp 𝕄) = xLoc d ↦[chunkSet w j]{fullShare} f := by
  rw [set_xSl w j off h heq]
theorem pts_bSl (w : Fin 32) (j : Fin 20) (off : Fin S6400000.rank → Nat) (h : ∀ a, off a + S10000.size a ≤ S6400000.size a)
    (heq : off = chunkOff w j) (f : Buf (Elt F) (a1Loc d)) :
    ((bSl off h).view.loc (thr d L) ↦[(bSl off h).view.set]{fullShare} f : sProp 𝕄) = a1Loc d ↦[chunkSet w j]{fullShare} f := by
  rw [set_bSl w j off h heq]
theorem pts_pSl (w : Fin 32) (off : Fin S32x65536.rank → Nat) (h : ∀ a, off a + S1x65536.size a ≤ S32x65536.size a)
    (heq : off = ![w.val, 0]) (f : Buf (Elt F) (pLoc d)) :
    ((pSl off h).view.loc (thr d L) ↦[(pSl off h).view.set]{fullShare} f : sProp 𝕄) = pLoc d ↦[prowSet w]{fullShare} f := by
  rw [set_pSl w off h heq]

/-! ## The offsets the task computes, at the tile's number -/

theorem vec1_eq {a b : Nat} (h : a = b) : (![a] : Fin 1 → Nat) = ![b] := by rw [h]

theorem off_first (r : Fin 2) : k0_off2 L (BitVec.ofNat 32 (10000 * r.val)) = chunkOff (wOf L) ⟨r.val, by have := r.isLt; omega⟩ := by
  rw [k0_off2_eq L r]; exact vec1_eq (by simp only [Fin.val_mk, wOf_val]; omega)
theorem off_wait (t : Fin k0_t2_loop.trips) (r : Fin 2) (ht : 2 * t.val + r.val < 20) :
    k0_off3 L t (BitVec.ofNat 32 r.val) = chunkOff (wOf L) ⟨2 * t.val + r.val, ht⟩ := by
  rw [k0_off3_eq L t r]; exact vec1_eq (by simp only [Fin.val_mk, wOf_val]; omega)
theorem off_next0 (t : Fin k0_t2_loop.trips) (ht : 2 * t.val + 2 < 20) :
    k0_off29 L t = chunkOff (wOf L) ⟨2 * t.val + 2, ht⟩ := by
  rw [k0_off29_eq L t]; exact vec1_eq (by simp only [Fin.val_mk, wOf_val]; omega)
theorem off_next1 (t : Fin k0_t2_loop.trips) (ht : 2 * t.val + 3 < 20) :
    k0_off55 L t = chunkOff (wOf L) ⟨2 * t.val + 3, ht⟩ := by
  rw [k0_off55_eq L t]; exact vec1_eq (by simp only [Fin.val_mk, wOf_val]; omega)
theorem off_row : k0_off56 L = ![(wOf L).val, 0] := by
  rw [k0_off56_eq L, wOf_val]

theorem trips2 : k0_t2_loop.trips = 10 := by decide
theorem cond1_iff (t : Fin k0_t2_loop.trips) : k0_cond1 t = 1#1 ↔ t.val < 9 := by revert t; decide +kernel
theorem cond2_iff (t : Fin k0_t2_loop.trips) : k0_cond2 t = 1#1 ↔ t.val < 9 := by revert t; decide +kernel

/-! ## The scratch buffers, as the task's memrefs address them -/

theorem pts_s0 (f : Buf (Elt F) ((thr d L).loc cc0_scratch0)) :
    ((s0).view.loc (thr d L) ↦{fullShare} f : sProp 𝕄) = (thr d L).loc cc0_scratch0 ↦{fullShare} f := rfl
theorem pts_s1 (f : Buf (Elt F) ((thr d L).loc cc0_scratch1)) :
    ((s1).view.loc (thr d L) ↦{fullShare} f : sProp 𝕄) = (thr d L).loc cc0_scratch1 ↦{fullShare} f := rfl
theorem pts_s2 (f : Buf (Elt F) ((thr d L).loc cc0_scratch2)) :
    ((s2).view.loc (thr d L) ↦{fullShare} f : sProp 𝕄) = (thr d L).loc cc0_scratch2 ↦{fullShare} f := rfl
theorem pts_s3 (f : Buf (Elt F) ((thr d L).loc cc0_scratch3)) :
    ((s3).view.loc (thr d L) ↦{fullShare} f : sProp 𝕄) = (thr d L).loc cc0_scratch3 ↦{fullShare} f := rfl
theorem pts_s4 (f : Buf (Elt F) ((thr d L).loc cc0_scratch4)) :
    ((s4).view.loc (thr d L) ↦{fullShare} f : sProp 𝕄) = (thr d L).loc cc0_scratch4 ↦{fullShare} f := rfl

theorem off_first0 : k0_off2 L 0#32 = chunkOff (wOf L) 0 := off_first L 0
theorem off_first1 : k0_off2 L 10000#32 = chunkOff (wOf L) 1 := off_first L 1
theorem off_wait0 (t : Fin k0_t2_loop.trips) (ht : 2 * t.val + 0 < 20) : k0_off3 L t 0#32 = chunkOff (wOf L) ⟨2 * t.val + 0, ht⟩ := off_wait L t 0 ht
theorem off_wait1 (t : Fin k0_t2_loop.trips) (ht : 2 * t.val + 1 < 20) : k0_off3 L t 1#32 = chunkOff (wOf L) ⟨2 * t.val + 1, ht⟩ := off_wait L t 1 ht

theorem off_first0' (j : Fin 20) (hj : j.val = 0) : k0_off2 L 0#32 = chunkOff (wOf L) j :=
  (off_first0 L).trans (congrArg (chunkOff (wOf L)) (Fin.ext hj.symm))
theorem off_first1' (j : Fin 20) (hj : j.val = 1) : k0_off2 L 10000#32 = chunkOff (wOf L) j :=
  (off_first1 L).trans (congrArg (chunkOff (wOf L)) (Fin.ext hj.symm))
theorem off_next0' (t : Fin k0_t2_loop.trips) (j : Fin 20) (hj : j.val = 2 * t.val + 2) : k0_off29 L t = chunkOff (wOf L) j := by
  rw [k0_off29_eq L t]; exact vec1_eq (by rw [hj, wOf_val]; omega)
theorem off_next1' (t : Fin k0_t2_loop.trips) (j : Fin 20) (hj : j.val = 2 * t.val + 3) : k0_off55 L t = chunkOff (wOf L) j := by
  rw [k0_off55_eq L t]; exact vec1_eq (by rw [hj, wOf_val]; omega)

/-! ## The twenty chunks, taken in order -/

/-- All twenty are the first two and those from the third on; -/
theorem chunks_open (Φ : Fin 20 → sProp 𝕄) : bigSep Finset.univ Φ = iprop(Φ 0 ∗ Φ 1 ∗ bigSep (Transfers.pending 2) Φ) := by
  rw [Transfers.bigSep_pending_zero, Transfers.bigSep_pending_step Φ 0 (by decide), Transfers.bigSep_pending_step Φ (0 + 1) (by decide)]
  rfl
/-- those from the `k`-th on are the `k`-th and those from the next on; -/
theorem pend_step (Φ : Fin 20 → sProp 𝕄) (k : ℕ) (hk : k < 20) :
    bigSep (Transfers.pending k) Φ = iprop(Φ ⟨k, hk⟩ ∗ bigSep (Transfers.pending (k + 1)) Φ) :=
  Transfers.bigSep_pending_step Φ k hk
/-- past the last there is none; -/
theorem pend_end (Φ : Fin 20 → sProp 𝕄) (k : ℕ) (hk : 20 ≤ k) : bigSep (Transfers.pending k) Φ = (iprop(emp) : sProp 𝕄) := by
  rw [show (Transfers.pending k : Finset (Fin 20)) = ∅ from by
    ext t; simp only [Transfers.pending, Finset.mem_filter, Finset.mem_univ, true_and, Finset.notMem_empty, iff_false]; have := t.isLt; omega]
  exact bigSep_empty
/-- the first `k + 1` are the `k`-th and the first `k`; -/
theorem iss_step (Φ : Fin 20 → sProp 𝕄) (k : ℕ) (hk : k < 20) :
    bigSep (Transfers.issued (k + 1)) Φ = iprop(Φ ⟨k, hk⟩ ∗ bigSep (Transfers.issued k) Φ) := by
  rw [Transfers.issued_succ hk, bigSep_insert (Transfers.not_mem_issued hk)]
  rfl
/-- the first none is nothing, the first twenty are all. -/
theorem iss_zero (Φ : Fin 20 → sProp 𝕄) : bigSep (Transfers.issued 0 : Finset (Fin 20)) Φ = (iprop(emp) : sProp 𝕄) := by
  rw [Transfers.issued_zero]; exact bigSep_empty
theorem iss_all (Φ : Fin 20 → sProp 𝕄) : bigSep (Transfers.issued 20 : Finset (Fin 20)) Φ = bigSep Finset.univ Φ := by
  rw [Transfers.issued_all rfl]

theorem iss_step' (Φ : Fin 20 → sProp 𝕄) (k k' : ℕ) (hk : k < 20) (hk' : k' = k + 1) :
    bigSep (Transfers.issued k') Φ = iprop(Φ ⟨k, hk⟩ ∗ bigSep (Transfers.issued k) Φ) := by
  subst hk'; exact iss_step Φ k hk
theorem pend_step' (Φ : Fin 20 → sProp 𝕄) (k k' : ℕ) (hk : k < 20) (hk' : k' = k + 1) :
    bigSep (Transfers.pending k) Φ = iprop(Φ ⟨k, hk⟩ ∗ bigSep (Transfers.pending k') Φ) := by
  subst hk'; exact pend_step Φ k hk
theorem iss_idx (Φ : Fin 20 → sProp 𝕄) (k k' : ℕ) (h : k = k') : bigSep (Transfers.issued k) Φ = bigSep (Transfers.issued k') Φ := h ▸ rfl
theorem pend_idx (Φ : Fin 20 → sProp 𝕄) (k k' : ℕ) (h : k = k') : bigSep (Transfers.pending k) Φ = bigSep (Transfers.pending k') Φ := h ▸ rfl

/-- Waits at index `none` recorded beyond `W` stay so when one more is recorded. -/
theorem waits_ins {W W1 : Waits sig (HIx 1)} (sm : SemLoc sig) (h : ∀ p ∈ W1, p ∈ W ∨ p.2 = none) :
    ∀ p ∈ insert (sm, (default : HIx 1)) W1, p ∈ W ∨ p.2 = none := by
  intro p hp
  rcases Finset.mem_insert.mp hp with hp | hp
  · exact .inr (hp ▸ rfl)
  · exact h p hp

end Cert.Proof.KB

end
-- ==== Proof.Bits.TileInv.lean ====
/-
  One tile's fetching loop, stated: what a fetched chunk holds (vector `n` of chunk `j` is vector `625 j + n` of the
  tile's rows, and likewise of its segment numbers), what the tile's row of the accumulators' array holds once the
  accumulator has been copied into it, and the loop's invariant: before trip `t` the accumulator has taken in `1250 t`
  vectors, the first pair of buffers is being filled with chunk `2t` and the second with chunk `2t + 1` (each pair's two
  copies counted on the pair's one semaphore), and every other chunk is held.
-/
import proofs.«203046_g35227321762133_cont_8to1_b_835_12_alg».proof.Proof.Bits.TileRes

noncomputable section

namespace Cert.Proof.KB

open Cert.Kernel Cert.Kernel.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [hK : Cert.Kernel.Facts]
variable (m : (ℓ : Loc nD τ sig) → Buf (Elt F) ℓ) (d : Dev nD) (L : grid0.Coords)

/-! ## What a fetched chunk holds -/

/-- Vector `n` of chunk `j` of tile `w`'s rows is vector `625 j + n` of the tile; -/
theorem xread_vec (w : Fin 32) (j : Fin 20) (off : Fin S6400000.rank → Nat) (h : ∀ a, off a + S10000.size a ≤ S6400000.size a)
    (heq : off = chunkOff w j) (n : Fin 625) :
    vecOf (F := F) (e := .f32) ((xSl off h).view.read (Elt F) (xf m d)) n
      = xVec (F := F) (xf m d) w ⟨625 * j.val + n.val, by have := j.isLt; have := n.isLt; omega⟩ := by
  subst heq
  funext l
  unfold vecOf xVec
  rw [View.read_apply]
  refine (cast_eq _ _).trans (congrArg (xf m d) ?_)
  funext a
  apply Fin.ext
  match a with
  | ⟨0, _⟩ =>
    show (200000 * w.val + 10000 * j.val) + 1 * (16 * n.val + (l 0).val) = w.val * 200000 + (625 * j.val + n.val) * 16 + (l 0).val
    omega

/-- likewise of its segment numbers. -/
theorem bread_vec (w : Fin 32) (j : Fin 20) (off : Fin S6400000.rank → Nat) (h : ∀ a, off a + S10000.size a ≤ S6400000.size a)
    (heq : off = chunkOff w j) (n : Fin 625) :
    vecOf (F := F) (e := .i32) ((bSl off h).view.read (Elt F) (bt m d)) n
      = bVec (bt m d) w ⟨625 * j.val + n.val, by have := j.isLt; have := n.isLt; omega⟩ := by
  subst heq
  funext l
  unfold vecOf bVec
  rw [View.read_apply]
  refine (cast_eq _ _).trans (congrArg (bt m d) ?_)
  funext a
  apply Fin.ext
  match a with
  | ⟨0, _⟩ =>
    show (200000 * w.val + 10000 * j.val) + 1 * (16 * n.val + (l 0).val) = w.val * 200000 + (625 * j.val + n.val) * 16 + (l 0).val
    omega

/-- The same of any contents equal to the chunk's read, the vector numbered from `n0 = 625 j`. -/
theorem xvec_of (w : Fin 32) (j : Fin 20) (off : Fin S6400000.rank → Nat) (h : ∀ a, off a + S10000.size a ≤ S6400000.size a)
    (heq : off = chunkOff w j) (c : Vec F S10000 .f32) (hc : c = (xSl off h).view.read (Elt F) (xf m d))
    (n0 : Nat) (hn0 : n0 = 625 * j.val) (n : Fin 625) :
    vecOf (F := F) (e := .f32) c n = xVec (F := F) (xf m d) w ⟨n0 + n.val, by have := j.isLt; have := n.isLt; omega⟩ := by
  subst hc; subst hn0; exact xread_vec m d w j off h heq n
theorem bvec_of (w : Fin 32) (j : Fin 20) (off : Fin S6400000.rank → Nat) (h : ∀ a, off a + S10000.size a ≤ S6400000.size a)
    (heq : off = chunkOff w j) (c : Vec F S10000 .i32) (hc : c = (bSl off h).view.read (Elt F) (bt m d))
    (n0 : Nat) (hn0 : n0 = 625 * j.val) (n : Fin 625) :
    vecOf (F := F) (e := .i32) c n = bVec (bt m d) w ⟨n0 + n.val, by have := j.isLt; have := n.isLt; omega⟩ := by
  subst hc; subst hn0; exact bread_vec m d w j off h heq n

/-- The same of a buffer the chunk's copy has landed in, whatever it held before. -/
theorem hx_s0 (w : Fin 32) (j : Fin 20) (off : Fin S6400000.rank → Nat) (h : ∀ a, off a + S10000.size a ≤ S6400000.size a)
    (heq : off = chunkOff w j) (g : Buf (Elt F) ((thr d L).loc cc0_scratch0)) (n0 : Nat) (hn0 : n0 = 625 * j.val) (n : Fin 625) :
    vecOf (F := F) (e := .f32) ((s0).view.write (Elt F) g (ReadAs.same.apply ((xSl off h).view.read (Elt F) (xf m d))) Finset.univ) n
      = xVec (F := F) (xf m d) w ⟨n0 + n.val, by have := j.isLt; have := n.isLt; omega⟩ :=
  xvec_of m d w j off h heq _ (View.write_whole_univ cc0_scratch0 g _) n0 hn0 n
theorem hx_s1 (w : Fin 32) (j : Fin 20) (off : Fin S6400000.rank → Nat) (h : ∀ a, off a + S10000.size a ≤ S6400000.size a)
    (heq : off = chunkOff w j) (g : Buf (Elt F) ((thr d L).loc cc0_scratch1)) (n0 : Nat) (hn0 : n0 = 625 * j.val) (n : Fin 625) :
    vecOf (F := F) (e := .f32) ((s1).view.write (Elt F) g (ReadAs.same.apply ((xSl off h).view.read (Elt F) (xf m d))) Finset.univ) n
      = xVec (F := F) (xf m d) w ⟨n0 + n.val, by have := j.isLt; have := n.isLt; omega⟩ :=
  xvec_of m d w j off h heq _ (View.write_whole_univ cc0_scratch1 g _) n0 hn0 n
theorem hb_s2 (w : Fin 32) (j : Fin 20) (off : Fin S6400000.rank → Nat) (h : ∀ a, off a + S10000.size a ≤ S6400000.size a)
    (heq : off = chunkOff w j) (g : Buf (Elt F) ((thr d L).loc cc0_scratch2)) (n0 : Nat) (hn0 : n0 = 625 * j.val) (n : Fin 625) :
    vecOf (F := F) (e := .i32) ((s2).view.write (Elt F) g (ReadAs.same.apply ((bSl off h).view.read (Elt F) (bt m d))) Finset.univ) n
      = bVec (bt m d) w ⟨n0 + n.val, by have := j.isLt; have := n.isLt; omega⟩ :=
  bvec_of m d w j off h heq _ (View.write_whole_univ cc0_scratch2 g _) n0 hn0 n
theorem hb_s3 (w : Fin 32) (j : Fin 20) (off : Fin S6400000.rank → Nat) (h : ∀ a, off a + S10000.size a ≤ S6400000.size a)
    (heq : off = chunkOff w j) (g : Buf (Elt F) ((thr d L).loc cc0_scratch3)) (n0 : Nat) (hn0 : n0 = 625 * j.val) (n : Fin 625) :
    vecOf (F := F) (e := .i32) ((s3).view.write (Elt F) g (ReadAs.same.apply ((bSl off h).view.read (Elt F) (bt m d))) Finset.univ) n
      = bVec (bt m d) w ⟨n0 + n.val, by have := j.isLt; have := n.isLt; omega⟩ :=
  bvec_of m d w j off h heq _ (View.write_whole_univ cc0_scratch3 g _) n0 hn0 n

/-- Row `w` of the finished accumulators is tile `w`'s accumulator after all its vectors. -/
theorem part_row (w : Fin 32) (p : Fin 65536) :
    partBuf (F := F) m d (ix2 w p) = accAt (F := F) (xf m d) (bt m d) w 12500 (ix1 p) := rfl

/-- The tile's row after the accumulator's copy has landed in it is the finished accumulators' row. -/
theorem row_written (fp : Buf (Elt F) (pLoc d)) (w : Fin 32) (off : Fin S32x65536.rank → Nat)
    (h : ∀ a, off a + S1x65536.size a ≤ S32x65536.size a) (heq : off = ![w.val, 0])
    (v : Vec F S65536 .f32) (hv : v = accAt (F := F) (xf m d) (bt m d) w 12500) :
    ∀ i ∈ prowSet w, ((pSl off h).view.writes (Elt F) fp [⟨Rect.whole S65536, v⟩]) i = partBuf m d i := by
  subst heq; subst hv
  intro i hi
  have hi' : i ∈ (pSl ![w.val, 0] h).view.set := by rw [set_pSl w _ h rfl]; exact hi
  obtain ⟨x, -, rfl⟩ := Finset.mem_map.mp hi'
  have hx : (pSl ![w.val, 0] h).view.emb x = ix2 w (x 0) := by
    show (prowRect w).emb (Shape.reshapeEquiv _ x) = _
    rw [Shape.reshapeEquiv_cons_one]
    funext a; apply Fin.ext
    match a with
    | ⟨0, _⟩ => show w.val + 1 * 0 = w.val; omega
    | ⟨1, _⟩ => show 0 + 1 * (x 0).val = (x 0).val; omega
  have e := View.write_univ_eq_writes_whole (Val := Elt F) (pSl ![w.val, 0] h).view fp [] (accAt (F := F) (xf m d) (bt m d) w 12500)
  refine (congrFun e.symm _).trans ?_
  rw [View.writes_nil, View.write_emb_of_mem _ _ (Finset.mem_univ x)]
  refine (cast_eq _ _).trans ?_
  rw [hx]
  exact ((part_row m d w (x 0)).trans (congrArg (accAt (F := F) (xf m d) (bt m d) w 12500) (eq_ix1 x).symm)).symm

/-! ## The fetching loop's invariant -/

/-- What the two copies of a pair deliver: the buffer holding the chunk's read, and the chunk back. -/
abbrev dlv5 (off : Fin S6400000.rank → Nat) (h : ∀ a, off a + S10000.size a ≤ S6400000.size a)
    (f0 : Buf (Elt F) ((thr d L).loc cc0_scratch0)) (f2 : Buf (Elt F) ((thr d L).loc cc0_scratch2)) : List (sProp 𝕄) :=
  [iprop(((s0).view.loc (thr d L) ↦{fullShare} (s0).view.write (Elt F) f0 (ReadAs.same.apply ((xSl off h).view.read (Elt F) (xf m d))) Finset.univ)
      ∗ ((xSl off h).view.loc (thr d L) ↦[(xSl off h).view.set]{fullShare} xf m d)),
   iprop(((s2).view.loc (thr d L) ↦{fullShare} (s2).view.write (Elt F) f2 (ReadAs.same.apply ((bSl off h).view.read (Elt F) (bt m d))) Finset.univ)
      ∗ ((bSl off h).view.loc (thr d L) ↦[(bSl off h).view.set]{fullShare} bt m d))]
abbrev dlv6 (off : Fin S6400000.rank → Nat) (h : ∀ a, off a + S10000.size a ≤ S6400000.size a)
    (f1 : Buf (Elt F) ((thr d L).loc cc0_scratch1)) (f3 : Buf (Elt F) ((thr d L).loc cc0_scratch3)) : List (sProp 𝕄) :=
  [iprop(((s1).view.loc (thr d L) ↦{fullShare} (s1).view.write (Elt F) f1 (ReadAs.same.apply ((xSl off h).view.read (Elt F) (xf m d))) Finset.univ)
      ∗ ((xSl off h).view.loc (thr d L) ↦[(xSl off h).view.set]{fullShare} xf m d)),
   iprop(((s3).view.loc (thr d L) ↦{fullShare} (s3).view.write (Elt F) f3 (ReadAs.same.apply ((bSl off h).view.read (Elt F) (bt m d))) Finset.univ)
      ∗ ((bSl off h).view.loc (thr d L) ↦[(bSl off h).view.set]{fullShare} bt m d))]

/-- The first pair in flight with chunk `j`, the second likewise; -/
def fl5 (j : Fin 20) : sProp 𝕄 :=
  iprop(∃ (off : Fin S6400000.rank → Nat) (h : ∀ a, off a + S10000.size a ≤ S6400000.size a)
      (f0 : Buf (Elt F) ((thr d L).loc cc0_scratch0)) (f2 : Buf (Elt F) ((thr d L).loc cc0_scratch2)),
    ⌜off = chunkOff (wOf L) j⌝ ∗
    Transfers.Batched (countersEmb : UEmb Counters 𝕄) (thr d L) (SemLoc.dma cc0_scratch5.sem) (default : HIx 1) 320000 2 (dlv5 m d L off h f0 f2) 0)
def fl6 (j : Fin 20) : sProp 𝕄 :=
  iprop(∃ (off : Fin S6400000.rank → Nat) (h : ∀ a, off a + S10000.size a ≤ S6400000.size a)
      (f1 : Buf (Elt F) ((thr d L).loc cc0_scratch1)) (f3 : Buf (Elt F) ((thr d L).loc cc0_scratch3)),
    ⌜off = chunkOff (wOf L) j⌝ ∗
    Transfers.Batched (countersEmb : UEmb Counters 𝕄) (thr d L) (SemLoc.dma cc0_scratch6.sem) (default : HIx 1) 320000 2 (dlv6 m d L off h f1 f3) 0)
/-- and each pair at rest: its buffers at some contents, its semaphore at zero. -/
def rest5 : sProp 𝕄 :=
  iprop((∃ f, (thr d L).loc cc0_scratch0 ↦{fullShare} f) ∗ (∃ f, (thr d L).loc cc0_scratch2 ↦{fullShare} f) ∗ semVal (c5cell d L) 0)
def rest6 : sProp 𝕄 :=
  iprop((∃ f, (thr d L).loc cc0_scratch1 ↦{fullShare} f) ∗ (∃ f, (thr d L).loc cc0_scratch3 ↦{fullShare} f) ∗ semVal (c6cell d L) 0)

/-- Before trip `t`: the first pair is fetching chunk `2t` and the second chunk `2t + 1` (after the last trip both are at rest). -/
def pair5 (t : Nat) : sProp 𝕄 := if h : 2 * t < 20 then fl5 m d L ⟨2 * t, h⟩ else rest5 d L
def pair6 (t : Nat) : sProp 𝕄 := if h : 2 * t + 1 < 20 then fl6 m d L ⟨2 * t + 1, h⟩ else rest6 d L

/-- Before trip `t` of the fetching loop: the accumulator after `1250 t` vectors, the two pairs as above, the chunks
    before `2t` and from `2t + 2` on held, the thread's debts with its waits at index `none` recorded. -/
def inv2 (O : CellTallies nD τ sig (HIx 1)) (W : Waits sig (HIx 1)) (t : Nat) (_ : PUnit) : sProp 𝕄 :=
  iprop(Transfers.MayWaits (thr d L) (none : HIx 1) O
    ∗ ((s4).view.loc (thr d L) ↦{fullShare} (accAt (F := F) (xf m d) (bt m d) (wOf L) (1250 * t) : Buf (Elt F) ((thr d L).loc cc0_scratch4)))
    ∗ pair5 m d L t ∗ pair6 m d L t
    ∗ bigSep (Transfers.issued (2 * t)) (xChunk m d (wOf L)) ∗ bigSep (Transfers.pending (2 * t + 2)) (xChunk m d (wOf L))
    ∗ bigSep (Transfers.issued (2 * t)) (bChunk m d (wOf L)) ∗ bigSep (Transfers.pending (2 * t + 2)) (bChunk m d (wOf L))
    ∗ ∃ W', ⌜∀ p ∈ W', p ∈ W ∨ p.2 = none⌝ ∗ owes (thr d L) O W')

/-- The accumulator holding the tile's state after `n` vectors. -/
abbrev accPts (n : Nat) : sProp 𝕄 :=
  (s4).view.loc (thr d L) ↦{fullShare} (accAt (F := F) (xf m d) (bt m d) (wOf L) n : Buf (Elt F) ((thr d L).loc cc0_scratch4))

theorem pair5_lt (t : Nat) (h : 2 * t < 20) : pair5 m d L t = fl5 m d L ⟨2 * t, h⟩ := dif_pos h
theorem pair5_ge (t : Nat) (h : ¬ 2 * t < 20) : pair5 m d L t = rest5 (F := F) d L := dif_neg h
theorem pair6_lt (t : Nat) (h : 2 * t + 1 < 20) : pair6 m d L t = fl6 m d L ⟨2 * t + 1, h⟩ := dif_pos h
theorem pair6_ge (t : Nat) (h : ¬ 2 * t + 1 < 20) : pair6 m d L t = rest6 (F := F) d L := dif_neg h

/-- After the last trip: the accumulator finished, both pairs at rest, every chunk held. -/
theorem inv2_last (O : CellTallies nD τ sig (HIx 1)) (W : Waits sig (HIx 1)) (x : PUnit) :
    inv2 m d L O W (Scf.trips k0_t2_loop.lb k0_t2_loop.ub k0_t2_loop.st) x
      = iprop(Transfers.MayWaits (thr d L) (none : HIx 1) O ∗ accPts m d L 12500 ∗ rest5 d L ∗ rest6 d L
          ∗ bigSep Finset.univ (xChunk m d (wOf L)) ∗ emp ∗ bigSep Finset.univ (bChunk m d (wOf L)) ∗ emp
          ∗ ∃ W', ⌜∀ p ∈ W', p ∈ W ∨ p.2 = none⌝ ∗ owes (thr d L) O W') := by
  rw [show Scf.trips k0_t2_loop.lb k0_t2_loop.ub k0_t2_loop.st = 10 from trips2]
  unfold inv2
  rw [pair5_ge m d L 10 (by omega), pair6_ge m d L 10 (by omega), show 2 * 10 = 20 from rfl, iss_all, iss_all,
    pend_end _ _ (by omega), pend_end _ _ (by omega)]

end Cert.Proof.KB

end
-- ==== Proof.Bits.TileBody.lean ====
/-
  One tile's whole task: zero the accumulator, fetch the tile's twenty chunks of rows and segment numbers two pairs of
  buffers at a time (each pair's two copies waited for together before either buffer is read, the next chunk fetched into
  a pair only after the chunk in it has been added), add every chunk into the accumulator, and copy the accumulator out
  to the tile's row of the accumulators' array.
-/
import proofs.«203046_g35227321762133_cont_8to1_b_835_12_alg».proof.Proof.Bits.TileLoops
import proofs.«203046_g35227321762133_cont_8to1_b_835_12_alg».proof.Proof.Bits.TileInv

noncomputable section

namespace Cert.Proof.KB

open Cert.Kernel Cert.Kernel.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [hK : Cert.Kernel.Facts]
variable (m : (ℓ : Loc nD τ sig) → Buf (Elt F) ℓ) (d : Dev nD) (L : grid0.Coords)

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goRes m d (wOf L)
        ∗ scopedBufs (thr d L) ∗ scopedSems0 (thr d L) ∗ owes (thr d L) O W)
      ⊢ wp frame (wpE (defs₀ (F := F)) 𝒱₀ (thr d L) none) Set.univ
          (cc0__seg_partial L xV (Memref.isWhole_whole _) bV (Memref.isWhole_whole _) pV (Memref.isWhole_whole _)
            s0 (Memref.isWhole_whole _) s1 (Memref.isWhole_whole _) s2 (Memref.isWhole_whole _) s3 (Memref.isWhole_whole _) s4 (Memref.isWhole_whole _)
            cc0_scratch5 cc0_scratch6 cc0_scoped0)
          fun _ => iprop(tdRes m d (wOf L) ∗ scopedBufs (thr d L) ∗ scopedSems0 (thr d L)
            ∗ ∃ W', ⌜∀ p ∈ W', p ∈ W ∨ p.2 = none⌝ ∗ owes (thr d L) O W') := by
  simp only [cc0__seg_partial_eq_skeleton]; unfold cc0__seg_partial_skel
  rw [(K (F := F)).scopedBufs_V hF d (cV L) (jV L), SparseCore.Cfg.scopedSems0_V (Val := Elt F) d (cV L) (jV L), ownSems0_V, ownBufs_V]
  unfold goRes tdRes
  iintro ⟨#Hlv, -, ⟨Hxs, Hbs, %fp, Hp⟩, ⟨⟨%f0, Hs0⟩, ⟨%f1, Hs1⟩, ⟨%f2, Hs2⟩, ⟨%f3, Hs3⟩, ⟨%f4, Hs4⟩, Hbufs⟩, ⟨Hsem5, Hsem6, HsemO, Hsems⟩, HO⟩
  ihave Hmw := ((K (F := F)).mayWaits_none (thr := thr d L) hO) $$ Hlv
  -- the accumulator zeroed
  iapply (zero_loop (F := F) m d L f4)
  isplitl [Hs4]; · iexact Hs4
  iintro Hs4
  -- the first two chunks' fetches: each pair's two copies on the pair's semaphore
  have plan5 : Transfers.BatchOf (thr d L) (SemLoc.dma (sig := sig) cc0_scratch5.sem) 2 := trivial
  have plan6 : Transfers.BatchOf (thr d L) (SemLoc.dma (sig := sig) cc0_scratch6.sem) 2 := trivial
  ihave Hxs' := (Entails.of_eq (chunks_open (F := F) (xChunk m d (wOf L)))) $$ Hxs
  ihave Hbs' := (Entails.of_eq (chunks_open (F := F) (bChunk m d (wOf L)))) $$ Hbs
  icases Hxs' with ⟨Hx0, Hx1, Hxs⟩
  icases Hbs' with ⟨Hb0, Hb1, Hbs⟩
  ihave Hx0' := (Entails.of_eq (pts_xSl (F := F) d L (wOf L) 0 _ (k0_off2_inb L 0) (off_first0 L) _).symm) $$ Hx0
  ihave Hb0' := (Entails.of_eq (pts_bSl (F := F) d L (wOf L) 0 _ (k0_off2_inb L 0) (off_first0 L) _).symm) $$ Hb0
  ihave Hx1' := (Entails.of_eq (pts_xSl (F := F) d L (wOf L) 1 _ (k0_off2_inb L 1) (off_first1 L) _).symm) $$ Hx1
  ihave Hb1' := (Entails.of_eq (pts_bSl (F := F) d L (wOf L) 1 _ (k0_off2_inb L 1) (off_first1 L) _).symm) $$ Hb1
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  ihave Hs3' := (Entails.of_eq (pts_s3 (F := F) d L _).symm) $$ Hs3
  sl_exec
  sl_for (inv2 m d L O W) $$ [Hmw Hs4 Hsem5 Hsem6 Hxs Hbs HO]
  case region =>
    intro k _
    have hk : k.val < 10 := trips2 ▸ k.isLt
    unfold inv2
    by_cases h9 : k.val < 9
    · have k0_h1 : k0_cond1 k = 1#1 := (cond1_iff k).mpr h9
      have k0_h2 : k0_cond2 k = 1#1 := (cond2_iff k).mpr h9
      have h22 : 2 * k.val + 2 < 20 := by omega
      have h23 : 2 * k.val + 3 < 20 := by omega

      iintro ⟨#Hmw, Hs4, Hp5, Hp6, Hxi, Hxp, Hbi, Hbp, %W', %hW', HO⟩
      ihave Hp5' := (Entails.of_eq (pair5_lt m d L k.val (by omega))) $$ Hp5
      ihave Hp6' := (Entails.of_eq (pair6_lt m d L k.val (by omega))) $$ Hp6
      unfold fl5 fl6
      icases Hp5' with ⟨%off5, %h5, %g0, %g2, %e5, HB5⟩
      icases Hp6' with ⟨%off6, %h6, %g1, %g3, %e6, HB6⟩
      have plan5 : Transfers.BatchOf (thr d L) (SemLoc.dma (sig := sig) cc0_scratch5.sem) 2 := trivial
      have plan6 : Transfers.BatchOf (thr d L) (SemLoc.dma (sig := sig) cc0_scratch6.sem) 2 := trivial
      -- the first pair's two waits, then its chunk is added
      sl_exec
      iapply (add_chunk0 (F := F) m d L hpre _ _ (1250 * k.val) (by omega)
        (fun n => hx_s0 m d L (wOf L) ⟨2 * k.val, by omega⟩ off5 h5 e5 g0 (1250 * k.val) (by show 1250 * k.val = 625 * (2 * k.val); omega) n)
        (fun n => hb_s2 m d L (wOf L) ⟨2 * k.val, by omega⟩ off5 h5 e5 g2 (1250 * k.val) (by show 1250 * k.val = 625 * (2 * k.val); omega) n))
      isplitl [HB5_dst0]; · iexact HB5_dst0
      isplitl [HB5_dst1]; · iexact HB5_dst1
      isplitl [Hs4]; · iexact Hs4
      iintro ⟨Hs0, Hs2, Hs4⟩
      -- chunk `2k` goes back among those done, chunk `2k + 2` is taken for the pair's next fetch
      ihave Hx2k := (Entails.of_eq (pts_xSl (F := F) d L (wOf L) ⟨2 * k.val, by omega⟩ off5 h5 e5 _)) $$ HB5_src0
      ihave Hb2k := (Entails.of_eq (pts_bSl (F := F) d L (wOf L) ⟨2 * k.val, by omega⟩ off5 h5 e5 _)) $$ HB5_src1
      ihave Hxp' := (Entails.of_eq (pend_step' (F := F) (xChunk m d (wOf L)) (2 * k.val + 2) (2 * k.val + 3) (by omega) rfl)) $$ Hxp
      icases Hxp' with ⟨Hxn, Hxp⟩
      ihave Hbp' := (Entails.of_eq (pend_step' (F := F) (bChunk m d (wOf L)) (2 * k.val + 2) (2 * k.val + 3) (by omega) rfl)) $$ Hbp
      icases Hbp' with ⟨Hbn, Hbp⟩
      ihave Hxn' := (Entails.of_eq (pts_xSl (F := F) d L (wOf L) ⟨2 * k.val + 2, h22⟩ _ (k0_off29_inb L k k0_h1) (off_next0' L k _ rfl) _).symm) $$ Hxn
      ihave Hbn' := (Entails.of_eq (pts_bSl (F := F) d L (wOf L) ⟨2 * k.val + 2, h22⟩ _ (k0_off29_inb L k k0_h1) (off_next0' L k _ rfl) _).symm) $$ Hbn
      -- the pair's next fetch, the second pair's two waits, then its chunk is added
      sl_exec
      iapply (add_chunk1 (F := F) m d L hpre _ _ (1250 * k.val + 625) (by omega)
        (fun n => hx_s1 m d L (wOf L) ⟨2 * k.val + 1, by omega⟩ off6 h6 e6 g1 (1250 * k.val + 625) (by show 1250 * k.val + 625 = 625 * (2 * k.val + 1); omega) n)
        (fun n => hb_s3 m d L (wOf L) ⟨2 * k.val + 1, by omega⟩ off6 h6 e6 g3 (1250 * k.val + 625) (by show 1250 * k.val + 625 = 625 * (2 * k.val + 1); omega) n))
      isplitl [HB6_dst0]; · iexact HB6_dst0
      isplitl [HB6_dst1]; · iexact HB6_dst1
      isplitl [Hs4]; · iexact Hs4
      iintro ⟨Hs1, Hs3, Hs4⟩
      ihave Hx2k1 := (Entails.of_eq (pts_xSl (F := F) d L (wOf L) ⟨2 * k.val + 1, by omega⟩ off6 h6 e6 _)) $$ HB6_src0
      ihave Hb2k1 := (Entails.of_eq (pts_bSl (F := F) d L (wOf L) ⟨2 * k.val + 1, by omega⟩ off6 h6 e6 _)) $$ HB6_src1
      ihave Hxp' := (Entails.of_eq (pend_step' (F := F) (xChunk m d (wOf L)) (2 * k.val + 3) (2 * (k.val + 1) + 2) (by omega) (by omega))) $$ Hxp
      icases Hxp' with ⟨Hxn, Hxp⟩
      ihave Hbp' := (Entails.of_eq (pend_step' (F := F) (bChunk m d (wOf L)) (2 * k.val + 3) (2 * (k.val + 1) + 2) (by omega) (by omega))) $$ Hbp
      icases Hbp' with ⟨Hbn, Hbp⟩
      ihave Hxn'' := (Entails.of_eq (pts_xSl (F := F) d L (wOf L) ⟨2 * k.val + 3, h23⟩ _ (k0_off55_inb L k k0_h2) (off_next1' L k _ rfl) _).symm) $$ Hxn
      ihave Hbn'' := (Entails.of_eq (pts_bSl (F := F) d L (wOf L) ⟨2 * k.val + 3, h23⟩ _ (k0_off55_inb L k k0_h2) (off_next1' L k _ rfl) _).symm) $$ Hbn
      sl_exec
      sl_step
      -- the invariant before the next trip
      isplitr; · iexact Hmw
      isplitl [Hs4]
      · iapply (Entails.of_eq (congrArg (accPts m d L) (show 1250 * k.val + 625 + 625 = 1250 * (k.val + 1) by omega))); iexact Hs4
      isplitl [HB5]
      · iapply (Entails.of_eq (pair5_lt m d L (k.val + 1) (by omega)).symm)
        unfold fl5
        iexists (k0_off29 L k), (k0_off29_inb L k k0_h1), _, _
        isplitr; · ipureintro; exact off_next0' L k _ (by show 2 * (k.val + 1) = 2 * k.val + 2; omega)
        iexact HB5
      isplitl [HB6]
      · iapply (Entails.of_eq (pair6_lt m d L (k.val + 1) (by omega)).symm)
        unfold fl6
        iexists (k0_off55 L k), (k0_off55_inb L k k0_h2), _, _
        isplitr; · ipureintro; exact off_next1' L k _ (by show 2 * (k.val + 1) + 1 = 2 * k.val + 3; omega)
        iexact HB6
      isplitl [Hxi Hx2k Hx2k1]
      · iapply (Entails.of_eq (iss_step' (F := F) (xChunk m d (wOf L)) (2 * k.val + 1) (2 * (k.val + 1)) (by omega) (by omega)).symm)
        isplitl [Hx2k1]; · iexact Hx2k1
        iapply (Entails.of_eq (iss_step' (F := F) (xChunk m d (wOf L)) (2 * k.val) (2 * k.val + 1) (by omega) rfl).symm)
        isplitl [Hx2k]; · iexact Hx2k
        iexact Hxi
      isplitl [Hxp]
      · iexact Hxp
      isplitl [Hbi Hb2k Hb2k1]
      · iapply (Entails.of_eq (iss_step' (F := F) (bChunk m d (wOf L)) (2 * k.val + 1) (2 * (k.val + 1)) (by omega) (by omega)).symm)
        isplitl [Hb2k1]; · iexact Hb2k1
        iapply (Entails.of_eq (iss_step' (F := F) (bChunk m d (wOf L)) (2 * k.val) (2 * k.val + 1) (by omega) rfl).symm)
        isplitl [Hb2k]; · iexact Hb2k
        iexact Hbi
      isplitl [Hbp]
      · iexact Hbp
      iexists (insert (SemLoc.dma cc0_scratch6.sem, (default : HIx 1)) (insert (SemLoc.dma cc0_scratch6.sem, (default : HIx 1)) (insert (SemLoc.dma cc0_scratch5.sem, (default : HIx 1)) (insert (SemLoc.dma cc0_scratch5.sem, (default : HIx 1)) W')))); isplitr
      · ipureintro; exact waits_ins _ (waits_ins _ (waits_ins _ (waits_ins _ hW')))
      · iexact HO
    · have k0_h1 : ¬ k0_cond1 k = 1#1 := fun h => h9 ((cond1_iff k).mp h)
      have k0_h2 : ¬ k0_cond2 k = 1#1 := fun h => h9 ((cond2_iff k).mp h)

      iintro ⟨#Hmw, Hs4, Hp5, Hp6, Hxi, Hxp, Hbi, Hbp, %W', %hW', HO⟩
      ihave Hp5' := (Entails.of_eq (pair5_lt m d L k.val (by omega))) $$ Hp5
      ihave Hp6' := (Entails.of_eq (pair6_lt m d L k.val (by omega))) $$ Hp6
      unfold fl5 fl6
      icases Hp5' with ⟨%off5, %h5, %g0, %g2, %e5, HB5⟩
      icases Hp6' with ⟨%off6, %h6, %g1, %g3, %e6, HB6⟩
      have plan5 : Transfers.BatchOf (thr d L) (SemLoc.dma (sig := sig) cc0_scratch5.sem) 2 := trivial
      have plan6 : Transfers.BatchOf (thr d L) (SemLoc.dma (sig := sig) cc0_scratch6.sem) 2 := trivial
      -- the first pair's two waits, then its chunk is added
      sl_exec
      iapply (add_chunk0 (F := F) m d L hpre _ _ (1250 * k.val) (by omega)
        (fun n => hx_s0 m d L (wOf L) ⟨2 * k.val, by omega⟩ off5 h5 e5 g0 (1250 * k.val) (by show 1250 * k.val = 625 * (2 * k.val); omega) n)
        (fun n => hb_s2 m d L (wOf L) ⟨2 * k.val, by omega⟩ off5 h5 e5 g2 (1250 * k.val) (by show 1250 * k.val = 625 * (2 * k.val); omega) n))
      isplitl [HB5_dst0]; · iexact HB5_dst0
      isplitl [HB5_dst1]; · iexact HB5_dst1
      isplitl [Hs4]; · iexact Hs4
      iintro ⟨Hs0, Hs2, Hs4⟩
      -- chunk `2k` goes back among those done
      ihave Hx2k := (Entails.of_eq (pts_xSl (F := F) d L (wOf L) ⟨2 * k.val, by omega⟩ off5 h5 e5 _)) $$ HB5_src0
      ihave Hb2k := (Entails.of_eq (pts_bSl (F := F) d L (wOf L) ⟨2 * k.val, by omega⟩ off5 h5 e5 _)) $$ HB5_src1
      -- the second pair's two waits, then its chunk is added
      sl_exec
      iapply (add_chunk1 (F := F) m d L hpre _ _ (1250 * k.val + 625) (by omega)
        (fun n => hx_s1 m d L (wOf L) ⟨2 * k.val + 1, by omega⟩ off6 h6 e6 g1 (1250 * k.val + 625) (by show 1250 * k.val + 625 = 625 * (2 * k.val + 1); omega) n)
        (fun n => hb_s3 m d L (wOf L) ⟨2 * k.val + 1, by omega⟩ off6 h6 e6 g3 (1250 * k.val + 625) (by show 1250 * k.val + 625 = 625 * (2 * k.val + 1); omega) n))
      isplitl [HB6_dst0]; · iexact HB6_dst0
      isplitl [HB6_dst1]; · iexact HB6_dst1
      isplitl [Hs4]; · iexact Hs4
      iintro ⟨Hs1, Hs3, Hs4⟩
      ihave Hx2k1 := (Entails.of_eq (pts_xSl (F := F) d L (wOf L) ⟨2 * k.val + 1, by omega⟩ off6 h6 e6 _)) $$ HB6_src0
      ihave Hb2k1 := (Entails.of_eq (pts_bSl (F := F) d L (wOf L) ⟨2 * k.val + 1, by omega⟩ off6 h6 e6 _)) $$ HB6_src1
      sl_exec
      sl_step
      -- the invariant before the next trip
      isplitr; · iexact Hmw
      isplitl [Hs4]
      · iapply (Entails.of_eq (congrArg (accPts m d L) (show 1250 * k.val + 625 + 625 = 1250 * (k.val + 1) by omega))); iexact Hs4
      isplitl [Hs0 Hs2 HB5]
      · iapply (Entails.of_eq (pair5_ge m d L (k.val + 1) (by omega)).symm)
        unfold rest5
        isplitl [Hs0]; · iexists _; iexact Hs0
        isplitl [Hs2]; · iexists _; iexact Hs2
        iexact HB5
      isplitl [Hs1 Hs3 HB6]
      · iapply (Entails.of_eq (pair6_ge m d L (k.val + 1) (by omega)).symm)
        unfold rest6
        isplitl [Hs1]; · iexists _; iexact Hs1
        isplitl [Hs3]; · iexists _; iexact Hs3
        iexact HB6
      isplitl [Hxi Hx2k Hx2k1]
      · iapply (Entails.of_eq (iss_step' (F := F) (xChunk m d (wOf L)) (2 * k.val + 1) (2 * (k.val + 1)) (by omega) (by omega)).symm)
        isplitl [Hx2k1]; · iexact Hx2k1
        iapply (Entails.of_eq (iss_step' (F := F) (xChunk m d (wOf L)) (2 * k.val) (2 * k.val + 1) (by omega) rfl).symm)
        isplitl [Hx2k]; · iexact Hx2k
        iexact Hxi
      isplitl [Hxp]
      · iapply (Entails.of_eq ((pend_end (F := F) (xChunk m d (wOf L)) (2 * k.val + 2) (by omega)).trans (pend_end (F := F) (xChunk m d (wOf L)) (2 * (k.val + 1) + 2) (by omega)).symm)); iexact Hxp
      isplitl [Hbi Hb2k Hb2k1]
      · iapply (Entails.of_eq (iss_step' (F := F) (bChunk m d (wOf L)) (2 * k.val + 1) (2 * (k.val + 1)) (by omega) (by omega)).symm)
        isplitl [Hb2k1]; · iexact Hb2k1
        iapply (Entails.of_eq (iss_step' (F := F) (bChunk m d (wOf L)) (2 * k.val) (2 * k.val + 1) (by omega) rfl).symm)
        isplitl [Hb2k]; · iexact Hb2k
        iexact Hbi
      isplitl [Hbp]
      · iapply (Entails.of_eq ((pend_end (F := F) (bChunk m d (wOf L)) (2 * k.val + 2) (by omega)).trans (pend_end (F := F) (bChunk m d (wOf L)) (2 * (k.val + 1) + 2) (by omega)).symm)); iexact Hbp
      iexists (insert (SemLoc.dma cc0_scratch6.sem, (default : HIx 1)) (insert (SemLoc.dma cc0_scratch6.sem, (default : HIx 1)) (insert (SemLoc.dma cc0_scratch5.sem, (default : HIx 1)) (insert (SemLoc.dma cc0_scratch5.sem, (default : HIx 1)) W')))); isplitr
      · ipureintro; exact waits_ins _ (waits_ins _ (waits_ins _ (waits_ins _ hW')))
      · iexact HO
  · unfold inv2
    isplitl [Hmw]; · iexact Hmw
    isplitl [Hs4]
    · iapply (Entails.of_eq (congrArg (accPts m d L) (show 0 = 1250 * 0 from rfl))); iexact Hs4
    isplitl [Hsem5]
    · iapply (Entails.of_eq (pair5_lt m d L 0 (by omega)).symm)
      unfold fl5
      iexists (k0_off2 L 0#32), (k0_off2_inb L 0), _, _
      isplitr; · ipureintro; exact off_first0' L _ rfl
      iexact Hsem5
    isplitl [Hsem6]
    · iapply (Entails.of_eq (pair6_lt m d L 0 (by omega)).symm)
      unfold fl6
      iexists (k0_off2 L 10000#32), (k0_off2_inb L 1), _, _
      isplitr; · ipureintro; exact off_first1' L _ rfl
      iexact Hsem6
    isplitr [Hxs Hbs HO]
    · iapply (Entails.of_eq (iss_zero (F := F) (xChunk m d (wOf L))).symm); iempintro
    isplitl [Hxs]; · iexact Hxs
    isplitr [Hbs HO]
    · iapply (Entails.of_eq (iss_zero (F := F) (bChunk m d (wOf L))).symm); iempintro
    isplitl [Hbs]; · iexact Hbs
    iexists W; isplitr
    · ipureintro; exact fun p hp => .inl hp
    · iexact HO
  iintro %_ HI
  ihave HI' := (Entails.of_eq (inv2_last m d L O W _)) $$ HI
  unfold rest5 rest6
  icases HI' with ⟨-, Hs4, ⟨⟨%g0, Hs0⟩, ⟨%g2, Hs2⟩, Hsem5⟩, ⟨⟨%g1, Hs1⟩, ⟨%g3, Hs3⟩, Hsem6⟩, Hxs, -, Hbs, -, %W', %hW', HO⟩
  -- the accumulator copied out to the tile's row
  ihave Hp' := (Entails.of_eq (pts_pSl (F := F) d L (wOf L) _ (k0_off56_inb L) (off_row L) _).symm) $$ Hp
  sl_exec
  sl_step
  -- everything is handed back
  isplitl [Hxs Hbs Hp']
  · isplitl [Hxs]; · iexact Hxs
    isplitl [Hbs]; · iexact Hbs
    ihave Hp := (Entails.of_eq (pts_pSl (F := F) d L (wOf L) _ (k0_off56_inb L) (off_row L) _)) $$ Hp'
    iapply (Entails.of_eq (pointsTo_congr (row_written m d fp (wOf L) _ (k0_off56_inb L) (off_row L) _ rfl)))
    iexact Hp
  isplitl [Hs0 Hs1 Hs2 Hs3 Hs4 Hbufs]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iapply (Entails.of_eq (pts_s4 (F := F) d L _)); iexact Hs4
    iexact Hbufs
  isplitl [Hsem5 Hsem6 HsemO Hsems]
  · isplitl [Hsem5]; · iexact Hsem5
    isplitl [Hsem6]; · iexact Hsem6
    isplitl [HsemO]; · iexact HsemO
    iexact Hsems
  iexists (insert (SemLoc.dma cc0_scoped0.sem, (default : HIx 1)) W'); isplitr
  · ipureintro; exact waits_ins _ hW'
  · iexact HO

end Cert.Proof.KB

end
-- ==== Proof.Bits.LaunchTiles.lean ====
/-
  The launch theorem's two obligations for the tiles' kernel: every tile's task, from what the call hands the tile to what
  the tile hands back (the tile's body, at the tile's grid coordinates), and how a SparseCore's share of the call's
  operands is its sixteen tiles' shares (by definition of what the call carries).
-/
import proofs.«203046_g35227321762133_cont_8to1_b_835_12_alg».proof.Proof.Bits.TileBody

noncomputable section

namespace Cert.Proof.KB

open Cert.Kernel Cert.Kernel.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [hK : Cert.Kernel.Facts]
variable (m : (ℓ : Loc nD τ sig) → Buf (Elt F) ℓ) (ρ : Dev nD → PrngReg)

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile Facts₀.hcore0 Facts₀.hsub0 (fun c s => cc0__seg_partial (coordsV c s)
          xV (Memref.isWhole_whole _) bV (Memref.isWhole_whole _) pV (Memref.isWhole_whole _)
          s0 (Memref.isWhole_whole _) s1 (Memref.isWhole_whole _) s2 (Memref.isWhole_whole _) s3 (Memref.isWhole_whole _) s4 (Memref.isWhole_whole _)
          cc0_scratch5 cc0_scratch6 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

/-- What the call carries, field by field. -/
theorem P_st (d : Dev nD) (c : Fin ((K (F := F)).nCore 0)) :
    (P m).st 0 d c = bigSep Finset.univ fun i : Fin 16 => goRes m d (tileNo (Fin.cast nCore_zero c) i) := rfl
theorem P_dn (d : Dev nD) (c : Fin ((K (F := F)).nCore 0)) :
    (P m).dn 0 d c = bigSep Finset.univ fun i : Fin 16 => tdRes m d (tileNo (Fin.cast nCore_zero c) i) := rfl
theorem P_go (d : Dev nD) (c : Fin ((K (F := F)).nCore 0)) (i : Fin ((K (F := F)).nSub 0)) :
    (P m).go 0 d c i = goRes m d (tileNo (Fin.cast nCore_zero c) (Fin.cast nSub_zero i)) := rfl
theorem P_td (d : Dev nD) (c : Fin ((K (F := F)).nCore 0)) (i : Fin ((K (F := F)).nSub 0)) :
    (P m).td 0 d c i = tdRes m d (tileNo (Fin.cast nCore_zero c) (Fin.cast nSub_zero i)) := rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  rw [P_st, P_dn, bigSep_congr fun i _ => P_go m d c i, bigSep_congr fun i _ => P_td m d c i,
    bigSep_tasks (F := F) (fun i => goRes m d (tileNo (Fin.cast nCore_zero c) i)),
    bigSep_tasks (F := F) (fun i => tdRes m d (tileNo (Fin.cast nCore_zero c) i))]
  iintro H; imodintro
  isplitl [H]; · iexact H
  iintro H; iexact H

end Cert.Proof.KB

end
-- ==== Proof.Bits.Shares.lean ====
/-
  How the arrays split among the tiles and rejoin. The 32 * 20 chunks of 10 000 consecutive rows are pairwise disjoint and
  cover the 6 400 000 rows; the 32 rows of the accumulators' array are pairwise disjoint and cover it. So an array of
  rows held whole is its chunks held tile by tile, the accumulators' array held whole is its rows, and the tiles are
  the sixteen of each of the two SparseCores.
-/
import proofs.«203046_g35227321762133_cont_8to1_b_835_12_alg».proof.Proof.Bits.LaunchTiles

noncomputable section

namespace Cert.Proof.KB

open Cert.Kernel Cert.Kernel.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [hK : Cert.Kernel.Facts]
variable (m : (ℓ : Loc nD τ sig) → Buf (Elt F) ℓ) (ρ : Dev nD → PrngReg)

/-! ## Chunks of rows -/

omit [FloatOps F] in
theorem chunkSet_eq (w : Fin 32) (j : Fin 20) : chunkSet w j = (chunkRect w j).set := by
  exact View.set_slice_whole (main_v0_scv : Ref sig .scVector) (chunkRect w j)

omit [FloatOps F] in
theorem mem_chunkSet (w : Fin 32) (j : Fin 20) (i : S6400000.Idx) :
    i ∈ chunkSet w j ↔ 200000 * w.val + 10000 * j.val ≤ (i 0).val ∧ (i 0).val < 200000 * w.val + 10000 * j.val + 10000 := by
  rw [chunkSet_eq, Rect.mem_set_unit]
  constructor
  · intro h; exact h 0
  · intro h a; match a with | ⟨0, _⟩ => exact h

omit [FloatOps F] in
theorem chunks_disjoint : ∀ t ∈ (Finset.univ : Finset (Fin 32 × Fin 20)), ∀ t' ∈ (Finset.univ : Finset (Fin 32 × Fin 20)), t ≠ t' →
    Disjoint (chunkSet t.1 t.2) (chunkSet t'.1 t'.2) := by
  intro t _ t' _ hne
  rw [Finset.disjoint_left]
  intro i hi hi'
  rw [mem_chunkSet] at hi hi'
  apply hne
  have h1 := t.1.isLt; have h2 := t.2.isLt; have h3 := t'.1.isLt; have h4 := t'.2.isLt
  have hw : t.1.val = t'.1.val := by omega
  have hj : t.2.val = t'.2.val := by omega
  exact Prod.ext (Fin.ext hw) (Fin.ext hj)

omit [FloatOps F] in
theorem chunks_cover : (Finset.univ : Finset (Fin 32 × Fin 20)).biUnion (fun t => chunkSet t.1 t.2) = (Finset.univ : Finset S6400000.Idx) := by
  ext i
  simp only [Finset.mem_biUnion, Finset.mem_univ, true_and, iff_true]
  have hi : (i 0).val < 6400000 := (i 0).isLt
  refine ⟨(⟨(i 0).val / 200000, by omega⟩, ⟨(i 0).val % 200000 / 10000, by omega⟩), ?_⟩
  rw [mem_chunkSet]
  dsimp only
  omega

omit [FloatOps F] in
/-- The flat rows held whole are their chunks, tile by tile; -/
theorem x_split (d : Dev nD) (f : Buf (Elt F) (xLoc d)) :
    (xLoc d ↦{fullShare} f : sProp 𝕄)
      = bigSep Finset.univ fun w : Fin 32 => bigSep Finset.univ fun j : Fin 20 => xLoc d ↦[chunkSet w j]{fullShare} f := by
  rw [← bigSep_univ_prod (fun t : Fin 32 × Fin 20 => (xLoc d ↦[chunkSet t.1 t.2]{fullShare} f : sProp 𝕄)),
    ← pointsTo_biUnion Finset.univ (ℓ := xLoc d) (fun t : Fin 32 × Fin 20 => chunkSet t.1 t.2) chunks_disjoint, chunks_cover]; try rfl

omit [FloatOps F] in
/-- and so are the segment numbers. -/
theorem b_split (d : Dev nD) (f : Buf (Elt F) (a1Loc d)) :
    (a1Loc d ↦{fullShare} f : sProp 𝕄)
      = bigSep Finset.univ fun w : Fin 32 => bigSep Finset.univ fun j : Fin 20 => a1Loc d ↦[chunkSet w j]{fullShare} f := by
  rw [← bigSep_univ_prod (fun t : Fin 32 × Fin 20 => (a1Loc d ↦[chunkSet t.1 t.2]{fullShare} f : sProp 𝕄)),
    ← pointsTo_biUnion Finset.univ (ℓ := a1Loc d) (fun t : Fin 32 × Fin 20 => chunkSet t.1 t.2) chunks_disjoint, chunks_cover]; try rfl

/-! ## Rows of the accumulators' array -/

omit [FloatOps F] in
theorem prowSet_eq (w : Fin 32) : prowSet w = (prowRect w).set :=
  View.set_slice_whole (main_v1_scv : Ref sig .scVector) (prowRect w)

omit [FloatOps F] in
theorem mem_prowSet (w : Fin 32) (i : S32x65536.Idx) : i ∈ prowSet w ↔ (i 0).val = w.val := by
  rw [prowSet_eq, Rect.mem_set_unit]
  constructor
  · intro h
    have h0 := h 0
    have e1 : (![w.val, 0] : Fin 2 → Nat) 0 = w.val := rfl
    have e2 : S1x65536.size 0 = 1 := rfl
    rw [e1, e2] at h0; omega
  · intro h a
    match a with
    | ⟨0, _⟩ =>
      show w.val ≤ (i 0).val ∧ (i 0).val < w.val + 1
      omega
    | ⟨1, _⟩ =>
      have h1 : (i 1).val < 65536 := (i 1).isLt
      show 0 ≤ (i 1).val ∧ (i 1).val < 0 + 65536
      omega

omit [FloatOps F] in
theorem prows_disjoint : ∀ w ∈ (Finset.univ : Finset (Fin 32)), ∀ w' ∈ (Finset.univ : Finset (Fin 32)), w ≠ w' → Disjoint (prowSet w) (prowSet w') := by
  intro w _ w' _ hne
  rw [Finset.disjoint_left]
  intro i hi hi'
  rw [mem_prowSet] at hi hi'
  exact hne (Fin.ext (hi.symm.trans hi'))

omit [FloatOps F] in
theorem prows_cover : (Finset.univ : Finset (Fin 32)).biUnion prowSet = (Finset.univ : Finset S32x65536.Idx) := by
  ext i
  simp only [Finset.mem_biUnion, Finset.mem_univ, true_and, iff_true]
  have hi : (i 0).val < 32 := (i 0).isLt
  exact ⟨⟨(i 0).val, hi⟩, (mem_prowSet _ _).mpr rfl⟩

omit [FloatOps F] in
/-- The accumulators' array held whole is its 32 rows. -/
theorem p_split (d : Dev nD) (f : Buf (Elt F) (pLoc d)) :
    (pLoc d ↦{fullShare} f : sProp 𝕄) = bigSep Finset.univ fun w : Fin 32 => pLoc d ↦[prowSet w]{fullShare} f := by
  rw [← pointsTo_biUnion Finset.univ (ℓ := pLoc d) prowSet prows_disjoint, prows_cover]; try rfl

/-! ## The tiles are the sixteen of each SparseCore -/

/-- Tile `16 * c + i` is tile `i` of SparseCore `c`. -/
def tileEquiv : Fin 2 × Fin 16 ≃ Fin 32 where
  toFun t := tileNo t.1 t.2
  invFun w := (⟨w.val / 16, by have := w.isLt; omega⟩, ⟨w.val % 16, Nat.mod_lt _ (by decide)⟩)
  left_inv t := by
    have h1 := t.1.isLt; have h2 := t.2.isLt
    refine Prod.ext (Fin.ext ?_) (Fin.ext ?_)
    · show (16 * t.1.val + t.2.val) / 16 = t.1.val; omega
    · show (16 * t.1.val + t.2.val) % 16 = t.2.val; omega
  right_inv w := by
    refine Fin.ext ?_
    show 16 * (w.val / 16) + w.val % 16 = w.val; omega

theorem tileEquiv_apply (t : Fin 2 × Fin 16) : tileEquiv t = tileNo t.1 t.2 := rfl

omit [FloatOps F] in
theorem tile_regroup (X : Fin 32 → sProp 𝕄) :
    bigSep Finset.univ X = bigSep Finset.univ fun c : Fin 2 => bigSep Finset.univ fun i : Fin 16 => X (tileNo c i) := by
  rw [← bigSep_univ_prod (fun t : Fin 2 × Fin 16 => X (tileNo t.1 t.2)),
    show (fun t : Fin 2 × Fin 16 => X (tileNo t.1 t.2)) = fun t => X (tileEquiv t) from
      funext fun t => congrArg X (tileEquiv_apply t).symm]
  exact bigSep_univ_equiv tileEquiv X

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
theorem prow_ex (d : Dev nD) (w : Fin 32) (f : Buf (Elt F) (pLoc d)) :
    (pLoc d ↦[prowSet w]{fullShare} f : sProp 𝕄) ⊢ iprop(∃ g, pRow d w g) := by
  iintro H; iexists f; iexact H

omit [FloatOps F] in
/-- The accumulators' array held whole hands each tile its row, at whatever it holds. -/
theorem p_hand (d : Dev nD) (f : Buf (Elt F) (pLoc d)) :
    (pLoc d ↦{fullShare} f : sProp 𝕄) ⊢ bigSep Finset.univ fun w : Fin 32 => iprop(∃ g, pRow d w g) := by
  rw [p_split]
  exact bigSep_mono fun w _ => prow_ex d w f

/-- What the call takes for the two SparseCores, from the three arrays held whole; -/
theorem st_intro (d : Dev nD) (f : Buf (Elt F) (pLoc d)) :
    iprop((xLoc d ↦{fullShare} xf m d) ∗ (a1Loc d ↦{fullShare} bt m d) ∗ (pLoc d ↦{fullShare} f))
      ⊢ (bigSep Finset.univ fun c : Fin ((K (F := F)).nCore 0) => (P m).st 0 d c : sProp 𝕄) := by
  rw [bigSep_congr fun c _ => P_st m d c, bigSep_cores (F := F) (fun c => bigSep Finset.univ fun i : Fin 16 => goRes m d (tileNo c i)),
    ← tile_regroup (F := F) (fun w => goRes m d w)]
  unfold goRes
  rw [bigSep_sep', bigSep_sep', x_split, b_split]
  iintro ⟨Hx, Hb, Hp⟩
  isplitl [Hx]; · iexact Hx
  isplitl [Hb]; · iexact Hb
  iapply (p_hand d f); iexact Hp

/-- and what it hands back: the rows and the segment numbers as they were, the accumulators' array finished. -/
theorem dn_elim (d : Dev nD) :
    (bigSep Finset.univ fun c : Fin ((K (F := F)).nCore 0) => (P m).dn 0 d c : sProp 𝕄)
      ⊢ iprop((xLoc d ↦{fullShare} xf m d) ∗ (a1Loc d ↦{fullShare} bt m d) ∗ (pLoc d ↦{fullShare} partBuf m d)) := by
  rw [bigSep_congr fun c _ => P_dn m d c, bigSep_cores (F := F) (fun c => bigSep Finset.univ fun i : Fin 16 => tdRes m d (tileNo c i)),
    ← tile_regroup (F := F) (fun w => tdRes m d w)]
  unfold tdRes
  rw [bigSep_sep', bigSep_sep', x_split, b_split, p_split]

end Cert.Proof.KB

end
-- ==== Proof.Bits.FoldDefs.lean ====
/-
  The second kernel as the pipeline library names it: its configuration as one with (no) prefetched tables, the one
  admissible table contents, and that its staging cells are distinct.
-/
import proofs.«203046_g35227321762133_cont_8to1_b_835_12_alg».proof.Proof.Bits.Common

noncomputable section

namespace Cert.Proof.KB

open Cert.Kernel Cert.Kernel.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [hK : Cert.Kernel.Facts]
variable (m : (ℓ : Loc nD τ sig) → Buf (Elt F) ℓ) (ρ : Dev nD → PrngReg)

/-- The pallas_calls as pipelines with prefetched tables (none has one), and the one admissible contents. -/
abbrev pcs1 : Fin 1 → Pipeline.PCfg sig Λ₀ (Elt F) := fun p => (cfgs p).toPCfg
abbrev adm1 : (p : Fin 1) → (pcs1 (F := F) p).Adm := fun p => (cfgs p).toPCfg_adm
/-- Pinned at those contents the pipelines are the printed ones. -/
abbrev cfgP : Fin 1 → Pipeline.Cfg sig Λ₀ := Pipeline.pin (pcs1 (F := F)) adm1

omit [FloatOps F] in
theorem cfgP_eq : cfgP (F := F) = cfgs := rfl

omit [FloatOps F] in
theorem phinj : Function.Injective (Pipeline.cellOf (nD := nD) (τ := τ) (cfgP (F := F))) := Gen.cellOf_inj

/-- The body table the first kernel's proofs and the second's share. -/
theorem D_eq : D (F := F) = Pipeline.defs (pcs1 (F := F)) defs₀ := rfl

end Cert.Proof.KB

end
-- ==== Proof.Bits.LaunchElem.lean ====
/-
  The launch element of the ghost state: the handshakes' rounds at their launch value, the second kernel's staging cells'
  rounds at theirs, the copies' counters at the unit; and what the launch makes of it: the handshakes' part as the launch
  theorem asks it, and per device the staging cells' ghost state and duty tokens, which @main's proof spends when it
  enters the second kernel. The first kernel's proofs take nothing of the launch's.
-/
import proofs.«203046_g35227321762133_cont_8to1_b_835_12_alg».proof.Proof.Bits.FoldDefs

noncomputable section

namespace Cert.Proof.KB

open Cert.Kernel Cert.Kernel.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [hK : Cert.Kernel.Facts]
variable (m : (ℓ : Loc nD τ sig) → Buf (Elt F) ℓ) (ρ : Dev nD → PrngReg)

/-- What @main's proof on device `d` starts from, beside what the launch theorem deals it: the second kernel's staging
    cells' ghost state and the tokens of the transfers its pipeline issues. -/
def G (d : Dev nD) : sProp 𝕄 :=
  iprop(Pipeline.cellsGhost (cfgP (F := F)) EP 0 d ∗ Pipeline.toksInit (cfgP (F := F)) EP 0 d)

def u₀ : UU :=
  (initOf (K (F := F)).hsCells (K (F := F)).hsToks,
    (initOf (Pipeline.cells (nD := nD) (τ := τ) (cfgP (F := F)) phinj) (Pipeline.launchToks (nD := nD) (τ := τ) (cfgP (F := F)) phinj), 1))

omit [FloatOps F] in
theorem bigSep_emp' {I : Type} (s : Finset I) : (bigSep s fun _ => iprop(emp)) = (iprop(emp) : sProp 𝕄) := bigSep_emp_const s

omit [FloatOps F] in
theorem bigSep_fin1 (Φ : Fin 1 → sProp 𝕄) : bigSep Finset.univ Φ = Φ 0 := by
  rw [show (Finset.univ : Finset (Fin 1)) = {0} by decide, bigSep_singleton]

omit [FloatOps F] in
theorem ghost_regroup (E : Emb UP 𝕄) :
    iprop((bigSep Finset.univ fun c : Dev nD => bigSep Finset.univ fun p : Fin 1 => Pipeline.cellsGhost (cfgP (F := F)) E p c)
        ∗ (bigSep Finset.univ fun c : Dev nD => bigSep Finset.univ fun p : Fin 1 => (Pipeline.toksInit (cfgP (F := F)) E p c : sProp 𝕄)))
      = bigSep Finset.univ fun d : Dev nD => iprop(Pipeline.cellsGhost (cfgP (F := F)) E 0 d ∗ Pipeline.toksInit (cfgP (F := F)) E 0 d) := by
  rw [bigSep_sep', bigSep_congr fun d _ => bigSep_fin1 (F := F) _, bigSep_congr (Φ := fun c : Dev nD => bigSep Finset.univ fun p : Fin 1 => (Pipeline.toksInit (cfgP (F := F)) E p c : sProp 𝕄)) fun d _ => bigSep_fin1 (F := F) _]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀ G
  rw [show (EP (F := F)) = (Emb.inl : Emb UP (UP × Counters)).trans embR from rfl]
  iintro Hu
  ihave H := (ownU_pair _ _) $$ Hu
  icases H with ⟨HH, HR⟩
  ihave H2 := (own_pair_emb embR _ _) $$ HR
  icases H2 with ⟨HP, -⟩
  imod (Pipeline.fund_ghost (cfgP (F := F)) ((Emb.inl : Emb UP (UP × Counters)).trans embR) phinj) $$ HP with ⟨Hg, Ht⟩
  imodintro
  isplitl [HH]; · iexact HH
  isplitl [Hg Ht]
  · iapply (Entails.of_eq (ghost_regroup (F := F) _))
    isplitl [Hg]; · iexact Hg
    iexact Ht
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

end Cert.Proof.KB

end
-- ==== Proof.Bits.LaunchMain.lean ====
/-
  @main on the TensorCore: the reshape of `x` to its flat rows, the call of the tiles' kernel — handing the flat rows, the
  segment numbers and the accumulators' array to the two SparseCores tile by tile and taking them back, the accumulators
  finished —, then the second kernel's region, entered from what the call left and leaving the result at the fold of the
  accumulators; the two arguments are kept as they were.
-/
import proofs.«203046_g35227321762133_cont_8to1_b_835_12_alg».proof.Proof.Bits.Shares
import proofs.«203046_g35227321762133_cont_8to1_b_835_12_alg».proof.Proof.Bits.LaunchElem

noncomputable section

namespace Cert.Proof.KB

open Cert.Kernel Cert.Kernel.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [hK : Cert.Kernel.Facts]
variable (m : (ℓ : Loc nD τ sig) → Buf (Elt F) ℓ) (ρ : Dev nD → PrngReg)

/-! ## The TensorCore's five arrays -/

abbrev a0' : DevRef τ sig := Proc.devRef .tc (main_arg0 : Ref sig .tc)
abbrev a1' : DevRef τ sig := Proc.devRef .tc (main_arg1 : Ref sig .tc)
abbrev x' : DevRef τ sig := Proc.devRef .tc (main_v0 : Ref sig .tc)
abbrev p' : DevRef τ sig := Proc.devRef .tc (main_v1 : Ref sig .tc)
abbrev o' : DevRef τ sig := Proc.devRef .tc (main_v2 : Ref sig .tc)
abbrev opR : HloOp τ sig (Elt F) := StableHlo.reshape main_arg0 main_v0 rfl Facts₀.shapeCasts_S6400000x1_S6400000

abbrev S5 : Finset (DevRef τ sig) := {a0', a1', x', p', o'}

omit [FloatOps F] in
theorem held_S5 (d : Dev nD) (W : Valuation τ sig (Elt F)) :
    (held (T d) S5 W : sProp 𝕄) = iprop((a0Loc d ↦{fullShare} W a0') ∗ (a1Loc d ↦{fullShare} W a1') ∗ (xLoc d ↦{fullShare} W x')
      ∗ (pLoc d ↦{fullShare} W p') ∗ (oLoc d ↦{fullShare} W o')) := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (xLoc d ↦{fullShare} W main_v0)
      ∗ (pLoc d ↦{fullShare} W main_v1) ∗ (oLoc d ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (T d) S5 (V0 m d) := by
  rw [unscopedBufs_eq, held_S5]; rfl

theorem hR : (opR (F := F)).bufs ⊆ S5 := show ({a0', x'} : Finset (DevRef τ sig)) ⊆ S5 by decide

/-- After the reshape: the flat rows are `x`'s column read row-major, every other array what it was. -/
theorem held_after (d : Dev nD) :
    (held (T d) S5 ((opR (F := F)).result (V0 m d)) : sProp 𝕄) = iprop((a0Loc d ↦{fullShare} m (a0Loc d)) ∗ (a1Loc d ↦{fullShare} m (a1Loc d))
      ∗ (xLoc d ↦{fullShare} xf m d) ∗ (pLoc d ↦{fullShare} m (pLoc d)) ∗ (oLoc d ↦{fullShare} m (oLoc d))) := by
  rw [held_S5,
    (opR (F := F)).result_of_not_mem (V0 m d) (b := a0') (show a0' ∉ ({x'} : Finset (DevRef τ sig)) by decide),
    (opR (F := F)).result_of_not_mem (V0 m d) (b := a1') (show a1' ∉ ({x'} : Finset (DevRef τ sig)) by decide),
    (opR (F := F)).result_of_not_mem (V0 m d) (b := p') (show p' ∉ ({x'} : Finset (DevRef τ sig)) by decide),
    (opR (F := F)).result_of_not_mem (V0 m d) (b := o') (show o' ∉ ({x'} : Finset (DevRef τ sig)) by decide),
    show (opR (F := F)).result (V0 m d) x' = xf m d from
      StableHlo.reshape_result main_arg0 main_v0 rfl Facts₀.shapeCasts_S6400000x1_S6400000 ⟨by decide, rfl⟩ ⟨by decide, rfl⟩ (V0 m d)]
  rfl

/-! ## What the TensorCore owes, taken out of its handshake state and put back -/

omit [FloatOps F] in
/-- The TensorCore's state before call `n` holds what it owes under some recorded waits below the call's level; with
    that taken out, the state is back once the same debt is returned under recorded waits below the same level. -/
theorem tcSt_owes (d : Dev nD) (n : ℕ) :
    ((K (F := F)).tcSt EH d n : sProp 𝕄)
      ⊢ iprop(∃ W, ⌜(K (F := F)).WBelow (T d) W (8 * n)⌝ ∗ owes (T d) ((K (F := F)).Otc d n) W
          ∗ (∀ W', ⌜(K (F := F)).WBelow (T d) W' (8 * n)⌝ -∗ owes (T d) ((K (F := F)).Otc d n) W' -∗ (K (F := F)).tcSt EH d n)) := by
  unfold SparseCore.Cfg.tcSt
  iintro ⟨⟨%W, %hW, HO⟩, Hrest⟩
  iexists W
  isplitr; · ipureintro; exact hW
  isplitl [HO]; · iexact HO
  iintro %W' %hW' HO'
  isplitl [HO']
  · iexists W'; isplitr
    · ipureintro; exact hW'
    · iexact HO'
  · iexact Hrest

/-! ## @main -/

/-- What @main leaves the claim: the two arguments as they were, the result at the fold of the finished accumulators. -/
abbrev FIN (d : Dev nD) : sProp 𝕄 :=
  iprop((a0Loc d ↦{fullShare} m (a0Loc d)) ∗ (a1Loc d ↦{fullShare} m (a1Loc d)) ∗ (oLoc d ↦{fullShare} outBuf m d))

/-- The second kernel's region as @main's proof enters it: from the accumulators' array and the result array held
    whole, the core owing nothing, and the region's staging cells' ghost state, the call runs to the result array at the
    fold of the accumulators. -/
def FoldStep (d : Dev nD) : Prop :=
  ∀ (part : Buf (Elt F) (pLoc d)) (o0 : Buf (Elt F) (oLoc d)) (W0 : Waits sig (HIx 1)) (Q : PUnit → sProp 𝕄),
    iprop((iprop(boundary (T d) ∗ (pLoc d ↦{fullShare} part) ∗ (oLoc d ↦{fullShare} (outOf (F := F) part : Buf (Elt F) (oLoc d)))
            ∗ ∃ W', ⌜∀ p ∈ W', p ∈ W0 ∨ p.2 = none⌝ ∗ owes (T d) (0 : CellTallies nD τ sig (HIx 1)) W')
          -∗ wp frame (wpE (D (F := F)) 𝒱 (T d) none) Set.univ (.ret ⟨⟩) Q)
        ∗ boundary (T d) ∗ (pLoc d ↦{fullShare} part) ∗ (oLoc d ↦{fullShare} o0) ∗ owes (T d) (0 : CellTallies nD τ sig (HIx 1)) W0
        ∗ levAts (K (F := F)).L (K (F := F)).lev ∗ G (F := F) d)
      ⊢ wp frame (wpE (D (F := F)) 𝒱 (T d) none) Set.univ (.op (.customCall (Pipeline.entry 0) ()) .ret) Q

theorem hmain (hfold : ∀ d, FoldStep (F := F) d) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, HG⟩
  -- the reshape: the flat rows
  iapply (wp_hlo_within 𝒱 (SparseCore.T d) none Set.univ (op := opR) (S := S5) hR (V := V0 m d)) $$ [Hb Hheld]
  · isplitl [Hb]; · iexact Hb
    iexact Hheld
  iintro ⟨Hb, Hheld⟩
  ihave Hh := (Entails.of_eq (held_after m d)) $$ Hheld
  icases Hh with ⟨Ha0, Ha1, Hx, Hp, Ho⟩
  rw [wp_ret]; imodintro
  -- the call: each tile its chunks and its row, and back
  iapply ((K (F := F)).wp_run (D (F := F)) 𝒱 (EH := EH) (P := P m) κ d 0) $$ [Hst Ha1 Hx Hp HG Hb Ha0 Ho]
  isplitr; · iexact Hctx
  isplitl [Hst]; · iexact Hst
  isplitl [Ha1 Hx Hp]
  · iapply (st_intro m d (m (pLoc d)))
    isplitl [Hx]; · iexact Hx
    isplitl [Ha1]; · iexact Ha1
    iexact Hp
  iintro ⟨Hst, Hdn⟩
  ihave Hdn' := (dn_elim m d) $$ Hdn
  icases Hdn' with ⟨Hx, Ha1, Hp⟩
  ihave Hlev := (SparseCore.Cfg.ctx_levAts κ) $$ Hctx
  ihave Hst' := (tcSt_owes (F := F) d ((0 : Fin 1).val + 1)) $$ Hst
  icases Hst' with ⟨%W, %hW, HO, Hback⟩
  rw [(K (F := F)).Otc_end d (show 1 ≤ (0 : Fin 1).val + 1 from le_rfl)]
  -- the second kernel's region
  iapply ((K (F := F)).wp_liftProg (D (F := F)) 𝒱 (SparseCore.T d) Set.univ none (.op (.customCall (Pipeline.entry 0) ()) .ret) _)
  iapply (hfold d (partBuf m d) (m (oLoc d)) W _) $$ [Hb Hp Ho HO Hlev HG Hback Ha0 Ha1]
  isplitl [Hback Ha0 Ha1]
  · iintro ⟨Hb, Hp, Ho, %W', %hW', HO⟩
    rw [wp_ret]; imodintro; imodintro
    isplitl [Hback HO]
    · ispecialize Hback $$ %W'
      iapply Hback
      · ipureintro
        intro p hp
        rcases hW' p hp with h | h
        · exact hW p h
        · show (K (F := F)).lev (SparseCore.T d, p.1) p.2 ≤ _
          rw [h]; exact Nat.zero_le _
      · iexact HO
    · unfold FIN outBuf
      isplitl [Ha0]; · iexact Ha0
      isplitl [Ha1]; · iexact Ha1
      iexact Ho
  isplitl [Hb]; · iexact Hb
  isplitl [Hp]; · iexact Hp
  isplitl [Ho]; · iexact Ho
  isplitl [HO]; · iexact HO
  isplitr; · iexact Hlev
  iexact HG

end Cert.Proof.KB

end
-- ==== Proof.Bits.Run.lean ====
/-
  The kernel program's run: every weakly fair execution of the device's threads terminates, nothing faulting, with the
  result array at the fold of the 32 finished accumulators and the two argument arrays as they were.
-/
import proofs.«203046_g35227321762133_cont_8to1_b_835_12_alg».proof.Proof.Bits.LaunchMain

noncomputable section

namespace Cert.Proof.KB

open Cert.Kernel Cert.Kernel.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [hK : Cert.Kernel.Facts]
variable (m : (ℓ : Loc nD τ sig) → Buf (Elt F) ℓ) (ρ : Dev nD → PrngReg)

/-! ## Reading the final memory -/

def fq (d : Dev nD) (s' : Phys nD τ sig (Elt F)) : Prop :=
  s'.mem.mem (oLoc d) = outBuf m d ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨Ha0, Ha1, Ho⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (SI_pointsTo_agree (st := s') (ℓ := oLoc d) (I := Finset.univ) (q := fullShare) (f := outBuf m d)) $$ [HSI Ho]
  · isplitl [HSI] <;> iassumption
  icases H with %h2
  ipureintro
  exact ⟨funext fun i => h2 i (Finset.mem_univ i), funext fun i => h0 i (Finset.mem_univ i), funext fun i => h1 i (Finset.mem_univ i)⟩

/-! ## The run -/

def QC : PUnit × MemSt nD τ sig (Elt F) → Prop := fun r => ∀ c : Dev nD,
  r.2.mem (oLoc c) = outBuf m c ∧ r.2.mem (a0Loc c) = m (a0Loc c) ∧ r.2.mem (a1Loc c) = m (a1Loc c)

theorem run_main [∀ e, Nonempty (Elt F e)] (hpre : PreOK m) (hfold : ∀ d, FoldStep (F := F) d) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ hfold) (fq m) (hfin m) (QC m) (fun _ h => h)

end Cert.Proof.KB

end
-- ==== Proof.Bits.FoldBody.lean ====
/-
  The second kernel's body on its staging buffers, and the pipeline's proof data that records it: handed a block of
  the accumulators (all 32 rows, 8192 columns) the body reads it whole and leaves in the result's staging buffer
  the fold of that block, 512 sums; the block itself stays as fetched.
-/
import proofs.«203046_g35227321762133_cont_8to1_b_835_12_alg».proof.Proof.Bits.FoldDefs
import Idealize.ShloMosaic.Lib.Pipeline.FrameBody
import Idealize.ShloMosaic.Lib.Pipeline.Value
import Idealize.ShloMosaic.Lib.Tactic

noncomputable section

namespace Cert.Proof.KB

open Cert.Kernel Cert.Kernel.Gen Cert.Proof.Seg

open Idealize.ShloMosaic Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [hK : Cert.Kernel.Facts]

local notation "𝕄" => MT nD τ sig (HIx 1) (Elt F) ℕ UU ℕ

/-! ## The body's triple -/

/-- The offsets of the body's three accesses are zero: each is of a whole staging buffer. -/
theorem off2_zero : (![0, 0] : Fin 2 → Nat) = fun _ => 0 := by
  funext a; match a with | ⟨0, _⟩ => rfl | ⟨1, _⟩ => rfl
theorem off1_zero : (![0] : Fin 1 → Nat) = fun _ => 0 := by
  funext a; match a with | ⟨0, _⟩ => rfl

set_option maxHeartbeats 1000000 in
/-- The body on whole staging memrefs, the block's at contents `x0` and the result's at anything, runs to the
    continuation holding the block's as it was and the result's at the fold of `x0`: the one store covers the
    result's buffer, and the load it is computed from reads the block's buffer whole. -/
theorem sound_kernel (c : Dev nD) (E : Set ℕ) (i : grid1.Coords)
    (arg1 : Memref sig .tc .vmem S32x8192 .f32) (harg1 : arg1.IsWhole)
    (arg2 : Memref sig .tc .vmem S512 .f32) (harg2 : arg2.IsWhole)
    (x0 : Vec F S32x8192 .f32) (K : PUnit → sProp 𝕄) :
    iprop(owns (T c) arg1 fullShare x0 ∗ (∃ d, owns (T c) arg2 fullShare d)
        ∗ (iprop(owns (T c) arg1 fullShare x0 ∗ owns (T c) arg2 fullShare (k1_pay1 x0)) -∗ K ⟨⟩))
      ⊢ wp frame (wpE (defs₀ (F := F)) 𝒱₀ (T c) none) E (cc1__fold_body i arg1 harg1 arg2 harg2) K := by
  simp only [cc1__fold_body_eq_skeleton]; unfold cc1__fold_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  have e : View.readAt (Elt F) arg1.view (Rect.unit ![0, 0] S32x8192.size inb_S32x8192_S32x8192_0_0).toLoadRect f0
      = View.read (Elt F) arg1.view f0 :=
    (View.readAt_eq_ld _ _ _).trans (View.ld_unit_zero off2_zero _ _)
  rw [View.read_writes_eq_canon _ _ _ (fun y => ⟨⟨Rect.unit ![0] S512.size inb_S512_S512_0, _⟩, List.mem_singleton_self _,
      View.mem_set_unit_zero off1_zero inb_S512_S512_0 y⟩),
    View.canon_unit_zero off1_zero, e]

/-! ## The pipeline's proof data -/

/-- The block of the accumulators the pipeline fetches at point `t`, read off the array. -/
def iblk0 (c : Dev nD) (part : Vec F S32x65536 .f32) (t : Fin cfg1.N) : Vec F S32x8192 .f32 :=
  ((cfg1.win 0).blk t).view.read (Elt F) (part : Buf (Elt F) ((cfg1.win 0).arr.view.loc (c.tc : Thread nD τ)))

/-- The proof data on core `c`: the accumulators' array at `part` and the result's at `o0` when the kernel is entered;
    after the body at point `t` the block's buffer at the block and the result's at its fold; no invariant of the
    body's own; nothing owed; full shares; the waits recorded before the kernel are those of `W0`. -/
def foldDat (c : Dev nD) (part : Vec F S32x65536 .f32) (o0 : Vec F S4096 .f32) (W0 : Waits sig (HIx 1)) :
    Dat τ (Elt F) (HIx 1) ℕ UU ℕ cfg1 c where
  A w := match w with
    | ⟨0, _⟩ => part
    | ⟨1, _⟩ => o0
  after w t := match w with
    | ⟨0, _⟩ => iblk0 c part t
    | ⟨1, _⟩ => k1_pay1 (iblk0 c part t)
  Φ _ := iprop(emp)
  q _ := fullShare
  owed _ := 0
  recorded _ := (↑W0 : Set (SemLoc sig × HIx 1))

/-- The proof data of the program's one pipeline, on every core. -/
def foldDats (part : Dev nD → Vec F S32x65536 .f32) (o0 : Dev nD → Vec F S4096 .f32) (W0 : Dev nD → Waits sig (HIx 1)) :
    (p : Fin 1) → (c : Dev nD) → Dat τ (Elt F) (HIx 1) ℕ UU ℕ (Pipeline.pin (pcs1 (F := F)) adm1 p) c :=
  fun _ c => foldDat c (part c) (o0 c) (W0 c)

variable (part : Dev nD → Vec F S32x65536 .f32) (o0 : Dev nD → Vec F S4096 .f32) (W0 : Dev nD → Waits sig (HIx 1))

theorem foldDats_eq (p : Fin 1) (c : Dev nD) : foldDats part o0 W0 p c = foldDat c (part c) (o0 c) (W0 c) := rfl

section

variable (c : Dev nD) (pt : Vec F S32x65536 .f32) (ot : Vec F S4096 .f32) (Wt : Waits sig (HIx 1))

/-- The arrays when the kernel is entered, and what the body leaves, window by window. -/
theorem A_0 : (foldDat c pt ot Wt).A 0 = pt := rfl
theorem A_1 : (foldDat c pt ot Wt).A 1 = ot := rfl
theorem after_0 (t : Fin cfg1.N) : (foldDat c pt ot Wt).after 0 t = iblk0 c pt t := rfl
theorem after_1 (t : Fin cfg1.N) : (foldDat c pt ot Wt).after 1 t = k1_pay1 (iblk0 c pt t) := rfl

/-- The block's buffer holds the block when the body runs: it is fetched at every point. -/
theorem before_0 (t : Fin cfg1.N) (d) : (foldDat c pt ot Wt).before 0 t d = iblk0 c pt t := by
  rw [(foldDat c pt ot Wt).before_fetched 0 t (fetch1_0 t) d]
  unfold Dat.fetched Dat.blockOf iblk0; rw [A_0]; rfl

/-! ## The body obligation -/

/-- What the body is called with at point `t`, the windows one by one, -/
def bodyPre (t : Fin cfg1.N) : sProp 𝕄 :=
  iprop((foldDat c pt ot Wt).Φ t.castSucc ∗ (foldDat c pt ot Wt).owesAt (none : HIx 1) t.castSucc
    ∗ (∃ d, owns (T c) (st1_0 t) fullShare ((foldDat c pt ot Wt).before 0 t d))
    ∗ (∃ d, owns (T c) (st1_1 t) fullShare ((foldDat c pt ot Wt).before 1 t d)))

/-- and what it returns. -/
def bodyPost (t : Fin cfg1.N) : sProp 𝕄 :=
  iprop((foldDat c pt ot Wt).Φ t.succ ∗ (foldDat c pt ot Wt).owesAt (none : HIx 1) t.succ
    ∗ owns (T c) (st1_0 t) fullShare ((foldDat c pt ot Wt).after 0 t)
    ∗ owns (T c) (st1_1 t) fullShare ((foldDat c pt ot Wt).after 1 t))

/-- The body at any point: the block's memref holds the block, so the triple applies; the core's `owes` passes
    through unread. -/
theorem sound_body (t : Fin cfg1.N) :
    bodyPre c pt ot Wt t ⊢ wp frame (wpE (defs₀ (F := F)) 𝒱₀ (T c) none) Set.univ (bodyAt1 t) (fun _ => bodyPost c pt ot Wt t) := by
  unfold bodyPre bodyPost bodyAt1
  simp only [before_0]
  rw [show (foldDat c pt ot Wt).Φ t.succ = (foldDat c pt ot Wt).Φ t.castSucc from rfl,
    show (foldDat c pt ot Wt).owesAt (none : HIx 1) t.succ = (foldDat c pt ot Wt).owesAt (none : HIx 1) t.castSucc from rfl,
    after_0, after_1]
  iintro ⟨HΦ, Ho, ⟨%d0, H0⟩, ⟨%d1, H1⟩⟩
  iapply (sound_kernel c Set.univ (grid1.coords t) _ _ _ _ (iblk0 c pt t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation : BodyObligation (foldDat c pt ot Wt) (defs₀ (F := F)) 𝒱₀ (none : HIx 1) Set.univ := fun t => by
  rw [bigSep_W1, bigSep_W1]
  exact sound_body c pt ot Wt t

end

end Cert.Proof.KB

end
-- ==== Proof.Bits.FoldValue.lean ====
/-
  The result's array after the second kernel, as one function of the accumulators: the block the kernel fetches at
  grid point `t` is block `t` of the accumulators (all rows, columns from `8192 * t`), what it writes back at `t`
  is block `t` of the folded result (entries from `512 * t`), and the eight blocks of 512 tile the 4096 entries.
-/
import proofs.«203046_g35227321762133_cont_8to1_b_835_12_alg».proof.Proof.Bits.FoldBody

noncomputable section

namespace Cert.Proof.KB

open Cert.Kernel Cert.Kernel.Gen Cert.Proof.Seg

open Idealize.ShloMosaic Idealize.ShloMosaic.ValueIdx
open Idealize.ShloMosaic.SparseCore (S V T)
open Idealize.ShloMosaic.SparseCore.Cfg (HIx)
open Idealize.SL Idealize.SL.RA Idealize.SL.BI
open Idealize.ShloMosaic.Pipeline (Dat Cfg Window)

variable {F : FTy → Type} [FloatOps F]

/-! ## The index maps over the grid -/

/-- At point `t` the accumulators' block starts at row block 0 and column block `t`, the result's at block `t`. -/
theorem fold_idx : ∀ t : Fin cfg1.N, win1_0.index t (0 : Fin 2) = 0 ∧ win1_0.index t (1 : Fin 2) = t.val
    ∧ win1_1.index t (0 : Fin 1) = t.val :=
  (by decide +kernel : ∀ t : Fin grid1.N, _)

variable [hK : Cert.Kernel.Facts]

/-- A grid point as a block number. -/
abbrev blkNo (t : Fin cfg1.N) : Fin 8 := Fin.cast N_1 t

/-! ## The blocks -/

/-- An entry of the folded result inside block `g`, at place `r` of it, is the fold of block `g` at `r`. -/
theorem outOf_block (part : Vec F S32x65536 .f32) (g : Fin 8) (r : Fin 512) (s : S4096.Idx)
    (hs : (s 0).val = g.val * 512 + r.val) : outOf part s = k1_pay1 (blkOf part g) (ix1 r) := by
  have hg := g.isLt; have hr := r.isLt
  have hs4 : (s 0).val < 4096 := (s 0).isLt
  have h1 : (⟨(s 0).val / 512, by omega⟩ : Fin 8) = g := Fin.ext (by show (s 0).val / 512 = g.val; omega)
  have h2 : (⟨(s 0).val % 512, Nat.mod_lt _ (by decide)⟩ : Fin 512) = r := Fin.ext (by show (s 0).val % 512 = r.val; omega)
  show k1_pay1 (blkOf part ⟨(s 0).val / 512, _⟩) (ix1 ⟨(s 0).val % 512, _⟩) = _
  rw [h1, h2]

/-- The block fetched at point `t` is block `t` of the accumulators. -/
theorem iblk0_eq (c : Dev nD) (pt : Vec F S32x65536 .f32) (t : Fin cfg1.N) : iblk0 c pt t = blkOf pt (blkNo t) := by
  obtain ⟨e0, e1, -⟩ := fold_idx t
  have e0' : win1_0.index t (0 : Fin 2) = 0 := e0
  have e1' : win1_0.index t (1 : Fin 2) = t.val := e1
  funext j
  show pt (((cfg1.win 0).blk t).view.emb j) = pt (ix2 (j 0) ⟨(blkNo t).val * 8192 + (j 1).val, _⟩)
  refine congrArg pt ?_
  funext a; apply Fin.ext
  match a with
  | ⟨0, _⟩ => show win1_0.index t (0 : Fin 2) * 32 + 1 * (j 0).val = (j 0).val; omega
  | ⟨1, _⟩ => show win1_0.index t (1 : Fin 2) * 8192 + 1 * (j 1).val = t.val * 8192 + (j 1).val; omega

variable (c : Dev nD) (pt : Vec F S32x65536 .f32) (ot : Vec F S4096 .f32) (Wt : Waits sig (HIx 1))

/-- What point `t` writes back is block `t` of the folded result. -/
theorem flushed1_eq (t : Fin cfg1.N) :
    (foldDat c pt ot Wt).flushed 1 t
      = ((cfg1.win 1).blk t).view.read (Elt F) (outOf pt : Buf (Elt F) ((cfg1.win 1).arr.view.loc (c.tc : Thread nD τ))) := by
  show (cfg1.win 1).cut (grid1.coords t) ((foldDat c pt ot Wt).after 1 t) = _
  rw [after_1, iblk0_eq]
  obtain ⟨-, -, e2⟩ := fold_idx t
  have e2' : win1_1.index t (0 : Fin 1) = t.val := e2
  refine funext fun (j : S512.Idx) => ?_
  show k1_pay1 (blkOf pt (blkNo t)) j = outOf pt (((cfg1.win 1).blk t).view.emb j)
  refine Eq.trans ?_ (outOf_block pt (blkNo t) (j 0) (((cfg1.win 1).blk t).view.emb j) ?_).symm
  · exact congrArg _ (eq_ix1 j)
  · show win1_1.index t (0 : Fin 1) * 512 + 1 * (j 0).val = t.val * 512 + (j 0).val
    omega

/-- An entry of the result is in point `t`'s block iff it lies in that block's range. -/
theorem mem_blk1 (t : Fin cfg1.N) (i : S4096.Idx) :
    i ∈ ((cfg1.win 1).blk t).view.set
      ↔ ∀ a : Fin 1, win1_1.index t a * S512.size a ≤ (i a).val ∧ (i a).val < win1_1.index t a * S512.size a + S512.size a := by
  show i ∈ ((View.whole main_v2).slice (win1_1.rect t)).set ↔ _
  rw [View.set_slice_whole, Rect.mem_set_unit]
  exact Iff.rfl

/-- Every entry of the result is in the block some point writes back: entry `s` in block `s / 512`. -/
theorem cover1 (i : S4096.Idx) : ∃ t : Fin cfg1.N, (cfg1.win 1).flush t = true ∧ i ∈ ((cfg1.win 1).blk t).view.set := by
  have hi : (i 0).val < 4096 := (i 0).isLt
  refine ⟨Fin.cast N_1.symm ⟨(i 0).val / 512, by omega⟩, flush1_1 _, ?_⟩
  rw [mem_blk1]
  obtain ⟨-, -, e2⟩ := fold_idx (Fin.cast N_1.symm ⟨(i 0).val / 512, by omega⟩)
  have e2' : win1_1.index (Fin.cast N_1.symm ⟨(i 0).val / 512, by omega⟩) (0 : Fin 1) = (i 0).val / 512 := e2
  intro a
  match a with
  | ⟨0, _⟩ =>
    show win1_1.index (Fin.cast N_1.symm ⟨(i 0).val / 512, by omega⟩) (0 : Fin 1) * 512 ≤ (i 0).val
      ∧ (i 0).val < win1_1.index (Fin.cast N_1.symm ⟨(i 0).val / 512, by omega⟩) (0 : Fin 1) * 512 + 512
    omega

/-! ## The arrays after the kernel -/

/-- The result's array ends at the fold of the accumulators, block by block; -/
theorem arrAt_1 : (foldDat c pt ot Wt).arrAt 1 cfg1.N = outOf pt :=
  (foldDat c pt ot Wt).arrAt_eq_of_cover 1 (outOf pt) (fun t _ => flushed1_eq c pt ot Wt t) cover1

/-- the accumulators' array is never written. -/
theorem arrAt_0 (n : Nat) : (foldDat c pt ot Wt).arrAt 0 n = pt :=
  ((foldDat c pt ot Wt).arrAt_in 0 rfl n).trans (A_0 c pt ot Wt)

end Cert.Proof.KB

end
-- ==== Proof.Bits.FoldRegion.lean ====
/-
  The second kernel as a region of the program's run: entered holding the accumulators' array and the result's
  array whole and owing nothing, it leaves the accumulators as they were and the result's array at their fold;
  the waits it records besides those recorded before are at the index of no call.
-/
import proofs.«203046_g35227321762133_cont_8to1_b_835_12_alg».proof.Proof.Bits.FoldValue
import Idealize.ShloMosaic.Lib.Pipeline.Regions

noncomputable section

namespace Cert.Proof.KB

open Cert.Kernel Cert.Kernel.Gen Cert.Proof.Seg

open Idealize.ShloMosaic Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [hK : Cert.Kernel.Facts]

local notation "𝕄" => MT nD τ sig (HIx 1) (Elt F) ℕ UU ℕ

variable (part : Dev nD → Vec F S32x65536 .f32) (o0 : Dev nD → Vec F S4096 .f32) (W0 : Dev nD → Waits sig (HIx 1))

/-! ## The pipeline's arrays, tables and scoped rest, spelt out -/

/-- The pipeline's two arrays at contents `Fa`: the accumulators' buffer and the result's, each whole. -/
theorem arrays_fold (c : Dev nD) (Fa) :
    ((foldDats part o0 W0 0 c).arrays Fa : sProp 𝕄) = iprop((pLoc c ↦{fullShare} Fa 0) ∗ (oLoc c ↦{fullShare} Fa 1)) := by
  rw [Pipeline.arrays_eq (cfgP (F := F)) (foldDats part o0 W0) 0 c arr_whole1
    ((foldDats part o0 W0 0 c).share_full fun _ => rfl), bigSep_W1]

/-- It has no prefetched table, -/
theorem prefHeld_fold (c : Dev nD) (q) (pf) :
    (Pipeline.prefHeld (Ix := HIx 1) (Name := ℕ) (U := UU) (Lvl := ℕ) (Val := Elt F) (pcs1 (F := F) 0).pre c q pf : sProp 𝕄) = BI.emp := by
  unfold Pipeline.prefHeld; rw [show (Finset.univ : Finset (Fin 0)) = ∅ from rfl, BI.bigSep_empty]

/-- and every scoped buffer of the core is one of its staging buffers. -/
theorem scopedRest_fold (c : Dev nD) :
    (Pipeline.scopedRest (Ix := HIx 1) (Name := ℕ) (U := UU) (Lvl := ℕ) (Val := Elt F) (Pipeline.pin (pcs1 (F := F)) adm1 0).spec c : sProp 𝕄) = BI.emp :=
  scopedRest1_eq c

/-- The arrays after the kernel: the accumulators as they were, the result at their fold. -/
theorem arrays_exit (c : Dev nD) :
    ((foldDats part o0 W0 0 c).arrays ((foldDats part o0 W0 0 c).arrAt · (cfgP (F := F) 0).N) : sProp 𝕄)
      = iprop((pLoc c ↦{fullShare} (part c : Buf (Elt F) (pLoc c))) ∗ (oLoc c ↦{fullShare} (outOf (F := F) (part c) : Buf (Elt F) (oLoc c)))) := by
  rw [arrays_fold]
  show iprop((pLoc c ↦{fullShare} ((foldDat c (part c) (o0 c) (W0 c)).arrAt 0 cfg1.N : Buf (Elt F) (pLoc c)))
      ∗ (oLoc c ↦{fullShare} ((foldDat c (part c) (o0 c) (W0 c)).arrAt 1 cfg1.N : Buf (Elt F) (oLoc c)))) = _
  rw [arrAt_0, arrAt_1]

/-! ## The region -/

set_option backward.isDefEq.respectTransparency.types false in
/-- The second kernel's region: the launch's layout, no semaphore of its own, the body obligation, no wait evidence
    needed (the body owes nothing); both arrays go into the pipeline and come back, nothing else is touched. -/
def foldSeg : Pipeline.RegionSeg (pcs1 (F := F)) adm1 (foldDats part o0 W0) (none : HIx 1) (defs₀ (F := F)) 𝒱₀
    (K (F := F)).L (K (F := F)).lev (0 : Fin 1) where
  win := launch1.win.to₀
  block_pos := launch1.block_pos
  stage_whole := launch1.stage_whole
  K := PEmpty
  osem k := k.elim
  ho := Pipeline.OwnSemFacts.none _
  hbody c := (body_obligation c (part c) (o0 c) (W0 c)).loose
  hwaits := Pipeline.hwaits_of_owed_zero _ _ _ _ _ _ 0 fun _ _ => rfl
  pre c := iprop((pLoc c ↦{fullShare} (part c : Buf (Elt F) (pLoc c))) ∗ (oLoc c ↦{fullShare} (o0 c : Buf (Elt F) (oLoc c)))
    ∗ owes (T c) (0 : CellTallies nD τ sig (HIx 1)) (W0 c))
  post c := iprop((pLoc c ↦{fullShare} (part c : Buf (Elt F) (pLoc c))) ∗ (oLoc c ↦{fullShare} (outOf (F := F) (part c) : Buf (Elt F) (oLoc c)))
    ∗ ∃ W', ⌜∀ p ∈ W', p ∈ W0 c ∨ p.2 = none⌝ ∗ owes (T c) (0 : CellTallies nD τ sig (HIx 1)) W')
  X _ := iprop(emp)
  Y _ := iprop(emp)
  Z _ := iprop(emp)
  hentry c := by
    rw [arrays_fold, prefHeld_fold]
    iintro ⟨⟨Hp, Ho, HO⟩, -, -⟩
    imodintro
    isplitl [Hp Ho]
    · isplitl [Hp]; · iexact Hp
      iexact Ho
    isplitr; · iempintro
    isplitl [HO]
    · unfold Pipeline.Dat.owesAt Pipeline.owesWithin
      iexists (W0 c); isplitr; · ipureintro; exact fun _ h => Or.inl h
      iexact HO
    isplitr <;> iempintro
  hin c := by
    rw [show (foldDats part o0 W0 0 c).Φ 0 = iprop(emp) from rfl]
    iintro -; iempintro
  hout c := by
    rw [show (foldDats part o0 W0 0 c).Φ (Fin.last _) = iprop(emp) from rfl, Pipeline.ownSems0_none, scopedRest_fold]
    iintro -
    isplitr; · iempintro
    isplitr <;> iempintro
  hexit c := by
    rw [arrays_exit]
    iintro ⟨⟨Hp, Ho⟩, HO, -, -⟩
    imodintro
    isplitl [Hp]; · iexact Hp
    isplitl [Ho]; · iexact Ho
    unfold Pipeline.Dat.owesAt Pipeline.owesWithin
    icases HO with ⟨%W, %hW, HO⟩
    iexists W; isplitr
    · ipureintro
      intro p hp
      rcases hW (Finset.mem_coe.mpr hp) with h | ⟨w, s, rfl⟩
      · exact Or.inl (Finset.mem_coe.mp h)
      · exact Or.inr rfl
    iexact HO

/-- What the region is entered from, -/
theorem foldSeg_pre (c : Dev nD) : (foldSeg part o0 W0).pre c
    = iprop((pLoc c ↦{fullShare} (part c : Buf (Elt F) (pLoc c))) ∗ (oLoc c ↦{fullShare} (o0 c : Buf (Elt F) (oLoc c)))
      ∗ owes (T c) (0 : CellTallies nD τ sig (HIx 1)) (W0 c)) := rfl

/-- and what it leaves. -/
theorem foldSeg_post (c : Dev nD) : (foldSeg part o0 W0).post c
    ⊢ iprop((pLoc c ↦{fullShare} (part c : Buf (Elt F) (pLoc c))) ∗ (oLoc c ↦{fullShare} (outOf (F := F) (part c) : Buf (Elt F) (oLoc c)))
      ∗ ∃ W', ⌜∀ p ∈ W', p ∈ W0 c ∨ p.2 = none⌝ ∗ owes (T c) (0 : CellTallies nD τ sig (HIx 1)) W') := .rfl

/-- The TensorCore thread, either way it is written. -/
theorem T_eq_tc (c : Dev nD) : (T c : Thread nD τ) = (c.tc : Thread nD τ) := rfl

set_option backward.isDefEq.respectTransparency.types false in
/-- The region's step at the top of the program's run on core `c`: from the boundary, what the region is entered
    from, the level facts and the pipeline's ghost state, the kernel's call runs to the boundary and what the region
    leaves, for the continuation. -/
theorem foldSeg_wp (c : Dev nD) {α : Type}
    (k : PUnit → Prog (TpuEff nD τ sig (Elt F) (ΛP (F := F)) .tc) α) (Q : α → sProp 𝕄) :
    iprop((iprop(boundary (T c) ∗ (foldSeg part o0 W0).post c) -∗ wp frame (wpE (D (F := F)) 𝒱 (T c) none) Set.univ (k ⟨⟩) Q)
        ∗ boundary (T c) ∗ (foldSeg part o0 W0).pre c ∗ levAts (K (F := F)).L (K (F := F)).lev
        ∗ Pipeline.cellsGhost (cfgP (F := F)) EP 0 c ∗ Pipeline.toksInit (cfgP (F := F)) EP 0 c)
      ⊢ wp frame (wpE (D (F := F)) 𝒱 (T c) none) Set.univ (.op (.customCall (Pipeline.entry 0) ()) k) Q :=
  Pipeline.RegionSeg.wp (pcs1 (F := F)) adm1 (foldDats part o0 W0) (none : HIx 1) phinj EP defs₀ 𝒱₀ (K (F := F)).L (K (F := F)).lev
    (foldSeg part o0 W0) c none (fun u h => absurd h (Option.not_mem_none u)) k Q

end Cert.Proof.KB

end
-- ==== Proof.Bits.FoldStep.lean ====
/-
  The second kernel's region in the form @main's proof enters it: the region's record at constant families (the
  accumulators' array, the result array's entry contents and the recorded waits the same on every device), its entry
  state spelt out and its exit state read.
-/
import proofs.«203046_g35227321762133_cont_8to1_b_835_12_alg».proof.Proof.Bits.FoldRegion
import proofs.«203046_g35227321762133_cont_8to1_b_835_12_alg».proof.Proof.Bits.LaunchMain

noncomputable section

namespace Cert.Proof.KB

open Cert.Kernel Cert.Kernel.Gen Cert.Proof.Seg

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [hK : Cert.Kernel.Facts]
variable (m : (ℓ : Loc nD τ sig) → Buf (Elt F) ℓ) (ρ : Dev nD → PrngReg)

set_option backward.isDefEq.respectTransparency.types false in
theorem foldStep (d : Dev nD) : FoldStep (F := F) d := by
  intro part o0 W0 Q
  have h := foldSeg_wp (F := F) (fun _ => part) (fun _ => o0) (fun _ => W0) d (k := .ret) Q
  rw [foldSeg_pre] at h
  unfold G
  iintro ⟨Hk, Hb, Hp, Ho, HO, Hlev, Hg, Ht⟩
  iapply h $$ [Hk Hb Hp Ho HO Hlev Hg Ht]
  isplitl [Hk]
  · iintro ⟨Hb, Hpost⟩
    iapply Hk
    isplitl [Hb]; · iexact Hb
    iapply (foldSeg_post (F := F) (fun _ => part) (fun _ => o0) (fun _ => W0) d); iexact Hpost
  isplitl [Hb]; · iexact Hb
  isplitl [Hp Ho HO]
  · isplitl [Hp]; · iexact Hp
    isplitl [Ho]; · iexact Ho
    iexact HO
  isplitl [Hlev]; · iexact Hlev
  isplitl [Hg]; · iexact Hg
  iexact Ht

end Cert.Proof.KB

end
-- ==== Proof.SegSum.lean ====
/-
  The segment sum: entry `s` of the result is the sum of the rows of `x` whose segment number is `s`.
  Both programs are proved to compute it.
-/
import proofs.«203046_g35227321762133_cont_8to1_b_835_12_alg».proof.Proof.SegSpec

noncomputable section

namespace Cert.Proof.KI

open Idealize.ShloMosaic Idealize.ShloMosaic.ValueIdx Cert.Proof.Seg

/-- Entry `s`: the sum over all rows `r` of `x r` when row `r` belongs to segment `s`, and of nothing otherwise. -/
def segSum (xf : Vec Ideal SN .f32) (bt : IVec SN 32) : Vec Ideal ⟨1, ![4096]⟩ .f32 :=
  fun s => ∑ r : Fin 6400000, if (bt (ix1 r)).toNat = (s 0).val then xf (ix1 r) else 0

end Cert.Proof.KI

end
-- ==== Proof.LibStoreIdx.lean ====
/-
  The indexed store of a SparseCore tile (`store_scatter`, `addupdate_scatter`) read at a position, for any base shape,
  element type and lane count. Nothing here mentions a program.

  With every mask bit set the store is a fold of per-lane updates, lowest lane first. A position no lane names keeps
  its value (`storeIdx_of_not_mem`). When the lanes' indices are pairwise different — as they are for "base + lane"
  index vectors — the position lane k names ends at the lane's value, or, for the adding form, at the old value plus
  the lane's value (`storeIdx_of_inj`), and every position is decided by `storeIdx_apply_of_inj`.
-/
import Idealize.ShloMosaic.PureOps.ShapeOps
import Mathlib.Tactic

noncomputable section

namespace Cert.Lib

open Idealize.ShloMosaic

variable {F : FTy → Type} [FloatOps F] {s : Shape} {e : EltTy} {d : Fin 1 → Nat}

/-- One lane's update: the position the lane names takes the lane's value (added onto what is there, for the adding form). -/
def laneStep (idxs : Fin s.rank → IVec ⟨1, d⟩ 32) (h : ∀ a x, (idxs a x).toNat < s.size a) (v : Vec F ⟨1, d⟩ e) (add : Bool)
    (g : Vec F s e) (k : Fin (d 0)) : Vec F s e :=
  fun j => if (∀ a, (j a).val = ((idxAt idxs h (Shape.ofLane k)) a).val)
    then (if add then Elt.idxAdd e (g (idxAt idxs h (Shape.ofLane k))) (v (Shape.ofLane k)) else v (Shape.ofLane k))
    else g j

/-- With every mask bit set, the indexed store is the fold of the lanes' updates, lowest lane first. -/
theorem storeIdx_eq_foldl (f : Vec F s e) (idxs : Fin s.rank → IVec ⟨1, d⟩ 32) (v : Vec F ⟨1, d⟩ e) (add : Bool)
    (h : ∀ a x, (idxs a x).toNat < s.size a) :
    storeIdx f idxs v (fun _ => 1#1) add h = (List.finRange (d 0)).foldl (laneStep idxs h v add) f := by
  unfold storeIdx
  congr 1

/-- Two positions are one when their coordinates are. -/
theorem idx_eq_iff (j i : s.Idx) : (∀ a, (j a).val = (i a).val) ↔ j = i :=
  ⟨fun hji => funext fun a => Fin.ext (hji a), fun hji a => by rw [hji]⟩

/-- Lanes that do not name a position leave it alone. -/
theorem foldl_of_not_mem (idxs : Fin s.rank → IVec ⟨1, d⟩ 32) (h : ∀ a x, (idxs a x).toNat < s.size a) (v : Vec F ⟨1, d⟩ e) (add : Bool)
    (Ls : List (Fin (d 0))) (g : Vec F s e) (j : s.Idx) (hj : ∀ k ∈ Ls, idxAt idxs h (Shape.ofLane k) ≠ j) :
    (Ls.foldl (laneStep idxs h v add) g) j = g j := by
  induction Ls generalizing g with
  | nil => rfl
  | cons k Ls ih =>
    rw [List.foldl_cons, ih _ (fun k' hk' => hj k' (List.mem_cons_of_mem _ hk'))]
    unfold laneStep
    rw [if_neg]
    intro hji
    exact hj k (List.mem_cons_self) ((idx_eq_iff j _).mp hji).symm

/-- Among lanes naming pairwise different positions, the position lane k₀ names ends at that lane's value (added onto the old
    value, for the adding form). -/
theorem foldl_of_inj (idxs : Fin s.rank → IVec ⟨1, d⟩ 32) (h : ∀ a x, (idxs a x).toNat < s.size a) (v : Vec F ⟨1, d⟩ e) (add : Bool)
    (hinj : ∀ k k' : Fin (d 0), idxAt idxs h (Shape.ofLane k) = idxAt idxs h (Shape.ofLane k') → k = k')
    (Ls : List (Fin (d 0))) (hnd : Ls.Nodup) (g : Vec F s e) (k₀ : Fin (d 0)) (hk₀ : k₀ ∈ Ls) :
    (Ls.foldl (laneStep idxs h v add) g) (idxAt idxs h (Shape.ofLane k₀))
      = if add then Elt.idxAdd e (g (idxAt idxs h (Shape.ofLane k₀))) (v (Shape.ofLane k₀)) else v (Shape.ofLane k₀) := by
  induction Ls generalizing g with
  | nil => exact absurd hk₀ (List.not_mem_nil)
  | cons k Ls ih =>
    rw [List.foldl_cons]
    have hnd' := (List.nodup_cons.mp hnd)
    rcases List.mem_cons.mp hk₀ with rfl | hk
    · rw [foldl_of_not_mem idxs h v add Ls _ _ (fun k' hk' he => hnd'.1 ((hinj k' k₀ he) ▸ hk'))]
      unfold laneStep
      rw [if_pos (fun a => rfl)]
    · rw [ih hnd'.2 _ hk]
      have hne : idxAt idxs h (Shape.ofLane k) ≠ idxAt idxs h (Shape.ofLane k₀) := fun he => hnd'.1 ((hinj k k₀ he) ▸ hk)
      have : laneStep idxs h v add g k (idxAt idxs h (Shape.ofLane k₀)) = g (idxAt idxs h (Shape.ofLane k₀)) := by
        unfold laneStep
        rw [if_neg]
        intro hji
        exact hne ((idx_eq_iff _ _).mp hji).symm
      rw [this]

/-- A position no lane names keeps its value through an indexed store with every mask bit set. -/
theorem storeIdx_of_not_mem (f : Vec F s e) (idxs : Fin s.rank → IVec ⟨1, d⟩ 32) (v : Vec F ⟨1, d⟩ e) (add : Bool)
    (h : ∀ a x, (idxs a x).toNat < s.size a) (j : s.Idx) (hj : ∀ k : Fin (d 0), idxAt idxs h (Shape.ofLane k) ≠ j) :
    storeIdx f idxs v (fun _ => 1#1) add h j = f j := by
  rw [storeIdx_eq_foldl]
  exact foldl_of_not_mem idxs h v add _ f j (fun k _ => hj k)

/-- When the lanes name pairwise different positions, the position lane k names ends at the lane's value — the old value
    plus the lane's value, for the adding form. -/
theorem storeIdx_of_inj (f : Vec F s e) (idxs : Fin s.rank → IVec ⟨1, d⟩ 32) (v : Vec F ⟨1, d⟩ e) (add : Bool)
    (h : ∀ a x, (idxs a x).toNat < s.size a)
    (hinj : ∀ k k' : Fin (d 0), idxAt idxs h (Shape.ofLane k) = idxAt idxs h (Shape.ofLane k') → k = k') (k : Fin (d 0)) :
    storeIdx f idxs v (fun _ => 1#1) add h (idxAt idxs h (Shape.ofLane k))
      = if add then Elt.idxAdd e (f (idxAt idxs h (Shape.ofLane k))) (v (Shape.ofLane k)) else v (Shape.ofLane k) := by
  rw [storeIdx_eq_foldl]
  exact foldl_of_inj idxs h v add hinj _ (List.nodup_finRange _) f k (List.mem_finRange k)

end Cert.Lib

end
-- ==== Proof.SegAcc.lean ====
/-
  One tile's accumulator read at a position, at the ideal values: after the tile's first `n` vectors, position `p`
  holds the sum, over those vectors and their sixteen lanes, of the lane's value when the lane's position
  (sixteen times its segment number plus its lane) is `p`.

  The sixteen positions of one vector are pairwise different, since they differ in their remainder by sixteen;
  so an adding store of a vector adds, at each position, at most one lane's value, and the position's new
  value is the old one plus the sum over the lanes that name it.
-/
import proofs.«203046_g35227321762133_cont_8to1_b_835_12_alg».proof.Proof.SegSpec
import proofs.«203046_g35227321762133_cont_8to1_b_835_12_alg».proof.Proof.LibStoreIdx
import Idealize.ShloMosaic.PureOps.Ideal.Laws
import Mathlib.Tactic

noncomputable section

namespace Cert.Proof.Seg

open Idealize.ShloMosaic Idealize.ShloMosaic.ValueIdx

/-- The position lane `l` of a vector adds at, as a number: no word overflows while segment numbers stay below 4096. -/
theorem posVec_toNat (ids : IVec SL 32) (hids : ∀ x, (ids x).toNat ≤ 4095) (l : Fin 16) :
    (posVec ids (ix1 l)).toNat = (ids (ix1 l)).toNat * 16 + l.val := by
  have h := hids (ix1 l)
  have hl := l.isLt
  show (IntOp.addi (IntOp.muli (ids (ix1 l)) (16#32)) (BitVec.ofNat 32 l.val)).toNat = _
  simp only [IntOp.addi, IntOp.muli, BitVec.toNat_add, BitVec.toNat_mul, BitVec.toNat_ofNat]
  omega

/-- Lane `l` of a sixteen-lane vector, as an index. -/
theorem ofLane_eq (l : Fin 16) : (Shape.ofLane (d := ![16]) l : SL.Idx) = ix1 l :=
  funext fun a => match a with | ⟨0, _⟩ => Fin.ext rfl

/-- With segment numbers below 4096 every position lies in the accumulator. -/
theorem posOk (ids : IVec SL 32) (hids : ∀ x, (ids x).toNat ≤ 4095) : PosOk ids := by
  intro a x
  match a with
  | ⟨0, _⟩ =>
    obtain ⟨l, rfl⟩ : ∃ l : Fin 16, x = ix1 l := ⟨x 0, eq_ix1 x⟩
    show (posVec ids (ix1 l)).toNat < 65536
    have h := hids (ix1 l)
    have hl := l.isLt
    rw [posVec_toNat ids hids l]
    omega

/-- One vector added into the accumulator, read at position `p`: the old value plus the values of the lanes whose
    position is `p` (at most one lane). -/
theorem scat_apply (g : Vec Ideal SA .f32) (ids : IVec SL 32) (v : Vec Ideal SL .f32) (hids : ∀ x, (ids x).toNat ≤ 4095)
    (p : Fin 65536) :
    scat g ids v (ix1 p)
      = g (ix1 p) + ∑ l : Fin 16, if (ids (ix1 l)).toNat * 16 + l.val = p.val then v (ix1 l) else 0 := by
  have hok := posOk ids hids
  rw [scat_of_ok g ids v hok]
  -- the index lane l names
  have hidx : ∀ l : Fin 16, ∀ q : Fin 65536, (ids (ix1 l)).toNat * 16 + l.val = q.val →
      idxAt (s := SA) ![posVec ids] hok (Shape.ofLane (d := ![16]) l) = ix1 q := by
    intro l q hq
    funext a
    match a with
    | ⟨0, _⟩ =>
      refine Fin.ext ?_
      show (posVec ids (Shape.ofLane (d := ![16]) l)).toNat = q.val
      rw [ofLane_eq, posVec_toNat ids hids l, hq]
  have hval : ∀ l : Fin 16, ((idxAt (s := SA) ![posVec ids] hok (Shape.ofLane (d := ![16]) l)) 0).val
      = (ids (ix1 l)).toNat * 16 + l.val := by
    intro l
    show (posVec ids (Shape.ofLane (d := ![16]) l)).toNat = _
    rw [ofLane_eq, posVec_toNat ids hids l]
  have hinj : ∀ k k' : Fin 16, idxAt (s := SA) ![posVec ids] hok (Shape.ofLane (d := ![16]) k)
      = idxAt (s := SA) ![posVec ids] hok (Shape.ofLane (d := ![16]) k') → k = k' := by
    intro k k' he
    have h1 := hval k
    have h2 := hval k'
    rw [he] at h1
    have hk := k.isLt
    have hk' := k'.isLt
    exact Fin.ext (by omega)
  by_cases hex : ∃ l : Fin 16, (ids (ix1 l)).toNat * 16 + l.val = p.val
  · obtain ⟨l, hl⟩ := hex
    have hsum : (∑ l' : Fin 16, if (ids (ix1 l')).toNat * 16 + l'.val = p.val then v (ix1 l') else 0) = v (ix1 l) := by
      rw [Finset.sum_eq_single l]
      · rw [if_pos hl]
      · intro l' _ hne
        rw [if_neg]
        intro hl'
        have h1 := l.isLt
        have h2 := l'.isLt
        exact hne (Fin.ext (by omega))
      · intro h; exact absurd (Finset.mem_univ l) h
    rw [hsum, ← hidx l p hl]
    have := Cert.Lib.storeIdx_of_inj (F := Ideal) (s := SA) (e := .f32) (d := ![16]) g ![posVec ids] v true hok hinj l
    rw [this, ofLane_eq]
    rfl
  · have hzero : (∑ l' : Fin 16, if (ids (ix1 l')).toNat * 16 + l'.val = p.val then v (ix1 l') else 0) = 0 :=
      Finset.sum_eq_zero fun l' _ => if_neg (fun h => hex ⟨l', h⟩)
    rw [hzero, add_zero]
    refine Cert.Lib.storeIdx_of_not_mem (F := Ideal) (s := SA) (e := .f32) (d := ![16]) g ![posVec ids] v true hok (ix1 p) ?_
    intro k he
    apply hex
    refine ⟨k, ?_⟩
    have h1 := hval k
    rw [he] at h1
    exact h1.symm

/-- What vector `m` of tile `w` adds at position `p`. -/
def vecAt (xf : Vec Ideal SN .f32) (bt : IVec SN 32) (w : Fin 32) (p : Fin 65536) (m : Fin 12500) : EReal :=
  ∑ l : Fin 16, if (bt (rowIx w m (ix1 l))).toNat * 16 + l.val = p.val then xf (rowIx w m (ix1 l)) else 0

/-- Tile `w`'s accumulator after its first `n` vectors, at position `p`. -/
theorem accAt_apply (xf : Vec Ideal SN .f32) (bt : IVec SN 32) (hb : ∀ r, (bt r).toNat ≤ 4095) (w : Fin 32) (p : Fin 65536)
    (n : Nat) (hn : n ≤ 12500) :
    accAt xf bt w n (ix1 p) = ∑ m ∈ Finset.range n, if h : m < 12500 then vecAt xf bt w p ⟨m, h⟩ else 0 := by
  induction n with
  | zero =>
    rw [accAt_zero, Finset.range_zero, Finset.sum_empty]
    show Ideal.ofBits .f32 0x00000000#32 = 0
    exact Ideal.ofBits_zero_f32
  | succ n ih =>
    have hlt : n < 12500 := by omega
    rw [accAt_succ xf bt w n hlt, scat_apply (accAt xf bt w n) (bVec bt w ⟨n, hlt⟩) (xVec xf w ⟨n, hlt⟩) (fun x => hb _) p,
      ih (by omega), Finset.sum_range_succ, dif_pos hlt]
    rfl

end Cert.Proof.Seg

end
-- ==== Proof.SegFold.lean ====
/-
  The second kernel's fold read at an entry, at the ideal values: entry `j` of a block's result is the sum, over the
  32 tiles and the 16 lanes, of the block's column `j * 16 + l` — the reduction over the first and last axes of the
  block viewed as 32 x 512 x 16, times the constant one. So entry `s` of the program's result is the sum over tiles
  and lanes of position `s * 16 + l` of the tiles' accumulators.
-/
import proofs.«203046_g35227321762133_cont_8to1_b_835_12_alg».proof.Proof.SegOut
import Idealize.ShloMosaic.PureOps.Ideal.Laws
import Idealize.ShloMosaic.Lib.Pipeline.Value
import Mathlib.Tactic

noncomputable section

namespace Cert.Proof.KI

open Idealize.ShloMosaic Idealize.ShloMosaic.ValueIdx
open Cert.KernelIdeal Cert.KernelIdeal.Gen Cert.Proof.Seg

variable [Cert.KernelIdeal.Facts]

/-- The pattern of `1.0` denotes one. -/
theorem ofBits_one : Ideal.ofBits .f32 0x3F800000#32 = 1 := by
  simp [Ideal.ofBits, Ideal.ieee, -EReal.coe_mul]; norm_num

/-- An index of the 32 x 512 x 16 view is its three coordinates … -/
def idxEquiv3 : S32x512x16.Idx ≃ Fin 32 × Fin 512 × Fin 16 where
  toFun i := (i 0, i 1, i 2)
  invFun p := ix3 p.1 p.2.1 p.2.2
  left_inv i := (eq_ix3 i).symm
  right_inv _ := rfl

/-- … so a sum over the view is the triple sum over the coordinates. -/
theorem sum_idx3 (f : S32x512x16.Idx → EReal) :
    ∑ i, f i = ∑ a : Fin 32, ∑ b : Fin 512, ∑ c : Fin 16, f (ix3 a b c) := by
  rw [← Equiv.sum_comp idxEquiv3.symm f, Fintype.sum_prod_type]
  refine Finset.sum_congr rfl fun a _ => ?_
  rw [Fintype.sum_prod_type]
  rfl

/-- Dropping the first and last coordinates leaves the middle one. -/
theorem drop_ix3 (h : S32x512x16.Reduces [0, 2] S512) (a : Fin 32) (b : Fin 512) (c : Fin 16) :
    h.drop (ix3 a b c) = ix1 b :=
  funext fun d => match d with
    | ⟨0, _⟩ => Fin.ext (Shape.Reduces.drop_apply_val_of_eq h (ix3 a b c) ⟨0, by decide⟩ 1)

theorem ix1_inj (b j : Fin 512) (h : (ix1 b : S512.Idx) = ix1 j) : b = j := congrFun h 0

/-- The fold of a block, at entry `j`. -/
theorem fold_apply (v0 : Vec Ideal S32x8192 .f32) (j : Fin 512) :
    k1_pay1 (F := Ideal) v0 (ix1 j)
      = ∑ w : Fin 32, ∑ l : Fin 16, v0 (ix2 w ⟨j.val * 16 + l.val, by have := j.isLt; have := l.isLt; omega⟩) := by
  have e : k1_pay1 (F := Ideal) v0 (ix1 j)
      = Ideal.reduceAdd reduces_S32x512x16_S512
          (shapeCast S32x512x16 (shapeCast S32x8192 v0 shapeCasts_S32x8192_S32x8192) shapeCasts_S32x8192_S32x512x16) (ix1 j)
        * Ideal.ofBits .f32 0x3F800000#32 := rfl
  rw [e, ofBits_one, mul_one]
  unfold Ideal.reduceAdd
  rw [Finset.sum_filter, sum_idx3]
  refine Finset.sum_congr rfl fun w _ => ?_
  rw [Finset.sum_eq_single j]
  · refine Finset.sum_congr rfl fun l _ => ?_
    rw [if_pos (drop_ix3 _ w j l)]
    refine (shapeCast_apply _ shapeCasts_S32x8192_S32x512x16 (ix3 w j l)
      (ix2 w ⟨j.val * 16 + l.val, by have := j.isLt; have := l.isLt; omega⟩) ?_).trans ?_
    · rw [Shape.rowMajor_val_two, Shape.rowMajor_val_three]
      show w.val * 8192 + (j.val * 16 + l.val) = (w.val * 512 + j.val) * 16 + l.val
      omega
    · rw [shapeCast_self]
  · intro b _ hne
    refine Finset.sum_eq_zero fun c _ => if_neg ?_
    rw [drop_ix3]
    exact fun h => hne (ix1_inj b j h)
  · intro h; exact absurd (Finset.mem_univ j) h

/-- Entry `s` of the program's result: the sum over tiles and lanes of position `s * 16 + l` of the accumulators. -/
theorem outOf_apply (part : Vec Ideal S32x65536 .f32) (s : Fin 4096) :
    outOf (F := Ideal) part (ix1 s)
      = ∑ w : Fin 32, ∑ l : Fin 16, part (ix2 w ⟨s.val * 16 + l.val, by have := s.isLt; have := l.isLt; omega⟩) := by
  unfold outOf
  refine (fold_apply _ _).trans ?_
  refine Finset.sum_congr rfl fun w _ => Finset.sum_congr rfl fun l _ => ?_
  unfold blkOf
  refine congrArg part ?_
  funext d
  match d with
  | ⟨0, _⟩ => rfl
  | ⟨1, _⟩ =>
    refine Fin.ext ?_
    show s.val / 512 * 8192 + (s.val % 512 * 16 + l.val) = s.val * 16 + l.val
    omega

end Cert.Proof.KI

end
-- ==== Proof.LibSumDigits.lean ====
/-
  Sums over the digits of a flat position, in any commutative additive monoid. Nothing here mentions a program.

  A reduction kernel spreads a sum over flat positions p < N across tiles, lanes and loop trips: each accumulator adds the
  terms whose position has its tile and lane as two of the digits of p in a mixed radix, and the host adds the
  accumulators. `sum_range_mul` splits a sum over p < m·n into the two digits of p; `sum_digits5` does it for five
  digits with the LAST digit (the lane) and the FIRST (the tile) pulled outermost, the shape "for each tile, for each
  lane, over the three loop counters"; `sum_range_of_tail_zero` drops a padded tail whose terms are zero.
-/
import Mathlib.Tactic

namespace Cert.Lib

open Finset

variable {M : Type*} [AddCommMonoid M]

/-- A sum over the positions below m·n is the sum over the two digits of the position. -/
theorem sum_range_mul (m n : ℕ) (f : ℕ → M) :
    (∑ p ∈ range (m * n), f p) = ∑ i ∈ range m, ∑ j ∈ range n, f (i * n + j) := by
  induction m with
  | zero => simp
  | succ m ih =>
    rw [Nat.succ_mul, Finset.sum_range_add, ih, Finset.sum_range_succ]

/-- A padded tail of zero terms adds nothing. -/
theorem sum_range_of_tail_zero (K N : ℕ) (hKN : K ≤ N) (f : ℕ → M) (h0 : ∀ p, K ≤ p → p < N → f p = 0) :
    (∑ p ∈ range N, f p) = ∑ p ∈ range K, f p := by
  obtain ⟨t, rfl⟩ := Nat.exists_eq_add_of_le hKN
  rw [Finset.sum_range_add]
  have : (∑ x ∈ range t, f (K + x)) = 0 :=
    Finset.sum_eq_zero fun x hx => h0 (K + x) (Nat.le_add_right K x) (by have := Finset.mem_range.mp hx; omega)
  rw [this, add_zero]

/-- Five digits, tile first and lane last, summed tile by tile, lane by lane, then over the three middle digits: the same
    sum as over the flat position w·(b·c·d·l) + i·(c·d·l) + j·(d·l) + g·l + x below a·b·c·d·l. -/
theorem sum_digits5 (a b c d l : ℕ) (f : ℕ → M) :
    (∑ w ∈ range a, ∑ x ∈ range l, ∑ i ∈ range b, ∑ j ∈ range c, ∑ g ∈ range d,
        f (w * (b * c * d * l) + i * (c * d * l) + j * (d * l) + g * l + x))
      = ∑ p ∈ range (a * (b * c * d * l)), f p := by
  rw [sum_range_mul a (b * c * d * l) f]
  refine Finset.sum_congr rfl fun w _ => ?_
  have e1 : b * c * d * l = b * (c * d * l) := by ring
  rw [e1, sum_range_mul b (c * d * l) (fun q => f (w * (b * (c * d * l)) + q))]
  have e2 : c * d * l = c * (d * l) := by ring
  simp_rw [e2, sum_range_mul c (d * l) (fun q => f (w * (b * (c * (d * l))) + (_ * (c * (d * l)) + q)))]
  simp_rw [sum_range_mul d l (fun q => f (w * (b * (c * (d * l))) + (_ * (c * (d * l)) + (_ * (d * l) + q))))]
  -- the lane's sum is innermost on the right, outermost on the left: commute it outward three times
  rw [Finset.sum_comm]
  refine Finset.sum_congr rfl fun i _ => ?_
  rw [Finset.sum_comm]
  refine Finset.sum_congr rfl fun j _ => ?_
  rw [Finset.sum_comm]
  refine Finset.sum_congr rfl fun g _ => ?_
  refine Finset.sum_congr rfl fun x _ => ?_
  congr 1
  ring

end Cert.Lib
-- ==== Proof.SegValue.lean ====
/-
  The kernel's result is the segment sum.

  Entry `s` of the result is the sum over the 32 tiles and the 16 lanes of position `s * 16 + l` of the tiles'
  accumulators; that position holds the sum over the tile's 12 500 vectors and their lanes `l'` of the row's value
  when `b * 16 + l' = s * 16 + l`, that is when the row's segment `b` is `s` and `l' = l`. Summing over `l` leaves
  the sum over tiles, vectors and lanes of the rows of segment `s`; tile `w`, vector `m`, lane `l'` is row
  `w * 200000 + m * 16 + l'`, and these are all the rows, each once.
-/
import proofs.«203046_g35227321762133_cont_8to1_b_835_12_alg».proof.Proof.SegOut
import proofs.«203046_g35227321762133_cont_8to1_b_835_12_alg».proof.Proof.SegSum
import proofs.«203046_g35227321762133_cont_8to1_b_835_12_alg».proof.Proof.SegAcc
import proofs.«203046_g35227321762133_cont_8to1_b_835_12_alg».proof.Proof.SegFold
import proofs.«203046_g35227321762133_cont_8to1_b_835_12_alg».proof.Proof.LibSumDigits
import Mathlib.Tactic

noncomputable section

namespace Cert.Proof.KI

open Idealize.ShloMosaic Idealize.ShloMosaic.ValueIdx
open Cert.KernelIdeal Cert.KernelIdeal.Gen Cert.Proof.Seg

/-- A sum over tiles, vectors and lanes is the sum over the rows. -/
theorem sum_rows (G : ℕ → EReal) :
    (∑ w : Fin 32, ∑ m : Fin 12500, ∑ l : Fin 16, G (w.val * 200000 + m.val * 16 + l.val))
      = ∑ r : Fin 6400000, G r.val := by
  have hR : (∑ r : Fin 6400000, G r.val) = ∑ p ∈ Finset.range (32 * 200000), G p := (Finset.sum_range G).symm
  have hL : (∑ w : Fin 32, ∑ m : Fin 12500, ∑ l : Fin 16, G (w.val * 200000 + m.val * 16 + l.val))
      = ∑ w ∈ Finset.range 32, ∑ q ∈ Finset.range (12500 * 16), G (w * 200000 + q) := by
    rw [Finset.sum_range (fun w => ∑ q ∈ Finset.range (12500 * 16), G (w * 200000 + q))]
    refine Finset.sum_congr rfl fun w _ => ?_
    rw [Cert.Lib.sum_range_mul 12500 16 (fun q => G (w.val * 200000 + q)),
      Finset.sum_range (fun m => ∑ j ∈ Finset.range 16, G (w.val * 200000 + (m * 16 + j)))]
    refine Finset.sum_congr rfl fun m _ => ?_
    rw [Finset.sum_range (fun j => G (w.val * 200000 + (m.val * 16 + j)))]
    refine Finset.sum_congr rfl fun l _ => ?_
    rw [Nat.add_assoc]
  rw [hL, hR, Cert.Lib.sum_range_mul 32 200000 G]

/-- Over the lanes `l`, "segment `b`, lane `l'`" is position "segment `s`, lane `l`" exactly once when `b = s`, never otherwise. -/
theorem lane_collapse (b : ℕ) (s : Fin 4096) (l' : Fin 16) (x : EReal) :
    (∑ l : Fin 16, if b * 16 + l'.val = s.val * 16 + l.val then x else 0) = if b = s.val then x else 0 := by
  by_cases hbs : b = s.val
  · rw [if_pos hbs, Finset.sum_eq_single l']
    · rw [if_pos (by rw [hbs])]
    · intro l _ hne
      rw [if_neg]
      intro h
      exact hne (Fin.ext (by omega))
    · intro h; exact absurd (Finset.mem_univ _) h
  · rw [if_neg hbs]
    refine Finset.sum_eq_zero fun l _ => if_neg ?_
    intro h
    have := l.isLt
    have := l'.isLt
    exact hbs (by omega)

/-- Row `r`'s contribution to segment `s` (nothing past the last row). -/
def rowTerm (xf : Vec Ideal SN .f32) (bt : IVec SN 32) (s : Fin 4096) (r : ℕ) : EReal :=
  if h : r < 6400000 then (if (bt (ix1 ⟨r, h⟩)).toNat = s.val then xf (ix1 ⟨r, h⟩) else 0) else 0

theorem rowTerm_lane (xf : Vec Ideal SN .f32) (bt : IVec SN 32) (s : Fin 4096) (w : Fin 32) (m : Fin 12500) (l : Fin 16) :
    rowTerm xf bt s (w.val * 200000 + m.val * 16 + l.val)
      = if (bt (rowIx w m (ix1 l))).toNat = s.val then xf (rowIx w m (ix1 l)) else 0 := by
  have hlt : w.val * 200000 + m.val * 16 + l.val < 6400000 := by
    have := w.isLt; have := m.isLt; have := l.isLt; omega
  unfold rowTerm
  rw [dif_pos hlt]
  rfl

variable [Cert.KernelIdeal.Facts]

/-- The kernel's result is the segment sum. -/
theorem resultOf_eq (xf : Vec Ideal SN .f32) (bt : IVec SN 32) (hb : ∀ r, (bt r).toNat ≤ 4095) :
    resultOf (F := Ideal) xf bt = segSum xf bt := by
  funext s'
  obtain ⟨s, rfl⟩ : ∃ s : Fin 4096, s' = ix1 s := ⟨s' 0, eq_ix1 s'⟩
  have hR : segSum xf bt (ix1 s) = ∑ r : Fin 6400000, rowTerm xf bt s r.val := by
    unfold segSum
    refine Finset.sum_congr rfl fun r _ => ?_
    unfold rowTerm
    rw [dif_pos r.isLt]
  rw [hR, ← sum_rows (rowTerm xf bt s)]
  unfold resultOf
  rw [outOf_apply]
  refine Finset.sum_congr rfl fun w _ => ?_
  have hpart : ∀ q : Fin 65536, partOf xf bt (ix2 w q) = ∑ m : Fin 12500, vecAt xf bt w q m := by
    intro q
    show accAt xf bt w 12500 (ix1 q) = _
    rw [accAt_apply xf bt hb w q 12500 le_rfl, Finset.sum_range]
    refine Finset.sum_congr rfl fun m _ => ?_
    rw [dif_pos m.isLt]
  simp only [hpart]
  rw [Finset.sum_comm]
  refine Finset.sum_congr rfl fun m _ => ?_
  unfold vecAt
  rw [Finset.sum_comm]
  refine Finset.sum_congr rfl fun l' _ => ?_
  rw [rowTerm_lane]
  exact lane_collapse _ s l' _

end Cert.Proof.KI

end
-- ==== Proof.RefValue.lean ====
/-
  The reference's result, read off its run one operation at a time, is the segment sum of the rows.

  The reference scatters the rows into a zero array of 4096 x 1 entries with an `add` body: at the ideal values
  entry `(s, 0)` ends at zero plus the sum of the rows whose result index is `(s, 0)`. Row `(r, 0)`'s result index
  is its segment number read signed, with column 0, when that is inside the array; with segment numbers in
  0 … 4095 it is the row's segment number. The product with the constant one and the reshape change nothing.
-/
import proofs.«203046_g35227321762133_cont_8to1_b_835_12_alg».proof.Defs
import proofs.«203046_g35227321762133_cont_8to1_b_835_12_alg».proof.Proof.Gen.ReferenceIdeal.Run
import proofs.«203046_g35227321762133_cont_8to1_b_835_12_alg».proof.Proof.Gen.ReferenceIdeal.Read
import proofs.«203046_g35227321762133_cont_8to1_b_835_12_alg».proof.Proof.SegSpec
import proofs.«203046_g35227321762133_cont_8to1_b_835_12_alg».proof.Proof.SegSum
import Idealize.ShloMosaic.PureOps.Ideal.Laws
import Mathlib.Tactic

noncomputable section

namespace Cert.Proof.Ref

open Idealize.ShloMosaic Idealize.ShloMosaic.ValueIdx Idealize.SL.Sem
open Cert.ReferenceIdeal Cert.ReferenceIdeal.Gen

variable [Cert.ReferenceIdeal.Facts]

/-- The scatter's dimension numbers: rows of the updates go to rows of the operand, the one column is a window. -/
abbrev D := scatter_S4096x1_S6400000x1_S6400000x1_1_0_0_1

/-- The pattern of `1.0` denotes one. -/
theorem ofBits_one : Ideal.ofBits .f32 0x3F800000#32 = 1 := by
  simp [Ideal.ofBits, Ideal.ieee, -EReal.coe_mul]; norm_num

/-- The window of update `(r, c)` starts, on the rows, at the index the scatter indices hold at `(r, 0)`, read signed, -/
theorem start0 (idx : IVec S6400000x1 32) (r : Fin 6400000) (c : Fin 1) :
    D.start (ix2 r c) idx 0 = (idx (ix2 r 0)).toInt := by
  unfold ScatterDims.start
  rw [dif_pos (by decide)]
  refine congrArg (fun i => (idx i).toInt) ?_
  funext b
  match b with
  | ⟨0, _⟩ => exact Fin.ext rfl
  | ⟨1, _⟩ => exact Fin.ext rfl

/-- and on the column at 0. -/
theorem start1 (idx : IVec S6400000x1 32) (j : S6400000x1.Idx) : D.start j idx 1 = 0 := by
  unfold ScatterDims.start
  rw [dif_neg (by decide)]

/-- The window coordinate is 0 on the rows (an inserted axis) -/
theorem window0 (j : S6400000x1.Idx) : D.window j 0 = 0 := by
  unfold ScatterDims.window
  rw [dif_neg (by decide)]

/-- and the update's column, which is 0, on the column. -/
theorem window1 (r : Fin 6400000) (c : Fin 1) : D.window (ix2 r c) 1 = 0 := by
  unfold ScatterDims.window
  rw [dif_pos (by decide)]
  show (c : Nat) = 0
  omega

/-- With the index at `(r, 0)` in 0 … 4095, update `(r, c)` lands on `(s, 0)` exactly when that index is `s`. -/
theorem resultIdx_iff (idx : IVec S6400000x1 32) (r : Fin 6400000) (c : Fin 1) (s : Fin 4096)
    (hle : (idx (ix2 r 0)).toNat ≤ 4095) :
    D.resultIdx? (ix2 r c) idx = some (ix2 s 0) ↔ (idx (ix2 r 0)).toNat = s.val := by
  have hi : (idx (ix2 r 0)).toInt = ((idx (ix2 r 0)).toNat : ℤ) := BitVec.toInt_eq_toNat_of_lt (by omega)
  have hs := s.isLt
  have hall : ∀ a, 0 ≤ D.start (ix2 r c) idx a + D.window (ix2 r c) a
      ∧ D.start (ix2 r c) idx a + D.window (ix2 r c) a < S4096x1.size a := by
    intro a
    match a with
    | ⟨0, _⟩ =>
      show 0 ≤ D.start (ix2 r c) idx 0 + (D.window (ix2 r c) 0 : ℤ)
        ∧ D.start (ix2 r c) idx 0 + (D.window (ix2 r c) 0 : ℤ) < ((4096 : ℕ) : ℤ)
      rw [start0, window0, hi]
      omega
    | ⟨1, _⟩ =>
      show 0 ≤ D.start (ix2 r c) idx 1 + (D.window (ix2 r c) 1 : ℤ)
        ∧ D.start (ix2 r c) idx 1 + (D.window (ix2 r c) 1 : ℤ) < ((1 : ℕ) : ℤ)
      rw [start1, window1]
      omega
  unfold ScatterDims.resultIdx?
  rw [dif_pos hall]
  constructor
  · intro h
    have e : (D.start (ix2 r c) idx 0 + (D.window (ix2 r c) 0 : ℤ)).toNat = s.val :=
      congrArg Fin.val (congrFun (Option.some.inj h) 0)
    rw [start0, window0, hi] at e
    omega
  · intro h
    refine congrArg some (funext fun a => ?_)
    match a with
    | ⟨0, _⟩ =>
      refine Fin.ext ?_
      show (D.start (ix2 r c) idx 0 + (D.window (ix2 r c) 0 : ℤ)).toNat = s.val
      rw [start0, window0, hi]
      omega
    | ⟨1, _⟩ =>
      refine Fin.ext ?_
      show (D.start (ix2 r c) idx 1 + (D.window (ix2 r c) 1 : ℤ)).toNat = 0
      rw [start1, window1]
      rfl

/-- The scatter indices at row `r` are the row's segment number. -/
theorem v1_apply (bt : (⟨S6400000, .i32⟩ : BufTy).Contents (Elt Ideal)) (r : Fin 6400000) :
    Read.val_main_v1 (F := Ideal) bt (ix2 r 0) = bt (ix1 r) := by
  rw [Read.val_main_v1_apply]
  refine congrArg bt ?_
  funext a
  match a with
  | ⟨0, _⟩ => exact Fin.ext rfl

/-- The operand scattered into is zero everywhere. -/
theorem v0_eq : Read.val_main_v0 (F := Ideal) = fun _ => (0 : EReal) := by
  funext j
  rw [Read.val_main_v0_apply, Read.val_main_cst_apply]
  exact Ideal.ofBits_zero_f32

/-- A scatter with an `add` body into zeros, at entry `(s, 0)`, when the scatter indices at row `r` hold a number
    `b r` in 0 … 4095: the sum of the rows with `b r = s`. -/
theorem scatter_sum (x : S6400000x1.Idx → EReal) (idx : IVec S6400000x1 32) (b : Fin 6400000 → BitVec 32)
    (hidx : ∀ r, idx (ix2 r 0) = b r) (hb : ∀ r, (b r).toNat ≤ 4095) (s : Fin 4096) :
    Ideal.hostScatterAdd D (fun _ => (0 : EReal)) idx x (ix2 s 0)
      = ∑ r : Fin 6400000, if (b r).toNat = s.val then x (ix2 r 0) else 0 := by
  unfold Ideal.hostScatterAdd
  rw [zero_add, Finset.sum_filter, sum_idx2]
  refine Finset.sum_congr rfl fun r _ => ?_
  rw [Fin.sum_univ_one]
  have hiff := resultIdx_iff idx r 0 s (by rw [hidx]; exact hb r)
  rw [hidx] at hiff
  by_cases hc : (b r).toNat = s.val
  · rw [if_pos hc, if_pos (hiff.mpr hc)]
  · rw [if_neg hc, if_neg (fun h => hc (hiff.mp h))]

/-- At the ideal values the host's scatter with an `add` body is the exact one. -/
theorem scatter_def (v0 : FVec Ideal S4096x1 .f32) (v1 : IVec S6400000x1 32) (x : FVec Ideal S6400000x1 .f32) :
    Host.scatterAdd D v0 v1 x = Ideal.hostScatterAdd D v0 v1 x :=
  Ideal.hostScatterAdd_def D HostSchedule.single v0 v1 x

/-- The scatter at entry `(s, 0)`: the sum of the rows of segment `s`. -/
theorem scatter_apply (x : (⟨S6400000x1, .f32⟩ : BufTy).Contents (Elt Ideal)) (bt : (⟨S6400000, .i32⟩ : BufTy).Contents (Elt Ideal))
    (hb : ∀ r, (bt r).toNat ≤ 4095) (s : Fin 4096) :
    Read.val_main_v2 (F := Ideal) x bt (ix2 s 0)
      = ∑ r : Fin 6400000, if (bt (ix1 r)).toNat = s.val then x (ix2 r 0) else 0 := by
  have h2 : Read.val_main_v2 (F := Ideal) x bt
      = Host.scatterAdd (F := Ideal) (φ := .f32) D (Read.val_main_v0 (F := Ideal)) (Read.val_main_v1 (F := Ideal) bt) x := rfl
  rw [h2, v0_eq, scatter_def]
  exact scatter_sum x (Read.val_main_v1 (F := Ideal) bt) (fun r => bt (ix1 r)) (v1_apply bt) (fun r => hb _) s

/-- The reference's result is the segment sum of the rows. -/
theorem ref_eq (x : (⟨S6400000x1, .f32⟩ : BufTy).Contents (Elt Ideal)) (bt : (⟨S6400000, .i32⟩ : BufTy).Contents (Elt Ideal))
    (hb : ∀ r, (bt r).toNat ≤ 4095) :
    Read.val_main_v5 (F := Ideal) x bt = Cert.Proof.KI.segSum (fun r => x (ix2 (r 0) 0)) bt := by
  funext s'
  obtain ⟨s, rfl⟩ : ∃ s : Fin 4096, s' = ix1 s := ⟨s' 0, eq_ix1 s'⟩
  have hj : Read.idx_main_v5 (ix1 s) = ix2 s 0 :=
    funext fun a => match a with
      | ⟨0, _⟩ => Fin.ext (Nat.div_one _)
      | ⟨1, _⟩ => rfl
  rw [Read.val_main_v5_apply, Read.val_main_v4_apply, Read.val_main_v3_apply, Read.val_main_cst_0_apply, hj,
    scatter_apply x bt hb s]
  show (∑ r : Fin 6400000, if (bt (ix1 r)).toNat = s.val then x (ix2 r 0) else 0) * Ideal.ofBits .f32 0x3F800000#32 = _
  rw [ofBits_one, mul_one]
  rfl

/-- The reference runs and leaves its arguments unchanged. -/
theorem frame_ri [Cert.Pre_input_domain.Facts] : Cert.frame_ReferenceIdeal :=
  fun m ρ _ => (θ_run Cert.ReferenceIdeal.defs _ _).mono (fun _ h c => (h c).2)
    (Cert.ReferenceIdeal.Value.run (F := Ideal) m ρ)

end Cert.Proof.Ref

end
-- ==== Proof.LibIndexRanges.lean ====
/- Index ranges out of a printed precondition, and through host layout operations — nothing here names a program.

   A precondition that bounds an integer input array is printed as `all((lo ≤ a) & (a ≤ hi))`: two signed comparisons of
   the array against broadcast constants, their elementwise `and`, and a reduction by `and` from 1 over every axis. From the
   reduction's value being 1 the lemmas below give the bounds at every index, as signed values and as unsigned ones.
   A predicate that holds of every entry of an array still holds of every entry after the host's layout operations — a
   reshape, a transposition, a padding with a value that satisfies it, a broadcast of an array of one repeated value.
   Last, the closed form of an index list a program builds as iota → broadcast along a new axis → reshape → pad: entry
   `p` is `p / k` below the original length and the padding value after it. -/
import Idealize.ShloMosaic.Lib.ReduceAll
import Idealize.ShloMosaic.Lib.ValueIdx
import Idealize.ShloMosaic.Lib.IdealHost
import Idealize.ShloMosaic.Lib.Pipeline.Value
import Idealize.ShloMosaic.Lib.KernelVsHost

noncomputable section

namespace Cert.Lib

open Idealize.ShloMosaic Idealize.ShloMosaic.ValueIdx

/-! ## Words -/

/-- The rank-zero shape has one index (what `Host.reduce_andi_all` asks of a reduction over every axis). -/
instance subsingleton_scalar_idx : Subsingleton (⟨0, ![]⟩ : Shape).Idx := ⟨fun a b => funext fun d => d.elim0⟩

/-- A word between 0 and `n` read signed is at most `n` read unsigned. -/
theorem toNat_le_of_toInt (x : BitVec 32) (n : Nat) (h0 : 0 ≤ x.toInt) (h1 : x.toInt ≤ (n : Int)) : x.toNat ≤ n := by
  have := x.isLt
  unfold BitVec.toInt at h0 h1
  split at h0 <;> omega

/-- A word at least 0 read signed is its unsigned value. -/
theorem toInt_eq_toNat_of_nonneg (x : BitVec 32) (h0 : 0 ≤ x.toInt) : x.toInt = (x.toNat : Int) := by
  have := x.isLt
  unfold BitVec.toInt at h0 ⊢
  split at h0 <;> split <;> omega

/-! ## A predicate on every entry, through the layout operations -/

/-- A broadcast of an array whose every element is `c` reads `c` everywhere. -/
theorem bcast_const {s T : Shape} {α : Type} (dims : Fin s.rank → Fin T.rank) (h : s.BroadcastsInDim T dims)
    (x : s.Idx → α) (c : α) (hx : ∀ k, x k = c) (j : T.Idx) : broadcastInDim T dims h x j = c := by
  unfold broadcastInDim; exact hx _

/-- A broadcast only repeats entries: what holds of every entry of the operand holds of every entry of the result. -/
theorem bcast_forall {s T : Shape} {α : Type} (P : α → Prop) (dims : Fin s.rank → Fin T.rank) (h : s.BroadcastsInDim T dims)
    (x : s.Idx → α) (hx : ∀ k, P (x k)) (j : T.Idx) : P (broadcastInDim T dims h x j) := by
  unfold broadcastInDim; exact hx _

/-- A shape cast only moves entries. -/
theorem shapeCast_forall {s t : Shape} {α : Type} (P : α → Prop) (x : s.Idx → α) (h : s.ShapeCasts t)
    (hx : ∀ k, P (x k)) (j : t.Idx) : P (shapeCast t x h j) := by
  unfold shapeCast; exact hx _

/-- A transposition only moves entries. -/
theorem transpose_forall {s t : Shape} {α : Type} (P : α → Prop) (perm : List (Fin s.rank)) (x : s.Idx → α)
    (h : s.Transposes perm t) (hx : ∀ k, P (x k)) (j : t.Idx) : P (transpose t perm x h j) := by
  unfold transpose; exact hx _

/-- Every entry of a padded array is an entry of the operand or the padding value. -/
theorem pad_forall {s t u : Shape} {α : Type} (P : α → Prop) (lo hi interior : Fin s.rank → Nat) (x : s.Idx → α)
    (v : u.Idx → α) (h : s.Pads lo hi interior t) (hu : 0 < u.numel) (hx : ∀ k, P (x k))
    (hv : P (v (Shape.Idx.first hu))) (j : t.Idx) : P (pad t lo hi interior x v h hu j) := by
  unfold pad
  split
  · exact hx _
  · exact hv

/-! ## The precondition's `all`, read back -/

/-- A conjunction of two one-bit arrays is 1 at an index exactly when both are. -/
theorem andi_at {s : Shape} (X Y : IVec s 1) (i : s.Idx) : andi X Y i = 1#1 ↔ X i = 1#1 ∧ Y i = 1#1 :=
  IntOp.andi_eq_one

/-- A reduction by `and` over every axis that is 1 had a 1 at every index of its operand. -/
theorem all_one {s : Shape} {axes : List (Fin s.rank)} (x : IVec s 1) (init : IVec ⟨0, ![]⟩ 1)
    (red : s.ReducesTo axes ⟨0, ![]⟩) (hu : 0 < (⟨0, ![]⟩ : Shape).numel)
    (h : Host.reduce IntOp.andi x init red hu ix0 = 1#1) (i : s.Idx) : x i = 1#1 :=
  Host.reduce_andi_all x init red hu ix0 h i

/-- `all((lo ≤ a) & (a ≤ hi))` being 1 gives the range, read signed, at every index. -/
theorem range_of_all {s : Shape} {axes : List (Fin s.rank)} (a : IVec s 32) (lo hi : BitVec 32)
    (hb : (⟨0, ![]⟩ : Shape).BroadcastsInDim s ![]) (red : s.ReducesTo axes ⟨0, ![]⟩) (hu : 0 < (⟨0, ![]⟩ : Shape).numel)
    (h : Host.reduce IntOp.andi
        (andi (cmpi .sge a (broadcastInDim s ![] hb (constantI ⟨0, ![]⟩ 32 lo)))
          (cmpi .sle a (broadcastInDim s ![] hb (constantI ⟨0, ![]⟩ 32 hi))))
        (constantI ⟨0, ![]⟩ 1 1#1) red hu ix0 = 1#1) (i : s.Idx) :
    lo.toInt ≤ (a i).toInt ∧ (a i).toInt ≤ hi.toInt := by
  have e := Host.reduce_andi_all _ _ red hu ix0 h i
  change IntOp.andi (IntOp.cmpi .sge (a i) (broadcastInDim s ![] hb (constantI ⟨0, ![]⟩ 32 lo) i))
      (IntOp.cmpi .sle (a i) (broadcastInDim s ![] hb (constantI ⟨0, ![]⟩ 32 hi) i)) = 1#1 at e
  rw [bcast_const _ hb (constantI ⟨0, ![]⟩ 32 lo) lo (fun _ => rfl), bcast_const _ hb (constantI ⟨0, ![]⟩ 32 hi) hi (fun _ => rfl),
    IntOp.andi_eq_one, IntOp.cmpi_sge, IntOp.cmpi_sle] at e
  exact e

/-- The same for a range `[0, c]` with `c` a literal below `2 ^ 31`, as an unsigned bound. -/
theorem toNat_le_of_all {s : Shape} {axes : List (Fin s.rank)} (a : IVec s 32) (c : Nat) (hc : c < 2 ^ 31)
    (hb : (⟨0, ![]⟩ : Shape).BroadcastsInDim s ![]) (red : s.ReducesTo axes ⟨0, ![]⟩) (hu : 0 < (⟨0, ![]⟩ : Shape).numel)
    (h : Host.reduce IntOp.andi
        (andi (cmpi .sge a (broadcastInDim s ![] hb (constantI ⟨0, ![]⟩ 32 0#32)))
          (cmpi .sle a (broadcastInDim s ![] hb (constantI ⟨0, ![]⟩ 32 (BitVec.ofNat 32 c)))))
        (constantI ⟨0, ![]⟩ 1 1#1) red hu ix0 = 1#1) (i : s.Idx) :
    (a i).toNat ≤ c := by
  obtain ⟨h0, h1⟩ := range_of_all a 0#32 (BitVec.ofNat 32 c) hb red hu h i
  have z : (0#32 : BitVec 32).toInt = 0 := by decide
  have hcI : (BitVec.ofNat 32 c).toInt = (c : Int) := by
    rw [BitVec.toInt_eq_toNat_of_lt (by rw [BitVec.toNat_ofNat]; omega), BitVec.toNat_ofNat]
    omega
  rw [z] at h0; rw [hcI] at h1
  exact toNat_le_of_toInt _ c h0 h1

/-! ## An index list built as iota → broadcast along a new axis → reshape → pad -/

/-- Entry `p` of the list `[0, 0, …, 0, 1, 1, …]` (each of `n` numbers `k` times over) padded with `c` to `N` entries:
    `p / k` below `n k`, `c` from there on. -/
theorem iota_rep_pad_toNat {n k N : Nat} (hk : 0 < k) (hn : n * k < 2 ^ 32) (c : BitVec 32)
    (hb : (⟨1, ![n]⟩ : Shape).BroadcastsInDim ⟨2, ![n, k]⟩ ![0])
    (hc : (⟨2, ![n, k]⟩ : Shape).ShapeCasts ⟨1, ![n * k]⟩)
    (hp : (⟨1, ![n * k]⟩ : Shape).Pads (![0] : Fin 1 → Nat) ![N - n * k] ![0] ⟨1, ![N]⟩)
    (hu : 0 < (⟨0, ![]⟩ : Shape).numel) (hn1 : n ≠ 1) (p : Fin N) :
    (pad ⟨1, ![N]⟩ ![0] ![N - n * k] ![0]
        (shapeCast ⟨1, ![n * k]⟩ (broadcastInDim ⟨2, ![n, k]⟩ ![0] hb (iotaInDim ⟨1, ![n]⟩ 32 0)) hc)
        (constantI ⟨0, ![]⟩ 32 c) hp hu (ix1 p)).toNat
      = if p.val < n * k then p.val / k else c.toNat := by
  by_cases hlt : p.val < n * k
  · rw [if_pos hlt]
    have hq : p.val / k < n := Nat.div_lt_of_lt_mul (by rwa [Nat.mul_comm] at hlt)
    rw [pad_apply_of_inside _ _ _ _ _ hp hu (ix1 p) (ix1 ⟨p.val, hlt⟩) (by
      intro a
      obtain rfl : a = 0 := Subsingleton.elim _ _
      show p.val = 0 + p.val * (0 + 1)
      omega)]
    rw [shapeCast_apply _ hc (ix1 ⟨p.val, hlt⟩) (ix2 ⟨p.val / k, hq⟩ ⟨p.val % k, Nat.mod_lt _ hk⟩) (by
      rw [Shape.rowMajor_val_two, Shape.rowMajor_val_one]
      show (p.val / k) * k + p.val % k = p.val
      exact Nat.div_add_mod' _ _)]
    rw [broadcastInDim_apply _ hb _ (ix2 ⟨p.val / k, hq⟩ ⟨p.val % k, Nat.mod_lt _ hk⟩) (ix1 ⟨p.val / k, hq⟩) (by
      intro a
      obtain rfl : a = 0 := Subsingleton.elim _ _
      show p.val / k = if n = 1 then 0 else p.val / k
      rw [if_neg hn1])]
    rw [iotaInDim_apply]
    show (BitVec.ofNat 32 (p.val / k)).toNat = _
    rw [BitVec.toNat_ofNat]
    have : p.val / k ≤ p.val := Nat.div_le_self _ _
    exact Nat.mod_eq_of_lt (by omega)
  · rw [if_neg hlt]
    rw [pad_apply_of_not_inside _ _ _ _ _ hp hu (ix1 p) 0 (by
      show ¬(0 ≤ p.val ∧ (p.val - 0) % (0 + 1) = 0 ∧ (p.val - 0) / (0 + 1) < n * k)
      omega)]
    rfl

end Cert.Lib

end
-- ==== Proof.PreRange.lean ====
/-
  What the precondition gives: every segment number is at most 4095, read unsigned.

  The precondition is the conjunction of two "all" reductions; the second is over the mask
  `(0 ≤ batch) & (batch ≤ 4095)`, compared signed. Its being 1 bounds every entry.
-/
import proofs.«203046_g35227321762133_cont_8to1_b_835_12_alg».proof.Pre_input_domain
import proofs.«203046_g35227321762133_cont_8to1_b_835_12_alg».proof.Proof.Gen.Pre_input_domain
import proofs.«203046_g35227321762133_cont_8to1_b_835_12_alg».proof.Proof.LibIndexRanges
import Idealize.ShloMosaic.Lib.ReduceAll

noncomputable section

namespace Cert.Proof.Pre

open Idealize.ShloMosaic Idealize.ShloMosaic.ValueIdx Cert.Pre_input_domain

/-- Under the precondition every segment number lies in 0 … 4095. -/
theorem batch_le {F : FTy → Type} [FloatOps F] [Cert.Pre_input_domain.Facts] (x : FVec F S6400000x1 .f32)
    (bt : IVec S6400000 32) (h : Cert.Pre_input_domain.fn (F := F) x bt = fun _ => 1#1) :
    ∀ r, (bt r).toNat ≤ 4095 := by
  intro r
  have h0 : andi _ _ ix0 = 1#1 := congrFun h ix0
  have h9 := ((Cert.Lib.andi_at _ _ ix0).mp h0).2
  exact Cert.Lib.toNat_le_of_all bt 4095 (by norm_num) Facts.bcast_S_S6400000 Facts.reducesTo_S6400000_S_d0
    Facts.h_S_ h9 r

end Cert.Proof.Pre

end
-- ==== Proof.AlgValue.lean ====
/-
  The two programs' results meet: under the precondition the kernel program's result array and the reference's
  result term are both the segment sum of the rows of `x`'s one column.
-/
import proofs.«203046_g35227321762133_cont_8to1_b_835_12_alg».proof.Proof.Common
import proofs.«203046_g35227321762133_cont_8to1_b_835_12_alg».proof.Proof.SegValue
import proofs.«203046_g35227321762133_cont_8to1_b_835_12_alg».proof.Proof.RefValue
import proofs.«203046_g35227321762133_cont_8to1_b_835_12_alg».proof.Proof.PreRange
import Idealize.ShloMosaic.Lib.Pipeline.Value
import Mathlib.Tactic

noncomputable section

namespace Cert.Proof.KI

open Idealize.ShloMosaic Idealize.ShloMosaic.ValueIdx Idealize.SL.Sem
open Cert.KernelIdeal Cert.KernelIdeal.Gen Cert.Proof.Seg

variable {F : FTy → Type} [FloatOps F] [Cert.KernelIdeal.Facts]

/-- The flat rows are `x`'s one column. -/
theorem xf_apply (m : (ℓ : Loc nD τ sig) → Buf (Elt F) ℓ) (d : Dev nD) (r : S6400000.Idx) :
    xf m d r = m (a0Loc d) (ix2 (r 0) 0) := by
  unfold xf
  refine shapeCast_apply _ _ r (ix2 (r 0) 0) ?_
  rw [Shape.rowMajor_val_two, Shape.rowMajor_val_one]
  show (r 0).val * 1 + 0 = (r 0).val
  omega

/-- The precondition bounds every segment number, on every device. -/
theorem preOK_of_pre [Cert.Pre_input_domain.Facts] (m : (ℓ : Loc nD τ sig) → Buf (Elt F) ℓ)
    (h : ∀ c : Dev nD, Cert.Pre_input_domain.fn (F := F) (m ((c.tc : Thread nD τ).loc main_arg0))
      (m ((c.tc : Thread nD τ).loc main_arg1)) = fun _ => 1#1) : PreOK m :=
  fun d r => Cert.Proof.Pre.batch_le _ _ (h d) r

/-- The kernel program's result array is the segment sum of the column. -/
theorem outBuf_eq (m : (ℓ : Loc nD τ sig) → Buf (Elt Ideal) ℓ) (c : Dev nD) (hpre : PreOK m) :
    outBuf m c = segSum (fun r => m (a0Loc c) (ix2 (r 0) 0)) (bt m c) := by
  have h1 : outBuf m c = resultOf (F := Ideal) (xf m c) (bt m c) := rfl
  have h2 : xf m c = fun r => m (a0Loc c) (ix2 (r 0) 0) := funext (xf_apply m c)
  rw [h1, resultOf_eq (xf m c) (bt m c) (hpre c), h2]
  rfl

end Cert.Proof.KI

namespace Cert.Proof.Ref

open Idealize.ShloMosaic Idealize.ShloMosaic.ValueIdx Idealize.SL.Sem
open Cert.ReferenceIdeal Cert.ReferenceIdeal.Gen

variable [Cert.KernelIdeal.Facts] [Cert.ReferenceIdeal.Facts]

/-- From memories agreeing on the arguments, the reference's result (as its stages compose it) is the kernel program's
    result array. -/
theorem val_eq_out (m : (ℓ : Loc Cert.KernelIdeal.nD Cert.KernelIdeal.τ Cert.KernelIdeal.sig) → Buf (Elt Ideal) ℓ)
    (m' : (ℓ : Loc nD τ sig) → Buf (Elt Ideal) ℓ) (c : Dev Cert.KernelIdeal.nD) (hpre : Cert.Proof.KI.PreOK m)
    (h0 : m' ((c.tc : Thread nD τ).loc main_arg0)
      = m ((c.tc : Thread Cert.KernelIdeal.nD Cert.KernelIdeal.τ).loc Cert.KernelIdeal.main_arg0))
    (h1 : m' ((c.tc : Thread nD τ).loc main_arg1)
      = m ((c.tc : Thread Cert.KernelIdeal.nD Cert.KernelIdeal.τ).loc Cert.KernelIdeal.main_arg1)) :
    Read.val_main_v5 (F := Ideal) (m' ((c.tc : Thread nD τ).loc main_arg0)) (m' ((c.tc : Thread nD τ).loc main_arg1))
      = Cert.Proof.KI.outBuf m c := by
  rw [h0, h1, Cert.Proof.KI.outBuf_eq m c hpre]
  exact ref_eq _ _ (hpre c)

/-- The same with the reference's result spelt as its run states it. -/
theorem out_eq_ref (m : (ℓ : Loc Cert.KernelIdeal.nD Cert.KernelIdeal.τ Cert.KernelIdeal.sig) → Buf (Elt Ideal) ℓ)
    (m' : (ℓ : Loc nD τ sig) → Buf (Elt Ideal) ℓ) (c : Dev Cert.KernelIdeal.nD) (hpre : Cert.Proof.KI.PreOK m)
    (h0 : m' ((c.tc : Thread nD τ).loc main_arg0)
      = m ((c.tc : Thread Cert.KernelIdeal.nD Cert.KernelIdeal.τ).loc Cert.KernelIdeal.main_arg0))
    (h1 : m' ((c.tc : Thread nD τ).loc main_arg1)
      = m ((c.tc : Thread Cert.KernelIdeal.nD Cert.KernelIdeal.τ).loc Cert.KernelIdeal.main_arg1)) :
    shapeCast _ (mulf (F := Ideal) (Host.scatterAdd (F := Ideal) scatter_S4096x1_S6400000x1_S6400000x1_1_0_0_1
        (broadcastInDim S4096x1 ![] bcast_S_S4096x1 (constant (F := Ideal) S_ .f32 0x00000000#32))
        (broadcastInDim S6400000x1 ![0] bcast_S6400000_S6400000x1_0 (m' ((c.tc : Thread nD τ).loc main_arg1)))
        (m' ((c.tc : Thread nD τ).loc main_arg0)))
        (broadcastInDim S4096x1 ![] bcast_S_S4096x1 (constant (F := Ideal) S_ .f32 0x3F800000#32))) shapeCasts_S4096x1_S4096
      = Cert.Proof.KI.outBuf m c :=
  (Read.val_main_v5_eq (F := Ideal) _ _).trans (val_eq_out m m' c hpre h0 h1)

end Cert.Proof.Ref

end
-- ==== Proof.Claims.lean ====
/-
  The five conjuncts. The word-level kernel program and its idealization each run to the end with the two arguments
  unchanged (their runs, with the result's value dropped); the reference does (its run, likewise); the idealization
  rewrote nothing; and at the extended reals the idealized kernel program's result — the fold over the 32 tiles and 16
  lanes of the tiles' finished accumulators — and the reference's — the scatter-add of the rows into 4096 zeros, times
  one — are both the sum of the rows of each segment, so equal entry by entry (addition of extended reals is
  commutative and associative: only the order and grouping of the sums differ).
-/
import proofs.«203046_g35227321762133_cont_8to1_b_835_12_alg».proof.Defs
import proofs.«203046_g35227321762133_cont_8to1_b_835_12_alg».proof.Proof.Run
import proofs.«203046_g35227321762133_cont_8to1_b_835_12_alg».proof.Proof.FoldStep
import proofs.«203046_g35227321762133_cont_8to1_b_835_12_alg».proof.Proof.Bits.Run
import proofs.«203046_g35227321762133_cont_8to1_b_835_12_alg».proof.Proof.Bits.FoldStep
import proofs.«203046_g35227321762133_cont_8to1_b_835_12_alg».proof.Proof.AlgValue
import proofs.«203046_g35227321762133_cont_8to1_b_835_12_alg».proof.Proof.Gen.Kernel
import proofs.«203046_g35227321762133_cont_8to1_b_835_12_alg».proof.Proof.Gen.KernelIdeal
import proofs.«203046_g35227321762133_cont_8to1_b_835_12_alg».proof.Proof.Gen.ReferenceIdeal
import proofs.«203046_g35227321762133_cont_8to1_b_835_12_alg».proof.Proof.Gen.Pre_input_domain

noncomputable section

namespace Cert.Proof.Claims

open Idealize.ShloMosaic Idealize.SL.Sem

/-- The word-level program: its run with the result dropped. The precondition's range of the segment numbers is what
    keeps every tile's positions inside its accumulator. -/
theorem frame_k : @Cert.frame_Kernel Cert.Kernel.Gen.facts Cert.Pre_input_domain.Gen.facts := fun m ρ hpre =>
  (θ_run (Cert.Kernel.defs (F := Bits)) _ _).mono (fun _ h c => (h c).2)
    (Cert.Proof.KB.run_main (F := Bits) m ρ
      (fun d r => Cert.Proof.Pre.batch_le _ _ (hpre d) r) (fun d => Cert.Proof.KB.foldStep d))

/-- The idealized program: the same. -/
theorem frame_ki : @Cert.frame_KernelIdeal Cert.KernelIdeal.Gen.facts Cert.Pre_input_domain.Gen.facts := fun m ρ hpre =>
  (θ_run (Cert.KernelIdeal.defs (F := Ideal)) _ _).mono (fun _ h c => (h c).2)
    (Cert.Proof.KI.run_main (F := Ideal) m ρ
      (Cert.Proof.KI.preOK_of_pre m hpre) (fun d => Cert.Proof.KI.foldStep d))

/-- The reference: its run with the result dropped. -/
theorem frame_ri : @Cert.frame_ReferenceIdeal Cert.ReferenceIdeal.Gen.facts Cert.Pre_input_domain.Gen.facts :=
  Cert.Proof.Ref.frame_ri

/-- Both idealized programs end at the segment sums of the rows. -/
theorem alg : @Cert.algebraic_KernelIdeal_ReferenceIdeal Cert.KernelIdeal.Gen.facts Cert.ReferenceIdeal.Gen.facts Cert.Pre_input_domain.Gen.facts := by
  intro m ρ m' ρ' hpre hag
  have hok : Cert.Proof.KI.PreOK m := Cert.Proof.KI.preOK_of_pre m hpre
  refine ⟨fun c => Cert.Proof.KI.outBuf m c, ?_, ?_⟩
  · exact Cert.Proof.KI.run_main (F := Ideal) m ρ hok (fun d => Cert.Proof.KI.foldStep d)
  · exact (θ_run Cert.ReferenceIdeal.defs _ _).mono
      (fun _ h c => ⟨(h c).1.trans (Cert.Proof.Ref.out_eq_ref m m' c hok (hag c).1 (hag c).2), (h c).2⟩)
      (Cert.ReferenceIdeal.Value.run (F := Ideal) m' ρ')

end Cert.Proof.Claims

end
-- ==== Proof.lean ====
/-
  The certificate of the segment sum: rows `x` (6 400 000 of them, one column) are summed by their segment numbers
  `batch` (each between 0 and 4095) into 4096 entries. The kernel program reshapes the rows flat, has 32 tiles of the
  SparseCores each add their 200 000 rows, sixteen lanes at a time, into an accumulator of 4096 * 16 positions (segment
  major, lane minor; fetched in chunks of 10 000 rows through two pairs of buffers), and folds the 32 accumulators over
  tiles and lanes on the TensorCore; the reference scatter-adds the rows into zeros. The claim's five conjuncts are in
  Proof/Claims.lean; the witnesses of the programs' stated side conditions are the generated instances.
-/
import proofs.«203046_g35227321762133_cont_8to1_b_835_12_alg».proof.Defs
import proofs.«203046_g35227321762133_cont_8to1_b_835_12_alg».proof.Proof.Claims

noncomputable section

namespace Cert.Proof

theorem claim : Cert.Claim :=
  ⟨Cert.Kernel.Gen.facts, Cert.KernelIdeal.Gen.facts, Cert.ReferenceIdeal.Gen.facts, Cert.Pre_input_domain.Gen.facts,
    Claims.frame_k, Claims.frame_ki, Claims.frame_ri, trivial, Claims.alg⟩

end Cert.Proof

end
